-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v319) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x768x768 : Shape := ⟨4, ![32, 1, 768, 768]⟩
abbrev S_ : Shape := ⟨0, ![]⟩

class Facts : Prop where
  bcast_S_S32x1x768x768 : S_.BroadcastsInDim S32x1x768x768 (![] : Fin 0 → Fin S32x1x768x768.rank)
  reducesTo_S32x1x768x768_S_d0_1_2_3 : S32x1x768x768.ReducesTo [0, 1, 2, 3] S_
  h_S_ : 0 < S_.numel

variable [Facts]

def fn {F : FTy → Type} [FloatOps F] (main_arg0 : FVec F S32x1x768x768 .f32) (main_arg1 : FVec F S32x1x768x768 .f32) : IVec S_ 1 :=
  let main_v0 : FVec F S32x1x768x768 .f32 := Host.absf main_arg0
  let main_cst : FVec F S_ .f32 := constant S_ .f32 0x7F800000#32
  let main_v1 : FVec F S32x1x768x768 .f32 := broadcastInDim S32x1x768x768 ![] bcast_S_S32x1x768x768 main_cst
  let main_v2 : IVec S32x1x768x768 1 := cmpf .olt main_v0 main_v1
  let main_c : IVec S_ 1 := constantI S_ 1 1#1
  let main_v3 : IVec S_ 1 := (fun x v => Host.reduce IntOp.andi x v reducesTo_S32x1x768x768_S_d0_1_2_3 h_S_) main_v2 main_c
  let main_v4 : FVec F S32x1x768x768 .f32 := Host.absf main_arg1
  let main_cst_0 : FVec F S_ .f32 := constant S_ .f32 0x7F800000#32
  let main_v5 : FVec F S32x1x768x768 .f32 := broadcastInDim S32x1x768x768 ![] bcast_S_S32x1x768x768 main_cst_0
  let main_v6 : IVec S32x1x768x768 1 := cmpf .olt main_v4 main_v5
  let main_c_1 : IVec S_ 1 := constantI S_ 1 1#1
  let main_v7 : IVec S_ 1 := (fun x v => Host.reduce IntOp.andi x v reducesTo_S32x1x768x768_S_d0_1_2_3 h_S_) main_v6 main_c_1
  let main_v8 : IVec S_ 1 := andi main_v3 main_v7
  main_v8
-- ==== Kernel.lean ====
abbrev S32x1x768x768 : Shape := ⟨4, ![32, 1, 768, 768]⟩
abbrev S32x768x768 : Shape := ⟨3, ![32, 768, 768]⟩
abbrev S_ : Shape := ⟨0, ![]⟩
abbrev S768x768 : Shape := ⟨2, ![768, 768]⟩
abbrev S1 : Shape := ⟨1, ![1]⟩
abbrev S2 : Shape := ⟨1, ![2]⟩
abbrev S766x766 : Shape := ⟨2, ![766, 766]⟩
abbrev S766x767 : Shape := ⟨2, ![766, 767]⟩
abbrev S766x768 : Shape := ⟨2, ![766, 768]⟩
abbrev S767x766 : Shape := ⟨2, ![767, 766]⟩
abbrev S767x767 : Shape := ⟨2, ![767, 767]⟩
abbrev S767x768 : Shape := ⟨2, ![767, 768]⟩
abbrev S768x766 : Shape := ⟨2, ![768, 766]⟩
abbrev S768x767 : Shape := ⟨2, ![768, 767]⟩
abbrev S1x768x768 : Shape := ⟨3, ![1, 768, 768]⟩
abbrev S2x766 : Shape := ⟨2, ![2, 766]⟩
abbrev S768x2 : Shape := ⟨2, ![768, 2]⟩
abbrev S2x767 : Shape := ⟨2, ![2, 767]⟩
abbrev S768x1 : Shape := ⟨2, ![768, 1]⟩
abbrev S2x768 : Shape := ⟨2, ![2, 768]⟩
abbrev S1x766 : Shape := ⟨2, ![1, 766]⟩
abbrev S1x767 : Shape := ⟨2, ![1, 767]⟩
abbrev S1x768 : Shape := ⟨2, ![1, 768]⟩
abbrev S768 : Shape := ⟨1, ![768]⟩
abbrev S1x1 : Shape := ⟨2, ![1, 1]⟩

abbrev nBuf : Space → Nat
  | .hbm => 176
  | .vmem => 7
  | .smem => 0
  | _ => 0

abbrev hbmTy0_0 (i : Nat) : BufTy := match i % 128 with
  | 0 => ⟨S32x1x768x768, .f32⟩
  | 1 => ⟨S32x1x768x768, .f32⟩
  | 2 => ⟨S32x768x768, .f32⟩
  | 3 => ⟨S32x768x768, .f32⟩
  | 4 => ⟨S_, .f32⟩
  | 5 => ⟨S768x768, .f32⟩
  | 6 => ⟨S_, .i32⟩
  | 7 => ⟨S1, .i32⟩
  | 8 => ⟨S_, .i32⟩
  | 9 => ⟨S1, .i32⟩
  | 10 => ⟨S2, .i32⟩
  | 11 => ⟨S_, .f32⟩
  | 12 => ⟨S766x766, .f32⟩
  | 13 => ⟨S768x768, .f32⟩
  | 14 => ⟨S_, .i32⟩
  | 15 => ⟨S1, .i32⟩
  | 16 => ⟨S_, .i32⟩
  | 17 => ⟨S1, .i32⟩
  | 18 => ⟨S2, .i32⟩
  | 19 => ⟨S_, .f32⟩
  | 20 => ⟨S766x767, .f32⟩
  | 21 => ⟨S768x768, .f32⟩
  | 22 => ⟨S_, .i32⟩
  | 23 => ⟨S1, .i32⟩
  | 24 => ⟨S_, .f32⟩
  | 25 => ⟨S766x768, .f32⟩
  | 26 => ⟨S768x768, .f32⟩
  | 27 => ⟨S_, .i32⟩
  | 28 => ⟨S1, .i32⟩
  | 29 => ⟨S_, .i32⟩
  | 30 => ⟨S1, .i32⟩
  | 31 => ⟨S2, .i32⟩
  | 32 => ⟨S_, .f32⟩
  | 33 => ⟨S766x767, .f32⟩
  | 34 => ⟨S768x768, .f32⟩
  | 35 => ⟨S_, .i32⟩
  | 36 => ⟨S1, .i32⟩
  | 37 => ⟨S_, .i32⟩
  | 38 => ⟨S1, .i32⟩
  | 39 => ⟨S2, .i32⟩
  | 40 => ⟨S_, .f32⟩
  | 41 => ⟨S766x766, .f32⟩
  | 42 => ⟨S768x768, .f32⟩
  | 43 => ⟨S_, .i32⟩
  | 44 => ⟨S1, .i32⟩
  | 45 => ⟨S_, .i32⟩
  | 46 => ⟨S1, .i32⟩
  | 47 => ⟨S2, .i32⟩
  | 48 => ⟨S_, .f32⟩
  | 49 => ⟨S767x766, .f32⟩
  | 50 => ⟨S768x768, .f32⟩
  | 51 => ⟨S_, .i32⟩
  | 52 => ⟨S1, .i32⟩
  | 53 => ⟨S_, .i32⟩
  | 54 => ⟨S1, .i32⟩
  | 55 => ⟨S2, .i32⟩
  | 56 => ⟨S_, .f32⟩
  | 57 => ⟨S767x767, .f32⟩
  | 58 => ⟨S768x768, .f32⟩
  | 59 => ⟨S_, .i32⟩
  | 60 => ⟨S1, .i32⟩
  | 61 => ⟨S_, .f32⟩
  | 62 => ⟨S767x768, .f32⟩
  | 63 => ⟨S768x768, .f32⟩
  | 64 => ⟨S_, .i32⟩
  | 65 => ⟨S1, .i32⟩
  | 66 => ⟨S_, .i32⟩
  | 67 => ⟨S1, .i32⟩
  | 68 => ⟨S2, .i32⟩
  | 69 => ⟨S_, .f32⟩
  | 70 => ⟨S767x767, .f32⟩
  | 71 => ⟨S768x768, .f32⟩
  | 72 => ⟨S_, .i32⟩
  | 73 => ⟨S1, .i32⟩
  | 74 => ⟨S_, .i32⟩
  | 75 => ⟨S1, .i32⟩
  | 76 => ⟨S2, .i32⟩
  | 77 => ⟨S_, .f32⟩
  | 78 => ⟨S767x766, .f32⟩
  | 79 => ⟨S768x768, .f32⟩
  | 80 => ⟨S_, .i32⟩
  | 81 => ⟨S1, .i32⟩
  | 82 => ⟨S_, .f32⟩
  | 83 => ⟨S768x766, .f32⟩
  | 84 => ⟨S768x768, .f32⟩
  | 85 => ⟨S_, .i32⟩
  | 86 => ⟨S1, .i32⟩
  | 87 => ⟨S_, .f32⟩
  | 88 => ⟨S768x767, .f32⟩
  | 89 => ⟨S768x768, .f32⟩
  | 90 => ⟨S_, .i32⟩
  | 91 => ⟨S1, .i32⟩
  | 92 => ⟨S_, .f32⟩
  | 93 => ⟨S768x767, .f32⟩
  | 94 => ⟨S768x768, .f32⟩
  | 95 => ⟨S_, .i32⟩
  | 96 => ⟨S1, .i32⟩
  | 97 => ⟨S_, .f32⟩
  | 98 => ⟨S768x766, .f32⟩
  | 99 => ⟨S768x768, .f32⟩
  | 100 => ⟨S_, .i32⟩
  | 101 => ⟨S1, .i32⟩
  | 102 => ⟨S_, .i32⟩
  | 103 => ⟨S1, .i32⟩
  | 104 => ⟨S2, .i32⟩
  | 105 => ⟨S_, .f32⟩
  | 106 => ⟨S767x766, .f32⟩
  | 107 => ⟨S768x768, .f32⟩
  | 108 => ⟨S_, .i32⟩
  | 109 => ⟨S1, .i32⟩
  | 110 => ⟨S_, .i32⟩
  | 111 => ⟨S1, .i32⟩
  | 112 => ⟨S2, .i32⟩
  | 113 => ⟨S_, .f32⟩
  | 114 => ⟨S767x767, .f32⟩
  | 115 => ⟨S768x768, .f32⟩
  | 116 => ⟨S_, .i32⟩
  | 117 => ⟨S1, .i32⟩
  | 118 => ⟨S_, .f32⟩
  | 119 => ⟨S767x768, .f32⟩
  | 120 => ⟨S768x768, .f32⟩
  | 121 => ⟨S_, .i32⟩
  | 122 => ⟨S1, .i32⟩
  | 123 => ⟨S_, .i32⟩
  | 124 => ⟨S1, .i32⟩
  | 125 => ⟨S2, .i32⟩
  | 126 => ⟨S_, .f32⟩
  | 127 => ⟨S767x767, .f32⟩
  | _ => ⟨S32x1x768x768, .f32⟩

abbrev hbmTy0_1 (i : Nat) : BufTy := match i % 128 with
  | 0 => ⟨S768x768, .f32⟩
  | 1 => ⟨S_, .i32⟩
  | 2 => ⟨S1, .i32⟩
  | 3 => ⟨S_, .i32⟩
  | 4 => ⟨S1, .i32⟩
  | 5 => ⟨S2, .i32⟩
  | 6 => ⟨S_, .f32⟩
  | 7 => ⟨S767x766, .f32⟩
  | 8 => ⟨S768x768, .f32⟩
  | 9 => ⟨S_, .i32⟩
  | 10 => ⟨S1, .i32⟩
  | 11 => ⟨S_, .i32⟩
  | 12 => ⟨S1, .i32⟩
  | 13 => ⟨S2, .i32⟩
  | 14 => ⟨S_, .f32⟩
  | 15 => ⟨S766x766, .f32⟩
  | 16 => ⟨S768x768, .f32⟩
  | 17 => ⟨S_, .i32⟩
  | 18 => ⟨S1, .i32⟩
  | 19 => ⟨S_, .i32⟩
  | 20 => ⟨S1, .i32⟩
  | 21 => ⟨S2, .i32⟩
  | 22 => ⟨S_, .f32⟩
  | 23 => ⟨S766x767, .f32⟩
  | 24 => ⟨S768x768, .f32⟩
  | 25 => ⟨S_, .i32⟩
  | 26 => ⟨S1, .i32⟩
  | 27 => ⟨S_, .f32⟩
  | 28 => ⟨S766x768, .f32⟩
  | 29 => ⟨S768x768, .f32⟩
  | 30 => ⟨S_, .i32⟩
  | 31 => ⟨S1, .i32⟩
  | 32 => ⟨S_, .i32⟩
  | 33 => ⟨S1, .i32⟩
  | 34 => ⟨S2, .i32⟩
  | 35 => ⟨S_, .f32⟩
  | 36 => ⟨S766x767, .f32⟩
  | 37 => ⟨S768x768, .f32⟩
  | 38 => ⟨S_, .i32⟩
  | 39 => ⟨S1, .i32⟩
  | 40 => ⟨S_, .i32⟩
  | 41 => ⟨S1, .i32⟩
  | 42 => ⟨S2, .i32⟩
  | 43 => ⟨S_, .f32⟩
  | 44 => ⟨S766x766, .f32⟩
  | 45 => ⟨S768x768, .f32⟩
  | 46 => ⟨S32x768x768, .f32⟩
  | 47 => ⟨S32x1x768x768, .f32⟩
  | _ => ⟨S32x1x768x768, .f32⟩

abbrev hbmTy (i : Nat) : BufTy := match i / 128 with
  | 0 => hbmTy0_0 i
  | 1 => hbmTy0_1 i
  | _ => ⟨S32x1x768x768, .f32⟩

abbrev bufTy : (tb : Table) → Fin (tcTables nBuf tb) → BufTy
  | .hbm, ⟨i, _⟩ => hbmTy i
  | .local _ .vmem, ⟨0, _⟩ => ⟨S1x768x768, .f32⟩
  | .local _ .vmem, ⟨1, _⟩ => ⟨S1x768x768, .f32⟩
  | .local _ .vmem, ⟨2, _⟩ => ⟨S1x768x768, .f32⟩
  | .local _ .vmem, ⟨3, _⟩ => ⟨S1x768x768, .f32⟩
  | .local _ .vmem, ⟨4, _⟩ => ⟨S768x768, .f32⟩
  | .local _ .vmem, ⟨5, _⟩ => ⟨S1x768x768, .f32⟩
  | .local _ .vmem, ⟨6, _⟩ => ⟨S1x768x768, .f32⟩
  | _, _ => ⟨S32x1x768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_c_3 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_v12 : Ref sig .tc := ⟨.hbm, 21, rfl⟩
abbrev main_c_5 : Ref sig .tc := ⟨.hbm, 22, rfl⟩
abbrev main_v13 : Ref sig .tc := ⟨.hbm, 23, rfl⟩
abbrev main_cst_6 : Ref sig .tc := ⟨.hbm, 24, rfl⟩
abbrev main_v14 : Ref sig .tc := ⟨.hbm, 25, rfl⟩
abbrev main_v15 : Ref sig .tc := ⟨.hbm, 26, rfl⟩
abbrev main_c_7 : Ref sig .tc := ⟨.hbm, 27, rfl⟩
abbrev main_v16 : Ref sig .tc := ⟨.hbm, 28, rfl⟩
abbrev main_c_8 : Ref sig .tc := ⟨.hbm, 29, rfl⟩
abbrev main_v17 : Ref sig .tc := ⟨.hbm, 30, rfl⟩
abbrev main_v18 : Ref sig .tc := ⟨.hbm, 31, rfl⟩
abbrev main_cst_9 : Ref sig .tc := ⟨.hbm, 32, rfl⟩
abbrev main_v19 : Ref sig .tc := ⟨.hbm, 33, rfl⟩
abbrev main_v20 : Ref sig .tc := ⟨.hbm, 34, rfl⟩
abbrev main_c_10 : Ref sig .tc := ⟨.hbm, 35, rfl⟩
abbrev main_v21 : Ref sig .tc := ⟨.hbm, 36, rfl⟩
abbrev main_c_11 : Ref sig .tc := ⟨.hbm, 37, rfl⟩
abbrev main_v22 : Ref sig .tc := ⟨.hbm, 38, rfl⟩
abbrev main_v23 : Ref sig .tc := ⟨.hbm, 39, rfl⟩
abbrev main_cst_12 : Ref sig .tc := ⟨.hbm, 40, rfl⟩
abbrev main_v24 : Ref sig .tc := ⟨.hbm, 41, rfl⟩
abbrev main_v25 : Ref sig .tc := ⟨.hbm, 42, rfl⟩
abbrev main_c_13 : Ref sig .tc := ⟨.hbm, 43, rfl⟩
abbrev main_v26 : Ref sig .tc := ⟨.hbm, 44, rfl⟩
abbrev main_c_14 : Ref sig .tc := ⟨.hbm, 45, rfl⟩
abbrev main_v27 : Ref sig .tc := ⟨.hbm, 46, rfl⟩
abbrev main_v28 : Ref sig .tc := ⟨.hbm, 47, rfl⟩
abbrev main_cst_15 : Ref sig .tc := ⟨.hbm, 48, rfl⟩
abbrev main_v29 : Ref sig .tc := ⟨.hbm, 49, rfl⟩
abbrev main_v30 : Ref sig .tc := ⟨.hbm, 50, rfl⟩
abbrev main_c_16 : Ref sig .tc := ⟨.hbm, 51, rfl⟩
abbrev main_v31 : Ref sig .tc := ⟨.hbm, 52, rfl⟩
abbrev main_c_17 : Ref sig .tc := ⟨.hbm, 53, rfl⟩
abbrev main_v32 : Ref sig .tc := ⟨.hbm, 54, rfl⟩
abbrev main_v33 : Ref sig .tc := ⟨.hbm, 55, rfl⟩
abbrev main_cst_18 : Ref sig .tc := ⟨.hbm, 56, rfl⟩
abbrev main_v34 : Ref sig .tc := ⟨.hbm, 57, rfl⟩
abbrev main_v35 : Ref sig .tc := ⟨.hbm, 58, rfl⟩
abbrev main_c_19 : Ref sig .tc := ⟨.hbm, 59, rfl⟩
abbrev main_v36 : Ref sig .tc := ⟨.hbm, 60, rfl⟩
abbrev main_cst_20 : Ref sig .tc := ⟨.hbm, 61, rfl⟩
abbrev main_v37 : Ref sig .tc := ⟨.hbm, 62, rfl⟩
abbrev main_v38 : Ref sig .tc := ⟨.hbm, 63, rfl⟩
abbrev main_c_21 : Ref sig .tc := ⟨.hbm, 64, rfl⟩
abbrev main_v39 : Ref sig .tc := ⟨.hbm, 65, rfl⟩
abbrev main_c_22 : Ref sig .tc := ⟨.hbm, 66, rfl⟩
abbrev main_v40 : Ref sig .tc := ⟨.hbm, 67, rfl⟩
abbrev main_v41 : Ref sig .tc := ⟨.hbm, 68, rfl⟩
abbrev main_cst_23 : Ref sig .tc := ⟨.hbm, 69, rfl⟩
abbrev main_v42 : Ref sig .tc := ⟨.hbm, 70, rfl⟩
abbrev main_v43 : Ref sig .tc := ⟨.hbm, 71, rfl⟩
abbrev main_c_24 : Ref sig .tc := ⟨.hbm, 72, rfl⟩
abbrev main_v44 : Ref sig .tc := ⟨.hbm, 73, rfl⟩
abbrev main_c_25 : Ref sig .tc := ⟨.hbm, 74, rfl⟩
abbrev main_v45 : Ref sig .tc := ⟨.hbm, 75, rfl⟩
abbrev main_v46 : Ref sig .tc := ⟨.hbm, 76, rfl⟩
abbrev main_cst_26 : Ref sig .tc := ⟨.hbm, 77, rfl⟩
abbrev main_v47 : Ref sig .tc := ⟨.hbm, 78, rfl⟩
abbrev main_v48 : Ref sig .tc := ⟨.hbm, 79, rfl⟩
abbrev main_c_27 : Ref sig .tc := ⟨.hbm, 80, rfl⟩
abbrev main_v49 : Ref sig .tc := ⟨.hbm, 81, rfl⟩
abbrev main_cst_28 : Ref sig .tc := ⟨.hbm, 82, rfl⟩
abbrev main_v50 : Ref sig .tc := ⟨.hbm, 83, rfl⟩
abbrev main_v51 : Ref sig .tc := ⟨.hbm, 84, rfl⟩
abbrev main_c_29 : Ref sig .tc := ⟨.hbm, 85, rfl⟩
abbrev main_v52 : Ref sig .tc := ⟨.hbm, 86, rfl⟩
abbrev main_cst_30 : Ref sig .tc := ⟨.hbm, 87, rfl⟩
abbrev main_v53 : Ref sig .tc := ⟨.hbm, 88, rfl⟩
abbrev main_v54 : Ref sig .tc := ⟨.hbm, 89, rfl⟩
abbrev main_c_31 : Ref sig .tc := ⟨.hbm, 90, rfl⟩
abbrev main_v55 : Ref sig .tc := ⟨.hbm, 91, rfl⟩
abbrev main_cst_32 : Ref sig .tc := ⟨.hbm, 92, rfl⟩
abbrev main_v56 : Ref sig .tc := ⟨.hbm, 93, rfl⟩
abbrev main_v57 : Ref sig .tc := ⟨.hbm, 94, rfl⟩
abbrev main_c_33 : Ref sig .tc := ⟨.hbm, 95, rfl⟩
abbrev main_v58 : Ref sig .tc := ⟨.hbm, 96, rfl⟩
abbrev main_cst_34 : Ref sig .tc := ⟨.hbm, 97, rfl⟩
abbrev main_v59 : Ref sig .tc := ⟨.hbm, 98, rfl⟩
abbrev main_v60 : Ref sig .tc := ⟨.hbm, 99, rfl⟩
abbrev main_c_35 : Ref sig .tc := ⟨.hbm, 100, rfl⟩
abbrev main_v61 : Ref sig .tc := ⟨.hbm, 101, rfl⟩
abbrev main_c_36 : Ref sig .tc := ⟨.hbm, 102, rfl⟩
abbrev main_v62 : Ref sig .tc := ⟨.hbm, 103, rfl⟩
abbrev main_v63 : Ref sig .tc := ⟨.hbm, 104, rfl⟩
abbrev main_cst_37 : Ref sig .tc := ⟨.hbm, 105, rfl⟩
abbrev main_v64 : Ref sig .tc := ⟨.hbm, 106, rfl⟩
abbrev main_v65 : Ref sig .tc := ⟨.hbm, 107, rfl⟩
abbrev main_c_38 : Ref sig .tc := ⟨.hbm, 108, rfl⟩
abbrev main_v66 : Ref sig .tc := ⟨.hbm, 109, rfl⟩
abbrev main_c_39 : Ref sig .tc := ⟨.hbm, 110, rfl⟩
abbrev main_v67 : Ref sig .tc := ⟨.hbm, 111, rfl⟩
abbrev main_v68 : Ref sig .tc := ⟨.hbm, 112, rfl⟩
abbrev main_cst_40 : Ref sig .tc := ⟨.hbm, 113, rfl⟩
abbrev main_v69 : Ref sig .tc := ⟨.hbm, 114, rfl⟩
abbrev main_v70 : Ref sig .tc := ⟨.hbm, 115, rfl⟩
abbrev main_c_41 : Ref sig .tc := ⟨.hbm, 116, rfl⟩
abbrev main_v71 : Ref sig .tc := ⟨.hbm, 117, rfl⟩
abbrev main_cst_42 : Ref sig .tc := ⟨.hbm, 118, rfl⟩
abbrev main_v72 : Ref sig .tc := ⟨.hbm, 119, rfl⟩
abbrev main_v73 : Ref sig .tc := ⟨.hbm, 120, rfl⟩
abbrev main_c_43 : Ref sig .tc := ⟨.hbm, 121, rfl⟩
abbrev main_v74 : Ref sig .tc := ⟨.hbm, 122, rfl⟩
abbrev main_c_44 : Ref sig .tc := ⟨.hbm, 123, rfl⟩
abbrev main_v75 : Ref sig .tc := ⟨.hbm, 124, rfl⟩
abbrev main_v76 : Ref sig .tc := ⟨.hbm, 125, rfl⟩
abbrev main_cst_45 : Ref sig .tc := ⟨.hbm, 126, rfl⟩
abbrev main_v77 : Ref sig .tc := ⟨.hbm, 127, rfl⟩
abbrev main_v78 : Ref sig .tc := ⟨.hbm, 128, rfl⟩
abbrev main_c_46 : Ref sig .tc := ⟨.hbm, 129, rfl⟩
abbrev main_v79 : Ref sig .tc := ⟨.hbm, 130, rfl⟩
abbrev main_c_47 : Ref sig .tc := ⟨.hbm, 131, rfl⟩
abbrev main_v80 : Ref sig .tc := ⟨.hbm, 132, rfl⟩
abbrev main_v81 : Ref sig .tc := ⟨.hbm, 133, rfl⟩
abbrev main_cst_48 : Ref sig .tc := ⟨.hbm, 134, rfl⟩
abbrev main_v82 : Ref sig .tc := ⟨.hbm, 135, rfl⟩
abbrev main_v83 : Ref sig .tc := ⟨.hbm, 136, rfl⟩
abbrev main_c_49 : Ref sig .tc := ⟨.hbm, 137, rfl⟩
abbrev main_v84 : Ref sig .tc := ⟨.hbm, 138, rfl⟩
abbrev main_c_50 : Ref sig .tc := ⟨.hbm, 139, rfl⟩
abbrev main_v85 : Ref sig .tc := ⟨.hbm, 140, rfl⟩
abbrev main_v86 : Ref sig .tc := ⟨.hbm, 141, rfl⟩
abbrev main_cst_51 : Ref sig .tc := ⟨.hbm, 142, rfl⟩
abbrev main_v87 : Ref sig .tc := ⟨.hbm, 143, rfl⟩
abbrev main_v88 : Ref sig .tc := ⟨.hbm, 144, rfl⟩
abbrev main_c_52 : Ref sig .tc := ⟨.hbm, 145, rfl⟩
abbrev main_v89 : Ref sig .tc := ⟨.hbm, 146, rfl⟩
abbrev main_c_53 : Ref sig .tc := ⟨.hbm, 147, rfl⟩
abbrev main_v90 : Ref sig .tc := ⟨.hbm, 148, rfl⟩
abbrev main_v91 : Ref sig .tc := ⟨.hbm, 149, rfl⟩
abbrev main_cst_54 : Ref sig .tc := ⟨.hbm, 150, rfl⟩
abbrev main_v92 : Ref sig .tc := ⟨.hbm, 151, rfl⟩
abbrev main_v93 : Ref sig .tc := ⟨.hbm, 152, rfl⟩
abbrev main_c_55 : Ref sig .tc := ⟨.hbm, 153, rfl⟩
abbrev main_v94 : Ref sig .tc := ⟨.hbm, 154, rfl⟩
abbrev main_cst_56 : Ref sig .tc := ⟨.hbm, 155, rfl⟩
abbrev main_v95 : Ref sig .tc := ⟨.hbm, 156, rfl⟩
abbrev main_v96 : Ref sig .tc := ⟨.hbm, 157, rfl⟩
abbrev main_c_57 : Ref sig .tc := ⟨.hbm, 158, rfl⟩
abbrev main_v97 : Ref sig .tc := ⟨.hbm, 159, rfl⟩
abbrev main_c_58 : Ref sig .tc := ⟨.hbm, 160, rfl⟩
abbrev main_v98 : Ref sig .tc := ⟨.hbm, 161, rfl⟩
abbrev main_v99 : Ref sig .tc := ⟨.hbm, 162, rfl⟩
abbrev main_cst_59 : Ref sig .tc := ⟨.hbm, 163, rfl⟩
abbrev main_v100 : Ref sig .tc := ⟨.hbm, 164, rfl⟩
abbrev main_v101 : Ref sig .tc := ⟨.hbm, 165, rfl⟩
abbrev main_c_60 : Ref sig .tc := ⟨.hbm, 166, rfl⟩
abbrev main_v102 : Ref sig .tc := ⟨.hbm, 167, rfl⟩
abbrev main_c_61 : Ref sig .tc := ⟨.hbm, 168, rfl⟩
abbrev main_v103 : Ref sig .tc := ⟨.hbm, 169, rfl⟩
abbrev main_v104 : Ref sig .tc := ⟨.hbm, 170, rfl⟩
abbrev main_cst_62 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x768x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x768x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x768x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x1x768x768_S32x768x768 : S32x1x768x768.ShapeCasts S32x768x768
  bcast_S_S768x768 : S_.BroadcastsInDim S768x768 (![] : Fin 0 → Fin S768x768.rank)
  bcast_S_S1 : S_.BroadcastsInDim S1 (![] : Fin 0 → Fin S1.rank)
  concatenates_S1_S1_S2_d0 : Shape.Concatenates [S1, S1] S2 0
  bcast_S_S766x766 : S_.BroadcastsInDim S766x766 (![] : Fin 0 → Fin S766x766.rank)
  bcast_S_S766x767 : S_.BroadcastsInDim S766x767 (![] : Fin 0 → Fin S766x767.rank)
  bcast_S_S766x768 : S_.BroadcastsInDim S766x768 (![] : Fin 0 → Fin S766x768.rank)
  bcast_S_S767x766 : S_.BroadcastsInDim S767x766 (![] : Fin 0 → Fin S767x766.rank)
  bcast_S_S767x767 : S_.BroadcastsInDim S767x767 (![] : Fin 0 → Fin S767x767.rank)
  bcast_S_S767x768 : S_.BroadcastsInDim S767x768 (![] : Fin 0 → Fin S767x768.rank)
  bcast_S_S768x766 : S_.BroadcastsInDim S768x766 (![] : Fin 0 → Fin S768x766.rank)
  bcast_S_S768x767 : S_.BroadcastsInDim S768x767 (![] : Fin 0 → Fin S768x767.rank)
  inb_S1x768x768_S1x768x768_0_0_0 : ∀ a, (![0, 0, 0] : Fin 3 → Nat) a + S1x768x768.size a ≤ S1x768x768.size a
  h_S1x768x768 : 0 < S1x768x768.numel
  shapeCasts_S1x768x768_S768x768 : S1x768x768.ShapeCasts S768x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  slices_S768x768_o0_0_S766x766 : S768x768.Slices ![0, 0] S766x766
  slices_S768x768_o2_2_S766x766 : S768x768.Slices ![2, 2] S766x766
  concatenates_S766x766_S2x766_S768x766_d0 : Shape.Concatenates [S766x766, S2x766] S768x766 0
  concatenates_S768x766_S768x2_S768x768_d1 : Shape.Concatenates [S768x766, S768x2] S768x768 1
  slices_S768x768_o0_0_S766x767 : S768x768.Slices ![0, 0] S766x767
  slices_S768x768_o2_1_S766x767 : S768x768.Slices ![2, 1] S766x767
  concatenates_S766x767_S2x767_S768x767_d0 : Shape.Concatenates [S766x767, S2x767] S768x767 0
  concatenates_S768x767_S768x1_S768x768_d1 : Shape.Concatenates [S768x767, S768x1] S768x768 1
  slices_S768x768_o0_0_S766x768 : S768x768.Slices ![0, 0] S766x768
  slices_S768x768_o2_0_S766x768 : S768x768.Slices ![2, 0] S766x768
  concatenates_S766x768_S2x768_S768x768_d0 : Shape.Concatenates [S766x768, S2x768] S768x768 0
  slices_S768x768_o0_1_S766x767 : S768x768.Slices ![0, 1] S766x767
  slices_S768x768_o2_0_S766x767 : S768x768.Slices ![2, 0] S766x767
  concatenates_S768x1_S768x767_S768x768_d1 : Shape.Concatenates [S768x1, S768x767] S768x768 1
  slices_S768x768_o0_2_S766x766 : S768x768.Slices ![0, 2] S766x766
  slices_S768x768_o2_0_S766x766 : S768x768.Slices ![2, 0] S766x766
  concatenates_S768x2_S768x766_S768x768_d1 : Shape.Concatenates [S768x2, S768x766] S768x768 1
  slices_S768x768_o0_0_S767x766 : S768x768.Slices ![0, 0] S767x766
  slices_S768x768_o1_2_S767x766 : S768x768.Slices ![1, 2] S767x766
  concatenates_S767x766_S1x766_S768x766_d0 : Shape.Concatenates [S767x766, S1x766] S768x766 0
  slices_S768x768_o0_0_S767x767 : S768x768.Slices ![0, 0] S767x767
  slices_S768x768_o1_1_S767x767 : S768x768.Slices ![1, 1] S767x767
  concatenates_S767x767_S1x767_S768x767_d0 : Shape.Concatenates [S767x767, S1x767] S768x767 0
  slices_S768x768_o0_0_S767x768 : S768x768.Slices ![0, 0] S767x768
  slices_S768x768_o1_0_S767x768 : S768x768.Slices ![1, 0] S767x768
  concatenates_S767x768_S1x768_S768x768_d0 : Shape.Concatenates [S767x768, S1x768] S768x768 0
  slices_S768x768_o0_1_S767x767 : S768x768.Slices ![0, 1] S767x767
  slices_S768x768_o1_0_S767x767 : S768x768.Slices ![1, 0] S767x767
  slices_S768x768_o0_2_S767x766 : S768x768.Slices ![0, 2] S767x766
  slices_S768x768_o1_0_S767x766 : S768x768.Slices ![1, 0] S767x766
  slices_S768x768_o0_0_S768x766 : S768x768.Slices ![0, 0] S768x766
  slices_S768x768_o0_2_S768x766 : S768x768.Slices ![0, 2] S768x766
  slices_S768x768_o0_0_S768x767 : S768x768.Slices ![0, 0] S768x767
  slices_S768x768_o0_1_S768x767 : S768x768.Slices ![0, 1] S768x767
  concatenates_S1x766_S767x766_S768x766_d0 : Shape.Concatenates [S1x766, S767x766] S768x766 0
  concatenates_S1x767_S767x767_S768x767_d0 : Shape.Concatenates [S1x767, S767x767] S768x767 0
  concatenates_S1x768_S767x768_S768x768_d0 : Shape.Concatenates [S1x768, S767x768] S768x768 0
  concatenates_S2x766_S766x766_S768x766_d0 : Shape.Concatenates [S2x766, S766x766] S768x766 0
  concatenates_S2x767_S766x767_S768x767_d0 : Shape.Concatenates [S2x767, S766x767] S768x767 0
  concatenates_S2x768_S766x768_S768x768_d0 : Shape.Concatenates [S2x768, S766x768] S768x768 0
  reduces_S768x768_S768 : S768x768.Reduces [1] S768
  shapeCasts_S768_S768x1 : S768.ShapeCasts S768x1
  reduces_S768x1_S1 : S768x1.Reduces [0] S1
  shapeCasts_S1_S1x1 : S1.ShapeCasts S1x1
  broadcasts_S1x1_S768x768 : S1x1.Broadcasts S768x768
  shapeCasts_S768x768_S1x768x768 : S768x768.ShapeCasts S1x768x768
  shapeCasts_S32x768x768_S32x1x768x768 : S32x768x768.ShapeCasts S32x1x768x768
  scatter_S768x768_S2_S766x766_01_n_01_0_wf : ScatterDims.WF S768x768 S2 S766x766 [0, 1] [] [0, 1] 0
  scatter_S768x768_S2_S766x767_01_n_01_0_wf : ScatterDims.WF S768x768 S2 S766x767 [0, 1] [] [0, 1] 0
  scatter_S768x768_S1_S766x768_01_n_0_0_wf : ScatterDims.WF S768x768 S1 S766x768 [0, 1] [] [0] 0
  scatter_S768x768_S2_S767x766_01_n_01_0_wf : ScatterDims.WF S768x768 S2 S767x766 [0, 1] [] [0, 1] 0
  scatter_S768x768_S2_S767x767_01_n_01_0_wf : ScatterDims.WF S768x768 S2 S767x767 [0, 1] [] [0, 1] 0
  scatter_S768x768_S1_S767x768_01_n_0_0_wf : ScatterDims.WF S768x768 S1 S767x768 [0, 1] [] [0] 0
  scatter_S768x768_S1_S768x766_01_n_1_0_wf : ScatterDims.WF S768x768 S1 S768x766 [0, 1] [] [1] 0
  scatter_S768x768_S1_S768x767_01_n_1_0_wf : ScatterDims.WF S768x768 S1 S768x767 [0, 1] [] [1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x768x768.size a ≤ S32x768x768.size a
  hwx0_0 : ∀ i : grid0.Coords, EltTy.bits .f32 = 32 ∨ (Rect.block (s := S32x768x768) S1x768x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x768x768.size a ≤ S32x768x768.size a
  hwx0_1 : ∀ i : grid0.Coords, EltTy.bits .f32 = 32 ∨ (Rect.block (s := S32x768x768) S1x768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .f32 = 32 ∨ (Rect.block (s := S768x768) S768x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x768x768.size a ≤ S32x768x768.size a
  hwx0_3 : ∀ i : grid0.Coords, EltTy.bits .f32 = 32 ∨ (Rect.block (s := S32x768x768) S1x768x768.size (cc0_transform_3 i) (hinb0_3 i)).WholeWords (EltTy.packing .f32)

variable [Facts₀]

def scatter_S768x768_S2_S766x766_01_n_01_0 : ScatterDims S768x768 S2 S766x766 where
  updateWindowDims := [0, 1]
  insertedWindowDims := []
  scatterDimsToOperandDims := [0, 1]
  indexVectorDim := 0
  wf := scatter_S768x768_S2_S766x766_01_n_01_0_wf
def scatter_S768x768_S2_S766x767_01_n_01_0 : ScatterDims S768x768 S2 S766x767 where
  updateWindowDims := [0, 1]
  insertedWindowDims := []
  scatterDimsToOperandDims := [0, 1]
  indexVectorDim := 0
  wf := scatter_S768x768_S2_S766x767_01_n_01_0_wf
def scatter_S768x768_S1_S766x768_01_n_0_0 : ScatterDims S768x768 S1 S766x768 where
  updateWindowDims := [0, 1]
  insertedWindowDims := []
  scatterDimsToOperandDims := [0]
  indexVectorDim := 0
  wf := scatter_S768x768_S1_S766x768_01_n_0_0_wf
def scatter_S768x768_S2_S767x766_01_n_01_0 : ScatterDims S768x768 S2 S767x766 where
  updateWindowDims := [0, 1]
  insertedWindowDims := []
  scatterDimsToOperandDims := [0, 1]
  indexVectorDim := 0
  wf := scatter_S768x768_S2_S767x766_01_n_01_0_wf
def scatter_S768x768_S2_S767x767_01_n_01_0 : ScatterDims S768x768 S2 S767x767 where
  updateWindowDims := [0, 1]
  insertedWindowDims := []
  scatterDimsToOperandDims := [0, 1]
  indexVectorDim := 0
  wf := scatter_S768x768_S2_S767x767_01_n_01_0_wf
def scatter_S768x768_S1_S767x768_01_n_0_0 : ScatterDims S768x768 S1 S767x768 where
  updateWindowDims := [0, 1]
  insertedWindowDims := []
  scatterDimsToOperandDims := [0]
  indexVectorDim := 0
  wf := scatter_S768x768_S1_S767x768_01_n_0_0_wf
def scatter_S768x768_S1_S768x766_01_n_1_0 : ScatterDims S768x768 S1 S768x766 where
  updateWindowDims := [0, 1]
  insertedWindowDims := []
  scatterDimsToOperandDims := [1]
  indexVectorDim := 0
  wf := scatter_S768x768_S1_S768x766_01_n_1_0_wf
def scatter_S768x768_S1_S768x767_01_n_1_0 : ScatterDims S768x768 S1 S768x767 where
  updateWindowDims := [0, 1]
  insertedWindowDims := []
  scatterDimsToOperandDims := [1]
  indexVectorDim := 0
  wf := scatter_S768x768_S1_S768x767_01_n_1_0_wf

abbrev win0_0 : Pipeline.Window sig grid0 :=
  Pipeline.Window.ofSpec (Memref.whole main_v0) S1x768x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x768x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v106) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v107) S1x768x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x1x768x768 : Shape := ⟨4, ![32, 1, 768, 768]⟩
abbrev S_ : Shape := ⟨0, ![]⟩
abbrev S32x1x766x766 : Shape := ⟨4, ![32, 1, 766, 766]⟩
abbrev S1 : Shape := ⟨1, ![1]⟩
abbrev S2 : Shape := ⟨1, ![2]⟩
abbrev S32x1x767x766 : Shape := ⟨4, ![32, 1, 767, 766]⟩
abbrev S32x1x768x766 : Shape := ⟨4, ![32, 1, 768, 766]⟩
abbrev S32x1x766x767 : Shape := ⟨4, ![32, 1, 766, 767]⟩
abbrev S32x1x767x767 : Shape := ⟨4, ![32, 1, 767, 767]⟩
abbrev S32x1x768x767 : Shape := ⟨4, ![32, 1, 768, 767]⟩
abbrev S32x1x766x768 : Shape := ⟨4, ![32, 1, 766, 768]⟩
abbrev S32x1x767x768 : Shape := ⟨4, ![32, 1, 767, 768]⟩
abbrev S32x1 : Shape := ⟨2, ![32, 1]⟩
abbrev S32x1x1x1 : Shape := ⟨4, ![32, 1, 1, 1]⟩

abbrev nBuf : Space → Nat
  | .hbm => 453
  | .vmem => 0
  | .smem => 0
  | _ => 0

abbrev hbmTy0_0 (i : Nat) : BufTy := match i % 128 with
  | 0 => ⟨S32x1x768x768, .f32⟩
  | 1 => ⟨S32x1x768x768, .f32⟩
  | 2 => ⟨S32x1x768x768, .f32⟩
  | 3 => ⟨S32x1x768x768, .f32⟩
  | 4 => ⟨S_, .f32⟩
  | 5 => ⟨S32x1x768x768, .f32⟩
  | 6 => ⟨S32x1x768x768, .f32⟩
  | 7 => ⟨S_, .f32⟩
  | 8 => ⟨S32x1x768x768, .f32⟩
  | 9 => ⟨S32x1x768x768, .f32⟩
  | 10 => ⟨S_, .f32⟩
  | 11 => ⟨S32x1x768x768, .f32⟩
  | 12 => ⟨S_, .f32⟩
  | 13 => ⟨S32x1x768x768, .f32⟩
  | 14 => ⟨S32x1x766x766, .f32⟩
  | 15 => ⟨S32x1x766x766, .f32⟩
  | 16 => ⟨S32x1x766x766, .f32⟩
  | 17 => ⟨S32x1x766x766, .f32⟩
  | 18 => ⟨S_, .i32⟩
  | 19 => ⟨S1, .i32⟩
  | 20 => ⟨S_, .i32⟩
  | 21 => ⟨S1, .i32⟩
  | 22 => ⟨S2, .i32⟩
  | 23 => ⟨S32x1x768x768, .f32⟩
  | 24 => ⟨S_, .i32⟩
  | 25 => ⟨S1, .i32⟩
  | 26 => ⟨S_, .i32⟩
  | 27 => ⟨S1, .i32⟩
  | 28 => ⟨S2, .i32⟩
  | 29 => ⟨S_, .f32⟩
  | 30 => ⟨S32x1x766x766, .f32⟩
  | 31 => ⟨S32x1x768x768, .f32⟩
  | 32 => ⟨S32x1x767x766, .f32⟩
  | 33 => ⟨S32x1x767x766, .f32⟩
  | 34 => ⟨S32x1x767x766, .f32⟩
  | 35 => ⟨S32x1x767x766, .f32⟩
  | 36 => ⟨S_, .i32⟩
  | 37 => ⟨S1, .i32⟩
  | 38 => ⟨S_, .i32⟩
  | 39 => ⟨S1, .i32⟩
  | 40 => ⟨S2, .i32⟩
  | 41 => ⟨S32x1x768x768, .f32⟩
  | 42 => ⟨S_, .i32⟩
  | 43 => ⟨S1, .i32⟩
  | 44 => ⟨S_, .i32⟩
  | 45 => ⟨S1, .i32⟩
  | 46 => ⟨S2, .i32⟩
  | 47 => ⟨S_, .f32⟩
  | 48 => ⟨S32x1x767x766, .f32⟩
  | 49 => ⟨S32x1x768x768, .f32⟩
  | 50 => ⟨S32x1x768x766, .f32⟩
  | 51 => ⟨S32x1x768x766, .f32⟩
  | 52 => ⟨S32x1x768x766, .f32⟩
  | 53 => ⟨S32x1x768x766, .f32⟩
  | 54 => ⟨S_, .i32⟩
  | 55 => ⟨S1, .i32⟩
  | 56 => ⟨S32x1x768x768, .f32⟩
  | 57 => ⟨S_, .i32⟩
  | 58 => ⟨S1, .i32⟩
  | 59 => ⟨S_, .f32⟩
  | 60 => ⟨S32x1x768x766, .f32⟩
  | 61 => ⟨S32x1x768x768, .f32⟩
  | 62 => ⟨S32x1x767x766, .f32⟩
  | 63 => ⟨S32x1x767x766, .f32⟩
  | 64 => ⟨S32x1x767x766, .f32⟩
  | 65 => ⟨S32x1x767x766, .f32⟩
  | 66 => ⟨S_, .i32⟩
  | 67 => ⟨S1, .i32⟩
  | 68 => ⟨S_, .i32⟩
  | 69 => ⟨S1, .i32⟩
  | 70 => ⟨S2, .i32⟩
  | 71 => ⟨S32x1x768x768, .f32⟩
  | 72 => ⟨S_, .i32⟩
  | 73 => ⟨S1, .i32⟩
  | 74 => ⟨S_, .i32⟩
  | 75 => ⟨S1, .i32⟩
  | 76 => ⟨S2, .i32⟩
  | 77 => ⟨S_, .f32⟩
  | 78 => ⟨S32x1x767x766, .f32⟩
  | 79 => ⟨S32x1x768x768, .f32⟩
  | 80 => ⟨S32x1x766x766, .f32⟩
  | 81 => ⟨S32x1x766x766, .f32⟩
  | 82 => ⟨S32x1x766x766, .f32⟩
  | 83 => ⟨S32x1x766x766, .f32⟩
  | 84 => ⟨S_, .i32⟩
  | 85 => ⟨S1, .i32⟩
  | 86 => ⟨S_, .i32⟩
  | 87 => ⟨S1, .i32⟩
  | 88 => ⟨S2, .i32⟩
  | 89 => ⟨S32x1x768x768, .f32⟩
  | 90 => ⟨S_, .i32⟩
  | 91 => ⟨S1, .i32⟩
  | 92 => ⟨S_, .i32⟩
  | 93 => ⟨S1, .i32⟩
  | 94 => ⟨S2, .i32⟩
  | 95 => ⟨S_, .f32⟩
  | 96 => ⟨S32x1x766x766, .f32⟩
  | 97 => ⟨S32x1x768x768, .f32⟩
  | 98 => ⟨S32x1x766x767, .f32⟩
  | 99 => ⟨S32x1x766x767, .f32⟩
  | 100 => ⟨S32x1x766x767, .f32⟩
  | 101 => ⟨S32x1x766x767, .f32⟩
  | 102 => ⟨S_, .i32⟩
  | 103 => ⟨S1, .i32⟩
  | 104 => ⟨S_, .i32⟩
  | 105 => ⟨S1, .i32⟩
  | 106 => ⟨S2, .i32⟩
  | 107 => ⟨S32x1x768x768, .f32⟩
  | 108 => ⟨S_, .i32⟩
  | 109 => ⟨S1, .i32⟩
  | 110 => ⟨S_, .i32⟩
  | 111 => ⟨S1, .i32⟩
  | 112 => ⟨S2, .i32⟩
  | 113 => ⟨S_, .f32⟩
  | 114 => ⟨S32x1x766x767, .f32⟩
  | 115 => ⟨S32x1x768x768, .f32⟩
  | 116 => ⟨S32x1x767x767, .f32⟩
  | 117 => ⟨S32x1x767x767, .f32⟩
  | 118 => ⟨S32x1x767x767, .f32⟩
  | 119 => ⟨S32x1x767x767, .f32⟩
  | 120 => ⟨S_, .i32⟩
  | 121 => ⟨S1, .i32⟩
  | 122 => ⟨S_, .i32⟩
  | 123 => ⟨S1, .i32⟩
  | 124 => ⟨S2, .i32⟩
  | 125 => ⟨S32x1x768x768, .f32⟩
  | 126 => ⟨S_, .i32⟩
  | 127 => ⟨S1, .i32⟩
  | _ => ⟨S32x1x768x768, .f32⟩

abbrev hbmTy0_1 (i : Nat) : BufTy := match i % 128 with
  | 0 => ⟨S_, .i32⟩
  | 1 => ⟨S1, .i32⟩
  | 2 => ⟨S2, .i32⟩
  | 3 => ⟨S_, .f32⟩
  | 4 => ⟨S32x1x767x767, .f32⟩
  | 5 => ⟨S32x1x768x768, .f32⟩
  | 6 => ⟨S32x1x768x767, .f32⟩
  | 7 => ⟨S32x1x768x767, .f32⟩
  | 8 => ⟨S32x1x768x767, .f32⟩
  | 9 => ⟨S32x1x768x767, .f32⟩
  | 10 => ⟨S_, .i32⟩
  | 11 => ⟨S1, .i32⟩
  | 12 => ⟨S32x1x768x768, .f32⟩
  | 13 => ⟨S_, .i32⟩
  | 14 => ⟨S1, .i32⟩
  | 15 => ⟨S_, .f32⟩
  | 16 => ⟨S32x1x768x767, .f32⟩
  | 17 => ⟨S32x1x768x768, .f32⟩
  | 18 => ⟨S32x1x767x767, .f32⟩
  | 19 => ⟨S32x1x767x767, .f32⟩
  | 20 => ⟨S32x1x767x767, .f32⟩
  | 21 => ⟨S32x1x767x767, .f32⟩
  | 22 => ⟨S_, .i32⟩
  | 23 => ⟨S1, .i32⟩
  | 24 => ⟨S_, .i32⟩
  | 25 => ⟨S1, .i32⟩
  | 26 => ⟨S2, .i32⟩
  | 27 => ⟨S32x1x768x768, .f32⟩
  | 28 => ⟨S_, .i32⟩
  | 29 => ⟨S1, .i32⟩
  | 30 => ⟨S_, .i32⟩
  | 31 => ⟨S1, .i32⟩
  | 32 => ⟨S2, .i32⟩
  | 33 => ⟨S_, .f32⟩
  | 34 => ⟨S32x1x767x767, .f32⟩
  | 35 => ⟨S32x1x768x768, .f32⟩
  | 36 => ⟨S32x1x766x767, .f32⟩
  | 37 => ⟨S32x1x766x767, .f32⟩
  | 38 => ⟨S32x1x766x767, .f32⟩
  | 39 => ⟨S32x1x766x767, .f32⟩
  | 40 => ⟨S_, .i32⟩
  | 41 => ⟨S1, .i32⟩
  | 42 => ⟨S_, .i32⟩
  | 43 => ⟨S1, .i32⟩
  | 44 => ⟨S2, .i32⟩
  | 45 => ⟨S32x1x768x768, .f32⟩
  | 46 => ⟨S_, .i32⟩
  | 47 => ⟨S1, .i32⟩
  | 48 => ⟨S_, .i32⟩
  | 49 => ⟨S1, .i32⟩
  | 50 => ⟨S2, .i32⟩
  | 51 => ⟨S_, .f32⟩
  | 52 => ⟨S32x1x766x767, .f32⟩
  | 53 => ⟨S32x1x768x768, .f32⟩
  | 54 => ⟨S32x1x766x768, .f32⟩
  | 55 => ⟨S32x1x766x768, .f32⟩
  | 56 => ⟨S32x1x766x768, .f32⟩
  | 57 => ⟨S32x1x766x768, .f32⟩
  | 58 => ⟨S_, .i32⟩
  | 59 => ⟨S1, .i32⟩
  | 60 => ⟨S32x1x768x768, .f32⟩
  | 61 => ⟨S_, .i32⟩
  | 62 => ⟨S1, .i32⟩
  | 63 => ⟨S_, .f32⟩
  | 64 => ⟨S32x1x766x768, .f32⟩
  | 65 => ⟨S32x1x768x768, .f32⟩
  | 66 => ⟨S32x1x767x768, .f32⟩
  | 67 => ⟨S32x1x767x768, .f32⟩
  | 68 => ⟨S32x1x767x768, .f32⟩
  | 69 => ⟨S32x1x767x768, .f32⟩
  | 70 => ⟨S_, .i32⟩
  | 71 => ⟨S1, .i32⟩
  | 72 => ⟨S32x1x768x768, .f32⟩
  | 73 => ⟨S_, .i32⟩
  | 74 => ⟨S1, .i32⟩
  | 75 => ⟨S_, .f32⟩
  | 76 => ⟨S32x1x767x768, .f32⟩
  | 77 => ⟨S32x1x768x768, .f32⟩
  | 78 => ⟨S32x1x767x768, .f32⟩
  | 79 => ⟨S32x1x767x768, .f32⟩
  | 80 => ⟨S32x1x767x768, .f32⟩
  | 81 => ⟨S32x1x767x768, .f32⟩
  | 82 => ⟨S_, .i32⟩
  | 83 => ⟨S1, .i32⟩
  | 84 => ⟨S32x1x768x768, .f32⟩
  | 85 => ⟨S_, .i32⟩
  | 86 => ⟨S1, .i32⟩
  | 87 => ⟨S_, .f32⟩
  | 88 => ⟨S32x1x767x768, .f32⟩
  | 89 => ⟨S32x1x768x768, .f32⟩
  | 90 => ⟨S32x1x766x768, .f32⟩
  | 91 => ⟨S32x1x766x768, .f32⟩
  | 92 => ⟨S32x1x766x768, .f32⟩
  | 93 => ⟨S32x1x766x768, .f32⟩
  | 94 => ⟨S_, .i32⟩
  | 95 => ⟨S1, .i32⟩
  | 96 => ⟨S32x1x768x768, .f32⟩
  | 97 => ⟨S_, .i32⟩
  | 98 => ⟨S1, .i32⟩
  | 99 => ⟨S_, .f32⟩
  | 100 => ⟨S32x1x766x768, .f32⟩
  | 101 => ⟨S32x1x768x768, .f32⟩
  | 102 => ⟨S32x1x766x767, .f32⟩
  | 103 => ⟨S32x1x766x767, .f32⟩
  | 104 => ⟨S32x1x766x767, .f32⟩
  | 105 => ⟨S32x1x766x767, .f32⟩
  | 106 => ⟨S_, .i32⟩
  | 107 => ⟨S1, .i32⟩
  | 108 => ⟨S_, .i32⟩
  | 109 => ⟨S1, .i32⟩
  | 110 => ⟨S2, .i32⟩
  | 111 => ⟨S32x1x768x768, .f32⟩
  | 112 => ⟨S_, .i32⟩
  | 113 => ⟨S1, .i32⟩
  | 114 => ⟨S_, .i32⟩
  | 115 => ⟨S1, .i32⟩
  | 116 => ⟨S2, .i32⟩
  | 117 => ⟨S_, .f32⟩
  | 118 => ⟨S32x1x766x767, .f32⟩
  | 119 => ⟨S32x1x768x768, .f32⟩
  | 120 => ⟨S32x1x767x767, .f32⟩
  | 121 => ⟨S32x1x767x767, .f32⟩
  | 122 => ⟨S32x1x767x767, .f32⟩
  | 123 => ⟨S32x1x767x767, .f32⟩
  | 124 => ⟨S_, .i32⟩
  | 125 => ⟨S1, .i32⟩
  | 126 => ⟨S_, .i32⟩
  | 127 => ⟨S1, .i32⟩
  | _ => ⟨S32x1x768x768, .f32⟩

abbrev hbmTy0_2 (i : Nat) : BufTy := match i % 128 with
  | 0 => ⟨S2, .i32⟩
  | 1 => ⟨S32x1x768x768, .f32⟩
  | 2 => ⟨S_, .i32⟩
  | 3 => ⟨S1, .i32⟩
  | 4 => ⟨S_, .i32⟩
  | 5 => ⟨S1, .i32⟩
  | 6 => ⟨S2, .i32⟩
  | 7 => ⟨S_, .f32⟩
  | 8 => ⟨S32x1x767x767, .f32⟩
  | 9 => ⟨S32x1x768x768, .f32⟩
  | 10 => ⟨S32x1x768x767, .f32⟩
  | 11 => ⟨S32x1x768x767, .f32⟩
  | 12 => ⟨S32x1x768x767, .f32⟩
  | 13 => ⟨S32x1x768x767, .f32⟩
  | 14 => ⟨S_, .i32⟩
  | 15 => ⟨S1, .i32⟩
  | 16 => ⟨S32x1x768x768, .f32⟩
  | 17 => ⟨S_, .i32⟩
  | 18 => ⟨S1, .i32⟩
  | 19 => ⟨S_, .f32⟩
  | 20 => ⟨S32x1x768x767, .f32⟩
  | 21 => ⟨S32x1x768x768, .f32⟩
  | 22 => ⟨S32x1x767x767, .f32⟩
  | 23 => ⟨S32x1x767x767, .f32⟩
  | 24 => ⟨S32x1x767x767, .f32⟩
  | 25 => ⟨S32x1x767x767, .f32⟩
  | 26 => ⟨S_, .i32⟩
  | 27 => ⟨S1, .i32⟩
  | 28 => ⟨S_, .i32⟩
  | 29 => ⟨S1, .i32⟩
  | 30 => ⟨S2, .i32⟩
  | 31 => ⟨S32x1x768x768, .f32⟩
  | 32 => ⟨S_, .i32⟩
  | 33 => ⟨S1, .i32⟩
  | 34 => ⟨S_, .i32⟩
  | 35 => ⟨S1, .i32⟩
  | 36 => ⟨S2, .i32⟩
  | 37 => ⟨S_, .f32⟩
  | 38 => ⟨S32x1x767x767, .f32⟩
  | 39 => ⟨S32x1x768x768, .f32⟩
  | 40 => ⟨S32x1x766x767, .f32⟩
  | 41 => ⟨S32x1x766x767, .f32⟩
  | 42 => ⟨S32x1x766x767, .f32⟩
  | 43 => ⟨S32x1x766x767, .f32⟩
  | 44 => ⟨S_, .i32⟩
  | 45 => ⟨S1, .i32⟩
  | 46 => ⟨S_, .i32⟩
  | 47 => ⟨S1, .i32⟩
  | 48 => ⟨S2, .i32⟩
  | 49 => ⟨S32x1x768x768, .f32⟩
  | 50 => ⟨S_, .i32⟩
  | 51 => ⟨S1, .i32⟩
  | 52 => ⟨S_, .i32⟩
  | 53 => ⟨S1, .i32⟩
  | 54 => ⟨S2, .i32⟩
  | 55 => ⟨S_, .f32⟩
  | 56 => ⟨S32x1x766x767, .f32⟩
  | 57 => ⟨S32x1x768x768, .f32⟩
  | 58 => ⟨S32x1x766x766, .f32⟩
  | 59 => ⟨S32x1x766x766, .f32⟩
  | 60 => ⟨S32x1x766x766, .f32⟩
  | 61 => ⟨S32x1x766x766, .f32⟩
  | 62 => ⟨S_, .i32⟩
  | 63 => ⟨S1, .i32⟩
  | 64 => ⟨S_, .i32⟩
  | 65 => ⟨S1, .i32⟩
  | 66 => ⟨S2, .i32⟩
  | 67 => ⟨S32x1x768x768, .f32⟩
  | 68 => ⟨S_, .i32⟩
  | 69 => ⟨S1, .i32⟩
  | 70 => ⟨S_, .i32⟩
  | 71 => ⟨S1, .i32⟩
  | 72 => ⟨S2, .i32⟩
  | 73 => ⟨S_, .f32⟩
  | 74 => ⟨S32x1x766x766, .f32⟩
  | 75 => ⟨S32x1x768x768, .f32⟩
  | 76 => ⟨S32x1x767x766, .f32⟩
  | 77 => ⟨S32x1x767x766, .f32⟩
  | 78 => ⟨S32x1x767x766, .f32⟩
  | 79 => ⟨S32x1x767x766, .f32⟩
  | 80 => ⟨S_, .i32⟩
  | 81 => ⟨S1, .i32⟩
  | 82 => ⟨S_, .i32⟩
  | 83 => ⟨S1, .i32⟩
  | 84 => ⟨S2, .i32⟩
  | 85 => ⟨S32x1x768x768, .f32⟩
  | 86 => ⟨S_, .i32⟩
  | 87 => ⟨S1, .i32⟩
  | 88 => ⟨S_, .i32⟩
  | 89 => ⟨S1, .i32⟩
  | 90 => ⟨S2, .i32⟩
  | 91 => ⟨S_, .f32⟩
  | 92 => ⟨S32x1x767x766, .f32⟩
  | 93 => ⟨S32x1x768x768, .f32⟩
  | 94 => ⟨S32x1x768x766, .f32⟩
  | 95 => ⟨S32x1x768x766, .f32⟩
  | 96 => ⟨S32x1x768x766, .f32⟩
  | 97 => ⟨S32x1x768x766, .f32⟩
  | 98 => ⟨S_, .i32⟩
  | 99 => ⟨S1, .i32⟩
  | 100 => ⟨S32x1x768x768, .f32⟩
  | 101 => ⟨S_, .i32⟩
  | 102 => ⟨S1, .i32⟩
  | 103 => ⟨S_, .f32⟩
  | 104 => ⟨S32x1x768x766, .f32⟩
  | 105 => ⟨S32x1x768x768, .f32⟩
  | 106 => ⟨S32x1x767x766, .f32⟩
  | 107 => ⟨S32x1x767x766, .f32⟩
  | 108 => ⟨S32x1x767x766, .f32⟩
  | 109 => ⟨S32x1x767x766, .f32⟩
  | 110 => ⟨S_, .i32⟩
  | 111 => ⟨S1, .i32⟩
  | 112 => ⟨S_, .i32⟩
  | 113 => ⟨S1, .i32⟩
  | 114 => ⟨S2, .i32⟩
  | 115 => ⟨S32x1x768x768, .f32⟩
  | 116 => ⟨S_, .i32⟩
  | 117 => ⟨S1, .i32⟩
  | 118 => ⟨S_, .i32⟩
  | 119 => ⟨S1, .i32⟩
  | 120 => ⟨S2, .i32⟩
  | 121 => ⟨S_, .f32⟩
  | 122 => ⟨S32x1x767x766, .f32⟩
  | 123 => ⟨S32x1x768x768, .f32⟩
  | 124 => ⟨S32x1x766x766, .f32⟩
  | 125 => ⟨S32x1x766x766, .f32⟩
  | 126 => ⟨S32x1x766x766, .f32⟩
  | 127 => ⟨S32x1x766x766, .f32⟩
  | _ => ⟨S32x1x768x768, .f32⟩

abbrev hbmTy0_3 (i : Nat) : BufTy := match i % 128 with
  | 0 => ⟨S_, .i32⟩
  | 1 => ⟨S1, .i32⟩
  | 2 => ⟨S_, .i32⟩
  | 3 => ⟨S1, .i32⟩
  | 4 => ⟨S2, .i32⟩
  | 5 => ⟨S32x1x768x768, .f32⟩
  | 6 => ⟨S_, .i32⟩
  | 7 => ⟨S1, .i32⟩
  | 8 => ⟨S_, .i32⟩
  | 9 => ⟨S1, .i32⟩
  | 10 => ⟨S2, .i32⟩
  | 11 => ⟨S_, .f32⟩
  | 12 => ⟨S32x1x766x766, .f32⟩
  | 13 => ⟨S32x1x768x768, .f32⟩
  | 14 => ⟨S32x1x768x768, .f32⟩
  | 15 => ⟨S_, .f32⟩
  | 16 => ⟨S32x1x768x768, .f32⟩
  | 17 => ⟨S32x1x768x768, .f32⟩
  | 18 => ⟨S32x1x768x768, .f32⟩
  | 19 => ⟨S32x1x768x768, .f32⟩
  | 20 => ⟨S_, .f32⟩
  | 21 => ⟨S32x1x768x768, .f32⟩
  | 22 => ⟨S32x1x768x768, .f32⟩
  | 23 => ⟨S_, .f32⟩
  | 24 => ⟨S32x1x768x768, .f32⟩
  | 25 => ⟨S32x1x768x768, .f32⟩
  | 26 => ⟨S_, .f32⟩
  | 27 => ⟨S32x1x768x768, .f32⟩
  | 28 => ⟨S32x1x768x768, .f32⟩
  | 29 => ⟨S32x1x768x768, .f32⟩
  | 30 => ⟨S32x1x768x768, .f32⟩
  | 31 => ⟨S32x1x768x768, .i1⟩
  | 32 => ⟨S32x1x768x768, .f32⟩
  | 33 => ⟨S32x1x768x768, .f32⟩
  | 34 => ⟨S32x1x768x768, .f32⟩
  | 35 => ⟨S32x1x768x768, .f32⟩
  | 36 => ⟨S32x1x768x768, .f32⟩
  | 37 => ⟨S32x1x768x768, .f32⟩
  | 38 => ⟨S32x1x768x768, .f32⟩
  | 39 => ⟨S32x1x768x768, .f32⟩
  | 40 => ⟨S32x1x768x768, .f32⟩
  | 41 => ⟨S32x1x768x768, .f32⟩
  | 42 => ⟨S_, .f32⟩
  | 43 => ⟨S32x1x768x768, .f32⟩
  | 44 => ⟨S32x1x768x768, .f32⟩
  | 45 => ⟨S32x1x768x768, .f32⟩
  | 46 => ⟨S32x1x768x768, .f32⟩
  | 47 => ⟨S_, .f32⟩
  | 48 => ⟨S32x1x768x768, .f32⟩
  | 49 => ⟨S32x1x768x768, .f32⟩
  | 50 => ⟨S_, .f32⟩
  | 51 => ⟨S32x1x768x768, .f32⟩
  | 52 => ⟨S32x1x768x768, .f32⟩
  | 53 => ⟨S32x1x768x768, .f32⟩
  | 54 => ⟨S32x1x768x768, .f32⟩
  | 55 => ⟨S_, .f32⟩
  | 56 => ⟨S32x1x768x768, .f32⟩
  | 57 => ⟨S32x1x768x768, .f32⟩
  | 58 => ⟨S_, .f32⟩
  | 59 => ⟨S32x1x768x768, .f32⟩
  | 60 => ⟨S32x1x768x768, .f32⟩
  | 61 => ⟨S_, .f32⟩
  | 62 => ⟨S32x1, .f32⟩
  | 63 => ⟨S32x1x1x1, .f32⟩
  | 64 => ⟨S_, .f32⟩
  | 65 => ⟨S32x1x1x1, .f32⟩
  | 66 => ⟨S32x1x1x1, .f32⟩
  | 67 => ⟨S32x1x768x768, .f32⟩
  | 68 => ⟨S32x1x768x768, .f32⟩
  | _ => ⟨S32x1x768x768, .f32⟩

abbrev hbmTy (i : Nat) : BufTy := match i / 128 with
  | 0 => hbmTy0_0 i
  | 1 => hbmTy0_1 i
  | 2 => hbmTy0_2 i
  | 3 => hbmTy0_3 i
  | _ => ⟨S32x1x768x768, .f32⟩

abbrev bufTy : (tb : Table) → Fin (tcTables nBuf tb) → BufTy
  | .hbm, ⟨i, _⟩ => hbmTy i
  | _, _ => ⟨S32x1x768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_4 : Ref sig .tc := ⟨.hbm, 24, rfl⟩
abbrev main_v16 : Ref sig .tc := ⟨.hbm, 25, rfl⟩
abbrev main_c_5 : Ref sig .tc := ⟨.hbm, 26, rfl⟩
abbrev main_v17 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_7 : Ref sig .tc := ⟨.hbm, 36, rfl⟩
abbrev main_v25 : Ref sig .tc := ⟨.hbm, 37, rfl⟩
abbrev main_c_8 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_9 : Ref sig .tc := ⟨.hbm, 42, rfl⟩
abbrev main_v29 : Ref sig .tc := ⟨.hbm, 43, rfl⟩
abbrev main_c_10 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_12 : Ref sig .tc := ⟨.hbm, 54, rfl⟩
abbrev main_v38 : Ref sig .tc := ⟨.hbm, 55, rfl⟩
abbrev main_v39 : Ref sig .tc := ⟨.hbm, 56, rfl⟩
abbrev main_c_13 : Ref sig .tc := ⟨.hbm, 57, rfl⟩
abbrev main_v40 : Ref sig .tc := ⟨.hbm, 58, rfl⟩
abbrev main_cst_14 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_15 : Ref sig .tc := ⟨.hbm, 66, rfl⟩
abbrev main_v47 : Ref sig .tc := ⟨.hbm, 67, rfl⟩
abbrev main_c_16 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_17 : Ref sig .tc := ⟨.hbm, 72, rfl⟩
abbrev main_v51 : Ref sig .tc := ⟨.hbm, 73, rfl⟩
abbrev main_c_18 : Ref sig .tc := ⟨.hbm, 74, rfl⟩
abbrev main_v52 : Ref sig .tc := ⟨.hbm, 75, rfl⟩
abbrev main_v53 : Ref sig .tc := ⟨.hbm, 76, rfl⟩
abbrev main_cst_19 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_20 : Ref sig .tc := ⟨.hbm, 84, rfl⟩
abbrev main_v60 : Ref sig .tc := ⟨.hbm, 85, rfl⟩
abbrev main_c_21 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_22 : Ref sig .tc := ⟨.hbm, 90, rfl⟩
abbrev main_v64 : Ref sig .tc := ⟨.hbm, 91, rfl⟩
abbrev main_c_23 : Ref sig .tc := ⟨.hbm, 92, rfl⟩
abbrev main_v65 : Ref sig .tc := ⟨.hbm, 93, rfl⟩
abbrev main_v66 : Ref sig .tc := ⟨.hbm, 94, rfl⟩
abbrev main_cst_24 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_25 : Ref sig .tc := ⟨.hbm, 102, rfl⟩
abbrev main_v73 : Ref sig .tc := ⟨.hbm, 103, rfl⟩
abbrev main_c_26 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_27 : Ref sig .tc := ⟨.hbm, 108, rfl⟩
abbrev main_v77 : Ref sig .tc := ⟨.hbm, 109, rfl⟩
abbrev main_c_28 : Ref sig .tc := ⟨.hbm, 110, rfl⟩
abbrev main_v78 : Ref sig .tc := ⟨.hbm, 111, rfl⟩
abbrev main_v79 : Ref sig .tc := ⟨.hbm, 112, rfl⟩
abbrev main_cst_29 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_c_30 : Ref sig .tc := ⟨.hbm, 120, rfl⟩
abbrev main_v86 : Ref sig .tc := ⟨.hbm, 121, rfl⟩
abbrev main_c_31 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_c_32 : Ref sig .tc := ⟨.hbm, 126, rfl⟩
abbrev main_v90 : Ref sig .tc := ⟨.hbm, 127, rfl⟩
abbrev main_c_33 : Ref sig .tc := ⟨.hbm, 128, rfl⟩
abbrev main_v91 : Ref sig .tc := ⟨.hbm, 129, rfl⟩
abbrev main_v92 : Ref sig .tc := ⟨.hbm, 130, rfl⟩
abbrev main_cst_34 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_c_35 : Ref sig .tc := ⟨.hbm, 138, rfl⟩
abbrev main_v99 : Ref sig .tc := ⟨.hbm, 139, rfl⟩
abbrev main_v100 : Ref sig .tc := ⟨.hbm, 140, rfl⟩
abbrev main_c_36 : Ref sig .tc := ⟨.hbm, 141, rfl⟩
abbrev main_v101 : Ref sig .tc := ⟨.hbm, 142, rfl⟩
abbrev main_cst_37 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_c_38 : Ref sig .tc := ⟨.hbm, 150, rfl⟩
abbrev main_v108 : Ref sig .tc := ⟨.hbm, 151, rfl⟩
abbrev main_c_39 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_c_40 : Ref sig .tc := ⟨.hbm, 156, rfl⟩
abbrev main_v112 : Ref sig .tc := ⟨.hbm, 157, rfl⟩
abbrev main_c_41 : Ref sig .tc := ⟨.hbm, 158, rfl⟩
abbrev main_v113 : Ref sig .tc := ⟨.hbm, 159, rfl⟩
abbrev main_v114 : Ref sig .tc := ⟨.hbm, 160, rfl⟩
abbrev main_cst_42 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_c_43 : Ref sig .tc := ⟨.hbm, 168, rfl⟩
abbrev main_v121 : Ref sig .tc := ⟨.hbm, 169, rfl⟩
abbrev main_c_44 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_c_45 : Ref sig .tc := ⟨.hbm, 174, rfl⟩
abbrev main_v125 : Ref sig .tc := ⟨.hbm, 175, rfl⟩
abbrev main_c_46 : Ref sig .tc := ⟨.hbm, 176, rfl⟩
abbrev main_v126 : Ref sig .tc := ⟨.hbm, 177, rfl⟩
abbrev main_v127 : Ref sig .tc := ⟨.hbm, 178, rfl⟩
abbrev main_cst_47 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_c_48 : Ref sig .tc := ⟨.hbm, 186, rfl⟩
abbrev main_v134 : Ref sig .tc := ⟨.hbm, 187, rfl⟩
abbrev main_v135 : Ref sig .tc := ⟨.hbm, 188, rfl⟩
abbrev main_c_49 : Ref sig .tc := ⟨.hbm, 189, rfl⟩
abbrev main_v136 : Ref sig .tc := ⟨.hbm, 190, rfl⟩
abbrev main_cst_50 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_c_51 : Ref sig .tc := ⟨.hbm, 198, rfl⟩
abbrev main_v143 : Ref sig .tc := ⟨.hbm, 199, rfl⟩
abbrev main_v144 : Ref sig .tc := ⟨.hbm, 200, rfl⟩
abbrev main_c_52 : Ref sig .tc := ⟨.hbm, 201, rfl⟩
abbrev main_v145 : Ref sig .tc := ⟨.hbm, 202, rfl⟩
abbrev main_cst_53 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_c_54 : Ref sig .tc := ⟨.hbm, 210, rfl⟩
abbrev main_v152 : Ref sig .tc := ⟨.hbm, 211, rfl⟩
abbrev main_v153 : Ref sig .tc := ⟨.hbm, 212, rfl⟩
abbrev main_c_55 : Ref sig .tc := ⟨.hbm, 213, rfl⟩
abbrev main_v154 : Ref sig .tc := ⟨.hbm, 214, rfl⟩
abbrev main_cst_56 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_c_57 : Ref sig .tc := ⟨.hbm, 222, rfl⟩
abbrev main_v161 : Ref sig .tc := ⟨.hbm, 223, rfl⟩
abbrev main_v162 : Ref sig .tc := ⟨.hbm, 224, rfl⟩
abbrev main_c_58 : Ref sig .tc := ⟨.hbm, 225, rfl⟩
abbrev main_v163 : Ref sig .tc := ⟨.hbm, 226, rfl⟩
abbrev main_cst_59 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_c_60 : Ref sig .tc := ⟨.hbm, 234, rfl⟩
abbrev main_v170 : Ref sig .tc := ⟨.hbm, 235, rfl⟩
abbrev main_c_61 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_c_62 : Ref sig .tc := ⟨.hbm, 240, rfl⟩
abbrev main_v174 : Ref sig .tc := ⟨.hbm, 241, rfl⟩
abbrev main_c_63 : Ref sig .tc := ⟨.hbm, 242, rfl⟩
abbrev main_v175 : Ref sig .tc := ⟨.hbm, 243, rfl⟩
abbrev main_v176 : Ref sig .tc := ⟨.hbm, 244, rfl⟩
abbrev main_cst_64 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_c_65 : Ref sig .tc := ⟨.hbm, 252, rfl⟩
abbrev main_v183 : Ref sig .tc := ⟨.hbm, 253, rfl⟩
abbrev main_c_66 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_c_67 : Ref sig .tc := ⟨.hbm, 258, rfl⟩
abbrev main_v187 : Ref sig .tc := ⟨.hbm, 259, rfl⟩
abbrev main_c_68 : Ref sig .tc := ⟨.hbm, 260, rfl⟩
abbrev main_v188 : Ref sig .tc := ⟨.hbm, 261, rfl⟩
abbrev main_v189 : Ref sig .tc := ⟨.hbm, 262, rfl⟩
abbrev main_cst_69 : Ref sig .tc := ⟨.hbm, 263, rfl⟩
abbrev main_v190 : Ref sig .tc := ⟨.hbm, 264, rfl⟩
abbrev main_v191 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_c_70 : Ref sig .tc := ⟨.hbm, 270, rfl⟩
abbrev main_v196 : Ref sig .tc := ⟨.hbm, 271, rfl⟩
abbrev main_v197 : Ref sig .tc := ⟨.hbm, 272, rfl⟩
abbrev main_c_71 : Ref sig .tc := ⟨.hbm, 273, rfl⟩
abbrev main_v198 : Ref sig .tc := ⟨.hbm, 274, rfl⟩
abbrev main_cst_72 : Ref sig .tc := ⟨.hbm, 275, rfl⟩
abbrev main_v199 : Ref sig .tc := ⟨.hbm, 276, rfl⟩
abbrev main_v200 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_v204 : Ref sig .tc := ⟨.hbm, 281, rfl⟩
abbrev main_c_73 : Ref sig .tc := ⟨.hbm, 282, rfl⟩
abbrev main_v205 : Ref sig .tc := ⟨.hbm, 283, rfl⟩
abbrev main_c_74 : Ref sig .tc := ⟨.hbm, 284, rfl⟩
abbrev main_v206 : Ref sig .tc := ⟨.hbm, 285, rfl⟩
abbrev main_v207 : Ref sig .tc := ⟨.hbm, 286, rfl⟩
abbrev main_v208 : Ref sig .tc := ⟨.hbm, 287, rfl⟩
abbrev main_c_75 : Ref sig .tc := ⟨.hbm, 288, rfl⟩
abbrev main_v209 : Ref sig .tc := ⟨.hbm, 289, rfl⟩
abbrev main_c_76 : Ref sig .tc := ⟨.hbm, 290, rfl⟩
abbrev main_v210 : Ref sig .tc := ⟨.hbm, 291, rfl⟩
abbrev main_v211 : Ref sig .tc := ⟨.hbm, 292, rfl⟩
abbrev main_cst_77 : Ref sig .tc := ⟨.hbm, 293, rfl⟩
abbrev main_v212 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_v216 : Ref sig .tc := ⟨.hbm, 298, rfl⟩
abbrev main_v217 : Ref sig .tc := ⟨.hbm, 299, rfl⟩
abbrev main_c_78 : Ref sig .tc := ⟨.hbm, 300, rfl⟩
abbrev main_v218 : Ref sig .tc := ⟨.hbm, 301, rfl⟩
abbrev main_c_79 : Ref sig .tc := ⟨.hbm, 302, rfl⟩
abbrev main_v219 : Ref sig .tc := ⟨.hbm, 303, rfl⟩
abbrev main_v220 : Ref sig .tc := ⟨.hbm, 304, rfl⟩
abbrev main_v221 : Ref sig .tc := ⟨.hbm, 305, rfl⟩
abbrev main_c_80 : Ref sig .tc := ⟨.hbm, 306, rfl⟩
abbrev main_v222 : Ref sig .tc := ⟨.hbm, 307, rfl⟩
abbrev main_c_81 : Ref sig .tc := ⟨.hbm, 308, rfl⟩
abbrev main_v223 : Ref sig .tc := ⟨.hbm, 309, rfl⟩
abbrev main_v224 : Ref sig .tc := ⟨.hbm, 310, rfl⟩
abbrev main_cst_82 : Ref sig .tc := ⟨.hbm, 311, rfl⟩
abbrev main_v225 : Ref sig .tc := ⟨.hbm, 312, rfl⟩
abbrev main_v226 : Ref sig .tc := ⟨.hbm, 313, rfl⟩
abbrev main_v227 : Ref sig .tc := ⟨.hbm, 314, rfl⟩
abbrev main_v228 : Ref sig .tc := ⟨.hbm, 315, rfl⟩
abbrev main_v229 : Ref sig .tc := ⟨.hbm, 316, rfl⟩
abbrev main_v230 : Ref sig .tc := ⟨.hbm, 317, rfl⟩
abbrev main_c_83 : Ref sig .tc := ⟨.hbm, 318, rfl⟩
abbrev main_v231 : Ref sig .tc := ⟨.hbm, 319, rfl⟩
abbrev main_c_84 : Ref sig .tc := ⟨.hbm, 320, rfl⟩
abbrev main_v232 : Ref sig .tc := ⟨.hbm, 321, rfl⟩
abbrev main_v233 : Ref sig .tc := ⟨.hbm, 322, rfl⟩
abbrev main_v234 : Ref sig .tc := ⟨.hbm, 323, rfl⟩
abbrev main_c_85 : Ref sig .tc := ⟨.hbm, 324, rfl⟩
abbrev main_v235 : Ref sig .tc := ⟨.hbm, 325, rfl⟩
abbrev main_c_86 : Ref sig .tc := ⟨.hbm, 326, rfl⟩
abbrev main_v236 : Ref sig .tc := ⟨.hbm, 327, rfl⟩
abbrev main_v237 : Ref sig .tc := ⟨.hbm, 328, rfl⟩
abbrev main_cst_87 : Ref sig .tc := ⟨.hbm, 329, rfl⟩
abbrev main_v238 : Ref sig .tc := ⟨.hbm, 330, rfl⟩
abbrev main_v239 : Ref sig .tc := ⟨.hbm, 331, rfl⟩
abbrev main_v240 : Ref sig .tc := ⟨.hbm, 332, rfl⟩
abbrev main_v241 : Ref sig .tc := ⟨.hbm, 333, rfl⟩
abbrev main_v242 : Ref sig .tc := ⟨.hbm, 334, rfl⟩
abbrev main_v243 : Ref sig .tc := ⟨.hbm, 335, rfl⟩
abbrev main_c_88 : Ref sig .tc := ⟨.hbm, 336, rfl⟩
abbrev main_v244 : Ref sig .tc := ⟨.hbm, 337, rfl⟩
abbrev main_c_89 : Ref sig .tc := ⟨.hbm, 338, rfl⟩
abbrev main_v245 : Ref sig .tc := ⟨.hbm, 339, rfl⟩
abbrev main_v246 : Ref sig .tc := ⟨.hbm, 340, rfl⟩
abbrev main_v247 : Ref sig .tc := ⟨.hbm, 341, rfl⟩
abbrev main_c_90 : Ref sig .tc := ⟨.hbm, 342, rfl⟩
abbrev main_v248 : Ref sig .tc := ⟨.hbm, 343, rfl⟩
abbrev main_c_91 : Ref sig .tc := ⟨.hbm, 344, rfl⟩
abbrev main_v249 : Ref sig .tc := ⟨.hbm, 345, rfl⟩
abbrev main_v250 : Ref sig .tc := ⟨.hbm, 346, rfl⟩
abbrev main_cst_92 : Ref sig .tc := ⟨.hbm, 347, rfl⟩
abbrev main_v251 : Ref sig .tc := ⟨.hbm, 348, rfl⟩
abbrev main_v252 : Ref sig .tc := ⟨.hbm, 349, rfl⟩
abbrev main_v253 : Ref sig .tc := ⟨.hbm, 350, rfl⟩
abbrev main_v254 : Ref sig .tc := ⟨.hbm, 351, rfl⟩
abbrev main_v255 : Ref sig .tc := ⟨.hbm, 352, rfl⟩
abbrev main_v256 : Ref sig .tc := ⟨.hbm, 353, rfl⟩
abbrev main_c_93 : Ref sig .tc := ⟨.hbm, 354, rfl⟩
abbrev main_v257 : Ref sig .tc := ⟨.hbm, 355, rfl⟩
abbrev main_v258 : Ref sig .tc := ⟨.hbm, 356, rfl⟩
abbrev main_c_94 : Ref sig .tc := ⟨.hbm, 357, rfl⟩
abbrev main_v259 : Ref sig .tc := ⟨.hbm, 358, rfl⟩
abbrev main_cst_95 : Ref sig .tc := ⟨.hbm, 359, rfl⟩
abbrev main_v260 : Ref sig .tc := ⟨.hbm, 360, rfl⟩
abbrev main_v261 : Ref sig .tc := ⟨.hbm, 361, rfl⟩
abbrev main_v262 : Ref sig .tc := ⟨.hbm, 362, rfl⟩
abbrev main_v263 : Ref sig .tc := ⟨.hbm, 363, rfl⟩
abbrev main_v264 : Ref sig .tc := ⟨.hbm, 364, rfl⟩
abbrev main_v265 : Ref sig .tc := ⟨.hbm, 365, rfl⟩
abbrev main_c_96 : Ref sig .tc := ⟨.hbm, 366, rfl⟩
abbrev main_v266 : Ref sig .tc := ⟨.hbm, 367, rfl⟩
abbrev main_c_97 : Ref sig .tc := ⟨.hbm, 368, rfl⟩
abbrev main_v267 : Ref sig .tc := ⟨.hbm, 369, rfl⟩
abbrev main_v268 : Ref sig .tc := ⟨.hbm, 370, rfl⟩
abbrev main_v269 : Ref sig .tc := ⟨.hbm, 371, rfl⟩
abbrev main_c_98 : Ref sig .tc := ⟨.hbm, 372, rfl⟩
abbrev main_v270 : Ref sig .tc := ⟨.hbm, 373, rfl⟩
abbrev main_c_99 : Ref sig .tc := ⟨.hbm, 374, rfl⟩
abbrev main_v271 : Ref sig .tc := ⟨.hbm, 375, rfl⟩
abbrev main_v272 : Ref sig .tc := ⟨.hbm, 376, rfl⟩
abbrev main_cst_100 : Ref sig .tc := ⟨.hbm, 377, rfl⟩
abbrev main_v273 : Ref sig .tc := ⟨.hbm, 378, rfl⟩
abbrev main_v274 : Ref sig .tc := ⟨.hbm, 379, rfl⟩
abbrev main_v275 : Ref sig .tc := ⟨.hbm, 380, rfl⟩
abbrev main_v276 : Ref sig .tc := ⟨.hbm, 381, rfl⟩
abbrev main_v277 : Ref sig .tc := ⟨.hbm, 382, rfl⟩
abbrev main_v278 : Ref sig .tc := ⟨.hbm, 383, rfl⟩
abbrev main_c_101 : Ref sig .tc := ⟨.hbm, 384, rfl⟩
abbrev main_v279 : Ref sig .tc := ⟨.hbm, 385, rfl⟩
abbrev main_c_102 : Ref sig .tc := ⟨.hbm, 386, rfl⟩
abbrev main_v280 : Ref sig .tc := ⟨.hbm, 387, rfl⟩
abbrev main_v281 : Ref sig .tc := ⟨.hbm, 388, rfl⟩
abbrev main_v282 : Ref sig .tc := ⟨.hbm, 389, rfl⟩
abbrev main_c_103 : Ref sig .tc := ⟨.hbm, 390, rfl⟩
abbrev main_v283 : Ref sig .tc := ⟨.hbm, 391, rfl⟩
abbrev main_c_104 : Ref sig .tc := ⟨.hbm, 392, rfl⟩
abbrev main_v284 : Ref sig .tc := ⟨.hbm, 393, rfl⟩
abbrev main_v285 : Ref sig .tc := ⟨.hbm, 394, rfl⟩
abbrev main_cst_105 : Ref sig .tc := ⟨.hbm, 395, rfl⟩
abbrev main_v286 : Ref sig .tc := ⟨.hbm, 396, rfl⟩
abbrev main_v287 : Ref sig .tc := ⟨.hbm, 397, rfl⟩
abbrev main_v288 : Ref sig .tc := ⟨.hbm, 398, rfl⟩
abbrev main_cst_106 : Ref sig .tc := ⟨.hbm, 399, rfl⟩
abbrev main_v289 : Ref sig .tc := ⟨.hbm, 400, rfl⟩
abbrev main_v290 : Ref sig .tc := ⟨.hbm, 401, rfl⟩
abbrev main_v291 : Ref sig .tc := ⟨.hbm, 402, rfl⟩
abbrev main_v292 : Ref sig .tc := ⟨.hbm, 403, rfl⟩
abbrev main_cst_107 : Ref sig .tc := ⟨.hbm, 404, rfl⟩
abbrev main_v293 : Ref sig .tc := ⟨.hbm, 405, rfl⟩
abbrev main_v294 : Ref sig .tc := ⟨.hbm, 406, rfl⟩
abbrev main_cst_108 : Ref sig .tc := ⟨.hbm, 407, rfl⟩
abbrev main_v295 : Ref sig .tc := ⟨.hbm, 408, rfl⟩
abbrev main_v296 : Ref sig .tc := ⟨.hbm, 409, rfl⟩
abbrev main_call0_cst : Ref sig .tc := ⟨.hbm, 410, rfl⟩
abbrev main_call0_v0 : Ref sig .tc := ⟨.hbm, 411, rfl⟩
abbrev main_call0_v1 : Ref sig .tc := ⟨.hbm, 412, rfl⟩
abbrev main_call0_v2 : Ref sig .tc := ⟨.hbm, 413, rfl⟩
abbrev main_call0_v3 : Ref sig .tc := ⟨.hbm, 414, rfl⟩
abbrev main_call0_v4 : Ref sig .tc := ⟨.hbm, 415, rfl⟩
abbrev main_call0_v5 : Ref sig .tc := ⟨.hbm, 416, rfl⟩
abbrev main_call0_v6 : Ref sig .tc := ⟨.hbm, 417, rfl⟩
abbrev main_call0_v7 : Ref sig .tc := ⟨.hbm, 418, rfl⟩
abbrev main_call0_v8 : Ref sig .tc := ⟨.hbm, 419, rfl⟩
abbrev main_call0_v9 : Ref sig .tc := ⟨.hbm, 420, rfl⟩
abbrev main_call0_v10 : Ref sig .tc := ⟨.hbm, 421, rfl⟩
abbrev main_call0_v11 : Ref sig .tc := ⟨.hbm, 422, rfl⟩
abbrev main_v297 : Ref sig .tc := ⟨.hbm, 423, rfl⟩
abbrev main_v298 : Ref sig .tc := ⟨.hbm, 424, rfl⟩
abbrev main_v299 : Ref sig .tc := ⟨.hbm, 425, rfl⟩
abbrev main_cst_109 : Ref sig .tc := ⟨.hbm, 426, rfl⟩
abbrev main_v300 : Ref sig .tc := ⟨.hbm, 427, rfl⟩
abbrev main_v301 : Ref sig .tc := ⟨.hbm, 428, rfl⟩
abbrev main_v302 : Ref sig .tc := ⟨.hbm, 429, rfl⟩
abbrev main_v303 : Ref sig .tc := ⟨.hbm, 430, rfl⟩
abbrev main_cst_110 : Ref sig .tc := ⟨.hbm, 431, rfl⟩
abbrev main_v304 : Ref sig .tc := ⟨.hbm, 432, rfl⟩
abbrev main_v305 : Ref sig .tc := ⟨.hbm, 433, rfl⟩
abbrev main_cst_111 : Ref sig .tc := ⟨.hbm, 434, rfl⟩
abbrev main_v306 : Ref sig .tc := ⟨.hbm, 435, rfl⟩
abbrev main_v307 : Ref sig .tc := ⟨.hbm, 436, rfl⟩
abbrev main_v308 : Ref sig .tc := ⟨.hbm, 437, rfl⟩
abbrev main_v309 : Ref sig .tc := ⟨.hbm, 438, rfl⟩
abbrev main_cst_112 : Ref sig .tc := ⟨.hbm, 439, rfl⟩
abbrev main_v310 : Ref sig .tc := ⟨.hbm, 440, rfl⟩
abbrev main_v311 : Ref sig .tc := ⟨.hbm, 441, rfl⟩
abbrev main_cst_113 : Ref sig .tc := ⟨.hbm, 442, rfl⟩
abbrev main_v312 : Ref sig .tc := ⟨.hbm, 443, rfl⟩
abbrev main_v313 : Ref sig .tc := ⟨.hbm, 444, rfl⟩
abbrev main_cst_114 : Ref sig .tc := ⟨.hbm, 445, rfl⟩
abbrev main_v314 : Ref sig .tc := ⟨.hbm, 446, rfl⟩
abbrev main_v315 : Ref sig .tc := ⟨.hbm, 447, rfl⟩
abbrev main_cst_115 : Ref sig .tc := ⟨.hbm, 448, rfl⟩
abbrev main_v316 : Ref sig .tc := ⟨.hbm, 449, rfl⟩
abbrev main_v317 : Ref sig .tc := ⟨.hbm, 450, rfl⟩
abbrev main_v318 : Ref sig .tc := ⟨.hbm, 451, rfl⟩
abbrev main_v319 : Ref sig .tc := ⟨.hbm, 452, rfl⟩

abbrev nD : Nat := 1
abbrev τ : Topo := Topo.v7x

variable {F : FTy → Type} [FloatOps F]

class Facts₀ : Prop where
  bcast_S_S32x1x768x768 : S_.BroadcastsInDim S32x1x768x768 (![] : Fin 0 → Fin S32x1x768x768.rank)
  slices_S32x1x768x768_S32x1x766x766_0_0_0_0 : S32x1x768x768.Slices ![0, 0, 0, 0] S32x1x766x766
  slices_S32x1x768x768_S32x1x766x766_0_0_2_2 : S32x1x768x768.Slices ![0, 0, 2, 2] S32x1x766x766
  bcast_S_S1 : S_.BroadcastsInDim S1 (![] : Fin 0 → Fin S1.rank)
  concatenates_S1_S1_S2_d0 : Shape.Concatenates [S1, S1] S2 0
  bcast_S_S32x1x766x766 : S_.BroadcastsInDim S32x1x766x766 (![] : Fin 0 → Fin S32x1x766x766.rank)
  slices_S32x1x768x768_S32x1x767x766_0_0_0_0 : S32x1x768x768.Slices ![0, 0, 0, 0] S32x1x767x766
  slices_S32x1x768x768_S32x1x767x766_0_0_1_2 : S32x1x768x768.Slices ![0, 0, 1, 2] S32x1x767x766
  bcast_S_S32x1x767x766 : S_.BroadcastsInDim S32x1x767x766 (![] : Fin 0 → Fin S32x1x767x766.rank)
  slices_S32x1x768x768_S32x1x768x766_0_0_0_0 : S32x1x768x768.Slices ![0, 0, 0, 0] S32x1x768x766
  slices_S32x1x768x768_S32x1x768x766_0_0_0_2 : S32x1x768x768.Slices ![0, 0, 0, 2] S32x1x768x766
  bcast_S_S32x1x768x766 : S_.BroadcastsInDim S32x1x768x766 (![] : Fin 0 → Fin S32x1x768x766.rank)
  slices_S32x1x768x768_S32x1x767x766_0_0_1_0 : S32x1x768x768.Slices ![0, 0, 1, 0] S32x1x767x766
  slices_S32x1x768x768_S32x1x767x766_0_0_0_2 : S32x1x768x768.Slices ![0, 0, 0, 2] S32x1x767x766
  slices_S32x1x768x768_S32x1x766x766_0_0_2_0 : S32x1x768x768.Slices ![0, 0, 2, 0] S32x1x766x766
  slices_S32x1x768x768_S32x1x766x766_0_0_0_2 : S32x1x768x768.Slices ![0, 0, 0, 2] S32x1x766x766
  slices_S32x1x768x768_S32x1x766x767_0_0_0_0 : S32x1x768x768.Slices ![0, 0, 0, 0] S32x1x766x767
  slices_S32x1x768x768_S32x1x766x767_0_0_2_1 : S32x1x768x768.Slices ![0, 0, 2, 1] S32x1x766x767
  bcast_S_S32x1x766x767 : S_.BroadcastsInDim S32x1x766x767 (![] : Fin 0 → Fin S32x1x766x767.rank)
  slices_S32x1x768x768_S32x1x767x767_0_0_0_0 : S32x1x768x768.Slices ![0, 0, 0, 0] S32x1x767x767
  slices_S32x1x768x768_S32x1x767x767_0_0_1_1 : S32x1x768x768.Slices ![0, 0, 1, 1] S32x1x767x767
  bcast_S_S32x1x767x767 : S_.BroadcastsInDim S32x1x767x767 (![] : Fin 0 → Fin S32x1x767x767.rank)
  slices_S32x1x768x768_S32x1x768x767_0_0_0_0 : S32x1x768x768.Slices ![0, 0, 0, 0] S32x1x768x767
  slices_S32x1x768x768_S32x1x768x767_0_0_0_1 : S32x1x768x768.Slices ![0, 0, 0, 1] S32x1x768x767
  bcast_S_S32x1x768x767 : S_.BroadcastsInDim S32x1x768x767 (![] : Fin 0 → Fin S32x1x768x767.rank)
  slices_S32x1x768x768_S32x1x767x767_0_0_1_0 : S32x1x768x768.Slices ![0, 0, 1, 0] S32x1x767x767
  slices_S32x1x768x768_S32x1x767x767_0_0_0_1 : S32x1x768x768.Slices ![0, 0, 0, 1] S32x1x767x767
  slices_S32x1x768x768_S32x1x766x767_0_0_2_0 : S32x1x768x768.Slices ![0, 0, 2, 0] S32x1x766x767
  slices_S32x1x768x768_S32x1x766x767_0_0_0_1 : S32x1x768x768.Slices ![0, 0, 0, 1] S32x1x766x767
  slices_S32x1x768x768_S32x1x766x768_0_0_0_0 : S32x1x768x768.Slices ![0, 0, 0, 0] S32x1x766x768
  slices_S32x1x768x768_S32x1x766x768_0_0_2_0 : S32x1x768x768.Slices ![0, 0, 2, 0] S32x1x766x768
  bcast_S_S32x1x766x768 : S_.BroadcastsInDim S32x1x766x768 (![] : Fin 0 → Fin S32x1x766x768.rank)
  slices_S32x1x768x768_S32x1x767x768_0_0_0_0 : S32x1x768x768.Slices ![0, 0, 0, 0] S32x1x767x768
  slices_S32x1x768x768_S32x1x767x768_0_0_1_0 : S32x1x768x768.Slices ![0, 0, 1, 0] S32x1x767x768
  bcast_S_S32x1x767x768 : S_.BroadcastsInDim S32x1x767x768 (![] : Fin 0 → Fin S32x1x767x768.rank)
  reducesTo_S32x1x768x768_S32x1_d2_3 : S32x1x768x768.ReducesTo [2, 3] S32x1
  h_S_ : 0 < S_.numel
  bcast_S32x1_S32x1x1x1_0_1 : S32x1.BroadcastsInDim S32x1x1x1 (![0, 1] : Fin 2 → Fin S32x1x1x1.rank)
  bcast_S_S32x1x1x1 : S_.BroadcastsInDim S32x1x1x1 (![] : Fin 0 → Fin S32x1x1x1.rank)
  bcast_S32x1x1x1_S32x1x768x768_0_1_2_3 : S32x1x1x1.BroadcastsInDim S32x1x768x768 (![0, 1, 2, 3] : Fin 4 → Fin S32x1x768x768.rank)
  scatter_S32x1x768x768_S2_S32x1x766x766_0123_n_23_0_wf : ScatterDims.WF S32x1x768x768 S2 S32x1x766x766 [0, 1, 2, 3] [] [2, 3] 0
  scatter_S32x1x768x768_S2_S32x1x767x766_0123_n_23_0_wf : ScatterDims.WF S32x1x768x768 S2 S32x1x767x766 [0, 1, 2, 3] [] [2, 3] 0
  scatter_S32x1x768x768_S1_S32x1x768x766_0123_n_3_0_wf : ScatterDims.WF S32x1x768x768 S1 S32x1x768x766 [0, 1, 2, 3] [] [3] 0
  scatter_S32x1x768x768_S2_S32x1x766x767_0123_n_23_0_wf : ScatterDims.WF S32x1x768x768 S2 S32x1x766x767 [0, 1, 2, 3] [] [2, 3] 0
  scatter_S32x1x768x768_S2_S32x1x767x767_0123_n_23_0_wf : ScatterDims.WF S32x1x768x768 S2 S32x1x767x767 [0, 1, 2, 3] [] [2, 3] 0
  scatter_S32x1x768x768_S1_S32x1x768x767_0123_n_3_0_wf : ScatterDims.WF S32x1x768x768 S1 S32x1x768x767 [0, 1, 2, 3] [] [3] 0
  scatter_S32x1x768x768_S1_S32x1x766x768_0123_n_2_0_wf : ScatterDims.WF S32x1x768x768 S1 S32x1x766x768 [0, 1, 2, 3] [] [2] 0
  scatter_S32x1x768x768_S1_S32x1x767x768_0123_n_2_0_wf : ScatterDims.WF S32x1x768x768 S1 S32x1x767x768 [0, 1, 2, 3] [] [2] 0

variable [Facts₀]

def scatter_S32x1x768x768_S2_S32x1x766x766_0123_n_23_0 : ScatterDims S32x1x768x768 S2 S32x1x766x766 where
  updateWindowDims := [0, 1, 2, 3]
  insertedWindowDims := []
  scatterDimsToOperandDims := [2, 3]
  indexVectorDim := 0
  wf := scatter_S32x1x768x768_S2_S32x1x766x766_0123_n_23_0_wf
def scatter_S32x1x768x768_S2_S32x1x767x766_0123_n_23_0 : ScatterDims S32x1x768x768 S2 S32x1x767x766 where
  updateWindowDims := [0, 1, 2, 3]
  insertedWindowDims := []
  scatterDimsToOperandDims := [2, 3]
  indexVectorDim := 0
  wf := scatter_S32x1x768x768_S2_S32x1x767x766_0123_n_23_0_wf
def scatter_S32x1x768x768_S1_S32x1x768x766_0123_n_3_0 : ScatterDims S32x1x768x768 S1 S32x1x768x766 where
  updateWindowDims := [0, 1, 2, 3]
  insertedWindowDims := []
  scatterDimsToOperandDims := [3]
  indexVectorDim := 0
  wf := scatter_S32x1x768x768_S1_S32x1x768x766_0123_n_3_0_wf
def scatter_S32x1x768x768_S2_S32x1x766x767_0123_n_23_0 : ScatterDims S32x1x768x768 S2 S32x1x766x767 where
  updateWindowDims := [0, 1, 2, 3]
  insertedWindowDims := []
  scatterDimsToOperandDims := [2, 3]
  indexVectorDim := 0
  wf := scatter_S32x1x768x768_S2_S32x1x766x767_0123_n_23_0_wf
def scatter_S32x1x768x768_S2_S32x1x767x767_0123_n_23_0 : ScatterDims S32x1x768x768 S2 S32x1x767x767 where
  updateWindowDims := [0, 1, 2, 3]
  insertedWindowDims := []
  scatterDimsToOperandDims := [2, 3]
  indexVectorDim := 0
  wf := scatter_S32x1x768x768_S2_S32x1x767x767_0123_n_23_0_wf
def scatter_S32x1x768x768_S1_S32x1x768x767_0123_n_3_0 : ScatterDims S32x1x768x768 S1 S32x1x768x767 where
  updateWindowDims := [0, 1, 2, 3]
  insertedWindowDims := []
  scatterDimsToOperandDims := [3]
  indexVectorDim := 0
  wf := scatter_S32x1x768x768_S1_S32x1x768x767_0123_n_3_0_wf
def scatter_S32x1x768x768_S1_S32x1x766x768_0123_n_2_0 : ScatterDims S32x1x768x768 S1 S32x1x766x768 where
  updateWindowDims := [0, 1, 2, 3]
  insertedWindowDims := []
  scatterDimsToOperandDims := [2]
  indexVectorDim := 0
  wf := scatter_S32x1x768x768_S1_S32x1x766x768_0123_n_2_0_wf
def scatter_S32x1x768x768_S1_S32x1x767x768_0123_n_2_0 : ScatterDims S32x1x768x768 S1 S32x1x767x768 where
  updateWindowDims := [0, 1, 2, 3]
  insertedWindowDims := []
  scatterDimsToOperandDims := [2]
  indexVectorDim := 0
  wf := scatter_S32x1x768x768_S1_S32x1x767x768_0123_n_2_0_wf

class Facts : Prop extends Facts₀ where

variable [Facts]
-- ==== Proof.Stencil.lean ====
/-
  The 24-neighbour stencil, free of any program.

  For an image `P` over rows and columns `0 … 767` (given as a function of two natural numbers) and a neighbour
  offset `(oy, ox)`, `-2 ≤ oy, ox ≤ 2`, not both zero, the pixels that HAVE that neighbour form the rectangle of rows
  `[ry, ry + hh)` and columns `[rx, rx + ww)`, where `ry = max 0 oy`, `hh = 768 - |oy|`, and likewise `rx`, `ww`; the
  neighbour of `(i, j)` is `(i - ry + ty, j - rx + tx)` with `ty = max 0 (-oy)`, `tx = max 0 (-ox)`. The offset's TERM at
  `(i, j)` is the squared difference of `P` at the pixel and at the neighbour inside the rectangle and `0` outside; its
  COUNT is `1` inside and `0` outside.

  One program adds the 24 terms with the row offset outermost, the other with the column offset outermost. Addition of
  extended reals is commutative and associative (`⊥ + ⊤ = ⊥` included), so the two sums are equal whatever `P` is:
  no finiteness is used.
-/
import Idealize.ShloMosaic.PureOps.Ideal

noncomputable section

namespace Cert.Stencil

/-- Pixel `(i, j)` lies in the rectangle of rows `[ry, ry + hh)` and columns `[rx, rx + ww)`. -/
abbrev inRect (ry rx hh ww i j : Nat) : Prop := ry ≤ i ∧ i < ry + hh ∧ rx ≤ j ∧ j < rx + ww

/-- One offset's term: the squared difference with the neighbour inside the rectangle, `0` outside. -/
def term (P : Nat → Nat → EReal) (ry rx ty tx hh ww i j : Nat) : EReal :=
  if inRect ry rx hh ww i j then
    (P i j - P (i - ry + ty) (j - rx + tx)) * (P i j - P (i - ry + ty) (j - rx + tx))
  else 0

/-- One offset's count: `1` inside the rectangle, `0` outside. -/
def cnt (one : EReal) (ry rx hh ww i j : Nat) : EReal := if inRect ry rx hh ww i j then one else 0

/-- A step "inside the rectangle add `v`, outside leave as it is" is "add the value that is `v` inside and `0` outside". -/
theorem ite_add_eq_add_ite (c : Prop) [Decidable c] (a v : EReal) :
    (if c then a + v else a) = a + (if c then v else 0) := by
  by_cases h : c
  · rw [if_pos h, if_pos h]
  · rw [if_neg h, if_neg h, add_zero]

/-- The same with the condition's proof available to the value (a dependent `if`). -/
theorem dite_add_eq_add_ite (c : Prop) [Decidable c] (a : EReal) (v : c → EReal) (v' : EReal) (hv : ∀ h, v h = v') :
    (if h : c then a + v h else a) = a + (if c then v' else 0) := by
  by_cases h : c
  · rw [dif_pos h, if_pos h, hv h]
  · rw [dif_neg h, if_neg h, add_zero]

/-- The 24 terms added with the ROW offset outermost (row offsets `-2 … 2`, inside each the column offsets `-2 … 2`). -/
def accRows (P : Nat → Nat → EReal) (i j : Nat) : EReal :=
  0 + term P 0 0 2 2 766 766 i j + term P 0 0 2 1 766 767 i j + term P 0 0 2 0 766 768 i j
    + term P 0 1 2 0 766 767 i j + term P 0 2 2 0 766 766 i j
    + term P 0 0 1 2 767 766 i j + term P 0 0 1 1 767 767 i j + term P 0 0 1 0 767 768 i j
    + term P 0 1 1 0 767 767 i j + term P 0 2 1 0 767 766 i j
    + term P 0 0 0 2 768 766 i j + term P 0 0 0 1 768 767 i j
    + term P 0 1 0 0 768 767 i j + term P 0 2 0 0 768 766 i j
    + term P 1 0 0 2 767 766 i j + term P 1 0 0 1 767 767 i j + term P 1 0 0 0 767 768 i j
    + term P 1 1 0 0 767 767 i j + term P 1 2 0 0 767 766 i j
    + term P 2 0 0 2 766 766 i j + term P 2 0 0 1 766 767 i j + term P 2 0 0 0 766 768 i j
    + term P 2 1 0 0 766 767 i j + term P 2 2 0 0 766 766 i j

/-- The 24 terms added with the COLUMN offset outermost. -/
def accCols (P : Nat → Nat → EReal) (i j : Nat) : EReal :=
  0 + term P 0 0 2 2 766 766 i j + term P 0 0 1 2 767 766 i j + term P 0 0 0 2 768 766 i j
    + term P 1 0 0 2 767 766 i j + term P 2 0 0 2 766 766 i j
    + term P 0 0 2 1 766 767 i j + term P 0 0 1 1 767 767 i j + term P 0 0 0 1 768 767 i j
    + term P 1 0 0 1 767 767 i j + term P 2 0 0 1 766 767 i j
    + term P 0 0 2 0 766 768 i j + term P 0 0 1 0 767 768 i j
    + term P 1 0 0 0 767 768 i j + term P 2 0 0 0 766 768 i j
    + term P 0 1 2 0 766 767 i j + term P 0 1 1 0 767 767 i j + term P 0 1 0 0 768 767 i j
    + term P 1 1 0 0 767 767 i j + term P 2 1 0 0 766 767 i j
    + term P 0 2 2 0 766 766 i j + term P 0 2 1 0 767 766 i j + term P 0 2 0 0 768 766 i j
    + term P 1 2 0 0 767 766 i j + term P 2 2 0 0 766 766 i j

/-- The two orders give one sum. -/
theorem accRows_eq_accCols (P : Nat → Nat → EReal) (i j : Nat) : accRows P i j = accCols P i j := by
  unfold accRows accCols
  ac_rfl

/-- The 24 counts added with the row offset outermost. -/
def cntRows (one : EReal) (i j : Nat) : EReal :=
  0 + cnt one 0 0 766 766 i j + cnt one 0 0 766 767 i j + cnt one 0 0 766 768 i j
    + cnt one 0 1 766 767 i j + cnt one 0 2 766 766 i j
    + cnt one 0 0 767 766 i j + cnt one 0 0 767 767 i j + cnt one 0 0 767 768 i j
    + cnt one 0 1 767 767 i j + cnt one 0 2 767 766 i j
    + cnt one 0 0 768 766 i j + cnt one 0 0 768 767 i j
    + cnt one 0 1 768 767 i j + cnt one 0 2 768 766 i j
    + cnt one 1 0 767 766 i j + cnt one 1 0 767 767 i j + cnt one 1 0 767 768 i j
    + cnt one 1 1 767 767 i j + cnt one 1 2 767 766 i j
    + cnt one 2 0 766 766 i j + cnt one 2 0 766 767 i j + cnt one 2 0 766 768 i j
    + cnt one 2 1 766 767 i j + cnt one 2 2 766 766 i j

/-- The 24 counts added with the column offset outermost. -/
def cntCols (one : EReal) (i j : Nat) : EReal :=
  0 + cnt one 0 0 766 766 i j + cnt one 0 0 767 766 i j + cnt one 0 0 768 766 i j
    + cnt one 1 0 767 766 i j + cnt one 2 0 766 766 i j
    + cnt one 0 0 766 767 i j + cnt one 0 0 767 767 i j + cnt one 0 0 768 767 i j
    + cnt one 1 0 767 767 i j + cnt one 2 0 766 767 i j
    + cnt one 0 0 766 768 i j + cnt one 0 0 767 768 i j
    + cnt one 1 0 767 768 i j + cnt one 2 0 766 768 i j
    + cnt one 0 1 766 767 i j + cnt one 0 1 767 767 i j + cnt one 0 1 768 767 i j
    + cnt one 1 1 767 767 i j + cnt one 2 1 766 767 i j
    + cnt one 0 2 766 766 i j + cnt one 0 2 767 766 i j + cnt one 0 2 768 766 i j
    + cnt one 1 2 767 766 i j + cnt one 2 2 766 766 i j

/-- The two orders give one count. -/
theorem cntRows_eq_cntCols (one : EReal) (i j : Nat) : cntRows one i j = cntCols one i j := by
  unfold cntRows cntCols
  ac_rfl

end Cert.Stencil

end
-- ==== Proof.KStencil.lean ====
/-
  A rectangular piece placed inside a larger array of zeros, read at an index.

  A program pads a piece with zero rows and zero columns by concatenations; each concatenation keeps the statement
  "the array is the piece placed with its corner at (ry, rx), zero elsewhere", moving the corner when the zeros come
  first. A piece that is the squared difference of two windows of one image, placed at the first window's offsets,
  is one term of the 24-neighbour stencil.

  The kernel's accumulator is then read at an index: zero, plus the 24 terms in the order "row offset outermost", and the
  value made of it is one minus the sum over the divisor, times the entropy factor.
-/
import Idealize.ShloMosaic.Lib.Pipeline.Value
import Idealize.ShloMosaic.Lib.ValueIdx
import Idealize.ShloMosaic.PureOps.Ideal.Laws
import proofs.«119324_j40802189312445_2_alg».proof.Proof.Stencil
import proofs.«119324_j40802189312445_2_alg».proof.Proof.Gen.KernelIdeal.Skeleton

noncomputable section

namespace Cert.KernelIdeal.KStencil

open Idealize.ShloMosaic Idealize.ShloMosaic.ValueIdx Cert.KernelIdeal Cert.KernelIdeal.Gen Cert.Stencil

/-- A piece of shape [hh, ww] as an image over two naturals: the piece inside its extents, zero outside. -/
def img {hh ww : Nat} (q : (⟨2, ![hh, ww]⟩ : Shape).Idx → EReal) (a b : Nat) : EReal :=
  if h : a < hh ∧ b < ww then q (ix2 ⟨a, h.1⟩ ⟨b, h.2⟩) else 0

/-- The array A of shape [R, C] is the image Q's rectangle [0, hh) × [0, ww) placed with its corner at (ry, rx), and
    zero elsewhere; the rectangle fits. -/
def Placed {R C : Nat} (A : (⟨2, ![R, C]⟩ : Shape).Idx → EReal) (Q : Nat → Nat → EReal) (ry rx hh ww : Nat) : Prop :=
  (ry + hh ≤ R ∧ rx + ww ≤ C) ∧
    ∀ (i : Fin R) (j : Fin C), A (ix2 i j) = if inRect ry rx hh ww i.val j.val then Q (i.val - ry) (j.val - rx) else 0

/-- A piece is itself placed at the origin. -/
theorem placed_self {hh ww : Nat} (q : (⟨2, ![hh, ww]⟩ : Shape).Idx → EReal) : Placed q (img q) 0 0 hh ww := by
  refine ⟨⟨by omega, by omega⟩, fun i j => ?_⟩
  rw [if_pos ⟨Nat.zero_le _, by have := i.isLt; omega, Nat.zero_le _, by have := j.isLt; omega⟩]
  unfold img
  rw [dif_pos ⟨i.isLt, j.isLt⟩]
  rfl

/-- Zero rows appended below: the corner stays. -/
theorem placed_rowsAfter {R R' C z : Nat} {A : (⟨2, ![R, C]⟩ : Shape).Idx → EReal} {Q : Nat → Nat → EReal} {ry rx hh ww : Nat}
    (c : EReal) (hc : c = 0)
    (hcat : Shape.Concatenates [(⟨2, ![R, C]⟩ : Shape), ⟨2, ![z, C]⟩] ⟨2, ![R', C]⟩ 0) (hR : R' = R + z)
    (hA : Placed A Q ry rx hh ww) :
    Placed (concatenate (⟨2, ![R', C]⟩ : Shape) 0 [⟨⟨2, ![R, C]⟩, A⟩, ⟨⟨2, ![z, C]⟩, broadcast ⟨2, ![z, C]⟩ c⟩] hcat)
      Q ry rx hh ww := by
  obtain ⟨⟨hb1, hb2⟩, hA⟩ := hA
  refine ⟨⟨by omega, hb2⟩, fun i j => ?_⟩
  by_cases hi : i.val < R
  · refine (concatenate_pair_apply_left (t := ⟨2, ![R', C]⟩) 0 A _ hcat (ix2 i j) rfl (ix2 ⟨i.val, hi⟩ j)
      (fun b => match b with | ⟨0, _⟩ => rfl | ⟨1, _⟩ => rfl)).trans ?_
    exact hA ⟨i.val, hi⟩ j
  · refine (concatenate_pair_apply_right (t := ⟨2, ![R', C]⟩) 0 A _ hcat (ix2 i j) rfl rfl
      (ix2 ⟨i.val - R, by have := i.isLt; omega⟩ j)
      (fun b => match b with | ⟨0, _⟩ => fun h => absurd rfl h | ⟨1, _⟩ => fun _ => rfl)
      (by show i.val - R + R = i.val; omega)).trans ?_
    rw [if_neg (fun h => by have := h.2.1; omega)]
    exact hc

/-- Zero rows put on top: the corner moves down by their number. -/
theorem placed_rowsBefore {R R' C z : Nat} {A : (⟨2, ![R, C]⟩ : Shape).Idx → EReal} {Q : Nat → Nat → EReal} {ry ry' rx hh ww : Nat}
    (c : EReal) (hc : c = 0)
    (hcat : Shape.Concatenates [(⟨2, ![z, C]⟩ : Shape), ⟨2, ![R, C]⟩] ⟨2, ![R', C]⟩ 0) (hR : R' = z + R) (hry : ry' = ry + z)
    (hA : Placed A Q ry rx hh ww) :
    Placed (concatenate (⟨2, ![R', C]⟩ : Shape) 0 [⟨⟨2, ![z, C]⟩, broadcast ⟨2, ![z, C]⟩ c⟩, ⟨⟨2, ![R, C]⟩, A⟩] hcat)
      Q ry' rx hh ww := by
  obtain ⟨⟨hb1, hb2⟩, hA⟩ := hA
  refine ⟨⟨by omega, hb2⟩, fun i j => ?_⟩
  by_cases hi : i.val < z
  · refine (concatenate_pair_apply_left (t := ⟨2, ![R', C]⟩) 0 _ A hcat (ix2 i j) rfl (ix2 ⟨i.val, hi⟩ j)
      (fun b => match b with | ⟨0, _⟩ => rfl | ⟨1, _⟩ => rfl)).trans ?_
    rw [if_neg (fun h => by have := h.1; omega)]
    exact hc
  · refine (concatenate_pair_apply_right (t := ⟨2, ![R', C]⟩) 0 _ A hcat (ix2 i j) rfl rfl
      (ix2 ⟨i.val - z, by have := i.isLt; omega⟩ j)
      (fun b => match b with | ⟨0, _⟩ => fun h => absurd rfl h | ⟨1, _⟩ => fun _ => rfl)
      (by show i.val - z + z = i.val; omega)).trans ?_
    refine (hA ⟨i.val - z, by have := i.isLt; omega⟩ j).trans ?_
    show (if inRect ry rx hh ww (i.val - z) j.val then Q (i.val - z - ry) (j.val - rx) else 0) = _
    by_cases h : inRect ry' rx hh ww i.val j.val
    · obtain ⟨a1, a2, a3, a4⟩ := h
      rw [if_pos ⟨by omega, by omega, a3, a4⟩, if_pos ⟨a1, a2, a3, a4⟩, show i.val - z - ry = i.val - ry' by omega]
    · rw [if_neg (fun h' => h (by obtain ⟨a1, a2, a3, a4⟩ := h'; exact ⟨by omega, by omega, a3, a4⟩)), if_neg h]

/-- Zero columns appended on the right: the corner stays. -/
theorem placed_colsAfter {R C C' z : Nat} {A : (⟨2, ![R, C]⟩ : Shape).Idx → EReal} {Q : Nat → Nat → EReal} {ry rx hh ww : Nat}
    (c : EReal) (hc : c = 0)
    (hcat : Shape.Concatenates [(⟨2, ![R, C]⟩ : Shape), ⟨2, ![R, z]⟩] ⟨2, ![R, C']⟩ 1) (hC : C' = C + z)
    (hA : Placed A Q ry rx hh ww) :
    Placed (concatenate (⟨2, ![R, C']⟩ : Shape) 1 [⟨⟨2, ![R, C]⟩, A⟩, ⟨⟨2, ![R, z]⟩, broadcast ⟨2, ![R, z]⟩ c⟩] hcat)
      Q ry rx hh ww := by
  obtain ⟨⟨hb1, hb2⟩, hA⟩ := hA
  refine ⟨⟨hb1, by omega⟩, fun i j => ?_⟩
  by_cases hj : j.val < C
  · refine (concatenate_pair_apply_left (t := ⟨2, ![R, C']⟩) 1 A _ hcat (ix2 i j) rfl (ix2 i ⟨j.val, hj⟩)
      (fun b => match b with | ⟨0, _⟩ => rfl | ⟨1, _⟩ => rfl)).trans ?_
    exact hA i ⟨j.val, hj⟩
  · refine (concatenate_pair_apply_right (t := ⟨2, ![R, C']⟩) 1 A _ hcat (ix2 i j) rfl rfl
      (ix2 i ⟨j.val - C, by have := j.isLt; omega⟩)
      (fun b => match b with | ⟨0, _⟩ => fun _ => rfl | ⟨1, _⟩ => fun h => absurd rfl h)
      (by show j.val - C + C = j.val; omega)).trans ?_
    rw [if_neg (fun h => by have := h.2.2.2; omega)]
    exact hc

/-- Zero columns put on the left: the corner moves right by their number. -/
theorem placed_colsBefore {R C C' z : Nat} {A : (⟨2, ![R, C]⟩ : Shape).Idx → EReal} {Q : Nat → Nat → EReal} {ry rx rx' hh ww : Nat}
    (c : EReal) (hc : c = 0)
    (hcat : Shape.Concatenates [(⟨2, ![R, z]⟩ : Shape), ⟨2, ![R, C]⟩] ⟨2, ![R, C']⟩ 1) (hC : C' = z + C) (hrx : rx' = rx + z)
    (hA : Placed A Q ry rx hh ww) :
    Placed (concatenate (⟨2, ![R, C']⟩ : Shape) 1 [⟨⟨2, ![R, z]⟩, broadcast ⟨2, ![R, z]⟩ c⟩, ⟨⟨2, ![R, C]⟩, A⟩] hcat)
      Q ry rx' hh ww := by
  obtain ⟨⟨hb1, hb2⟩, hA⟩ := hA
  refine ⟨⟨hb1, by omega⟩, fun i j => ?_⟩
  by_cases hj : j.val < z
  · refine (concatenate_pair_apply_left (t := ⟨2, ![R, C']⟩) 1 _ A hcat (ix2 i j) rfl (ix2 i ⟨j.val, hj⟩)
      (fun b => match b with | ⟨0, _⟩ => rfl | ⟨1, _⟩ => rfl)).trans ?_
    rw [if_neg (fun h => by have := h.2.2.1; omega)]
    exact hc
  · refine (concatenate_pair_apply_right (t := ⟨2, ![R, C']⟩) 1 _ A hcat (ix2 i j) rfl rfl
      (ix2 i ⟨j.val - z, by have := j.isLt; omega⟩)
      (fun b => match b with | ⟨0, _⟩ => fun _ => rfl | ⟨1, _⟩ => fun h => absurd rfl h)
      (by show j.val - z + z = j.val; omega)).trans ?_
    refine (hA i ⟨j.val - z, by have := j.isLt; omega⟩).trans ?_
    show (if inRect ry rx hh ww i.val (j.val - z) then Q (i.val - ry) (j.val - z - rx) else 0) = _
    by_cases h : inRect ry rx' hh ww i.val j.val
    · obtain ⟨a1, a2, a3, a4⟩ := h
      rw [if_pos ⟨a1, a2, by omega, by omega⟩, if_pos ⟨a1, a2, a3, a4⟩, show j.val - z - rx = j.val - rx' by omega]
    · rw [if_neg (fun h' => h (by obtain ⟨a1, a2, a3, a4⟩ := h'; exact ⟨a1, a2, by omega, by omega⟩)), if_neg h]

/-- The zero the padding broadcasts: the integer 0 converted. -/
theorem z0 : Scalar.sitofp (F := Ideal) .f32 0#32 = (0 : EReal) := by
  rw [Ideal.scalar_sitofp_def]
  norm_num

/-- A placed squared difference of two windows of the image V, the first window at the corner's offsets, is one
    stencil term: inside the rectangle the pixel minus its neighbour, squared; outside zero. -/
theorem term_of_placed {hh ww : Nat} (V : (⟨2, ![768, 768]⟩ : Shape).Idx → EReal) (P : Nat → Nat → EReal)
    (hP : ∀ a b : Fin 768, V (ix2 a b) = P a.val b.val) (ry rx ty tx : Nat)
    (h1 : (⟨2, ![768, 768]⟩ : Shape).Slices ![ry, rx] ⟨2, ![hh, ww]⟩)
    (h2 : (⟨2, ![768, 768]⟩ : Shape).Slices ![ty, tx] ⟨2, ![hh, ww]⟩)
    (b2 : ty + hh ≤ 768 ∧ tx + ww ≤ 768)
    (A : (⟨2, ![768, 768]⟩ : Shape).Idx → EReal)
    (hA : Placed A (img (mulf (F := Ideal) (φ := .f32)
      (subf (extractStridedSlice ⟨2, ![hh, ww]⟩ ![ry, rx] V h1) (extractStridedSlice ⟨2, ![hh, ww]⟩ ![ty, tx] V h2))
      (subf (extractStridedSlice ⟨2, ![hh, ww]⟩ ![ry, rx] V h1) (extractStridedSlice ⟨2, ![hh, ww]⟩ ![ty, tx] V h2))))
      ry rx hh ww)
    (i j : Fin 768) : A (ix2 i j) = term P ry rx ty tx hh ww i.val j.val := by
  unfold term
  refine (hA.2 i j).trans ?_
  by_cases h : inRect ry rx hh ww i.val j.val
  · rw [if_pos h, if_pos h]
    obtain ⟨a1, a2, a3, a4⟩ := h
    unfold img
    rw [dif_pos ⟨by omega, by omega⟩, mulf_apply, subf_apply]
    rw [extractStridedSlice_apply ![ry, rx] V h1 _ (ix2 i j)
      (fun a => match a with
        | ⟨0, _⟩ => by show i.val = ry + (i.val - ry); omega
        | ⟨1, _⟩ => by show j.val = rx + (j.val - rx); omega)]
    rw [extractStridedSlice_apply ![ty, tx] V h2 _
      (ix2 ⟨i.val - ry + ty, by omega⟩ ⟨j.val - rx + tx, by omega⟩)
      (fun a => match a with
        | ⟨0, _⟩ => by show i.val - ry + ty = ty + (i.val - ry); omega
        | ⟨1, _⟩ => by show j.val - rx + tx = tx + (j.val - rx); omega)]
    rw [hP, hP]
  · rw [if_neg h, if_neg h]

/-! ## The kernel's accumulator, payload by payload

The kernel adds the 24 terms to an accumulator that starts at zero, the row offset outermost. Each lemma reads one
stretch of that chain at an index: the incoming accumulator plus that stretch's terms. -/

/-- The accumulator after the first term: zero plus the term of offset (-2, -2). -/
theorem pay7_apply (Y : Vec Ideal S1x768x768 .f32) (P : Nat → Nat → EReal)
    (hP : ∀ a b : Fin 768, k0_pay5 Y (ix2 a b) = P a.val b.val) (i j : Fin 768) :
    k0_pay7 Y (ix2 i j) = 0 + term P 0 0 2 2 766 766 i.val j.val := by
  simp only [k0_pay7, addf_apply, broadcast_apply]
  refine congrArg₂ (· + ·) Ideal.ofBits_zero_f32 ?t1
  case t1 =>
    exact term_of_placed (k0_pay5 Y) P hP 0 0 2 2 _ _ (by omega) _
      (placed_colsAfter _ z0 _ rfl (placed_rowsAfter _ z0 _ rfl (placed_self _))) i j

/-- Terms 2 to 6: the rest of row offset -2 and the first of row offset -1. -/
theorem pay10_apply (Y : Vec Ideal S1x768x768 .f32) (v41 : FVec Ideal S768x768 .f32) (P : Nat → Nat → EReal)
    (hP : ∀ a b : Fin 768, k0_pay5 Y (ix2 a b) = P a.val b.val) (i j : Fin 768) :
    k0_pay10 (k0_pay5 Y) v41 (k0_pay8 Y) (k0_pay9 Y) (ix2 i j)
      = v41 (ix2 i j)
        + term P 0 0 2 1 766 767 i.val j.val
        + term P 0 0 2 0 766 768 i.val j.val
        + term P 0 1 2 0 766 767 i.val j.val
        + term P 0 2 2 0 766 766 i.val j.val
        + term P 0 0 1 2 767 766 i.val j.val := by
  simp only [k0_pay10, k0_pay8, k0_pay9, addf_apply]
  refine congrArg₂ (· + ·) (congrArg₂ (· + ·) (congrArg₂ (· + ·) (congrArg₂ (· + ·) (congrArg₂ (· + ·) (rfl) ?t2) ?t3) ?t4) ?t5) ?t6
  case t2 =>
    exact term_of_placed (k0_pay5 Y) P hP 0 0 2 1 _ _ (by omega) _
      (placed_colsAfter _ z0 _ rfl (placed_rowsAfter _ z0 _ rfl (placed_self _))) i j
  case t3 =>
    exact term_of_placed (k0_pay5 Y) P hP 0 0 2 0 _ _ (by omega) _
      (placed_rowsAfter _ z0 _ rfl (placed_self _)) i j
  case t4 =>
    exact term_of_placed (k0_pay5 Y) P hP 0 1 2 0 _ _ (by omega) _
      (placed_colsBefore _ z0 _ rfl rfl (placed_rowsAfter _ z0 _ rfl (placed_self _))) i j
  case t5 =>
    exact term_of_placed (k0_pay5 Y) P hP 0 2 2 0 _ _ (by omega) _
      (placed_colsBefore _ z0 _ rfl rfl (placed_rowsAfter _ z0 _ rfl (placed_self _))) i j
  case t6 =>
    exact term_of_placed (k0_pay5 Y) P hP 0 0 1 2 _ _ (by omega) _
      (placed_colsAfter _ z0 _ rfl (placed_rowsAfter _ z0 _ rfl (placed_self _))) i j

/-- Terms 7 to 13: the rest of row offset -1 and the row offset 0 up to column offset +1. -/
theorem pay14_apply (V : FVec Ideal S768x768 .f32) (v89 : FVec Ideal S768x768 .f32) (P : Nat → Nat → EReal)
    (hP : ∀ a b : Fin 768, V (ix2 a b) = P a.val b.val) (i j : Fin 768) :
    k0_pay14 V v89 (k0_pay12 V) (k0_pay13 (F := Ideal)) (ix2 i j)
      = v89 (ix2 i j)
        + term P 0 0 1 1 767 767 i.val j.val
        + term P 0 0 1 0 767 768 i.val j.val
        + term P 0 1 1 0 767 767 i.val j.val
        + term P 0 2 1 0 767 766 i.val j.val
        + term P 0 0 0 2 768 766 i.val j.val
        + term P 0 0 0 1 768 767 i.val j.val
        + term P 0 1 0 0 768 767 i.val j.val := by
  simp only [k0_pay14, k0_pay12, k0_pay13, k0_pay11, addf_apply]
  refine congrArg₂ (· + ·) (congrArg₂ (· + ·) (congrArg₂ (· + ·) (congrArg₂ (· + ·) (congrArg₂ (· + ·) (congrArg₂ (· + ·) (congrArg₂ (· + ·) (rfl) ?t7) ?t8) ?t9) ?t10) ?t11) ?t12) ?t13
  case t7 =>
    exact term_of_placed V P hP 0 0 1 1 _ _ (by omega) _
      (placed_colsAfter _ z0 _ rfl (placed_rowsAfter _ z0 _ rfl (placed_self _))) i j
  case t8 =>
    exact term_of_placed V P hP 0 0 1 0 _ _ (by omega) _
      (placed_rowsAfter _ z0 _ rfl (placed_self _)) i j
  case t9 =>
    exact term_of_placed V P hP 0 1 1 0 _ _ (by omega) _
      (placed_colsBefore _ z0 _ rfl rfl (placed_rowsAfter _ z0 _ rfl (placed_self _))) i j
  case t10 =>
    exact term_of_placed V P hP 0 2 1 0 _ _ (by omega) _
      (placed_colsBefore _ z0 _ rfl rfl (placed_rowsAfter _ z0 _ rfl (placed_self _))) i j
  case t11 =>
    exact term_of_placed V P hP 0 0 0 2 _ _ (by omega) _
      (placed_colsAfter _ z0 _ rfl (placed_self _)) i j
  case t12 =>
    exact term_of_placed V P hP 0 0 0 1 _ _ (by omega) _
      (placed_colsAfter _ z0 _ rfl (placed_self _)) i j
  case t13 =>
    exact term_of_placed V P hP 0 1 0 0 _ _ (by omega) _
      (placed_colsBefore _ z0 _ rfl rfl (placed_self _)) i j

/-- Terms 14 to 18: the last of row offset 0 and row offset +1 up to column offset +1. -/
theorem pay15_apply (V : FVec Ideal S768x768 .f32) (v151 : FVec Ideal S768x768 .f32) (P : Nat → Nat → EReal)
    (hP : ∀ a b : Fin 768, V (ix2 a b) = P a.val b.val) (i j : Fin 768) :
    k0_pay15 V v151 (ix2 i j)
      = v151 (ix2 i j)
        + term P 0 2 0 0 768 766 i.val j.val
        + term P 1 0 0 2 767 766 i.val j.val
        + term P 1 0 0 1 767 767 i.val j.val
        + term P 1 0 0 0 767 768 i.val j.val
        + term P 1 1 0 0 767 767 i.val j.val := by
  simp only [k0_pay15, addf_apply]
  refine congrArg₂ (· + ·) (congrArg₂ (· + ·) (congrArg₂ (· + ·) (congrArg₂ (· + ·) (congrArg₂ (· + ·) (rfl) ?t14) ?t15) ?t16) ?t17) ?t18
  case t14 =>
    exact term_of_placed V P hP 0 2 0 0 _ _ (by omega) _
      (placed_colsBefore _ z0 _ rfl rfl (placed_self _)) i j
  case t15 =>
    exact term_of_placed V P hP 1 0 0 2 _ _ (by omega) _
      (placed_colsAfter _ z0 _ rfl (placed_rowsBefore _ z0 _ rfl rfl (placed_self _))) i j
  case t16 =>
    exact term_of_placed V P hP 1 0 0 1 _ _ (by omega) _
      (placed_colsAfter _ z0 _ rfl (placed_rowsBefore _ z0 _ rfl rfl (placed_self _))) i j
  case t17 =>
    exact term_of_placed V P hP 1 0 0 0 _ _ (by omega) _
      (placed_rowsBefore _ z0 _ rfl rfl (placed_self _)) i j
  case t18 =>
    exact term_of_placed V P hP 1 1 0 0 _ _ (by omega) _
      (placed_colsBefore _ z0 _ rfl rfl (placed_rowsBefore _ z0 _ rfl rfl (placed_self _))) i j

/-- Terms 19 to 24 and what is made of the sum: one minus the sum over the divisor, times the factor. -/
theorem pay19_apply (D V v30 v197 : FVec Ideal S768x768 .f32) (P : Nat → Nat → EReal)
    (hP : ∀ a b : Fin 768, V (ix2 a b) = P a.val b.val) (i j : Fin 768) :
    k0_pay19 D V v30 v197 (k0_pay17 V) (k0_pay18 (F := Ideal)) (ix2 i j)
      = (Ideal.ofBits .f32 0x3F800000#32 - Ideal.div (v197 (ix2 i j)
        + term P 1 2 0 0 767 766 i.val j.val
        + term P 2 0 0 2 766 766 i.val j.val
        + term P 2 0 0 1 766 767 i.val j.val
        + term P 2 0 0 0 766 768 i.val j.val
        + term P 2 1 0 0 766 767 i.val j.val
        + term P 2 2 0 0 766 766 i.val j.val)
          (D (ix2 i j))) * v30 (ix2 i j) := by
  simp only [k0_pay19, k0_pay17, k0_pay18, k0_pay16, mulf_apply, subf_apply, divf_apply, addf_apply, broadcast_apply]
  refine congrArg (fun x => (Ideal.ofBits .f32 0x3F800000#32 - Ideal.div x (D (ix2 i j))) * v30 (ix2 i j)) ?_
  refine congrArg₂ (· + ·) (congrArg₂ (· + ·) (congrArg₂ (· + ·) (congrArg₂ (· + ·) (congrArg₂ (· + ·) (congrArg₂ (· + ·) (rfl) ?t19) ?t20) ?t21) ?t22) ?t23) ?t24
  case t19 =>
    exact term_of_placed V P hP 1 2 0 0 _ _ (by omega) _
      (placed_colsBefore _ z0 _ rfl rfl (placed_rowsBefore _ z0 _ rfl rfl (placed_self _))) i j
  case t20 =>
    exact term_of_placed V P hP 2 0 0 2 _ _ (by omega) _
      (placed_colsAfter _ z0 _ rfl (placed_rowsBefore _ z0 _ rfl rfl (placed_self _))) i j
  case t21 =>
    exact term_of_placed V P hP 2 0 0 1 _ _ (by omega) _
      (placed_colsAfter _ z0 _ rfl (placed_rowsBefore _ z0 _ rfl rfl (placed_self _))) i j
  case t22 =>
    exact term_of_placed V P hP 2 0 0 0 _ _ (by omega) _
      (placed_rowsBefore _ z0 _ rfl rfl (placed_self _)) i j
  case t23 =>
    exact term_of_placed V P hP 2 1 0 0 _ _ (by omega) _
      (placed_colsBefore _ z0 _ rfl rfl (placed_rowsBefore _ z0 _ rfl rfl (placed_self _))) i j
  case t24 =>
    exact term_of_placed V P hP 2 2 0 0 _ _ (by omega) _
      (placed_colsBefore _ z0 _ rfl rfl (placed_rowsBefore _ z0 _ rfl rfl (placed_self _))) i j

/-- THE KERNEL'S STENCIL AT AN INDEX: the accumulator is the 24 terms added with the row offset outermost, and the
    payload is one minus that sum over the divisor, times the factor. -/
theorem stencil_apply (Y : Vec Ideal S1x768x768 .f32) (D : FVec Ideal S768x768 .f32) (P : Nat → Nat → EReal)
    (hP : ∀ a b : Fin 768, k0_pay5 Y (ix2 a b) = P a.val b.val) (i j : Fin 768) :
    k0_pay19 D (k0_pay5 Y) (k0_pay6 Y)
        (k0_pay15 (k0_pay5 Y) (k0_pay14 (k0_pay5 Y) (k0_pay10 (k0_pay5 Y) (k0_pay7 Y) (k0_pay8 Y) (k0_pay9 Y))
          (k0_pay12 (k0_pay5 Y)) (k0_pay13 (F := Ideal))))
        (k0_pay17 (k0_pay5 Y)) (k0_pay18 (F := Ideal)) (ix2 i j)
      = (Ideal.ofBits .f32 0x3F800000#32 - Ideal.div (Cert.Stencil.accRows P i.val j.val) (D (ix2 i j))) * k0_pay6 Y (ix2 i j) := by
  refine (pay19_apply D (k0_pay5 Y) (k0_pay6 Y) _ P hP i j).trans ?_
  rw [pay15_apply (k0_pay5 Y) _ P hP i j, pay14_apply (k0_pay5 Y) _ P hP i j, pay10_apply Y _ P hP i j,
    pay7_apply Y P hP i j]
  unfold Cert.Stencil.accRows
  rfl

end Cert.KernelIdeal.KStencil

end
-- ==== Proof.KTail.lean ====
/-
  The last stretch of the kernel read at an index.

  The weights are w = 0.9 · max(c, g) + 0.1, entry by entry (c the value computed before, g the ground truth). The
  program sums them along each row, then sums the row sums, divides the total by the number of entries (a constant),
  spreads that one number over the whole array and divides the weights by it. Read at (0, i, j) that is
  w(i, j) / (Σ_r Σ_c w(r, c) / N).
-/
import Idealize.ShloMosaic.Lib.Pipeline.Value
import Idealize.ShloMosaic.Lib.ValueIdx
import Idealize.ShloMosaic.PureOps.Ideal.Laws
import proofs.«119324_j40802189312445_2_alg».proof.Proof.Gen.KernelIdeal.Skeleton

noncomputable section

namespace Cert.KernelIdeal.KTail

open Idealize.ShloMosaic Idealize.ShloMosaic.ValueIdx Cert.KernelIdeal Cert.KernelIdeal.Gen
open scoped BigOperators

/-- The weight at (r, c): 0.9 times the larger of the computed value and the ground truth, plus 0.1. -/
def wK (G C : FVec Ideal S768x768 .f32) (r c : Fin 768) : EReal :=
  Ideal.ofBits .f32 0x3F666666#32 * max (C (ix2 r c)) (G (ix2 r c)) + Ideal.ofBits .f32 0x3DCCCCCD#32

/-- The sum along the column axis of a 768 × 768 array, read at row r: the sum of the row's entries. -/
theorem rowSum_apply (src : FVec Ideal S768x768 .f32) (h : S768x768.Reduces [1] S768) (hφ : FKind.Formats .f32)
    (hacc : (0x00000000#32 : BitVec 32) = FKind.add.neutral .f32 hφ) (r : Fin 768) :
    multiReduction .add [1] S768 src 0x00000000#32 h hφ hacc (ix1 r) = ∑ c : Fin 768, src (ix2 r c) := by
  refine (Ideal.multiReduction_add_single src 0x00000000#32 h hφ hacc (ix1 r)).trans ?_
  refine Finset.sum_congr rfl fun c _ => congrArg src ?_
  funext a
  match a with
  | ⟨0, _⟩ => rfl
  | ⟨1, _⟩ => rfl

/-- The sum along the row axis of a 768 × 1 array: the sum of its entries. -/
theorem colSum_apply (src : FVec Ideal S768x1 .f32) (h : S768x1.Reduces [0] S1) (hφ : FKind.Formats .f32)
    (hacc : (0x00000000#32 : BitVec 32) = FKind.add.neutral .f32 hφ) :
    multiReduction .add [0] S1 src 0x00000000#32 h hφ hacc (ix1 (0 : Fin 1)) = ∑ r : Fin 768, src (ix2 r (0 : Fin 1)) := by
  refine (Ideal.multiReduction_add_single src 0x00000000#32 h hφ hacc (ix1 (0 : Fin 1))).trans ?_
  refine Finset.sum_congr rfl fun r _ => congrArg src ?_
  funext a
  match a with
  | ⟨0, _⟩ => rfl
  | ⟨1, _⟩ => rfl

/-- A vector of 768 entries recast as a 768 × 1 column keeps its entries. -/
theorem castCol_apply (x : FVec Ideal S768 .f32) (h : S768.ShapeCasts S768x1) (r : Fin 768) (z : Fin 1) :
    shapeCast S768x1 x h (ix2 r z) = x (ix1 r) := by
  refine shapeCast_apply x h (ix2 r z) (ix1 r) ?_
  rw [Shape.rowMajor_val_one, Shape.rowMajor_val_two]
  show r.val = r.val * 1 + z.val
  have := z.isLt
  omega

/-- A one-entry vector recast as a 1 × 1 array keeps its entry. -/
theorem castOne_apply (x : FVec Ideal S1 .f32) (h : S1.ShapeCasts S1x1) :
    shapeCast S1x1 x h (ix2 (0 : Fin 1) (0 : Fin 1)) = x (ix1 (0 : Fin 1)) := by
  refine shapeCast_apply x h (ix2 (0 : Fin 1) (0 : Fin 1)) (ix1 (0 : Fin 1)) ?_
  rw [Shape.rowMajor_val_one, Shape.rowMajor_val_two]
  rfl

/-- A 768 × 768 array recast with a leading unit axis keeps its entries. -/
theorem castLead_apply (x : FVec Ideal S768x768 .f32) (h : S768x768.ShapeCasts S1x768x768) (i j : Fin 768) :
    shapeCast S1x768x768 x h (ix3 (0 : Fin 1) i j) = x (ix2 i j) := by
  refine shapeCast_apply x h (ix3 (0 : Fin 1) i j) (ix2 i j) ?_
  rw [Shape.rowMajor_val_two, Shape.rowMajor_val_three]
  show i.val * 768 + j.val = (0 * 768 + i.val) * 768 + j.val
  omega

/-- A 1 × 1 array spread over 768 × 768 reads its one entry everywhere. -/
theorem spread_apply (x : FVec Ideal S1x1 .f32) (h : S1x1.Broadcasts S768x768) (i j : Fin 768) :
    broadcastTo S768x768 x h (ix2 i j) = x (ix2 (0 : Fin 1) (0 : Fin 1)) :=
  broadcastTo_apply x h (ix2 i j) (ix2 (0 : Fin 1) (0 : Fin 1)) (fun a => match a with | ⟨0, _⟩ => rfl | ⟨1, _⟩ => rfl)

/-- THE TAIL AT AN INDEX: the weight over the mean weight. -/
theorem tail_apply (G C : FVec Ideal S768x768 .f32) (i j : Fin 768) :
    k0_pay1 G C (ix3 (0 : Fin 1) i j)
      = Ideal.div (wK G C i j)
          (Ideal.div (∑ r : Fin 768, ∑ c : Fin 768, wK G C r c) (Ideal.ofBits .f32 0x49100000#32)) := by
  simp only [k0_pay1]
  refine (castLead_apply _ _ i j).trans ?_
  refine (divf_apply _ _ _).trans ?_
  refine congrArg₂ Ideal.div rfl ?_
  refine (spread_apply _ _ i j).trans ?_
  refine (divf_apply _ _ _).trans ?_
  refine congrArg₂ Ideal.div ?_ rfl
  refine (castOne_apply _ _).trans ?_
  refine (colSum_apply _ _ _ _).trans ?_
  refine Finset.sum_congr rfl fun r _ => ?_
  refine (castCol_apply _ _ r (0 : Fin 1)).trans ?_
  refine (rowSum_apply _ _ _ _ r).trans ?_
  exact Finset.sum_congr rfl fun c _ => rfl

end Cert.KernelIdeal.KTail

end
-- ==== Proof.Pt.lean ====
/-
  The per-pixel scalar functions both programs compute, on the extended reals.

  `sg y` is the logistic function `1 / (1 + e^(-y))` (with the corners `⊥ ↦ 0`, `⊤ ↦ 1`); `sp y` is the softplus in the
  numerically stable spelling `max y 0 + log1p (e^(-|y|))`, where `|y| = max y (-y)`; `ent y` is one plus the scaled
  binary-entropy expression `(sg y · (y - sp y) - (1 - sg y) · sp y) · c`. The float literals (one, and the scale `c`, the
  single-precision word nearest `1 / ln 2`) are kept as the words both programs write: they are never evaluated.
  Both programs guard the softplus by a test `y - 0 ≠ y - 0` for a not-a-number; on the extended reals the test is
  false at every `y`, so the guarded expression is `sp y`.
-/
import Idealize.ShloMosaic.PureOps.Ideal

noncomputable section

namespace Cert.Pt

open Idealize.ShloMosaic

/-- The float one, as the word both programs write. -/
abbrev one : EReal := Ideal.ofBits .f32 0x3F800000#32
/-- The entropy's scale, the single-precision word nearest `1 / ln 2`. -/
abbrev c : EReal := Ideal.ofBits .f32 0x3FB8AA3B#32

/-- The logistic function. -/
def sg (y : EReal) : EReal := Ideal.logistic y

/-- The softplus, `max y 0 + log1p (e^(-|y|))`. -/
def sp (y : EReal) : EReal := max y 0 + Ideal.log1p (Ideal.exp (-(max y (-y))))

/-- One plus the scaled binary-entropy expression. -/
def ent (y : EReal) : EReal := one + (sg y * (y - sp y) - (one - sg y) * sp y) * c

end Cert.Pt

end
-- ==== Proof.KPoint.lean ====
/-
  The kernel's pointwise values read at an index.

  The input block [1, 768, 768] is recast as [768, 768] (entry (0, a, b) goes to (a, b)). At each entry y the program
  takes the logistic function of y, and one plus the scaled binary-entropy expression of y, whose softplus is written
  max y 0 + log1p (e^(-|y|)) under a guard "y - 0 ≠ y - 0 ? y + 0 : …"; on the extended reals nothing differs from
  itself, so the guard always takes the softplus. The program's zeros are the zero word, which denotes 0.
-/
import Idealize.ShloMosaic.Lib.Pipeline.Value
import Idealize.ShloMosaic.Lib.ValueIdx
import Idealize.ShloMosaic.PureOps.Ideal.Laws
import proofs.«119324_j40802189312445_2_alg».proof.Proof.Pt
import proofs.«119324_j40802189312445_2_alg».proof.Proof.Gen.KernelIdeal.Skeleton

noncomputable section

namespace Cert.KernelIdeal.KPoint

open Idealize.ShloMosaic Idealize.ShloMosaic.ValueIdx Cert.KernelIdeal Cert.KernelIdeal.Gen

/-- A [1, 768, 768] block recast as [768, 768], read at (a, b): the block at (0, a, b). -/
theorem pay2_apply (Y : Vec Ideal S1x768x768 .f32) (a b : Fin 768) :
    k0_pay2 Y (ix2 a b) = Y (ix3 (0 : Fin 1) a b) := by
  simp only [k0_pay2]
  refine shapeCast_apply Y _ (ix2 a b) (ix3 (0 : Fin 1) a b) ?_
  rw [Shape.rowMajor_val_three, Shape.rowMajor_val_two]
  show (0 * 768 + a.val) * 768 + b.val = a.val * 768 + b.val
  omega

/-- The same recast of the ground-truth block. -/
theorem pay3_apply (G : Vec Ideal S1x768x768 .f32) (a b : Fin 768) :
    k0_pay3 G (ix2 a b) = G (ix3 (0 : Fin 1) a b) := by
  simp only [k0_pay3]
  refine shapeCast_apply G _ (ix2 a b) (ix3 (0 : Fin 1) a b) ?_
  rw [Shape.rowMajor_val_three, Shape.rowMajor_val_two]
  show (0 * 768 + a.val) * 768 + b.val = a.val * 768 + b.val
  omega

/-- A recast to the same shape changes nothing. -/
theorem pay4_eq (D : Vec Ideal S768x768 .f32) : k0_pay4 D = D := by
  simp only [k0_pay4]
  exact shapeCast_self _ _

/-- The logistic image at (a, b): the logistic function of the block's entry. -/
theorem pay5_apply (Y : Vec Ideal S1x768x768 .f32) (a b : Fin 768) :
    k0_pay5 Y (ix2 a b) = Cert.Pt.sg (Y (ix3 (0 : Fin 1) a b)) :=
  congrArg Ideal.logistic (pay2_apply Y a b)

/-- The guarded softplus as the program writes it, over its zero z: if y - z differs from itself then y + z, else
    max y z + log1p (e^(z - |y - z|)). -/
def gsp (z y : EReal) : EReal :=
  Scalar.select (Ideal.cmp .one (y - z) (y - z)) (y + z)
    (max y z + Ideal.log1p (Ideal.exp (z - max (y - z) (-(y - z)))))

/-- With z = 0 the guard is never taken and the expression is the softplus. -/
theorem gsp_zero (y : EReal) : gsp 0 y = Cert.Pt.sp y := by
  unfold gsp Cert.Pt.sp
  have h : Ideal.cmp .one (y - 0) (y - 0) = 0#1 := by simp [Ideal.cmp]
  rw [h, select_zero, sub_zero, zero_sub]

/-- The entropy factor at (a, b): one plus the scaled binary-entropy expression of the block's entry. -/
theorem pay6_apply (Y : Vec Ideal S1x768x768 .f32) (a b : Fin 768) :
    k0_pay6 Y (ix2 a b) = Cert.Pt.ent (Y (ix3 (0 : Fin 1) a b)) := by
  have e : k0_pay6 Y (ix2 a b)
      = Cert.Pt.one + (k0_pay5 Y (ix2 a b) * (k0_pay2 Y (ix2 a b) - gsp (Ideal.ofBits .f32 0x00000000#32) (k0_pay2 Y (ix2 a b)))
          - (Cert.Pt.one - k0_pay5 Y (ix2 a b)) * gsp (Ideal.ofBits .f32 0x00000000#32) (k0_pay2 Y (ix2 a b))) * Cert.Pt.c := rfl
  rw [e, Ideal.ofBits_zero_f32, gsp_zero, pay5_apply, pay2_apply]
  rfl

end Cert.KernelIdeal.KPoint

end
-- ==== Proof.KBlocks.lean ====
/-
  The two argument blocks the body reads, as entries of the arguments.

  The host recasts each argument from [32, 1, 768, 768] to [32, 768, 768] before the launch; the kernel's first two windows
  cut block (t, 0, 0) of shape [1, 768, 768] out of those at grid point t. So the block's entry (0, a, b) is the
  argument's entry (t, 0, a, b).
-/
import proofs.«119324_j40802189312445_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic
import Idealize.ShloMosaic.PureOps.Ideal.Laws

set_option maxRecDepth 16384

noncomputable section

namespace Cert.KernelIdeal.KBlocks

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ)

/-- A grid point is below 32. -/
theorem tlt (t : Fin cfg0.N) : t.val < 32 := by
  have h := t.isLt
  have e : cfg0.N = 32 := N_0
  omega

/-- The index maps, decided over the 32 grid points: windows 0, 1 and 3 take block (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- A [32, 1, 768, 768] array recast as [32, 768, 768], read at (n, a, b): the array at (n, 0, a, b). -/
theorem castIn_apply (Y : S32x1x768x768.Idx → EReal) (h : S32x1x768x768.ShapeCasts S32x768x768) (n : Fin 32) (a b : Fin 768) :
    shapeCast S32x768x768 Y h (ix3 n a b) = Y (ix4 n (0 : Fin 1) a b) := by
  refine shapeCast_apply Y h (ix3 n a b) (ix4 n (0 : Fin 1) a b) ?_
  rw [Shape.rowMajor_val_four, Shape.rowMajor_val_three]
  show ((n.val * 1 + 0) * 768 + a.val) * 768 + b.val = (n.val * 768 + a.val) * 768 + b.val
  omega

set_option maxHeartbeats 4000000 in
/-- The array window 0 is cut from, as the kernel finds it: the first argument recast. -/
theorem V_v0 (c : Dev nD) : (V (F := Ideal) m c main_v0 : S32x768x768.Idx → EReal)
    = shapeCast S32x768x768 (m ((c : Thread nD τ).loc main_arg0) : S32x1x768x768.Idx → EReal) shapeCasts_S32x1x768x768_S32x768x768 := by
  dsimp only [Gen.V, Gen.V0]
  simp only [Gen.hostOps0, List.flatten_cons, List.flatten_nil, List.append_nil, List.cons_append, List.nil_append]
  after_results_simp
  rfl

set_option maxHeartbeats 4000000 in
/-- The array window 1 is cut from: the second argument recast. -/
theorem V_v1 (c : Dev nD) : (V (F := Ideal) m c main_v1 : S32x768x768.Idx → EReal)
    = shapeCast S32x768x768 (m ((c : Thread nD τ).loc main_arg1) : S32x1x768x768.Idx → EReal) shapeCasts_S32x1x768x768_S32x768x768 := by
  dsimp only [Gen.V, Gen.V0]
  simp only [Gen.hostOps0, List.flatten_cons, List.flatten_nil, List.append_nil, List.cons_append, List.nil_append]
  after_results_simp
  rfl

/-- Window 0's block at point t, at (0, a, b): the first argument at (t, 0, a, b). -/
theorem iblk0_apply (c : Dev nD) (t : Fin cfg0.N) (a b : Fin 768) :
    (iblk (F := Ideal) m c 0 t : Vec Ideal S1x768x768 .f32) (ix3 (0 : Fin 1) a b)
      = (m ((c : Thread nD τ).loc main_arg0) : S32x1x768x768.Idx → EReal) (ix4 (⟨t.val, tlt t⟩ : Fin 32) (0 : Fin 1) a b) := by
  obtain ⟨e0, e1, e2, -⟩ := idx_facts t
  unfold iblk
  rw [View.read_apply]
  show (V (F := Ideal) m c main_v0 : S32x768x768.Idx → EReal) (((cfg0.win 0).blk t).view.emb (ix3 (0 : Fin 1) a b)) = _
  have hk : ((cfg0.win 0).blk t).view.emb (ix3 (0 : Fin 1) a b) = (ix3 (⟨t.val, tlt t⟩ : Fin 32) a b : S32x768x768.Idx) := by
    funext x; apply Fin.ext
    match x with
    | ⟨0, _⟩ => show win0_0.index t (0 : Fin 3) * 1 + 1 * 0 = t.val; omega
    | ⟨1, _⟩ => show win0_0.index t (1 : Fin 3) * 768 + 1 * a.val = a.val; omega
    | ⟨2, _⟩ => show win0_0.index t (2 : Fin 3) * 768 + 1 * b.val = b.val; omega
  rw [hk]
  exact (congrFun (V_v0 m c) _).trans (castIn_apply _ _ _ a b)

/-- Window 1's block at point t, at (0, a, b): the second argument at (t, 0, a, b). -/
theorem iblk1_apply (c : Dev nD) (t : Fin cfg0.N) (a b : Fin 768) :
    (iblk (F := Ideal) m c 1 t : Vec Ideal S1x768x768 .f32) (ix3 (0 : Fin 1) a b)
      = (m ((c : Thread nD τ).loc main_arg1) : S32x1x768x768.Idx → EReal) (ix4 (⟨t.val, tlt t⟩ : Fin 32) (0 : Fin 1) a b) := by
  obtain ⟨-, -, -, e0, e1, e2, -⟩ := idx_facts t
  unfold iblk
  rw [View.read_apply]
  show (V (F := Ideal) m c main_v1 : S32x768x768.Idx → EReal) (((cfg0.win 1).blk t).view.emb (ix3 (0 : Fin 1) a b)) = _
  have hk : ((cfg0.win 1).blk t).view.emb (ix3 (0 : Fin 1) a b) = (ix3 (⟨t.val, tlt t⟩ : Fin 32) a b : S32x768x768.Idx) := by
    funext x; apply Fin.ext
    match x with
    | ⟨0, _⟩ => show win0_1.index t (0 : Fin 3) * 1 + 1 * 0 = t.val; omega
    | ⟨1, _⟩ => show win0_1.index t (1 : Fin 3) * 768 + 1 * a.val = a.val; omega
    | ⟨2, _⟩ => show win0_1.index t (2 : Fin 3) * 768 + 1 * b.val = b.val; omega
  rw [hk]
  exact (congrFun (V_v1 m c) _).trans (castIn_apply _ _ _ a b)

end Cert.KernelIdeal.KBlocks

end
-- ==== Proof.LibScatter.lean ====
/-
  A host scatter read at an index.

  `Host.scatter d f x idx upd` is the left fold, over the update positions in row-major order, of the step
  "if update `j` lands inside the operand at `i`, replace the element at `i` by `f` of it and `upd j`".
  When at most one update lands on any element (one scatter index: the landing map `j ↦ start + window j` is
  injective), the fold read at `i` is

    * `x i` when no update lands on `i`, and
    * `f (x i) (upd j)` when update `j` does,

  whatever `f` is: no commutativity or associativity is used, only that each element is met at most once.
  The two statements are first proved for the fold over any list without repetition, then specialised.
-/
import Idealize.ShloMosaic.PureOps.ShapeOps
import Idealize.ShloMosaic.Lib.ValueIdx

namespace Idealize.ShloMosaic.ScatterRead

variable {ι κ α : Type} [DecidableEq ι]

/-- One step of the fold: position `n` lands at `g n` (or nowhere) and carries the value `v n`. -/
def step (f : α → α → α) (g : κ → Option ι) (v : κ → α) (r : ι → α) (n : κ) : ι → α :=
  match g n with
  | some i => fun i' => if i' = i then f (r i) (v n) else r i'
  | none => r

/-- A step whose position does not land on `i` leaves the element at `i` alone. -/
theorem step_of_ne (f : α → α → α) (g : κ → Option ι) (v : κ → α) (r : ι → α) (n : κ) (i : ι)
    (h : g n ≠ some i) : step f g v r n i = r i := by
  unfold step
  cases hg : g n with
  | none => rfl
  | some i₀ =>
    have hne : i ≠ i₀ := fun e => h (by rw [hg, e])
    simp only [if_neg hne]

/-- A step whose position lands on `i` combines the element at `i` with the position's value. -/
theorem step_of_eq (f : α → α → α) (g : κ → Option ι) (v : κ → α) (r : ι → α) (n : κ) (i : ι)
    (h : g n = some i) : step f g v r n i = f (r i) (v n) := by
  unfold step
  rw [h]
  simp only [if_true]

/-- MISS: no position of the list lands on `i`, so the fold leaves the element at `i` as it was. -/
theorem foldl_miss (f : α → α → α) (g : κ → Option ι) (v : κ → α) (i : ι) :
    ∀ (l : List κ) (x : ι → α), (∀ n ∈ l, g n ≠ some i) → l.foldl (step f g v) x i = x i
  | [], _, _ => rfl
  | a :: t, x, h => by
    rw [List.foldl_cons, foldl_miss f g v i t _ (fun n hn => h n (List.mem_cons_of_mem _ hn))]
    exact step_of_ne f g v x a i (h a List.mem_cons_self)

/-- HIT: exactly one position `n₀` of a list without repetition lands on `i`; the fold leaves there the start
    value combined with that position's value. -/
theorem foldl_hit (f : α → α → α) (g : κ → Option ι) (v : κ → α) (i : ι) (n₀ : κ) (h₀ : g n₀ = some i) :
    ∀ (l : List κ) (x : ι → α), l.Nodup → n₀ ∈ l → (∀ n ∈ l, g n = some i → n = n₀) →
      l.foldl (step f g v) x i = f (x i) (v n₀)
  | [], _, _, hm, _ => absurd hm List.not_mem_nil
  | a :: t, x, hnd, hm, huniq => by
    rw [List.foldl_cons]
    have hnd' := List.nodup_cons.mp hnd
    by_cases ha : a = n₀
    · subst ha
      rw [foldl_miss f g v i t _ (fun n hn e => hnd'.1 (by
        have := huniq n (List.mem_cons_of_mem _ hn) e; rw [← this]; exact hn))]
      exact step_of_eq f g v x a i h₀
    · have hmt : n₀ ∈ t := by
        rcases List.mem_cons.mp hm with e | e
        · exact absurd e.symm ha
        · exact e
      rw [foldl_hit f g v i n₀ h₀ t _ hnd'.2 hmt (fun n hn => huniq n (List.mem_cons_of_mem _ hn))]
      rw [step_of_ne f g v x a i (fun e => ha (huniq a List.mem_cons_self e))]

end Idealize.ShloMosaic.ScatterRead

namespace Idealize.ShloMosaic

open ScatterRead

variable {α : Type} {s si u : Shape} {w : Nat}

/-- `Host.scatter` is the fold of `ScatterRead.step` over the row-major positions of the update. -/
theorem Host.scatter_eq_foldl_step (d : ScatterDims s si u) (f : α → α → α) (x : s.Idx → α) (idx : IVec si w)
    (upd : u.Idx → α) :
    Host.scatter d f x idx upd =
      (List.finRange u.numel).foldl
        (step f (fun n => d.resultIdx? (u.rowMajor.symm n) idx) (fun n => upd (u.rowMajor.symm n))) x := by
  unfold Host.scatter
  congr 1
  funext r n
  unfold step
  dsimp only
  cases d.resultIdx? (u.rowMajor.symm n) idx <;> rfl

/-- No update lands on `i`: the scatter leaves the operand's element. -/
theorem Host.scatter_apply_miss (d : ScatterDims s si u) (f : α → α → α) (x : s.Idx → α) (idx : IVec si w)
    (upd : u.Idx → α) (i : s.Idx) (h : ∀ j : u.Idx, d.resultIdx? j idx ≠ some i) :
    Host.scatter d f x idx upd i = x i := by
  rw [Host.scatter_eq_foldl_step]
  exact foldl_miss f _ _ i _ x (fun n _ => h _)

/-- Update `j` lands on `i`, and it is the only one that does: the scatter combines the operand's element with it. -/
theorem Host.scatter_apply_hit (d : ScatterDims s si u) (f : α → α → α) (x : s.Idx → α) (idx : IVec si w)
    (upd : u.Idx → α) (i : s.Idx) (j : u.Idx) (hj : d.resultIdx? j idx = some i)
    (huniq : ∀ j' : u.Idx, d.resultIdx? j' idx = some i → j' = j) :
    Host.scatter d f x idx upd i = f (x i) (upd j) := by
  rw [Host.scatter_eq_foldl_step]
  have h := foldl_hit f (fun n => d.resultIdx? (u.rowMajor.symm n) idx) (fun n => upd (u.rowMajor.symm n)) i
    (u.rowMajor j) (by simp only [Equiv.symm_apply_apply]; exact hj) (List.finRange u.numel) x
    (List.nodup_finRange _) (List.mem_finRange _)
    (fun n _ e => by
      have := huniq _ e
      rw [← this, Equiv.apply_symm_apply])
  rw [h]
  simp only [Equiv.symm_apply_apply]

end Idealize.ShloMosaic

/-! ## A whole window scattered at one constant start: rank 2

  The update is a rank-2 window `h × w`, scattered whole into an `H × W` operand at the start `(s0, s1)`, the window
  inside the operand. Update `(a, b)` lands on `(s0 + a, s1 + b)`: the landing map is a translation, so it is
  injective, and element `(p, q)` is met exactly when `s0 ≤ p < s0 + h` and `s1 ≤ q < s1 + w`, by update
  `(p - s0, q - s1)`. -/

namespace Idealize.ShloMosaic

open ValueIdx

section Rank2

variable {α : Type} {H W h w : Nat} {si : Shape} {wd : Nat}

/-- Every update of the window lands inside the operand, at its own coordinates moved by the start. -/
theorem ScatterDims.resultIdx?_window2 (d : ScatterDims ⟨2, ![H, W]⟩ si ⟨2, ![h, w]⟩) (idx : IVec si wd) (s0 s1 : Nat)
    (hw0 : ∀ j, d.window j 0 = (j 0).val) (hw1 : ∀ j, d.window j 1 = (j 1).val)
    (hs0 : ∀ j, d.start j idx 0 = (s0 : Int)) (hs1 : ∀ j, d.start j idx 1 = (s1 : Int))
    (hb0 : s0 + h ≤ H) (hb1 : s1 + w ≤ W) (j : (⟨2, ![h, w]⟩ : Shape).Idx) :
    d.resultIdx? j idx =
      some (ix2 (⟨s0 + (j 0).val, by have := idx2_lt0 j; omega⟩ : Fin H)
                (⟨s1 + (j 1).val, by have := idx2_lt1 j; omega⟩ : Fin W)) := by
  have h0 := idx2_lt0 j
  have h1 := idx2_lt1 j
  unfold ScatterDims.resultIdx?
  have hall : ∀ a, 0 ≤ d.start j idx a + d.window j a ∧
      d.start j idx a + d.window j a < (⟨2, ![H, W]⟩ : Shape).size a := by
    intro a
    match a with
    | ⟨0, _⟩ =>
      show 0 ≤ d.start j idx 0 + (d.window j 0 : Int) ∧ d.start j idx 0 + (d.window j 0 : Int) < (H : Int)
      rw [hs0, hw0]; omega
    | ⟨1, _⟩ =>
      show 0 ≤ d.start j idx 1 + (d.window j 1 : Int) ∧ d.start j idx 1 + (d.window j 1 : Int) < (W : Int)
      rw [hs1, hw1]; omega
  rw [dif_pos hall]
  refine congrArg some (funext fun a => ?_)
  match a with
  | ⟨0, _⟩ =>
    refine Fin.ext ?_
    show (d.start j idx 0 + (d.window j 0 : Int)).toNat = s0 + (j 0).val
    rw [hs0, hw0]; omega
  | ⟨1, _⟩ =>
    refine Fin.ext ?_
    show (d.start j idx 1 + (d.window j 1 : Int)).toNat = s1 + (j 1).val
    rw [hs1, hw1]; omega

/-- The scatter of a whole rank-2 window at a constant start, read at `(p, q)`. -/
theorem Host.scatter_window2_apply (d : ScatterDims ⟨2, ![H, W]⟩ si ⟨2, ![h, w]⟩) (f : α → α → α)
    (x : (⟨2, ![H, W]⟩ : Shape).Idx → α) (idx : IVec si wd) (upd : (⟨2, ![h, w]⟩ : Shape).Idx → α) (s0 s1 : Nat)
    (hw0 : ∀ j, d.window j 0 = (j 0).val) (hw1 : ∀ j, d.window j 1 = (j 1).val)
    (hs0 : ∀ j, d.start j idx 0 = (s0 : Int)) (hs1 : ∀ j, d.start j idx 1 = (s1 : Int))
    (hb0 : s0 + h ≤ H) (hb1 : s1 + w ≤ W) (p : Fin H) (q : Fin W) :
    Host.scatter d f x idx upd (ix2 p q) =
      if hin : s0 ≤ p.val ∧ p.val < s0 + h ∧ s1 ≤ q.val ∧ q.val < s1 + w then
        f (x (ix2 p q)) (upd (ix2 (⟨p.val - s0, by omega⟩ : Fin h) (⟨q.val - s1, by omega⟩ : Fin w)))
      else x (ix2 p q) := by
  have hres := ScatterDims.resultIdx?_window2 d idx s0 s1 hw0 hw1 hs0 hs1 hb0 hb1
  by_cases hin : s0 ≤ p.val ∧ p.val < s0 + h ∧ s1 ≤ q.val ∧ q.val < s1 + w
  · rw [dif_pos hin]
    refine Host.scatter_apply_hit d f x idx upd _ _ ?_ ?_
    · rw [hres]
      refine congrArg some (funext fun a => ?_)
      match a with
      | ⟨0, _⟩ => refine Fin.ext ?_; show s0 + (p.val - s0) = p.val; omega
      | ⟨1, _⟩ => refine Fin.ext ?_; show s1 + (q.val - s1) = q.val; omega
    · intro j' hj'
      rw [hres] at hj'
      have e := Option.some.inj hj'
      have e0 : s0 + (j' 0).val = p.val := congrArg Fin.val (congrFun e 0)
      have e1 : s1 + (j' 1).val = q.val := congrArg Fin.val (congrFun e 1)
      rw [eq_ix2 j']
      refine funext fun a => ?_
      match a with
      | ⟨0, _⟩ => refine Fin.ext ?_; show (j' 0).val = p.val - s0; omega
      | ⟨1, _⟩ => refine Fin.ext ?_; show (j' 1).val = q.val - s1; omega
  · rw [dif_neg hin]
    refine Host.scatter_apply_miss d f x idx upd _ (fun j' hj' => hin ?_)
    rw [hres] at hj'
    have e := Option.some.inj hj'
    have e0 : s0 + (j' 0).val = p.val := congrArg Fin.val (congrFun e 0)
    have e1 : s1 + (j' 1).val = q.val := congrArg Fin.val (congrFun e 1)
    have h0 := idx2_lt0 j'
    have h1 := idx2_lt1 j'
    omega

end Rank2

end Idealize.ShloMosaic

/-! ## The same at rank 4, the two leading axes whole

  The operand is `B × Z × H × W`, the update `B × Z × h × w`, the start `(0, 0, s2, s3)`: update `(b, z, a, c)` lands on
  `(b, z, s2 + a, s3 + c)`. -/

namespace Idealize.ShloMosaic

open ValueIdx

section Rank4

variable {α : Type} {B Z H W h w : Nat} {si : Shape} {wd : Nat}

/-- Every update of the window lands inside the operand, its two trailing coordinates moved by the start. -/
theorem ScatterDims.resultIdx?_window4 (d : ScatterDims ⟨4, ![B, Z, H, W]⟩ si ⟨4, ![B, Z, h, w]⟩) (idx : IVec si wd)
    (s2 s3 : Nat)
    (hw0 : ∀ j, d.window j 0 = (j 0).val) (hw1 : ∀ j, d.window j 1 = (j 1).val)
    (hw2 : ∀ j, d.window j 2 = (j 2).val) (hw3 : ∀ j, d.window j 3 = (j 3).val)
    (hs0 : ∀ j, d.start j idx 0 = 0) (hs1 : ∀ j, d.start j idx 1 = 0)
    (hs2 : ∀ j, d.start j idx 2 = (s2 : Int)) (hs3 : ∀ j, d.start j idx 3 = (s3 : Int))
    (hb2 : s2 + h ≤ H) (hb3 : s3 + w ≤ W) (j : (⟨4, ![B, Z, h, w]⟩ : Shape).Idx) :
    d.resultIdx? j idx =
      some (ix4 (⟨(j 0).val, (j 0).isLt⟩ : Fin B) (⟨(j 1).val, (j 1).isLt⟩ : Fin Z)
                (⟨s2 + (j 2).val, by have : (j 2).val < h := (j 2).isLt; omega⟩ : Fin H)
                (⟨s3 + (j 3).val, by have : (j 3).val < w := (j 3).isLt; omega⟩ : Fin W)) := by
  have h0 : (j 0).val < B := (j 0).isLt
  have h1 : (j 1).val < Z := (j 1).isLt
  have h2 : (j 2).val < h := (j 2).isLt
  have h3 : (j 3).val < w := (j 3).isLt
  unfold ScatterDims.resultIdx?
  have hall : ∀ a, 0 ≤ d.start j idx a + d.window j a ∧
      d.start j idx a + d.window j a < (⟨4, ![B, Z, H, W]⟩ : Shape).size a := by
    intro a
    match a with
    | ⟨0, _⟩ =>
      show 0 ≤ d.start j idx 0 + (d.window j 0 : Int) ∧ d.start j idx 0 + (d.window j 0 : Int) < (B : Int)
      rw [hs0, hw0]; omega
    | ⟨1, _⟩ =>
      show 0 ≤ d.start j idx 1 + (d.window j 1 : Int) ∧ d.start j idx 1 + (d.window j 1 : Int) < (Z : Int)
      rw [hs1, hw1]; omega
    | ⟨2, _⟩ =>
      show 0 ≤ d.start j idx 2 + (d.window j 2 : Int) ∧ d.start j idx 2 + (d.window j 2 : Int) < (H : Int)
      rw [hs2, hw2]; omega
    | ⟨3, _⟩ =>
      show 0 ≤ d.start j idx 3 + (d.window j 3 : Int) ∧ d.start j idx 3 + (d.window j 3 : Int) < (W : Int)
      rw [hs3, hw3]; omega
  rw [dif_pos hall]
  refine congrArg some (funext fun a => ?_)
  match a with
  | ⟨0, _⟩ =>
    refine Fin.ext ?_
    show (d.start j idx 0 + (d.window j 0 : Int)).toNat = (j 0).val
    rw [hs0, hw0]; omega
  | ⟨1, _⟩ =>
    refine Fin.ext ?_
    show (d.start j idx 1 + (d.window j 1 : Int)).toNat = (j 1).val
    rw [hs1, hw1]; omega
  | ⟨2, _⟩ =>
    refine Fin.ext ?_
    show (d.start j idx 2 + (d.window j 2 : Int)).toNat = s2 + (j 2).val
    rw [hs2, hw2]; omega
  | ⟨3, _⟩ =>
    refine Fin.ext ?_
    show (d.start j idx 3 + (d.window j 3 : Int)).toNat = s3 + (j 3).val
    rw [hs3, hw3]; omega

/-- The scatter of a whole rank-4 window at a constant start on the two trailing axes, read at `(b, z, p, q)`. -/
theorem Host.scatter_window4_apply (d : ScatterDims ⟨4, ![B, Z, H, W]⟩ si ⟨4, ![B, Z, h, w]⟩) (f : α → α → α)
    (x : (⟨4, ![B, Z, H, W]⟩ : Shape).Idx → α) (idx : IVec si wd) (upd : (⟨4, ![B, Z, h, w]⟩ : Shape).Idx → α)
    (s2 s3 : Nat)
    (hw0 : ∀ j, d.window j 0 = (j 0).val) (hw1 : ∀ j, d.window j 1 = (j 1).val)
    (hw2 : ∀ j, d.window j 2 = (j 2).val) (hw3 : ∀ j, d.window j 3 = (j 3).val)
    (hs0 : ∀ j, d.start j idx 0 = 0) (hs1 : ∀ j, d.start j idx 1 = 0)
    (hs2 : ∀ j, d.start j idx 2 = (s2 : Int)) (hs3 : ∀ j, d.start j idx 3 = (s3 : Int))
    (hb2 : s2 + h ≤ H) (hb3 : s3 + w ≤ W) (b : Fin B) (z : Fin Z) (p : Fin H) (q : Fin W) :
    Host.scatter d f x idx upd (ix4 b z p q) =
      if hin : s2 ≤ p.val ∧ p.val < s2 + h ∧ s3 ≤ q.val ∧ q.val < s3 + w then
        f (x (ix4 b z p q)) (upd (ix4 b z (⟨p.val - s2, by omega⟩ : Fin h) (⟨q.val - s3, by omega⟩ : Fin w)))
      else x (ix4 b z p q) := by
  have hres := ScatterDims.resultIdx?_window4 d idx s2 s3 hw0 hw1 hw2 hw3 hs0 hs1 hs2 hs3 hb2 hb3
  by_cases hin : s2 ≤ p.val ∧ p.val < s2 + h ∧ s3 ≤ q.val ∧ q.val < s3 + w
  · rw [dif_pos hin]
    refine Host.scatter_apply_hit d f x idx upd _ _ ?_ ?_
    · rw [hres]
      refine congrArg some (funext fun a => ?_)
      match a with
      | ⟨0, _⟩ => rfl
      | ⟨1, _⟩ => rfl
      | ⟨2, _⟩ => refine Fin.ext ?_; show s2 + (p.val - s2) = p.val; omega
      | ⟨3, _⟩ => refine Fin.ext ?_; show s3 + (q.val - s3) = q.val; omega
    · intro j' hj'
      rw [hres] at hj'
      have e := Option.some.inj hj'
      have e0 : (j' 0).val = b.val := congrArg Fin.val (congrFun e 0)
      have e1 : (j' 1).val = z.val := congrArg Fin.val (congrFun e 1)
      have e2 : s2 + (j' 2).val = p.val := congrArg Fin.val (congrFun e 2)
      have e3 : s3 + (j' 3).val = q.val := congrArg Fin.val (congrFun e 3)
      rw [eq_ix4 j']
      refine funext fun a => ?_
      match a with
      | ⟨0, _⟩ => exact Fin.ext e0
      | ⟨1, _⟩ => exact Fin.ext e1
      | ⟨2, _⟩ => refine Fin.ext ?_; show (j' 2).val = p.val - s2; omega
      | ⟨3, _⟩ => refine Fin.ext ?_; show (j' 3).val = q.val - s3; omega
  · rw [dif_neg hin]
    refine Host.scatter_apply_miss d f x idx upd _ (fun j' hj' => hin ?_)
    rw [hres] at hj'
    have e := Option.some.inj hj'
    have e2 : s2 + (j' 2).val = p.val := congrArg Fin.val (congrFun e 2)
    have e3 : s3 + (j' 3).val = q.val := congrArg Fin.val (congrFun e 3)
    have h2 : (j' 2).val < h := (j' 2).isLt
    have h3 : (j' 3).val < w := (j' 3).isLt
    omega

end Rank4

end Idealize.ShloMosaic
-- ==== Proof.KDiv.lean ====
/-
  The kernel's count array, read at a pixel.

  Before the kernel is launched the host builds the per-pixel number of neighbours inside the image: it starts
  from a `768 × 768` array of zeros and, for each of the 24 neighbour offsets, scatters a window of ones — the rectangle of
  pixels that have that neighbour — with an add combiner at the rectangle's corner. One such scatter read at `(i, j)` adds
  one inside the rectangle and nothing outside (`Host.scatter_window2_apply`: one index vector, so each pixel is met at most
  once), that is, it adds the offset's count `Cert.Stencil.cnt`. The 24 scatters come with the row offset outermost, so the
  array at `(i, j)` is `Cert.Stencil.cntRows`.
-/
import proofs.«119324_j40802189312445_2_alg».proof.Proof.Gen.KernelIdeal.Frame
import proofs.«119324_j40802189312445_2_alg».proof.Proof.LibScatter
import proofs.«119324_j40802189312445_2_alg».proof.Proof.Stencil
import Idealize.ShloMosaic.Lib.StableHlo.Run
import Idealize.ShloMosaic.PureOps.Ideal.Laws

set_option maxRecDepth 16384

noncomputable section

namespace Cert.KernelIdeal.KDiv

open Idealize.ShloMosaic Idealize.ShloMosaic.ValueIdx Idealize.SL.Sem Cert.KernelIdeal Cert.KernelIdeal.Gen

/-- The float one, as the word both programs write. -/
abbrev one : EReal := Ideal.ofBits .f32 0x3F800000#32

/-- A corner given by two words (row, column). -/
def iv2 (a b : BitVec 32) : IVec S2 32 :=
  concatenate S2 0 [⟨S1, broadcastInDim S1 ![] bcast_S_S1 (constantI S_ 32 a)⟩,
    ⟨S1, broadcastInDim S1 ![] bcast_S_S1 (constantI S_ 32 b)⟩] concatenates_S1_S1_S2_d0

/-- A corner given by one word (the other coordinate is not scattered: the window is whole on that axis). -/
def iv1 (a : BitVec 32) : IVec S1 32 := broadcastInDim S1 ![] bcast_S_S1 (constantI S_ 32 a)

/-- One scatter of a window of ones at the corner `(s0, s1)` adds that rectangle's count. -/
theorem step {h w : Nat} {si : Shape} (d : ScatterDims S768x768 si ⟨2, ![h, w]⟩) (x : S768x768.Idx → EReal)
    (idx : IVec si 32) (upd : (⟨2, ![h, w]⟩ : Shape).Idx → EReal) (hupd : ∀ k, upd k = one) (s0 s1 : Nat)
    (hw0 : ∀ j, d.window j 0 = (j 0).val) (hw1 : ∀ j, d.window j 1 = (j 1).val)
    (hs0 : ∀ j, d.start j idx 0 = (s0 : Int)) (hs1 : ∀ j, d.start j idx 1 = (s1 : Int))
    (hb0 : s0 + h ≤ 768) (hb1 : s1 + w ≤ 768) (i j : Fin 768) :
    Host.scatter d (FloatOps.addf (F := Ideal) (φ := .f32)) x idx upd (ix2 i j)
      = x (ix2 i j) + Cert.Stencil.cnt one s0 s1 h w i.val j.val := by
  refine (Host.scatter_window2_apply d _ x idx upd s0 s1 hw0 hw1 hs0 hs1 hb0 hb1 i j).trans ?_
  unfold Cert.Stencil.cnt
  exact Cert.Stencil.dite_add_eq_add_ite _ _ _ one (fun _ => hupd _)

/-! The 24 stages, in the program's order (row offset outermost). -/

def c0 : S768x768.Idx → EReal :=
  broadcastInDim S768x768 ![] bcast_S_S768x768 (constant (F := Ideal) S_ .f32 0x00000000#32)
def c1 : S768x768.Idx → EReal := Host.scatter scatter_S768x768_S2_S766x766_01_n_01_0 (FloatOps.addf (F := Ideal) (φ := .f32)) c0 (iv2 0#32 0#32) (broadcastInDim S766x766 ![] bcast_S_S766x766 (constant (F := Ideal) S_ .f32 0x3F800000#32))
def c2 : S768x768.Idx → EReal := Host.scatter scatter_S768x768_S2_S766x767_01_n_01_0 (FloatOps.addf (F := Ideal) (φ := .f32)) c1 (iv2 0#32 0#32) (broadcastInDim S766x767 ![] bcast_S_S766x767 (constant (F := Ideal) S_ .f32 0x3F800000#32))
def c3 : S768x768.Idx → EReal := Host.scatter scatter_S768x768_S1_S766x768_01_n_0_0 (FloatOps.addf (F := Ideal) (φ := .f32)) c2 (iv1 0#32) (broadcastInDim S766x768 ![] bcast_S_S766x768 (constant (F := Ideal) S_ .f32 0x3F800000#32))
def c4 : S768x768.Idx → EReal := Host.scatter scatter_S768x768_S2_S766x767_01_n_01_0 (FloatOps.addf (F := Ideal) (φ := .f32)) c3 (iv2 0#32 1#32) (broadcastInDim S766x767 ![] bcast_S_S766x767 (constant (F := Ideal) S_ .f32 0x3F800000#32))
def c5 : S768x768.Idx → EReal := Host.scatter scatter_S768x768_S2_S766x766_01_n_01_0 (FloatOps.addf (F := Ideal) (φ := .f32)) c4 (iv2 0#32 2#32) (broadcastInDim S766x766 ![] bcast_S_S766x766 (constant (F := Ideal) S_ .f32 0x3F800000#32))
def c6 : S768x768.Idx → EReal := Host.scatter scatter_S768x768_S2_S767x766_01_n_01_0 (FloatOps.addf (F := Ideal) (φ := .f32)) c5 (iv2 0#32 0#32) (broadcastInDim S767x766 ![] bcast_S_S767x766 (constant (F := Ideal) S_ .f32 0x3F800000#32))
def c7 : S768x768.Idx → EReal := Host.scatter scatter_S768x768_S2_S767x767_01_n_01_0 (FloatOps.addf (F := Ideal) (φ := .f32)) c6 (iv2 0#32 0#32) (broadcastInDim S767x767 ![] bcast_S_S767x767 (constant (F := Ideal) S_ .f32 0x3F800000#32))
def c8 : S768x768.Idx → EReal := Host.scatter scatter_S768x768_S1_S767x768_01_n_0_0 (FloatOps.addf (F := Ideal) (φ := .f32)) c7 (iv1 0#32) (broadcastInDim S767x768 ![] bcast_S_S767x768 (constant (F := Ideal) S_ .f32 0x3F800000#32))
def c9 : S768x768.Idx → EReal := Host.scatter scatter_S768x768_S2_S767x767_01_n_01_0 (FloatOps.addf (F := Ideal) (φ := .f32)) c8 (iv2 0#32 1#32) (broadcastInDim S767x767 ![] bcast_S_S767x767 (constant (F := Ideal) S_ .f32 0x3F800000#32))
def c10 : S768x768.Idx → EReal := Host.scatter scatter_S768x768_S2_S767x766_01_n_01_0 (FloatOps.addf (F := Ideal) (φ := .f32)) c9 (iv2 0#32 2#32) (broadcastInDim S767x766 ![] bcast_S_S767x766 (constant (F := Ideal) S_ .f32 0x3F800000#32))
def c11 : S768x768.Idx → EReal := Host.scatter scatter_S768x768_S1_S768x766_01_n_1_0 (FloatOps.addf (F := Ideal) (φ := .f32)) c10 (iv1 0#32) (broadcastInDim S768x766 ![] bcast_S_S768x766 (constant (F := Ideal) S_ .f32 0x3F800000#32))
def c12 : S768x768.Idx → EReal := Host.scatter scatter_S768x768_S1_S768x767_01_n_1_0 (FloatOps.addf (F := Ideal) (φ := .f32)) c11 (iv1 0#32) (broadcastInDim S768x767 ![] bcast_S_S768x767 (constant (F := Ideal) S_ .f32 0x3F800000#32))
def c13 : S768x768.Idx → EReal := Host.scatter scatter_S768x768_S1_S768x767_01_n_1_0 (FloatOps.addf (F := Ideal) (φ := .f32)) c12 (iv1 1#32) (broadcastInDim S768x767 ![] bcast_S_S768x767 (constant (F := Ideal) S_ .f32 0x3F800000#32))
def c14 : S768x768.Idx → EReal := Host.scatter scatter_S768x768_S1_S768x766_01_n_1_0 (FloatOps.addf (F := Ideal) (φ := .f32)) c13 (iv1 2#32) (broadcastInDim S768x766 ![] bcast_S_S768x766 (constant (F := Ideal) S_ .f32 0x3F800000#32))
def c15 : S768x768.Idx → EReal := Host.scatter scatter_S768x768_S2_S767x766_01_n_01_0 (FloatOps.addf (F := Ideal) (φ := .f32)) c14 (iv2 1#32 0#32) (broadcastInDim S767x766 ![] bcast_S_S767x766 (constant (F := Ideal) S_ .f32 0x3F800000#32))
def c16 : S768x768.Idx → EReal := Host.scatter scatter_S768x768_S2_S767x767_01_n_01_0 (FloatOps.addf (F := Ideal) (φ := .f32)) c15 (iv2 1#32 0#32) (broadcastInDim S767x767 ![] bcast_S_S767x767 (constant (F := Ideal) S_ .f32 0x3F800000#32))
def c17 : S768x768.Idx → EReal := Host.scatter scatter_S768x768_S1_S767x768_01_n_0_0 (FloatOps.addf (F := Ideal) (φ := .f32)) c16 (iv1 1#32) (broadcastInDim S767x768 ![] bcast_S_S767x768 (constant (F := Ideal) S_ .f32 0x3F800000#32))
def c18 : S768x768.Idx → EReal := Host.scatter scatter_S768x768_S2_S767x767_01_n_01_0 (FloatOps.addf (F := Ideal) (φ := .f32)) c17 (iv2 1#32 1#32) (broadcastInDim S767x767 ![] bcast_S_S767x767 (constant (F := Ideal) S_ .f32 0x3F800000#32))
def c19 : S768x768.Idx → EReal := Host.scatter scatter_S768x768_S2_S767x766_01_n_01_0 (FloatOps.addf (F := Ideal) (φ := .f32)) c18 (iv2 1#32 2#32) (broadcastInDim S767x766 ![] bcast_S_S767x766 (constant (F := Ideal) S_ .f32 0x3F800000#32))
def c20 : S768x768.Idx → EReal := Host.scatter scatter_S768x768_S2_S766x766_01_n_01_0 (FloatOps.addf (F := Ideal) (φ := .f32)) c19 (iv2 2#32 0#32) (broadcastInDim S766x766 ![] bcast_S_S766x766 (constant (F := Ideal) S_ .f32 0x3F800000#32))
def c21 : S768x768.Idx → EReal := Host.scatter scatter_S768x768_S2_S766x767_01_n_01_0 (FloatOps.addf (F := Ideal) (φ := .f32)) c20 (iv2 2#32 0#32) (broadcastInDim S766x767 ![] bcast_S_S766x767 (constant (F := Ideal) S_ .f32 0x3F800000#32))
def c22 : S768x768.Idx → EReal := Host.scatter scatter_S768x768_S1_S766x768_01_n_0_0 (FloatOps.addf (F := Ideal) (φ := .f32)) c21 (iv1 2#32) (broadcastInDim S766x768 ![] bcast_S_S766x768 (constant (F := Ideal) S_ .f32 0x3F800000#32))
def c23 : S768x768.Idx → EReal := Host.scatter scatter_S768x768_S2_S766x767_01_n_01_0 (FloatOps.addf (F := Ideal) (φ := .f32)) c22 (iv2 2#32 1#32) (broadcastInDim S766x767 ![] bcast_S_S766x767 (constant (F := Ideal) S_ .f32 0x3F800000#32))
def c24 : S768x768.Idx → EReal := Host.scatter scatter_S768x768_S2_S766x766_01_n_01_0 (FloatOps.addf (F := Ideal) (φ := .f32)) c23 (iv2 2#32 2#32) (broadcastInDim S766x766 ![] bcast_S_S766x766 (constant (F := Ideal) S_ .f32 0x3F800000#32))

/-- The array of zeros the count starts from. -/
theorem c0_apply (i j : Fin 768) : c0 (ix2 i j) = 0 := Ideal.ofBits_zero_f32

/-! Each stage adds its rectangle's count: the window's coordinates are the update's own, the corner is read off the
    index vector, and the window fits. -/

theorem c1_apply (i j : Fin 768) : c1 (ix2 i j) = c0 (ix2 i j) + Cert.Stencil.cnt one 0 0 766 766 i.val j.val :=
  step _ c0 _ _ (fun _ => rfl) 0 0 (fun _ => rfl) (fun _ => rfl) (fun _ => rfl) (fun _ => rfl) (by omega) (by omega) i j
theorem c2_apply (i j : Fin 768) : c2 (ix2 i j) = c1 (ix2 i j) + Cert.Stencil.cnt one 0 0 766 767 i.val j.val :=
  step _ c1 _ _ (fun _ => rfl) 0 0 (fun _ => rfl) (fun _ => rfl) (fun _ => rfl) (fun _ => rfl) (by omega) (by omega) i j
theorem c3_apply (i j : Fin 768) : c3 (ix2 i j) = c2 (ix2 i j) + Cert.Stencil.cnt one 0 0 766 768 i.val j.val :=
  step _ c2 _ _ (fun _ => rfl) 0 0 (fun _ => rfl) (fun _ => rfl) (fun _ => rfl) (fun _ => rfl) (by omega) (by omega) i j
theorem c4_apply (i j : Fin 768) : c4 (ix2 i j) = c3 (ix2 i j) + Cert.Stencil.cnt one 0 1 766 767 i.val j.val :=
  step _ c3 _ _ (fun _ => rfl) 0 1 (fun _ => rfl) (fun _ => rfl) (fun _ => rfl) (fun _ => rfl) (by omega) (by omega) i j
theorem c5_apply (i j : Fin 768) : c5 (ix2 i j) = c4 (ix2 i j) + Cert.Stencil.cnt one 0 2 766 766 i.val j.val :=
  step _ c4 _ _ (fun _ => rfl) 0 2 (fun _ => rfl) (fun _ => rfl) (fun _ => rfl) (fun _ => rfl) (by omega) (by omega) i j
theorem c6_apply (i j : Fin 768) : c6 (ix2 i j) = c5 (ix2 i j) + Cert.Stencil.cnt one 0 0 767 766 i.val j.val :=
  step _ c5 _ _ (fun _ => rfl) 0 0 (fun _ => rfl) (fun _ => rfl) (fun _ => rfl) (fun _ => rfl) (by omega) (by omega) i j
theorem c7_apply (i j : Fin 768) : c7 (ix2 i j) = c6 (ix2 i j) + Cert.Stencil.cnt one 0 0 767 767 i.val j.val :=
  step _ c6 _ _ (fun _ => rfl) 0 0 (fun _ => rfl) (fun _ => rfl) (fun _ => rfl) (fun _ => rfl) (by omega) (by omega) i j
theorem c8_apply (i j : Fin 768) : c8 (ix2 i j) = c7 (ix2 i j) + Cert.Stencil.cnt one 0 0 767 768 i.val j.val :=
  step _ c7 _ _ (fun _ => rfl) 0 0 (fun _ => rfl) (fun _ => rfl) (fun _ => rfl) (fun _ => rfl) (by omega) (by omega) i j
theorem c9_apply (i j : Fin 768) : c9 (ix2 i j) = c8 (ix2 i j) + Cert.Stencil.cnt one 0 1 767 767 i.val j.val :=
  step _ c8 _ _ (fun _ => rfl) 0 1 (fun _ => rfl) (fun _ => rfl) (fun _ => rfl) (fun _ => rfl) (by omega) (by omega) i j
theorem c10_apply (i j : Fin 768) : c10 (ix2 i j) = c9 (ix2 i j) + Cert.Stencil.cnt one 0 2 767 766 i.val j.val :=
  step _ c9 _ _ (fun _ => rfl) 0 2 (fun _ => rfl) (fun _ => rfl) (fun _ => rfl) (fun _ => rfl) (by omega) (by omega) i j
theorem c11_apply (i j : Fin 768) : c11 (ix2 i j) = c10 (ix2 i j) + Cert.Stencil.cnt one 0 0 768 766 i.val j.val :=
  step _ c10 _ _ (fun _ => rfl) 0 0 (fun _ => rfl) (fun _ => rfl) (fun _ => rfl) (fun _ => rfl) (by omega) (by omega) i j
theorem c12_apply (i j : Fin 768) : c12 (ix2 i j) = c11 (ix2 i j) + Cert.Stencil.cnt one 0 0 768 767 i.val j.val :=
  step _ c11 _ _ (fun _ => rfl) 0 0 (fun _ => rfl) (fun _ => rfl) (fun _ => rfl) (fun _ => rfl) (by omega) (by omega) i j
theorem c13_apply (i j : Fin 768) : c13 (ix2 i j) = c12 (ix2 i j) + Cert.Stencil.cnt one 0 1 768 767 i.val j.val :=
  step _ c12 _ _ (fun _ => rfl) 0 1 (fun _ => rfl) (fun _ => rfl) (fun _ => rfl) (fun _ => rfl) (by omega) (by omega) i j
theorem c14_apply (i j : Fin 768) : c14 (ix2 i j) = c13 (ix2 i j) + Cert.Stencil.cnt one 0 2 768 766 i.val j.val :=
  step _ c13 _ _ (fun _ => rfl) 0 2 (fun _ => rfl) (fun _ => rfl) (fun _ => rfl) (fun _ => rfl) (by omega) (by omega) i j
theorem c15_apply (i j : Fin 768) : c15 (ix2 i j) = c14 (ix2 i j) + Cert.Stencil.cnt one 1 0 767 766 i.val j.val :=
  step _ c14 _ _ (fun _ => rfl) 1 0 (fun _ => rfl) (fun _ => rfl) (fun _ => rfl) (fun _ => rfl) (by omega) (by omega) i j
theorem c16_apply (i j : Fin 768) : c16 (ix2 i j) = c15 (ix2 i j) + Cert.Stencil.cnt one 1 0 767 767 i.val j.val :=
  step _ c15 _ _ (fun _ => rfl) 1 0 (fun _ => rfl) (fun _ => rfl) (fun _ => rfl) (fun _ => rfl) (by omega) (by omega) i j
theorem c17_apply (i j : Fin 768) : c17 (ix2 i j) = c16 (ix2 i j) + Cert.Stencil.cnt one 1 0 767 768 i.val j.val :=
  step _ c16 _ _ (fun _ => rfl) 1 0 (fun _ => rfl) (fun _ => rfl) (fun _ => rfl) (fun _ => rfl) (by omega) (by omega) i j
theorem c18_apply (i j : Fin 768) : c18 (ix2 i j) = c17 (ix2 i j) + Cert.Stencil.cnt one 1 1 767 767 i.val j.val :=
  step _ c17 _ _ (fun _ => rfl) 1 1 (fun _ => rfl) (fun _ => rfl) (fun _ => rfl) (fun _ => rfl) (by omega) (by omega) i j
theorem c19_apply (i j : Fin 768) : c19 (ix2 i j) = c18 (ix2 i j) + Cert.Stencil.cnt one 1 2 767 766 i.val j.val :=
  step _ c18 _ _ (fun _ => rfl) 1 2 (fun _ => rfl) (fun _ => rfl) (fun _ => rfl) (fun _ => rfl) (by omega) (by omega) i j
theorem c20_apply (i j : Fin 768) : c20 (ix2 i j) = c19 (ix2 i j) + Cert.Stencil.cnt one 2 0 766 766 i.val j.val :=
  step _ c19 _ _ (fun _ => rfl) 2 0 (fun _ => rfl) (fun _ => rfl) (fun _ => rfl) (fun _ => rfl) (by omega) (by omega) i j
theorem c21_apply (i j : Fin 768) : c21 (ix2 i j) = c20 (ix2 i j) + Cert.Stencil.cnt one 2 0 766 767 i.val j.val :=
  step _ c20 _ _ (fun _ => rfl) 2 0 (fun _ => rfl) (fun _ => rfl) (fun _ => rfl) (fun _ => rfl) (by omega) (by omega) i j
theorem c22_apply (i j : Fin 768) : c22 (ix2 i j) = c21 (ix2 i j) + Cert.Stencil.cnt one 2 0 766 768 i.val j.val :=
  step _ c21 _ _ (fun _ => rfl) 2 0 (fun _ => rfl) (fun _ => rfl) (fun _ => rfl) (fun _ => rfl) (by omega) (by omega) i j
theorem c23_apply (i j : Fin 768) : c23 (ix2 i j) = c22 (ix2 i j) + Cert.Stencil.cnt one 2 1 766 767 i.val j.val :=
  step _ c22 _ _ (fun _ => rfl) 2 1 (fun _ => rfl) (fun _ => rfl) (fun _ => rfl) (fun _ => rfl) (by omega) (by omega) i j
theorem c24_apply (i j : Fin 768) : c24 (ix2 i j) = c23 (ix2 i j) + Cert.Stencil.cnt one 2 2 766 766 i.val j.val :=
  step _ c23 _ _ (fun _ => rfl) 2 2 (fun _ => rfl) (fun _ => rfl) (fun _ => rfl) (fun _ => rfl) (by omega) (by omega) i j

/-- The finished count array at a pixel: the 24 counts, row offset outermost. -/
theorem c24_eq (i j : Fin 768) : c24 (ix2 i j) = Cert.Stencil.cntRows one i.val j.val := by
  rw [c24_apply, c23_apply, c22_apply, c21_apply, c20_apply, c19_apply, c18_apply, c17_apply, c16_apply, c15_apply,
    c14_apply, c13_apply, c12_apply, c11_apply, c10_apply, c9_apply, c8_apply, c7_apply, c6_apply, c5_apply, c4_apply,
    c3_apply, c2_apply, c1_apply, c0_apply]
  rfl

set_option maxHeartbeats 4000000 in
/-- The array the kernel's third window is cut from, as the kernel finds it, is that finished count array: the host
    operations before the launch, composed. -/
theorem V_div (m : (ℓ : Loc nD τ sig) → Buf (Elt Ideal) ℓ) (c : Dev nD) :
    (V (F := Ideal) m c main_v106 : S768x768.Idx → EReal) = c24 := by
  dsimp only [Gen.V, Gen.V0]
  simp only [Gen.hostOps0, List.flatten_cons, List.flatten_nil, List.append_nil, List.cons_append, List.nil_append]
  after_results_simp
  rfl

/-- The count the kernel divides by, at a pixel. -/
theorem div_window (m : (ℓ : Loc nD τ sig) → Buf (Elt Ideal) ℓ) (c : Dev nD) (i j : Fin 768) :
    (V (F := Ideal) m c main_v106 : S768x768.Idx → EReal) (ix2 i j) = Cert.Stencil.cntRows one i.val j.val := by
  rw [V_div]
  exact c24_eq i j

end Cert.KernelIdeal.KDiv

end
-- ==== Proof.KBlock2.lean ====
/-
  The count array's block, read at a pixel.

  The kernel's third window is the whole 768 × 768 count array at every grid point (its index map is constantly (0, 0)), so
  its block at (a, b) is the array at (a, b): the number of neighbours of the pixel inside the image, the 24 counts added
  with the row offset outermost.
-/
import proofs.«119324_j40802189312445_2_alg».proof.Proof.Gen.KernelIdeal.Frame
import proofs.«119324_j40802189312445_2_alg».proof.Proof.KDiv
import proofs.«119324_j40802189312445_2_alg».proof.Proof.Pt
import proofs.«119324_j40802189312445_2_alg».proof.Proof.Stencil
import Idealize.ShloMosaic.Lib.Pipeline.Value
import Idealize.ShloMosaic.Lib.ValueIdx
import Idealize.ShloMosaic.Lib.StableHlo.Run
import Idealize.ShloMosaic.Lib.Tactic
import Idealize.ShloMosaic.PureOps.Ideal.Laws

set_option maxRecDepth 16384

noncomputable section

namespace Cert.KernelIdeal.KBlock2

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ)

/-- Window 2's index map, decided over the 32 grid points: block (0, 0) everywhere. -/
theorem idx2_facts : ∀ t : Fin cfg0.N, win0_2.index t (0 : Fin 2) = 0 ∧ win0_2.index t (1 : Fin 2) = 0 :=
  (by decide +kernel : ∀ t : Fin grid0.N, _)

/-- The block's index (a, b) is the array's index (a, b). -/
theorem emb2_eq (t : Fin cfg0.N) (a b : Fin 768) :
    ((cfg0.win 2).blk t).view.emb (ix2 a b) = (ix2 a b : S768x768.Idx) := by
  obtain ⟨e0, e1⟩ := idx2_facts t
  funext x; apply Fin.ext
  match x with
  | ⟨0, _⟩ => show win0_2.index t (0 : Fin 2) * 768 + 1 * a.val = a.val; omega
  | ⟨1, _⟩ => show win0_2.index t (1 : Fin 2) * 768 + 1 * b.val = b.val; omega

/-- Window 2's block at every point is the whole count array: at (a, b) the number of neighbours inside the image. -/
theorem iblk2_apply (c : Dev nD) (t : Fin cfg0.N) (a b : Fin 768) :
    (iblk (F := Ideal) m c 2 t : Vec Ideal S768x768 .f32) (ix2 a b) = Cert.Stencil.cntRows Cert.Pt.one a.val b.val := by
  unfold iblk
  rw [View.read_apply]
  show (V (F := Ideal) m c main_v106 : S768x768.Idx → EReal) (((cfg0.win 2).blk t).view.emb (ix2 a b)) = _
  rw [emb2_eq t a b]
  exact KDiv.div_window m c a b

end Cert.KernelIdeal.KBlock2

end
-- ==== Proof.Img.lean ====
/-
  An array read as an image over two natural numbers.

  The stencil (`Cert.Stencil`) speaks of an image `P : Nat → Nat → EReal`. A `768 × 768` array is that image inside
  the array and `0` outside (the outside is never read: every stencil term is guarded by its rectangle); the same for one
  batch member of a `32 × 1 × 768 × 768` array. Reading the image at coordinates that are in range gives back the array's
  element, whatever proofs of the bounds the index carries.
-/
import Idealize.ShloMosaic.PureOps.Ideal
import Idealize.ShloMosaic.Lib.ValueIdx

noncomputable section

namespace Cert.Img

open Idealize.ShloMosaic Idealize.ShloMosaic.ValueIdx

/-- A `768 × 768` array as an image. -/
def img2 (p : (⟨2, ![768, 768]⟩ : Shape).Idx → EReal) (a b : Nat) : EReal :=
  if h : a < 768 ∧ b < 768 then p (ix2 (⟨a, h.1⟩ : Fin 768) (⟨b, h.2⟩ : Fin 768)) else 0

/-- Batch member `n` of a `32 × 1 × 768 × 768` array as an image. -/
def img4 (s : (⟨4, ![32, 1, 768, 768]⟩ : Shape).Idx → EReal) (n : Fin 32) (a b : Nat) : EReal :=
  if h : a < 768 ∧ b < 768 then s (ix4 n (0 : Fin 1) (⟨a, h.1⟩ : Fin 768) (⟨b, h.2⟩ : Fin 768)) else 0

/-- The array's element at `(i, j)` is the image at the coordinates' values. -/
theorem img2_eq (p : (⟨2, ![768, 768]⟩ : Shape).Idx → EReal) (i j : Fin 768) (a b : Nat) (ha : i.val = a) (hb : j.val = b) :
    p (ix2 i j) = img2 p a b := by
  subst ha hb
  unfold img2
  rw [dif_pos ⟨i.isLt, j.isLt⟩]

/-- The array's element at `(n, 0, i, j)` is member `n`'s image at the coordinates' values. -/
theorem img4_eq (s : (⟨4, ![32, 1, 768, 768]⟩ : Shape).Idx → EReal) (n : Fin 32) (z : Fin 1) (i j : Fin 768) (a b : Nat)
    (ha : i.val = a) (hb : j.val = b) : s (ix4 n z i j) = img4 s n a b := by
  subst ha hb
  have hz : z = 0 := Subsingleton.elim _ _
  subst hz
  unfold img4
  rw [dif_pos ⟨i.isLt, j.isLt⟩]

/-- A block that is member `n` of the array has member `n`'s image. -/
theorem img2_eq_img4 (p : (⟨2, ![768, 768]⟩ : Shape).Idx → EReal) (s : (⟨4, ![32, 1, 768, 768]⟩ : Shape).Idx → EReal)
    (n : Fin 32) (h : ∀ i j : Fin 768, p (ix2 i j) = s (ix4 n (0 : Fin 1) i j)) : img2 p = img4 s n := by
  funext a b
  unfold img2 img4
  by_cases hab : a < 768 ∧ b < 768
  · rw [dif_pos hab, dif_pos hab, h]
  · rw [dif_neg hab, dif_neg hab]

end Cert.Img

end
-- ==== Proof.Spec.lean ====
/-
  What both programs compute, as one function of the two argument arrays.

  For batch member `n` and pixel `(i, j)`, with `y` the logits and `g` the ground truth (both `32 × 1 × 768 × 768`):

    * `P y n` is member `n`'s image of `sg y` (the logistic of the logits);
    * the consistency is `1 - acc / cnt`, `acc` the sum over the 24 neighbour offsets of the squared difference of `P` at
      the pixel and at the neighbour (`Cert.Stencil.accCols`), `cnt` the number of neighbours inside the image
      (`Cert.Stencil.cntCols`); `ce` is the consistency times the entropy factor `Cert.Pt.ent` of the logit;
    * `w = c₀ · max ce g + c₁` with the single-precision words of 0.9 and 0.1;
    * the result is `w` divided by the member's mean of `w`, the sum over the `768 × 768` pixels divided by the word of
      `589824`.

  The divisions are the extended reals' (`Ideal.div`), the sums are sums of extended reals; nothing here assumes a value
  finite, and every literal is kept as the word the programs write.
-/
import proofs.«119324_j40802189312445_2_alg».proof.Proof.Pt
import proofs.«119324_j40802189312445_2_alg».proof.Proof.Img
import proofs.«119324_j40802189312445_2_alg».proof.Proof.Stencil

noncomputable section

namespace Cert.Spec

open Idealize.ShloMosaic Idealize.ShloMosaic.ValueIdx

/-- An argument or result array. -/
abbrev A4 : Type := (⟨4, ![32, 1, 768, 768]⟩ : Shape).Idx → EReal

/-- The words of 0.9, 0.1 and 589824. -/
abbrev c09 : EReal := Ideal.ofBits .f32 0x3F666666#32
abbrev c01 : EReal := Ideal.ofBits .f32 0x3DCCCCCD#32
abbrev cN : EReal := Ideal.ofBits .f32 0x49100000#32

/-- Member `n`'s image of the logistic of the logits. -/
def P (y : A4) (n : Fin 32) : Nat → Nat → EReal := Cert.Img.img4 (fun k => Cert.Pt.sg (y k)) n

/-- Consistency times entropy factor at pixel `(i, j)` of member `n`. -/
def ce (y : A4) (n : Fin 32) (i j : Fin 768) : EReal :=
  (Cert.Pt.one - Ideal.div (Cert.Stencil.accCols (P y n) i.val j.val) (Cert.Stencil.cntCols Cert.Pt.one i.val j.val))
    * Cert.Pt.ent (y (ix4 n (0 : Fin 1) i j))

/-- The weight before normalisation. -/
def w (y g : A4) (n : Fin 32) (i j : Fin 768) : EReal := c09 * max (ce y n i j) (g (ix4 n (0 : Fin 1) i j)) + c01

/-- Member `n`'s mean weight. -/
def mean (y g : A4) (n : Fin 32) : EReal := Ideal.div (∑ r : Fin 768, ∑ c : Fin 768, w y g n r c) cN

/-- The result array. -/
def out (y g : A4) : A4 := fun k =>
  Ideal.div (w y g (⟨(k 0).val, (k 0).isLt⟩ : Fin 32) (⟨(k 2).val, (k 2).isLt⟩ : Fin 768) (⟨(k 3).val, (k 3).isLt⟩ : Fin 768))
    (mean y g (⟨(k 0).val, (k 0).isLt⟩ : Fin 32))

/-- The result at an index given by its coordinates. -/
theorem out_apply (y g : A4) (n : Fin 32) (z : Fin 1) (i j : Fin 768) :
    out y g (ix4 n z i j) = Ideal.div (w y g n i j) (mean y g n) := rfl

/-- Two arrays that agree at every index given by coordinates are equal. -/
theorem ext4 (a b : A4) (h : ∀ (n : Fin 32) (z : Fin 1) (i j : Fin 768), a (ix4 n z i j) = b (ix4 n z i j)) : a = b := by
  funext k
  rw [eq_ix4 k]
  exact h _ _ _ _

end Cert.Spec

end
-- ==== Proof.KValue.lean ====
/-
  The kernel's run with its result named.

  Each grid point t handles batch member t: the body reads member t's block of the logits and of the ground truth (the two
  arguments recast from [32, 1, 768, 768] to [32, 768, 768]) and the whole count array, and leaves in the output block
  member t's weight divided by member t's mean weight — the specification's value, by the stencil, the pointwise values
  and the normalising tail read at an index. The 32 blocks tile the [32, 768, 768] result, the host recasts it to
  [32, 1, 768, 768], and that is the specification's array; the arguments are never written.
-/
import proofs.«119324_j40802189312445_2_alg».proof.Proof.Gen.KernelIdeal.Frame
import proofs.«119324_j40802189312445_2_alg».proof.Proof.KStencil
import proofs.«119324_j40802189312445_2_alg».proof.Proof.KTail
import proofs.«119324_j40802189312445_2_alg».proof.Proof.KPoint
import proofs.«119324_j40802189312445_2_alg».proof.Proof.KBlocks
import proofs.«119324_j40802189312445_2_alg».proof.Proof.KBlock2
import proofs.«119324_j40802189312445_2_alg».proof.Proof.Spec
import proofs.«119324_j40802189312445_2_alg».proof.Proof.Img
import proofs.«119324_j40802189312445_2_alg».proof.Proof.Stencil
import Idealize.ShloMosaic.Lib.Pipeline.Value
import Idealize.ShloMosaic.Lib.ValueIdx
import Idealize.ShloMosaic.Lib.StableHlo.Run
import Idealize.ShloMosaic.Lib.Tactic
import Idealize.ShloMosaic.PureOps.Ideal.Laws

set_option maxRecDepth 16384

noncomputable section

namespace Cert.KernelIdeal.KValue

open Idealize.ShloMosaic Idealize.ShloMosaic.ValueIdx Idealize.ShloMosaic.TcCoe Idealize.SL.Sem Cert.KernelIdeal Cert.KernelIdeal.Gen
open Cert.KernelIdeal.KBlocks
open Idealize.ShloMosaic.Pipeline (Dat)
open scoped BigOperators

/-! ## The body's result at an index, over variables -/

theorem hz3 : (![0, 0, 0] : Fin 3 → Nat) = fun _ => 0 := funext fun a => by fin_cases a <;> rfl
theorem hz2 : (![0, 0] : Fin 2 → Nat) = fun _ => 0 := funext fun a => by fin_cases a <;> rfl

/-- The consistency times the entropy factor, as the body computes it from its blocks (the logits' block x0 of member t,
    the count array x2), is the specification's at member t. -/
theorem ce_apply (y : Cert.Spec.A4) (t : Fin 32) (x0 : Vec Ideal S1x768x768 .f32) (x2 : Vec Ideal S768x768 .f32)
    (h0 : ∀ a b : Fin 768, x0 (ix3 (0 : Fin 1) a b) = y (ix4 t (0 : Fin 1) a b))
    (h2 : ∀ a b : Fin 768, x2 (ix2 a b) = Cert.Stencil.cntRows Cert.Pt.one a.val b.val) (r c : Fin 768) :
    (k0_pay19 (k0_pay4 x2) (k0_pay5 x0) (k0_pay6 x0)
        (k0_pay15 (k0_pay5 x0) (k0_pay14 (k0_pay5 x0) (k0_pay10 (k0_pay5 x0) (k0_pay7 x0) (k0_pay8 x0) (k0_pay9 x0))
          (k0_pay12 (k0_pay5 x0)) (k0_pay13 (F := Ideal))))
        (k0_pay17 (k0_pay5 x0)) (k0_pay18 (F := Ideal))) (ix2 r c) = Cert.Spec.ce y t r c := by
  have hP : ∀ a b : Fin 768, k0_pay5 x0 (ix2 a b) = Cert.Spec.P y t a.val b.val := fun a b => by
    rw [KPoint.pay5_apply, h0]
    exact Cert.Img.img4_eq (fun k => Cert.Pt.sg (y k)) t (0 : Fin 1) a b a.val b.val rfl rfl
  refine (KStencil.stencil_apply x0 (k0_pay4 x2) (Cert.Spec.P y t) hP r c).trans ?_
  rw [KPoint.pay4_eq, h2, KPoint.pay6_apply, h0, Cert.Stencil.accRows_eq_accCols, Cert.Stencil.cntRows_eq_cntCols]
  rfl

/-- The weight, as the body computes it (x1 the ground truth's block of member t), is the specification's. -/
theorem w_apply (y g : Cert.Spec.A4) (t : Fin 32) (x0 x1 : Vec Ideal S1x768x768 .f32) (x2 : Vec Ideal S768x768 .f32)
    (h0 : ∀ a b : Fin 768, x0 (ix3 (0 : Fin 1) a b) = y (ix4 t (0 : Fin 1) a b))
    (h1 : ∀ a b : Fin 768, x1 (ix3 (0 : Fin 1) a b) = g (ix4 t (0 : Fin 1) a b))
    (h2 : ∀ a b : Fin 768, x2 (ix2 a b) = Cert.Stencil.cntRows Cert.Pt.one a.val b.val) (r c : Fin 768) :
    KTail.wK (k0_pay3 x1) (k0_pay19 (k0_pay4 x2) (k0_pay5 x0) (k0_pay6 x0)
        (k0_pay15 (k0_pay5 x0) (k0_pay14 (k0_pay5 x0) (k0_pay10 (k0_pay5 x0) (k0_pay7 x0) (k0_pay8 x0) (k0_pay9 x0))
          (k0_pay12 (k0_pay5 x0)) (k0_pay13 (F := Ideal))))
        (k0_pay17 (k0_pay5 x0)) (k0_pay18 (F := Ideal))) r c = Cert.Spec.w y g t r c := by
  unfold KTail.wK Cert.Spec.w
  rw [ce_apply y t x0 x2 h0 h2 r c, KPoint.pay3_apply, h1]

/-- What the body leaves in the output block, at (0, i, j): member t's weight over member t's mean weight. -/
theorem out0_3_apply (y g : Cert.Spec.A4) (t : Fin 32) (x0 x1 : Vec Ideal S1x768x768 .f32) (x2 : Vec Ideal S768x768 .f32)
    (h0 : ∀ a b : Fin 768, x0 (ix3 (0 : Fin 1) a b) = y (ix4 t (0 : Fin 1) a b))
    (h1 : ∀ a b : Fin 768, x1 (ix3 (0 : Fin 1) a b) = g (ix4 t (0 : Fin 1) a b))
    (h2 : ∀ a b : Fin 768, x2 (ix2 a b) = Cert.Stencil.cntRows Cert.Pt.one a.val b.val) (i j : Fin 768) :
    out0_3 x0 x1 x2 (ix3 (0 : Fin 1) i j) = Ideal.div (Cert.Spec.w y g t i j) (Cert.Spec.mean y g t) := by
  unfold out0_3
  rw [View.canon_unit_zero hz3]
  simp only [View.ld_unit_zero (S := S1x768x768) hz3, View.ld_unit_zero (S := S768x768) hz2]
  refine (KTail.tail_apply _ _ i j).trans ?_
  refine congrArg₂ Ideal.div (w_apply y g t x0 x1 x2 h0 h1 h2 i j) (congrArg (fun s => Ideal.div s Cert.Spec.cN) ?_)
  exact Finset.sum_congr rfl fun r _ => Finset.sum_congr rfl fun c _ => w_apply y g t x0 x1 x2 h0 h1 h2 r c

variable (m : (ℓ : Loc nD τ sig) → Buf (Elt Ideal) ℓ) (ρ : Dev nD → PrngReg)

/-! ## From blocks to the array -/

/-- The two argument arrays of core c. -/
abbrev yOf (c : Dev nD) : Cert.Spec.A4 := m ((c : Thread nD τ).loc main_arg0)
abbrev gOf (c : Dev nD) : Cert.Spec.A4 := m ((c : Thread nD τ).loc main_arg1)

/-- The kernel's result array [32, 768, 768]: member n's weight over member n's mean weight. -/
def G3 (y g : Cert.Spec.A4) : S32x768x768.Idx → EReal := fun k =>
  Cert.Spec.out y g (ix4 (⟨(k 0).val, (k 0).isLt⟩ : Fin 32) (0 : Fin 1) (⟨(k 1).val, (k 1).isLt⟩ : Fin 768) (⟨(k 2).val, (k 2).isLt⟩ : Fin 768))

theorem G3_apply (y g : Cert.Spec.A4) (n : Fin 32) (i j : Fin 768) :
    G3 y g (ix3 n i j) = Ideal.div (Cert.Spec.w y g n i j) (Cert.Spec.mean y g n) := rfl

/-- What point t writes back is block t of the result array. -/
theorem flushed_eq (c : Dev nD) (t : Fin cfg0.N) :
    (dats (F := Ideal) m 0 c).flushed 3 t = ((cfg0.win 3).blk t).view.read (Elt Ideal) (G3 (yOf m c) (gOf m c)) := by
  obtain ⟨-, -, -, -, -, -, e0, e1, e2⟩ := idx_facts t
  show (cfg0.win 3).cut (grid0.coords t) ((dats (F := Ideal) m 0 c).after 3 t) = _
  rw [after0_3]
  funext x
  revert x
  show ∀ x : S1x768x768.Idx, out0_3 (iblk (F := Ideal) m c 0 t) (iblk (F := Ideal) m c 1 t) (iblk (F := Ideal) m c 2 t) x
    = G3 (yOf m c) (gOf m c) (((cfg0.win 3).blk t).view.emb x)
  intro x
  obtain ⟨z, i, j, rfl⟩ : ∃ (z : Fin 1) (i j : Fin 768), x = ix3 z i j := ⟨_, _, _, eq_ix3 x⟩
  obtain rfl : z = 0 := Subsingleton.elim _ _
  refine (out0_3_apply (yOf m c) (gOf m c) (⟨t.val, tlt t⟩ : Fin 32) (iblk (F := Ideal) m c 0 t) (iblk (F := Ideal) m c 1 t)
    (iblk (F := Ideal) m c 2 t) (iblk0_apply m c t) (iblk1_apply m c t) (KBlock2.iblk2_apply m c t) i j).trans ?_
  have hk : ((cfg0.win 3).blk t).view.emb (ix3 (0 : Fin 1) i j) = (ix3 (⟨t.val, tlt t⟩ : Fin 32) i j : S32x768x768.Idx) := by
    funext a; apply Fin.ext
    match a with
    | ⟨0, _⟩ => show win0_3.index t (0 : Fin 3) * 1 + 1 * 0 = t.val; omega
    | ⟨1, _⟩ => show win0_3.index t (1 : Fin 3) * 768 + 1 * i.val = i.val; omega
    | ⟨2, _⟩ => show win0_3.index t (2 : Fin 3) * 768 + 1 * j.val = j.val; omega
  rw [hk]
  rfl

/-- Every index of the result array lies in some point's block: the block of its member. -/
theorem cover (c : Dev nD) (i : ((cfg0.win 3).arr.view.loc (c.tc : Thread nD τ)).2.ty.Idx) :
    ∃ t : Fin cfg0.N, (cfg0.win 3).flush t = true ∧ i ∈ ((cfg0.win 3).blk t).view.set := by
  have h0 : (i 0 : Nat) < 32 := (i 0).isLt
  have h1 : (i 1 : Nat) < 768 := (i 1).isLt
  have h2 : (i 2 : Nat) < 768 := (i 2).isLt
  have hN : cfg0.N = 32 := N_0
  obtain ⟨t, ht⟩ : ∃ t : Fin cfg0.N, t.val = (i 0 : Nat) := ⟨⟨(i 0 : Nat), by omega⟩, rfl⟩
  obtain ⟨-, -, -, -, -, -, e0, e1, e2⟩ := idx_facts t
  refine ⟨t, flush0_3 t, ?_⟩
  show i ∈ ((View.whole main_v107).slice (win0_3.rect t)).set
  rw [View.set_slice_whole, Rect.mem_set_unit]
  intro a
  match a with
  | ⟨0, _⟩ =>
    show win0_3.index t (0 : Fin 3) * 1 ≤ (i 0 : Nat) ∧ (i 0 : Nat) < win0_3.index t (0 : Fin 3) * 1 + 1
    omega
  | ⟨1, _⟩ =>
    show win0_3.index t (1 : Fin 3) * 768 ≤ (i 1 : Nat) ∧ (i 1 : Nat) < win0_3.index t (1 : Fin 3) * 768 + 768
    omega
  | ⟨2, _⟩ =>
    show win0_3.index t (2 : Fin 3) * 768 ≤ (i 2 : Nat) ∧ (i 2 : Nat) < win0_3.index t (2 : Fin 3) * 768 + 768
    omega

/-- So the result array ends holding G3 of the arguments. -/
theorem final (c : Dev nD) : (dats (F := Ideal) m 0 c).arrAt 3 cfg0.N = G3 (yOf m c) (gOf m c) :=
  (dats (F := Ideal) m 0 c).arrAt_eq_of_cover 3 (G3 (yOf m c) (gOf m c)) (fun t _ => flushed_eq m c t) (cover c)

/-! ## The host's last operation and the run -/

/-- The [32, 768, 768] result recast as [32, 1, 768, 768], read at (n, z, i, j). -/
theorem castOut_apply (X : S32x768x768.Idx → EReal) (h : S32x768x768.ShapeCasts S32x1x768x768) (n : Fin 32) (z : Fin 1) (i j : Fin 768) :
    shapeCast S32x1x768x768 X h (ix4 n z i j) = X (ix3 n i j) := by
  refine shapeCast_apply X h (ix4 n z i j) (ix3 n i j) ?_
  rw [Shape.rowMajor_val_four, Shape.rowMajor_val_three]
  show (n.val * 768 + i.val) * 768 + j.val = ((n.val * 1 + z.val) * 768 + i.val) * 768 + j.val
  have := z.isLt
  omega

/-- After the host's last operation the result buffer holds the specification's array. -/
theorem tail_eq (c : Dev nD) :
    Pipeline.afterTail₀ cfgs (dats (F := Ideal) m) 0 (V0 m) [hostOps1] c main_v108 = Cert.Spec.out (yOf m c) (gOf m c) := by
  unfold Pipeline.afterTail₀
  show StableHlo.after hostOps1 _ (Proc.devRef .tc main_v108) = _
  after_results
  refine (congrArg (fun X : S32x768x768.Idx → EReal => shapeCast S32x1x768x768 X shapeCasts_S32x768x768_S32x1x768x768)
    ((Pipeline.withArrays_arr spec0 launch0.win.arr_inj c _ _ 3).trans (final m c))).trans ?_
  refine Cert.Spec.ext4 _ _ fun n z i j => ?_
  refine (castOut_apply _ _ n z i j).trans ?_
  obtain rfl : z = 0 := Subsingleton.elim _ _
  rfl

/-- THE KERNEL'S RUN: it terminates, the result buffer ends at the specification's array of the two arguments, and
    the arguments end unchanged. -/
theorem run : θ_run (Cert.KernelIdeal.defs (F := Ideal)) (onTc (τ := τ) (main (F := Ideal))) ⟨m, fun _ => 0, ρ⟩ (fun r => ∀ c : Dev nD,
      r.2.mem ((c.tc : Thread nD τ).loc main_v108) = Cert.Spec.out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v108 (Pipeline.mem_restRefs_of main_v108 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (Gen.run_main m ρ)

end Cert.KernelIdeal.KValue

end
-- ==== Proof.LibSsa.lean ====
/-
  A line of host operations in single-assignment form, read one operation at a time.

  `after ops V` is what the buffers hold once the operations `ops` have run in order from the contents `V`. Suppose each
  operation writes one buffer, operation `k` the reference `W[k]` (`WritesIn ops W`). Then

    * a reference that is not among `W[k], W[k+1], …` is written by no operation from position `k` on, so after the whole
      line it holds what it held after the first `k` operations (`after_eq_take`);
    * the reference operation `k` writes, if no LATER operation writes it again, holds after the whole line that
      operation's result from the contents after the first `k` operations (`after_out`).

  Together: when every operand of operation `k` was written before `k` (or never) and nothing is written twice, the
  final contents `R := after ops V` satisfy the operation's own equation `R y = f (R a) (R b) …` — one small fact per
  operation, whose proof mentions two positions of the list and never the composed term of the whole line. The
  equations are stated for the builders a printed program uses.
-/
import Idealize.ShloMosaic.Lib.StableHlo.Run

noncomputable section

namespace Idealize.ShloMosaic.StableHlo

variable {τ : Topo} {sig : RefSig} {Val : EltTy → Type}

/-- Running two lines one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- Operation `k` of the line writes (at most) the reference `W[k]`, for every `k`. -/
def WritesIn (ops : List (HloOp τ sig Val)) (W : List (Ref sig .tc)) : Prop :=
  List.Forall₂ (fun op w => op.writes ⊆ ({Proc.devRef (τ := τ) .tc w} : Finset (DevRef τ sig))) ops W

theorem WritesIn.nil : WritesIn ([] : List (HloOp τ sig Val)) [] := List.Forall₂.nil

theorem WritesIn.cons {op : HloOp τ sig Val} {w : Ref sig .tc} {ops : List (HloOp τ sig Val)} {W : List (Ref sig .tc)}
    (h : op.writes ⊆ ({Proc.devRef (τ := τ) .tc w} : Finset (DevRef τ sig))) (t : WritesIn ops W) :
    WritesIn (op :: ops) (w :: W) := List.Forall₂.cons h t

/-- The same holds of the line and the list from position `k` on. -/
theorem WritesIn.drop {ops : List (HloOp τ sig Val)} {W : List (Ref sig .tc)} (h : WritesIn ops W) :
    ∀ k, WritesIn (ops.drop k) (W.drop k) := by
  induction h with
  | nil => intro k; simp only [List.drop_nil]; exact List.Forall₂.nil
  | cons hd tl ih =>
    intro k
    cases k with
    | zero => exact List.Forall₂.cons hd tl
    | succ k => exact ih k

/-- Two lines one after the other, each with its list. -/
theorem WritesIn.append {a b : List (HloOp τ sig Val)} {A B : List (Ref sig .tc)} (h1 : WritesIn a A) (h2 : WritesIn b B) :
    WritesIn (a ++ b) (A ++ B) := by
  induction h1 with
  | nil => exact h2
  | cons hd _ ih => exact List.Forall₂.cons hd ih

/-- In a list without repetition, the entry at position `j` does not occur from a later position `k` on. -/
theorem not_mem_drop_of_pos {W : List (Ref sig .tc)} (hnd : W.Nodup) {j k : Nat} {x : Ref sig .tc}
    (e : W[j]? = some x) (hjk : j < k) : x ∉ W.drop k := by
  intro hmem
  obtain ⟨i, hi, ei⟩ := List.getElem_of_mem hmem
  rw [List.getElem_drop] at ei
  have hj : j < W.length := by
    by_contra hcon
    rw [List.getElem?_eq_none (Nat.le_of_not_lt hcon)] at e
    cases e
  rw [List.getElem?_eq_getElem hj] at e
  have e' : W[j] = x := Option.some.inj e
  have hki : k + i < W.length := by
    have := hi; rw [List.length_drop] at this; omega
  have : k + i = j := (List.Nodup.getElem_inj_iff hnd).mp (ei.trans e'.symm)
  omega

/-- A reference that does not occur in the list does not occur from position `k` on. -/
theorem not_mem_drop_of_not_mem {W : List (Ref sig .tc)} {x : Ref sig .tc} (h : x ∉ W) (k : Nat) : x ∉ W.drop k :=
  fun hm => h (List.mem_of_mem_drop hm)

/-- Every operation of the line writes only references of the list. -/
theorem WritesIn.forall_sub {ops : List (HloOp τ sig Val)} {W : List (Ref sig .tc)} (h : WritesIn ops W) :
    ops.Forall fun op => op.writes ⊆ (W.map (Proc.devRef (τ := τ) .tc)).toFinset := by
  induction h with
  | nil => exact trivial
  | @cons op w ops W hd _ ih =>
    rw [List.forall_cons]
    refine ⟨fun b hb => ?_, ?_⟩
    · have := Finset.mem_singleton.mp (hd hb)
      rw [this, List.mem_toFinset, List.map_cons]
      exact List.mem_cons_self
    · refine (List.forall_iff_forall_mem.mpr fun o ho b hb => ?_)
      have := (List.forall_iff_forall_mem.mp ih) o ho hb
      rw [List.mem_toFinset, List.map_cons]
      exact List.mem_cons_of_mem _ (List.mem_toFinset.mp this)

/-- A reference written by no operation from position `k` on holds, after the line, what it held after the first `k`
    operations. -/
theorem after_eq_take {ops : List (HloOp τ sig Val)} {W : List (Ref sig .tc)} (hW : WritesIn ops W)
    (V : Valuation τ sig Val) (k : Nat) (x : Ref sig .tc) (hx : x ∉ W.drop k) :
    after ops V (Proc.devRef .tc x) = after (ops.take k) V (Proc.devRef .tc x) := by
  have e : after ops V = after (ops.drop k) (after (ops.take k) V) := by
    rw [← after_append, List.take_append_drop]
  rw [e]
  exact after_of_writes_sub (ops.drop k) _ (hW.drop k).forall_sub hx

/-- The reference operation `k` writes, not written again later, holds after the line that operation's result from the
    contents after the first `k` operations. -/
theorem after_out {ops : List (HloOp τ sig Val)} {W : List (Ref sig .tc)} (hW : WritesIn ops W)
    (V : Valuation τ sig Val) (k : Nat) (hk : k < ops.length) (y : Ref sig .tc) (hy : y ∉ W.drop (k + 1)) :
    after ops V (Proc.devRef .tc y) = (ops[k]).result (after (ops.take k) V) (Proc.devRef .tc y) := by
  have e : after ops V = after (ops.drop (k + 1)) ((ops[k]).result (after (ops.take k) V)) := by
    conv_lhs => rw [← List.take_append_drop k ops, after_append, List.drop_eq_getElem_cons hk, after_cons]
  rw [e]
  exact after_of_writes_sub (ops.drop (k + 1)) _ (hW.drop (k + 1)).forall_sub hy

/-! ## The builders' equations -/

section Equations

variable {ops : List (HloOp τ sig Val)} {W : List (Ref sig .tc)}

/-- `%y = ‹constant›` at position `k`. -/
theorem eq_nullary (hW : WritesIn ops W) (V : Valuation τ sig Val) (k : Nat) (hk : k < ops.length) {y : Ref sig .tc} (v : y.ty.Contents Val) (hy)
    (hop : ops[k] = nullary y v hy) (hyW : y ∉ W.drop (k + 1)) :
    after ops V (Proc.devRef .tc y) = v := by
  rw [after_out hW V k hk y hyW, hop, nullary_result]

/-- `%y = ‹op› %x` at position `k`. -/
theorem eq_unary (hW : WritesIn ops W) (V : Valuation τ sig Val) (k : Nat) (hk : k < ops.length) {x y : Ref sig .tc} (f : x.ty.Contents Val → y.ty.Contents Val) (hx hy)
    (hop : ops[k] = unary x y f hx hy) (hxW : x ∉ W.drop k) (hyW : y ∉ W.drop (k + 1)) :
    after ops V (Proc.devRef .tc y) = f (after ops V (Proc.devRef .tc x)) := by
  rw [after_out hW V k hk y hyW, hop, unary_result, ← after_eq_take hW V k x hxW]

/-- `%y = ‹op› %a, %b` at position `k`. -/
theorem eq_binary (hW : WritesIn ops W) (V : Valuation τ sig Val) (k : Nat) (hk : k < ops.length) {a b y : Ref sig .tc}
    (f : a.ty.Contents Val → b.ty.Contents Val → y.ty.Contents Val) (ha hb hy)
    (hop : ops[k] = binary a b y f ha hb hy) (haW : a ∉ W.drop k) (hbW : b ∉ W.drop k) (hyW : y ∉ W.drop (k + 1)) :
    after ops V (Proc.devRef .tc y) = f (after ops V (Proc.devRef .tc a)) (after ops V (Proc.devRef .tc b)) := by
  rw [after_out hW V k hk y hyW, hop, binary_result, ← after_eq_take hW V k a haW, ← after_eq_take hW V k b hbW]

/-- `%y = ‹op› %c, %a, %b` at position `k`. -/
theorem eq_ternary (hW : WritesIn ops W) (V : Valuation τ sig Val) (k : Nat) (hk : k < ops.length) {c a b y : Ref sig .tc}
    (f : c.ty.Contents Val → a.ty.Contents Val → b.ty.Contents Val → y.ty.Contents Val) (hc ha hb hy)
    (hop : ops[k] = ternary c a b y f hc ha hb hy) (hcW : c ∉ W.drop k) (haW : a ∉ W.drop k) (hbW : b ∉ W.drop k)
    (hyW : y ∉ W.drop (k + 1)) :
    after ops V (Proc.devRef .tc y)
      = f (after ops V (Proc.devRef .tc c)) (after ops V (Proc.devRef .tc a)) (after ops V (Proc.devRef .tc b)) := by
  rw [after_out hW V k hk y hyW, hop, ternary_result, ← after_eq_take hW V k c hcW, ← after_eq_take hW V k a haW,
    ← after_eq_take hW V k b hbW]

/-! The same with the operands' values already known: the form a stage-by-stage reading uses. -/

theorem eq_unary' (hW : WritesIn ops W) (V : Valuation τ sig Val) (k : Nat) (hk : k < ops.length) {x y : Ref sig .tc}
    (f : x.ty.Contents Val → y.ty.Contents Val) (hx hy) (hop : ops[k] = unary x y f hx hy)
    (hxW : x ∉ W.drop k) (hyW : y ∉ W.drop (k + 1)) {vx : x.ty.Contents Val}
    (ex : after ops V (Proc.devRef .tc x) = vx) :
    after ops V (Proc.devRef .tc y) = f vx := by
  rw [eq_unary hW V k hk f hx hy hop hxW hyW, ex]

theorem eq_binary' (hW : WritesIn ops W) (V : Valuation τ sig Val) (k : Nat) (hk : k < ops.length) {a b y : Ref sig .tc}
    (f : a.ty.Contents Val → b.ty.Contents Val → y.ty.Contents Val) (ha hb hy)
    (hop : ops[k] = binary a b y f ha hb hy) (haW : a ∉ W.drop k) (hbW : b ∉ W.drop k) (hyW : y ∉ W.drop (k + 1))
    {va : a.ty.Contents Val} {vb : b.ty.Contents Val}
    (ea : after ops V (Proc.devRef .tc a) = va) (eb : after ops V (Proc.devRef .tc b) = vb) :
    after ops V (Proc.devRef .tc y) = f va vb := by
  rw [eq_binary hW V k hk f ha hb hy hop haW hbW hyW, ea, eb]

theorem eq_ternary' (hW : WritesIn ops W) (V : Valuation τ sig Val) (k : Nat) (hk : k < ops.length) {c a b y : Ref sig .tc}
    (f : c.ty.Contents Val → a.ty.Contents Val → b.ty.Contents Val → y.ty.Contents Val) (hc ha hb hy)
    (hop : ops[k] = ternary c a b y f hc ha hb hy) (hcW : c ∉ W.drop k) (haW : a ∉ W.drop k) (hbW : b ∉ W.drop k)
    (hyW : y ∉ W.drop (k + 1)) {vc : c.ty.Contents Val} {va : a.ty.Contents Val} {vb : b.ty.Contents Val}
    (ec : after ops V (Proc.devRef .tc c) = vc) (ea : after ops V (Proc.devRef .tc a) = va)
    (eb : after ops V (Proc.devRef .tc b) = vb) :
    after ops V (Proc.devRef .tc y) = f vc va vb := by
  rw [eq_ternary hW V k hk f hc ha hb hy hop hcW haW hbW hyW, ec, ea, eb]

/-- A reference no operation of the line writes keeps its launch contents. -/
theorem after_kept (hW : WritesIn ops W) (V : Valuation τ sig Val) (x : Ref sig .tc) (hx : x ∉ W) :
    after ops V (Proc.devRef .tc x) = V (Proc.devRef .tc x) :=
  after_of_writes_sub ops V hW.forall_sub hx

end Equations

end Idealize.ShloMosaic.StableHlo

end
-- ==== Proof.RRunW.lean ====
/- A table: the reference written by each of the reference program's 451 host operations, in order, window by window
   (`W0` … `W7` beside `ops0` … `ops7` of Proof/RefOps.lean), and `W` their concatenation. -/
import proofs.«119324_j40802189312445_2_alg».proof.Proof.RefOps

namespace Cert.ReferenceIdeal.RRun

open Cert.ReferenceIdeal Idealize.ShloMosaic

abbrev W0 : List (Ref sig .tc) :=
  [main_v0, main_v1, main_cst, main_v2, main_v3, main_cst_0, main_v4, main_v5, main_cst_1, main_v6, main_cst_2, main_v7, main_v8, main_v9, main_v10, main_v11, main_c, main_v12, main_c_3, main_v13, main_v14, main_v15, main_c_4, main_v16, main_c_5, main_v17, main_v18, main_cst_6, main_v19, main_v20, main_v21, main_v22, main_v23, main_v24, main_c_7, main_v25, main_c_8, main_v26, main_v27, main_v28, main_c_9, main_v29, main_c_10, main_v30, main_v31, main_cst_11, main_v32, main_v33, main_v34, main_v35, main_v36, main_v37, main_c_12, main_v38, main_v39, main_c_13, main_v40, main_cst_14, main_v41, main_v42]
abbrev W1 : List (Ref sig .tc) :=
  [main_v43, main_v44, main_v45, main_v46, main_c_15, main_v47, main_c_16, main_v48, main_v49, main_v50, main_c_17, main_v51, main_c_18, main_v52, main_v53, main_cst_19, main_v54, main_v55, main_v56, main_v57, main_v58, main_v59, main_c_20, main_v60, main_c_21, main_v61, main_v62, main_v63, main_c_22, main_v64, main_c_23, main_v65, main_v66, main_cst_24, main_v67, main_v68, main_v69, main_v70, main_v71, main_v72, main_c_25, main_v73, main_c_26, main_v74, main_v75, main_v76, main_c_27, main_v77, main_c_28, main_v78, main_v79, main_cst_29, main_v80, main_v81, main_v82, main_v83, main_v84, main_v85, main_c_30, main_v86]
abbrev W2 : List (Ref sig .tc) :=
  [main_c_31, main_v87, main_v88, main_v89, main_c_32, main_v90, main_c_33, main_v91, main_v92, main_cst_34, main_v93, main_v94, main_v95, main_v96, main_v97, main_v98, main_c_35, main_v99, main_v100, main_c_36, main_v101, main_cst_37, main_v102, main_v103, main_v104, main_v105, main_v106, main_v107, main_c_38, main_v108, main_c_39, main_v109, main_v110, main_v111, main_c_40, main_v112, main_c_41, main_v113, main_v114, main_cst_42, main_v115, main_v116, main_v117, main_v118, main_v119, main_v120, main_c_43, main_v121, main_c_44, main_v122, main_v123, main_v124, main_c_45, main_v125, main_c_46, main_v126, main_v127, main_cst_47, main_v128, main_v129]
abbrev W3 : List (Ref sig .tc) :=
  [main_v130, main_v131, main_v132, main_v133, main_c_48, main_v134, main_v135, main_c_49, main_v136, main_cst_50, main_v137, main_v138, main_v139, main_v140, main_v141, main_v142, main_c_51, main_v143, main_v144, main_c_52, main_v145, main_cst_53, main_v146, main_v147, main_v148, main_v149, main_v150, main_v151, main_c_54, main_v152, main_v153, main_c_55, main_v154, main_cst_56, main_v155, main_v156, main_v157, main_v158, main_v159, main_v160, main_c_57, main_v161, main_v162, main_c_58, main_v163, main_cst_59, main_v164, main_v165, main_v166, main_v167, main_v168, main_v169, main_c_60, main_v170, main_c_61, main_v171, main_v172, main_v173, main_c_62, main_v174]
abbrev W4 : List (Ref sig .tc) :=
  [main_c_63, main_v175, main_v176, main_cst_64, main_v177, main_v178, main_v179, main_v180, main_v181, main_v182, main_c_65, main_v183, main_c_66, main_v184, main_v185, main_v186, main_c_67, main_v187, main_c_68, main_v188, main_v189, main_cst_69, main_v190, main_v191, main_v192, main_v193, main_v194, main_v195, main_c_70, main_v196, main_v197, main_c_71, main_v198, main_cst_72, main_v199, main_v200, main_v201, main_v202, main_v203, main_v204, main_c_73, main_v205, main_c_74, main_v206, main_v207, main_v208, main_c_75, main_v209, main_c_76, main_v210, main_v211, main_cst_77, main_v212, main_v213, main_v214, main_v215, main_v216, main_v217, main_c_78, main_v218]
abbrev W5 : List (Ref sig .tc) :=
  [main_c_79, main_v219, main_v220, main_v221, main_c_80, main_v222, main_c_81, main_v223, main_v224, main_cst_82, main_v225, main_v226, main_v227, main_v228, main_v229, main_v230, main_c_83, main_v231, main_c_84, main_v232, main_v233, main_v234, main_c_85, main_v235, main_c_86, main_v236, main_v237, main_cst_87, main_v238, main_v239, main_v240, main_v241, main_v242, main_v243, main_c_88, main_v244, main_c_89, main_v245, main_v246, main_v247, main_c_90, main_v248, main_c_91, main_v249, main_v250, main_cst_92, main_v251, main_v252, main_v253, main_v254, main_v255, main_v256, main_c_93, main_v257, main_v258, main_c_94, main_v259, main_cst_95, main_v260, main_v261]
abbrev W6 : List (Ref sig .tc) :=
  [main_v262, main_v263, main_v264, main_v265, main_c_96, main_v266, main_c_97, main_v267, main_v268, main_v269, main_c_98, main_v270, main_c_99, main_v271, main_v272, main_cst_100, main_v273, main_v274, main_v275, main_v276, main_v277, main_v278, main_c_101, main_v279, main_c_102, main_v280, main_v281, main_v282, main_c_103, main_v283, main_c_104, main_v284, main_v285, main_cst_105, main_v286, main_v287, main_v288, main_cst_106, main_v289, main_v290, main_v291, main_v292, main_cst_107, main_v293, main_v294, main_cst_108, main_v295, main_v296, main_call0_cst, main_call0_v0, main_call0_v1, main_call0_v2, main_call0_v3, main_call0_v4, main_call0_v5, main_call0_v6, main_call0_v7, main_call0_v8, main_call0_v9, main_call0_v10, main_call0_v11, main_v297, main_v298, main_v299, main_cst_109, main_v300, main_v301, main_v302, main_v303, main_cst_110, main_v304, main_v305, main_cst_111]
abbrev W7 : List (Ref sig .tc) :=
  [main_v306, main_v307, main_v308, main_v309, main_cst_112, main_v310, main_v311, main_cst_113, main_v312, main_v313, main_cst_114, main_v314, main_v315, main_cst_115, main_v316, main_v317, main_v318, main_v319]

abbrev W : List (Ref sig .tc) := W0 ++ (W1 ++ (W2 ++ (W3 ++ (W4 ++ (W5 ++ (W6 ++ W7))))))

end Cert.ReferenceIdeal.RRun
-- ==== Proof.RRunBase.lean ====
/-
  The reference program's line of host operations is in single-assignment form.

  `ops` (Proof/RefOps.lean) is the reference's @main as a list of 451 operations, `W` (Proof/RRunW.lean) the reference each
  writes, in the same order. Here: operation `k` writes exactly `W[k]` (each builder's written set is its result's
  singleton, window by window); no reference is written twice (`W` has no repetition) and neither argument of @main is
  written at all. From these, an operand written at an earlier position, the operation's own result, and an argument are
  each not written again from the operation's position on — the side conditions of the operations' equations
  (Proof/LibSsa.lean) — and the arguments hold their launch contents after the whole line.
-/
import proofs.«119324_j40802189312445_2_alg».proof.Proof.RefOps
import proofs.«119324_j40802189312445_2_alg».proof.Proof.RefRead
import proofs.«119324_j40802189312445_2_alg».proof.Proof.LibSsa
import proofs.«119324_j40802189312445_2_alg».proof.Proof.RRunW

set_option maxRecDepth 16384

noncomputable section

namespace Cert.ReferenceIdeal.RRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The launch contents of @main's two arguments on device `c`. -/
abbrev X0 (m : (ℓ : Loc nD τ sig) → Buf (Elt F) ℓ) (c : Dev nD) : (⟨S32x1x768x768, .f32⟩ : BufTy).Contents (Elt F) :=
  m ((c.tc : Thread nD τ).loc main_arg0)
abbrev X1 (m : (ℓ : Loc nD τ sig) → Buf (Elt F) ℓ) (c : Dev nD) : (⟨S32x1x768x768, .f32⟩ : BufTy).Contents (Elt F) :=
  m ((c.tc : Thread nD τ).loc main_arg1)

/-! Each operation writes its listed reference: a builder's written set IS the singleton of its result. -/

theorem hW0 : WritesIn (ops0 (F := F)) W0 := by
  repeat (first | exact WritesIn.nil | refine WritesIn.cons (Finset.Subset.refl _) ?_)
theorem hW1 : WritesIn (ops1 (F := F)) W1 := by
  repeat (first | exact WritesIn.nil | refine WritesIn.cons (Finset.Subset.refl _) ?_)
theorem hW2 : WritesIn (ops2 (F := F)) W2 := by
  repeat (first | exact WritesIn.nil | refine WritesIn.cons (Finset.Subset.refl _) ?_)
theorem hW3 : WritesIn (ops3 (F := F)) W3 := by
  repeat (first | exact WritesIn.nil | refine WritesIn.cons (Finset.Subset.refl _) ?_)
theorem hW4 : WritesIn (ops4 (F := F)) W4 := by
  repeat (first | exact WritesIn.nil | refine WritesIn.cons (Finset.Subset.refl _) ?_)
theorem hW5 : WritesIn (ops5 (F := F)) W5 := by
  repeat (first | exact WritesIn.nil | refine WritesIn.cons (Finset.Subset.refl _) ?_)
theorem hW6 : WritesIn (ops6 (F := F)) W6 := by
  repeat (first | exact WritesIn.nil | refine WritesIn.cons (Finset.Subset.refl _) ?_)
theorem hW7 : WritesIn (ops7 (F := F)) W7 := by
  repeat (first | exact WritesIn.nil | refine WritesIn.cons (Finset.Subset.refl _) ?_)

/-- The whole line writes the whole list, position by position. -/
theorem hW : WritesIn (ops (F := F)) W :=
  hW0.append (hW1.append (hW2.append (hW3.append (hW4.append (hW5.append (hW6.append hW7))))))

/-- A reference's number among the buffers of its space: all the references here are in one space, so the numbers tell
    them apart, and comparing numbers is all that is ever computed. -/
def key (r : Ref sig .tc) : Nat := r.idx.val

/-- No reference is written twice: already their numbers are pairwise distinct. -/
theorem hnd : W.Nodup := List.Nodup.of_map key (by decide +kernel)

/-- Neither argument of @main is written: its number is none of the written references' numbers. -/
theorem arg0_not_mem : main_arg0 ∉ W := fun h =>
  absurd (List.mem_map_of_mem (f := key) h) (by decide +kernel)
theorem arg1_not_mem : main_arg1 ∉ W := fun h =>
  absurd (List.mem_map_of_mem (f := key) h) (by decide +kernel)

/-- The line has 451 operations. -/
theorem ops_length : (ops (F := F)).length = 451 := rfl

/-- A position below 451 is a position of the line. -/
theorem hk (k : Nat) (h : k < 451) : k < (ops (F := F)).length := by rw [ops_length]; exact h

/-- An operand written at an earlier position `j` is not written from position `k` on. -/
theorem opnd (j k : Nat) {x : Ref sig .tc} (e : W[j]? = some x) (hjk : j < k) : x ∉ W.drop k :=
  not_mem_drop_of_pos hnd e hjk

/-- The reference written at position `k` is not written again after it. -/
theorem outp (k : Nat) {y : Ref sig .tc} (e : W[k]? = some y) : y ∉ W.drop (k + 1) :=
  not_mem_drop_of_pos hnd e (Nat.lt_succ_self k)

/-- An argument is not written from any position on. -/
theorem arg_main_arg0 (k : Nat) : main_arg0 ∉ W.drop k := not_mem_drop_of_not_mem arg0_not_mem k
theorem arg_main_arg1 (k : Nat) : main_arg1 ∉ W.drop k := not_mem_drop_of_not_mem arg1_not_mem k

/-- After the whole line the arguments hold their launch contents. -/
theorem st_main_arg0 (m : (ℓ : Loc nD τ sig) → Buf (Elt F) ℓ) (c : Dev nD) :
    after (ops (F := F)) (launchContents m c) (Proc.devRef .tc main_arg0) = X0 m c :=
  after_kept hW (launchContents m c) main_arg0 arg0_not_mem
theorem st_main_arg1 (m : (ℓ : Loc nD τ sig) → Buf (Elt F) ℓ) (c : Dev nD) :
    after (ops (F := F)) (launchContents m c) (Proc.devRef .tc main_arg1) = X1 m c :=
  after_kept hW (launchContents m c) main_arg1 arg1_not_mem

end Cert.ReferenceIdeal.RRun

end
-- ==== Proof.RRunStages.lean ====
/- A table: for each of the reference program's 451 host operations, in order, that the buffer it writes holds after the
   whole line the stage function of Proof/RefRead.lean at the launch contents of @main's arguments. Every entry is the
   operation's own equation (Proof/LibSsa.lean) at its position, its operands' entries above it; the entries differ only
   in the position, the builder and the names. -/
import proofs.«119324_j40802189312445_2_alg».proof.Proof.RRunBase

set_option maxRecDepth 16384

noncomputable section

namespace Cert.ReferenceIdeal.RRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

theorem st_main_v0 (m : (ℓ : Loc nD τ sig) → Buf (Elt F) ℓ) (c : Dev nD) :
    after (ops (F := F)) (launchContents m c) (Proc.devRef .tc main_v0) = val_main_v0 (F := F) (X0 m c) := by
  refine (eq_unary' hW (launchContents m c) 0 (hk 0 (by decide)) (Host.negf : (⟨S32x1x768x768, .f32⟩ : BufTy).Contents (Elt F) → (⟨S32x1x768x768, .f32⟩ : BufTy).Contents (Elt F)) ⟨by decide, rfl⟩ ⟨by decide, rfl⟩ rfl (arg_main_arg0 0) (outp 0 rfl) (st_main_arg0 m c)).trans ?_
  rfl
theorem st_main_v1 (m : (ℓ : Loc nD τ sig) → Buf (Elt F) ℓ) (c : Dev nD) :
    after (ops (F := F)) (launchContents m c) (Proc.devRef .tc main_v1) = val_main_v1 (F := F) (X0 m c) := by
  refine (eq_unary' hW (launchContents m c) 1 (hk 1 (by decide)) (Host.exp : (⟨S32x1x768x768, .f32⟩ : BufTy).Contents (Elt F) → (⟨S32x1x768x768, .f32⟩ : BufTy).Contents (Elt F)) ⟨by decide, rfl⟩ ⟨by decide, rfl⟩ rfl (opnd 0 1 rfl (by decide)) (outp 1 rfl) (st_main_v0 m c)).trans ?_
  rfl
theorem st_main_cst (m : (ℓ : Loc nD τ sig) → Buf (Elt F) ℓ) (c : Dev nD) :
    after (ops (F := F)) (launchContents m c) (Proc.devRef .tc main_cst) = val_main_cst (F := F) := by
  refine (eq_nullary hW (launchContents m c) 2 (hk 2 (by decide)) (constant S_ .f32 0x3F800000#32) ⟨by decide, rfl⟩ rfl (outp 2 rfl)).trans ?_
  rfl
theorem st_main_v2 (m : (ℓ : Loc nD τ sig) → Buf (Elt F) ℓ) (c : Dev nD) :
    after (ops (F := F)) (launchContents m c) (Proc.devRef .tc main_v2) = val_main_v2 (F := F) := by
  refine (eq_unary' hW (launchContents m c) 3 (hk 3 (by decide)) (broadcastInDim S32x1x768x768 ![] bcast_S_S32x1x768x768 : (⟨S_, .f32⟩ : BufTy).Contents (Elt F) → (⟨S32x1x768x768, .f32⟩ : BufTy).Contents (Elt F)) ⟨by decide, rfl⟩ ⟨by decide, rfl⟩ rfl (opnd 2 3 rfl (by decide)) (outp 3 rfl) (st_main_cst m c)).trans ?_
  rfl
theorem st_main_v3 (m : (ℓ : Loc nD τ sig) → Buf (Elt F) ℓ) (c : Dev nD) :
    after (ops (F := F)) (launchContents m c) (Proc.devRef .tc main_v3) = val_main_v3 (F := F) (X0 m c) := by
  refine (eq_binary' hW (launchContents m c) 4 (hk 4 (by decide)) (addf : (⟨S32x1x768x768, .f32⟩ : BufTy).Contents (Elt F) → (⟨S32x1x768x768, .f32⟩ : BufTy).Contents (Elt F) → (⟨S32x1x768x768, .f32⟩ : BufTy).Contents (Elt F)) ⟨by decide, rfl⟩ ⟨by decide, rfl⟩ ⟨by decide, rfl⟩ rfl (opnd 3 4 rfl (by decide)) (opnd 1 4 rfl (by decide)) (outp 4 rfl) (st_main_v2 m c) (st_main_v1 m c)).trans ?_
  rfl
theorem st_main_cst_0 (m : (ℓ : Loc nD τ sig) → Buf (Elt F) ℓ) (c : Dev nD) :
    after (ops (F := F)) (launchContents m c) (Proc.devRef .tc main_cst_0) = val_main_cst_0 (F := F) := by
  refine (eq_nullary hW (launchContents m c) 5 (hk 5 (by decide)) (constant S_ .f32 0x3F800000#32) ⟨by decide, rfl⟩ rfl (outp 5 rfl)).trans ?_
  rfl
theorem st_main_v4 (m : (ℓ : Loc nD τ sig) → Buf (Elt F) ℓ) (c : Dev nD) :
    after (ops (F := F)) (launchContents m c) (Proc.devRef .tc main_v4) = val_main_v4 (F := F) := by
  refine (eq_unary' hW (launchContents m c) 6 (hk 6 (by decide)) (broadcastInDim S32x1x768x768 ![] bcast_S_S32x1x768x768 : (⟨S_, .f32⟩ : BufTy).Contents (Elt F) → (⟨S32x1x768x768, .f32⟩ : BufTy).Contents (Elt F)) ⟨by decide, rfl⟩ ⟨by decide, rfl⟩ rfl (opnd 5 6 rfl (by decide)) (outp 6 rfl) (st_main_cst_0 m c)).trans ?_
  rfl
theorem st_main_v5 (m : (ℓ : Loc nD τ sig) → Buf (Elt F) ℓ) (c : Dev nD) :
    after (ops (F := F)) (launchContents m c) (Proc.devRef .tc main_v5) = val_main_v5 (F := F) (X0 m c) := by
  refine (eq_binary' hW (launchContents m c) 7 (hk 7 (by decide)) (Host.divf : (⟨S32x1x768x768, .f32⟩ : BufTy).Contents (Elt F) → (⟨S32x1x768x768, .f32⟩ : BufTy).Contents (Elt F) → (⟨S32x1x768x768, .f32⟩ : BufTy).Contents (Elt F)) ⟨by decide, rfl⟩ ⟨by decide, rfl⟩ ⟨by decide, rfl⟩ rfl (opnd 6 7 rfl (by decide)) (opnd 4 7 rfl (by decide)) (outp 7 rfl) (st_main_v4 m c) (st_main_v3 m c)).trans ?_
  rfl
theorem st_main_cst_1 (m : (ℓ : Loc nD τ sig) → Buf (Elt F) ℓ) (c : Dev nD) :
    after (ops (F := F)) (launchContents m c) (Proc.devRef .tc main_cst_1) = val_main_cst_1 (F := F) := by
  refine (eq_nullary hW (launchContents m c) 8 (hk 8 (by decide)) (constant S_ .f32 0x00000000#32) ⟨by decide, rfl⟩ rfl (outp 8 rfl)).trans ?_
  rfl
theorem st_main_v6 (m : (ℓ : Loc nD τ sig) → Buf (Elt F) ℓ) (c : Dev nD) :
    after (ops (F := F)) (launchContents m c) (Proc.devRef .tc main_v6) = val_main_v6 (F := F) := by
  refine (eq_unary' hW (launchContents m c) 9 (hk 9 (by decide)) (broadcastInDim S32x1x768x768 ![] bcast_S_S32x1x768x768 : (⟨S_, .f32⟩ : BufTy).Contents (Elt F) → (⟨S32x1x768x768, .f32⟩ : BufTy).Contents (Elt F)) ⟨by decide, rfl⟩ ⟨by decide, rfl⟩ rfl (opnd 8 9 rfl (by decide)) (outp 9 rfl) (st_main_cst_1 m c)).trans ?_
  rfl
theorem st_main_cst_2 (m : (ℓ : Loc nD τ sig) → Buf (Elt F) ℓ) (c : Dev nD) :
    after (ops (F := F)) (launchContents m c) (Proc.devRef .tc main_cst_2) = val_main_cst_2 (F := F) := by
  refine (eq_nullary hW (launchContents m c) 10 (hk 10 (by decide)) (constant S_ .f32 0x00000000#32) ⟨by decide, rfl⟩ rfl (outp 10 rfl)).trans ?_
  rfl
theorem st_main_v7 (m : (ℓ : Loc nD τ sig) → Buf (Elt F) ℓ) (c : Dev nD) :
    after (ops (F := F)) (launchContents m c) (Proc.devRef .tc main_v7) = val_main_v7 (F := F) := by
  refine (eq_unary' hW (launchContents m c) 11 (hk 11 (by decide)) (broadcastInDim S32x1x768x768 ![] bcast_S_S32x1x768x768 : (⟨S_, .f32⟩ : BufTy).Contents (Elt F) → (⟨S32x1x768x768, .f32⟩ : BufTy).Contents (Elt F)) ⟨by decide, rfl⟩ ⟨by decide, rfl⟩ rfl (opnd 10 11 rfl (by decide)) (outp 11 rfl) (st_main_cst_2 m c)).trans ?_
  rfl
theorem st_main_v8 (m : (ℓ : Loc nD τ sig) → Buf (Elt F) ℓ) (c : Dev nD) :
    after (ops (F := F)) (launchContents m c) (Proc.devRef .tc main_v8) = val_main_v8 (F := F) (X0 m c) := by
  refine (eq_unary' hW (launchContents m c) 12 (hk 12 (by decide)) ((extractStridedSlice S32x1x766x766 ![0, 0, 0, 0] · slices_S32x1x768x768_S32x1x766x766_0_0_0_0) : (⟨S32x1x768x768, .f32⟩ : BufTy).Contents (Elt F) → (⟨S32x1x766x766, .f32⟩ : BufTy).Contents (Elt F)) ⟨by decide, rfl⟩ ⟨by decide, rfl⟩ rfl (opnd 7 12 rfl (by decide)) (outp 12 rfl) (st_main_v5 m c)).trans ?_
  rfl
theorem st_main_v9 (m : (ℓ : Loc nD τ sig) → Buf (Elt F) ℓ) (c : Dev nD) :
    after (ops (F := F)) (launchContents m c) (Proc.devRef .tc main_v9) = val_main_v9 (F := F) (X0 m c) := by
  refine (eq_unary' hW (launchContents m c) 13 (hk 13 (by decide)) ((extractStridedSlice S32x1x766x766 ![0, 0, 2, 2] · slices_S32x1x768x768_S32x1x766x766_0_0_2_2) : (⟨S32x1x768x768, .f32⟩ : BufTy).Contents (Elt F) → (⟨S32x1x766x766, .f32⟩ : BufTy).Contents (Elt F)) ⟨by decide, rfl⟩ ⟨by decide, rfl⟩ rfl (opnd 7 13 rfl (by decide)) (outp 13 rfl) (st_main_v5 m c)).trans ?_
  rfl
theorem st_main_v10 (m : (ℓ : Loc nD τ sig) → Buf (Elt F) ℓ) (c : Dev nD) :
    after (ops (F := F)) (launchContents m c) (Proc.devRef .tc main_v10) = val_main_v10 (F := F) (X0 m c) := by
  refine (eq_binary' hW (launchContents m c) 14 (hk 14 (by decide)) (subf : (⟨S32x1x766x766, .f32⟩ : BufTy).Contents (Elt F) → (⟨S32x1x766x766, .f32⟩ : BufTy).Contents (Elt F) → (⟨S32x1x766x766, .f32⟩ : BufTy).Contents (Elt F)) ⟨by decide, rfl⟩ ⟨by decide, rfl⟩ ⟨by decide, rfl⟩ rfl (opnd 12 14 rfl (by decide)) (opnd 13 14 rfl (by decide)) (outp 14 rfl) (st_main_v8 m c) (st_main_v9 m c)).trans ?_
  rfl
theorem st_main_v11 (m : (ℓ : Loc nD τ sig) → Buf (Elt F) ℓ) (c : Dev nD) :
    after (ops (F := F)) (launchContents m c) (Proc.devRef .tc main_v11) = val_main_v11 (F := F) (X0 m c) := by
  refine (eq_binary' hW (launchContents m c) 15 (hk 15 (by decide)) (mulf : (⟨S32x1x766x766, .f32⟩ : BufTy).Contents (Elt F) → (⟨S32x1x766x766, .f32⟩ : BufTy).Contents (Elt F) → (⟨S32x1x766x766, .f32⟩ : BufTy).Contents (Elt F)) ⟨by decide, rfl⟩ ⟨by decide, rfl⟩ ⟨by decide, rfl⟩ rfl (opnd 14 15 rfl (by decide)) (opnd 14 15 rfl (by decide)) (outp 15 rfl) (st_main_v10 m c) (st_main_v10 m c)).trans ?_
  rfl
theorem st_main_c (m : (ℓ : Loc nD τ sig) → Buf (Elt F) ℓ) (c : Dev nD) :
    after (ops (F := F)) (launchContents m c) (Proc.devRef .tc main_c) = val_main_c (F := F) := by
  refine (eq_nullary hW (launchContents m c) 16 (hk 16 (by decide)) (constantI S_ 32 0#32) ⟨by decide, rfl⟩ rfl (outp 16 rfl)).trans ?_
  rfl
theorem st_main_v12 (m : (ℓ : Loc nD τ sig) → Buf (Elt F) ℓ) (c : Dev nD) :
    after (ops (F := F)) (launchContents m c) (Proc.devRef .tc main_v12) = val_main_v12 (F := F) := by
  refine (eq_unary' hW (launchContents m c) 17 (hk 17 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 16 17 rfl (by decide)) (outp 17 rfl) (st_main_c m c)).trans ?_
  rfl
theorem st_main_c_3 (m : (ℓ : Loc nD τ sig) → Buf (Elt F) ℓ) (c : Dev nD) :
    after (ops (F := F)) (launchContents m c) (Proc.devRef .tc main_c_3) = val_main_c_3 (F := F) := by
  refine (eq_nullary hW (launchContents m c) 18 (hk 18 (by decide)) (constantI S_ 32 0#32) ⟨by decide, rfl⟩ rfl (outp 18 rfl)).trans ?_
  rfl
theorem st_main_v13 (m : (ℓ : Loc nD τ sig) → Buf (Elt F) ℓ) (c : Dev nD) :
    after (ops (F := F)) (launchContents m c) (Proc.devRef .tc main_v13) = val_main_v13 (F := F) := by
  refine (eq_unary' hW (launchContents m c) 19 (hk 19 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 18 19 rfl (by decide)) (outp 19 rfl) (st_main_c_3 m c)).trans ?_
  rfl
theorem st_main_v14 (m : (ℓ : Loc nD τ sig) → Buf (Elt F) ℓ) (c : Dev nD) :
    after (ops (F := F)) (launchContents m c) (Proc.devRef .tc main_v14) = val_main_v14 (F := F) := by
  refine (eq_binary' hW (launchContents m c) 20 (hk 20 (by decide)) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ⟨by decide, rfl⟩ ⟨by decide, rfl⟩ ⟨by decide, rfl⟩ rfl (opnd 17 20 rfl (by decide)) (opnd 19 20 rfl (by decide)) (outp 20 rfl) (st_main_v12 m c) (st_main_v13 m c)).trans ?_
  rfl
theorem st_main_v15 (m : (ℓ : Loc nD τ sig) → Buf (Elt F) ℓ) (c : Dev nD) :
    after (ops (F := F)) (launchContents m c) (Proc.devRef .tc main_v15) = val_main_v15 (F := F) (X0 m c) := by
  refine (eq_ternary' hW (launchContents m c) 21 (hk 21 (by decide)) ((fun x i u => Host.scatter scatter_S32x1x768x768_S2_S32x1x766x766_0123_n_23_0 FloatOps.addf x i u) : (⟨S32x1x768x768, .f32⟩ : BufTy).Contents (Elt F) → (⟨S2, .i32⟩ : BufTy).Contents (Elt F) → (⟨S32x1x766x766, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 9 21 rfl (by decide)) (opnd 20 21 rfl (by decide)) (opnd 15 21 rfl (by decide)) (outp 21 rfl) (st_main_v6 m c) (st_main_v14 m c) (st_main_v11 m c)).trans ?_
  rfl
theorem st_main_c_4 (m : (ℓ : Loc nD τ sig) → Buf (Elt F) ℓ) (c : Dev nD) :
    after (ops (F := F)) (launchContents m c) (Proc.devRef .tc main_c_4) = val_main_c_4 (F := F) := by
  refine (eq_nullary hW (launchContents m c) 22 (hk 22 (by decide)) (constantI S_ 32 0#32) ⟨by decide, rfl⟩ rfl (outp 22 rfl)).trans ?_
  rfl
theorem st_main_v16 (m : (ℓ : Loc nD τ sig) → Buf (Elt F) ℓ) (c : Dev nD) :
    after (ops (F := F)) (launchContents m c) (Proc.devRef .tc main_v16) = val_main_v16 (F := F) := by
  refine (eq_unary' hW (launchContents m c) 23 (hk 23 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 22 23 rfl (by decide)) (outp 23 rfl) (st_main_c_4 m c)).trans ?_
  rfl
theorem st_main_c_5 (m : (ℓ : Loc nD τ sig) → Buf (Elt F) ℓ) (c : Dev nD) :
    after (ops (F := F)) (launchContents m c) (Proc.devRef .tc main_c_5) = val_main_c_5 (F := F) := by
  refine (eq_nullary hW (launchContents m c) 24 (hk 24 (by decide)) (constantI S_ 32 0#32) ⟨by decide, rfl⟩ rfl (outp 24 rfl)).trans ?_
  rfl
theorem st_main_v17 (m : (ℓ : Loc nD τ sig) → Buf (Elt F) ℓ) (c : Dev nD) :
    after (ops (F := F)) (launchContents m c) (Proc.devRef .tc main_v17) = val_main_v17 (F := F) := by
  refine (eq_unary' hW (launchContents m c) 25 (hk 25 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 24 25 rfl (by decide)) (outp 25 rfl) (st_main_c_5 m c)).trans ?_
  rfl
theorem st_main_v18 (m : (ℓ : Loc nD τ sig) → Buf (Elt F) ℓ) (c : Dev nD) :
    after (ops (F := F)) (launchContents m c) (Proc.devRef .tc main_v18) = val_main_v18 (F := F) := by
  refine (eq_binary' hW (launchContents m c) 26 (hk 26 (by decide)) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ⟨by decide, rfl⟩ ⟨by decide, rfl⟩ ⟨by decide, rfl⟩ rfl (opnd 23 26 rfl (by decide)) (opnd 25 26 rfl (by decide)) (outp 26 rfl) (st_main_v16 m c) (st_main_v17 m c)).trans ?_
  rfl
theorem st_main_cst_6 (m : (ℓ : Loc nD τ sig) → Buf (Elt F) ℓ) (c : Dev nD) :
    after (ops (F := F)) (launchContents m c) (Proc.devRef .tc main_cst_6) = val_main_cst_6 (F := F) := by
  refine (eq_nullary hW (launchContents m c) 27 (hk 27 (by decide)) (constant S_ .f32 0x3F800000#32) ⟨by decide, rfl⟩ rfl (outp 27 rfl)).trans ?_
  rfl
theorem st_main_v19 (m : (ℓ : Loc nD τ sig) → Buf (Elt F) ℓ) (c : Dev nD) :
    after (ops (F := F)) (launchContents m c) (Proc.devRef .tc main_v19) = val_main_v19 (F := F) := by
  refine (eq_unary' hW (launchContents m c) 28 (hk 28 (by decide)) (broadcastInDim S32x1x766x766 ![] bcast_S_S32x1x766x766 : (⟨S_, .f32⟩ : BufTy).Contents (Elt F) → (⟨S32x1x766x766, .f32⟩ : BufTy).Contents (Elt F)) ⟨by decide, rfl⟩ ⟨by decide, rfl⟩ rfl (opnd 27 28 rfl (by decide)) (outp 28 rfl) (st_main_cst_6 m c)).trans ?_
  rfl
theorem st_main_v20 (m : (ℓ : Loc nD τ sig) → Buf (Elt F) ℓ) (c : Dev nD) :
    after (ops (F := F)) (launchContents m c) (Proc.devRef .tc main_v20) = val_main_v20 (F := F) := by
  refine (eq_ternary' hW (launchContents m c) 29 (hk 29 (by decide)) ((fun x i u => Host.scatter scatter_S32x1x768x768_S2_S32x1x766x766_0123_n_23_0 FloatOps.addf x i u) : (⟨S32x1x768x768, .f32⟩ : BufTy).Contents (Elt F) → (⟨S2, .i32⟩ : BufTy).Contents (Elt F) → (⟨S32x1x766x766, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 11 29 rfl (by decide)) (opnd 26 29 rfl (by decide)) (opnd 28 29 rfl (by decide)) (outp 29 rfl) (st_main_v7 m c) (st_main_v18 m c) (st_main_v19 m c)).trans ?_
  rfl
theorem st_main_v21 (m : (ℓ : Loc nD τ sig) → Buf (Elt F) ℓ) (c : Dev nD) :
    after (ops (F := F)) (launchContents m c) (Proc.devRef .tc main_v21) = val_main_v21 (F := F) (X0 m c) := by
  refine (eq_unary' hW (launchContents m c) 30 (hk 30 (by decide)) ((extractStridedSlice S32x1x767x766 ![0, 0, 0, 0] · slices_S32x1x768x768_S32x1x767x766_0_0_0_0) : (⟨S32x1x768x768, .f32⟩ : BufTy).Contents (Elt F) → (⟨S32x1x767x766, .f32⟩ : BufTy).Contents (Elt F)) ⟨by decide, rfl⟩ ⟨by decide, rfl⟩ rfl (opnd 7 30 rfl (by decide)) (outp 30 rfl) (st_main_v5 m c)).trans ?_
  rfl
theorem st_main_v22 (m : (ℓ : Loc nD τ sig) → Buf (Elt F) ℓ) (c : Dev nD) :
    after (ops (F := F)) (launchContents m c) (Proc.devRef .tc main_v22) = val_main_v22 (F := F) (X0 m c) := by
  refine (eq_unary' hW (launchContents m c) 31 (hk 31 (by decide)) ((extractStridedSlice S32x1x767x766 ![0, 0, 1, 2] · slices_S32x1x768x768_S32x1x767x766_0_0_1_2) : (⟨S32x1x768x768, .f32⟩ : BufTy).Contents (Elt F) → (⟨S32x1x767x766, .f32⟩ : BufTy).Contents (Elt F)) ⟨by decide, rfl⟩ ⟨by decide, rfl⟩ rfl (opnd 7 31 rfl (by decide)) (outp 31 rfl) (st_main_v5 m c)).trans ?_
  rfl
theorem st_main_v23 (m : (ℓ : Loc nD τ sig) → Buf (Elt F) ℓ) (c : Dev nD) :
    after (ops (F := F)) (launchContents m c) (Proc.devRef .tc main_v23) = val_main_v23 (F := F) (X0 m c) := by
  refine (eq_binary' hW (launchContents m c) 32 (hk 32 (by decide)) (subf : (⟨S32x1x767x766, .f32⟩ : BufTy).Contents (Elt F) → (⟨S32x1x767x766, .f32⟩ : BufTy).Contents (Elt F) → (⟨S32x1x767x766, .f32⟩ : BufTy).Contents (Elt F)) ⟨by decide, rfl⟩ ⟨by decide, rfl⟩ ⟨by decide, rfl⟩ rfl (opnd 30 32 rfl (by decide)) (opnd 31 32 rfl (by decide)) (outp 32 rfl) (st_main_v21 m c) (st_main_v22 m c)).trans ?_
  rfl
theorem st_main_v24 (m : (ℓ : Loc nD τ sig) → Buf (Elt F) ℓ) (c : Dev nD) :
    after (ops (F := F)) (launchContents m c) (Proc.devRef .tc main_v24) = val_main_v24 (F := F) (X0 m c) := by
  refine (eq_binary' hW (launchContents m c) 33 (hk 33 (by decide)) (mulf : (⟨S32x1x767x766, .f32⟩ : BufTy).Contents (Elt F) → (⟨S32x1x767x766, .f32⟩ : BufTy).Contents (Elt F) → (⟨S32x1x767x766, .f32⟩ : BufTy).Contents (Elt F)) ⟨by decide, rfl⟩ ⟨by decide, rfl⟩ ⟨by decide, rfl⟩ rfl (opnd 32 33 rfl (by decide)) (opnd 32 33 rfl (by decide)) (outp 33 rfl) (st_main_v23 m c) (st_main_v23 m c)).trans ?_
  rfl
theorem st_main_c_7 (m : (ℓ : Loc nD τ sig) → Buf (Elt F) ℓ) (c : Dev nD) :
    after (ops (F := F)) (launchContents m c) (Proc.devRef .tc main_c_7) = val_main_c_7 (F := F) := by
  refine (eq_nullary hW (launchContents m c) 34 (hk 34 (by decide)) (constantI S_ 32 0#32) ⟨by decide, rfl⟩ rfl (outp 34 rfl)).trans ?_
  rfl
theorem st_main_v25 (m : (ℓ : Loc nD τ sig) → Buf (Elt F) ℓ) (c : Dev nD) :
    after (ops (F := F)) (launchContents m c) (Proc.devRef .tc main_v25) = val_main_v25 (F := F) := by
  refine (eq_unary' hW (launchContents m c) 35 (hk 35 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 34 35 rfl (by decide)) (outp 35 rfl) (st_main_c_7 m c)).trans ?_
  rfl
theorem st_main_c_8 (m : (ℓ : Loc nD τ sig) → Buf (Elt F) ℓ) (c : Dev nD) :
    after (ops (F := F)) (launchContents m c) (Proc.devRef .tc main_c_8) = val_main_c_8 (F := F) := by
  refine (eq_nullary hW (launchContents m c) 36 (hk 36 (by decide)) (constantI S_ 32 0#32) ⟨by decide, rfl⟩ rfl (outp 36 rfl)).trans ?_
  rfl
theorem st_main_v26 (m : (ℓ : Loc nD τ sig) → Buf (Elt F) ℓ) (c : Dev nD) :
    after (ops (F := F)) (launchContents m c) (Proc.devRef .tc main_v26) = val_main_v26 (F := F) := by
  refine (eq_unary' hW (launchContents m c) 37 (hk 37 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 36 37 rfl (by decide)) (outp 37 rfl) (st_main_c_8 m c)).trans ?_
  rfl
theorem st_main_v27 (m : (ℓ : Loc nD τ sig) → Buf (Elt F) ℓ) (c : Dev nD) :
    after (ops (F := F)) (launchContents m c) (Proc.devRef .tc main_v27) = val_main_v27 (F := F) := by
  refine (eq_binary' hW (launchContents m c) 38 (hk 38 (by decide)) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ⟨by decide, rfl⟩ ⟨by decide, rfl⟩ ⟨by decide, rfl⟩ rfl (opnd 35 38 rfl (by decide)) (opnd 37 38 rfl (by decide)) (outp 38 rfl) (st_main_v25 m c) (st_main_v26 m c)).trans ?_
  rfl
theorem st_main_v28 (m : (ℓ : Loc nD τ sig) → Buf (Elt F) ℓ) (c : Dev nD) :
    after (ops (F := F)) (launchContents m c) (Proc.devRef .tc main_v28) = val_main_v28 (F := F) (X0 m c) := by
  refine (eq_ternary' hW (launchContents m c) 39 (hk 39 (by decide)) ((fun x i u => Host.scatter scatter_S32x1x768x768_S2_S32x1x767x766_0123_n_23_0 FloatOps.addf x i u) : (⟨S32x1x768x768, .f32⟩ : BufTy).Contents (Elt F) → (⟨S2, .i32⟩ : BufTy).Contents (Elt F) → (⟨S32x1x767x766, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 21 39 rfl (by decide)) (opnd 38 39 rfl (by decide)) (opnd 33 39 rfl (by decide)) (outp 39 rfl) (st_main_v15 m c) (st_main_v27 m c) (st_main_v24 m c)).trans ?_
  rfl
theorem st_main_c_9 (m : (ℓ : Loc nD τ sig) → Buf (Elt F) ℓ) (c : Dev nD) :
    after (ops (F := F)) (launchContents m c) (Proc.devRef .tc main_c_9) = val_main_c_9 (F := F) := by
  refine (eq_nullary hW (launchContents m c) 40 (hk 40 (by decide)) (constantI S_ 32 0#32) ⟨by decide, rfl⟩ rfl (outp 40 rfl)).trans ?_
  rfl
theorem st_main_v29 (m : (ℓ : Loc nD τ sig) → Buf (Elt F) ℓ) (c : Dev nD) :
    after (ops (F := F)) (launchContents m c) (Proc.devRef .tc main_v29) = val_main_v29 (F := F) := by
  refine (eq_unary' hW (launchContents m c) 41 (hk 41 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 40 41 rfl (by decide)) (outp 41 rfl) (st_main_c_9 m c)).trans ?_
  rfl
theorem st_main_c_10 (m : (ℓ : Loc nD τ sig) → Buf (Elt F) ℓ) (c : Dev nD) :
    after (ops (F := F)) (launchContents m c) (Proc.devRef .tc main_c_10) = val_main_c_10 (F := F) := by
  refine (eq_nullary hW (launchContents m c) 42 (hk 42 (by decide)) (constantI S_ 32 0#32) ⟨by decide, rfl⟩ rfl (outp 42 rfl)).trans ?_
  rfl
theorem st_main_v30 (m : (ℓ : Loc nD τ sig) → Buf (Elt F) ℓ) (c : Dev nD) :
    after (ops (F := F)) (launchContents m c) (Proc.devRef .tc main_v30) = val_main_v30 (F := F) := by
  refine (eq_unary' hW (launchContents m c) 43 (hk 43 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 42 43 rfl (by decide)) (outp 43 rfl) (st_main_c_10 m c)).trans ?_
  rfl
theorem st_main_v31 (m : (ℓ : Loc nD τ sig) → Buf (Elt F) ℓ) (c : Dev nD) :
    after (ops (F := F)) (launchContents m c) (Proc.devRef .tc main_v31) = val_main_v31 (F := F) := by
  refine (eq_binary' hW (launchContents m c) 44 (hk 44 (by decide)) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ⟨by decide, rfl⟩ ⟨by decide, rfl⟩ ⟨by decide, rfl⟩ rfl (opnd 41 44 rfl (by decide)) (opnd 43 44 rfl (by decide)) (outp 44 rfl) (st_main_v29 m c) (st_main_v30 m c)).trans ?_
  rfl
theorem st_main_cst_11 (m : (ℓ : Loc nD τ sig) → Buf (Elt F) ℓ) (c : Dev nD) :
    after (ops (F := F)) (launchContents m c) (Proc.devRef .tc main_cst_11) = val_main_cst_11 (F := F) := by
  refine (eq_nullary hW (launchContents m c) 45 (hk 45 (by decide)) (constant S_ .f32 0x3F800000#32) ⟨by decide, rfl⟩ rfl (outp 45 rfl)).trans ?_
  rfl
theorem st_main_v32 (m : (ℓ : Loc nD τ sig) → Buf (Elt F) ℓ) (c : Dev nD) :
    after (ops (F := F)) (launchContents m c) (Proc.devRef .tc main_v32) = val_main_v32 (F := F) := by
  refine (eq_unary' hW (launchContents m c) 46 (hk 46 (by decide)) (broadcastInDim S32x1x767x766 ![] bcast_S_S32x1x767x766 : (⟨S_, .f32⟩ : BufTy).Contents (Elt F) → (⟨S32x1x767x766, .f32⟩ : BufTy).Contents (Elt F)) ⟨by decide, rfl⟩ ⟨by decide, rfl⟩ rfl (opnd 45 46 rfl (by decide)) (outp 46 rfl) (st_main_cst_11 m c)).trans ?_
  rfl
theorem st_main_v33 (m : (ℓ : Loc nD τ sig) → Buf (Elt F) ℓ) (c : Dev nD) :
    after (ops (F := F)) (launchContents m c) (Proc.devRef .tc main_v33) = val_main_v33 (F := F) := by
  refine (eq_ternary' hW (launchContents m c) 47 (hk 47 (by decide)) ((fun x i u => Host.scatter scatter_S32x1x768x768_S2_S32x1x767x766_0123_n_23_0 FloatOps.addf x i u) : (⟨S32x1x768x768, .f32⟩ : BufTy).Contents (Elt F) → (⟨S2, .i32⟩ : BufTy).Contents (Elt F) → (⟨S32x1x767x766, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 29 47 rfl (by decide)) (opnd 44 47 rfl (by decide)) (opnd 46 47 rfl (by decide)) (outp 47 rfl) (st_main_v20 m c) (st_main_v31 m c) (st_main_v32 m c)).trans ?_
  rfl
theorem st_main_v34 (m : (ℓ : Loc nD τ sig) → Buf (Elt F) ℓ) (c : Dev nD) :
    after (ops (F := F)) (launchContents m c) (Proc.devRef .tc main_v34) = val_main_v34 (F := F) (X0 m c) := by
  refine (eq_unary' hW (launchContents m c) 48 (hk 48 (by decide)) ((extractStridedSlice S32x1x768x766 ![0, 0, 0, 0] · slices_S32x1x768x768_S32x1x768x766_0_0_0_0) : (⟨S32x1x768x768, .f32⟩ : BufTy).Contents (Elt F) → (⟨S32x1x768x766, .f32⟩ : BufTy).Contents (Elt F)) ⟨by decide, rfl⟩ ⟨by decide, rfl⟩ rfl (opnd 7 48 rfl (by decide)) (outp 48 rfl) (st_main_v5 m c)).trans ?_
  rfl
theorem st_main_v35 (m : (ℓ : Loc nD τ sig) → Buf (Elt F) ℓ) (c : Dev nD) :
    after (ops (F := F)) (launchContents m c) (Proc.devRef .tc main_v35) = val_main_v35 (F := F) (X0 m c) := by
  refine (eq_unary' hW (launchContents m c) 49 (hk 49 (by decide)) ((extractStridedSlice S32x1x768x766 ![0, 0, 0, 2] · slices_S32x1x768x768_S32x1x768x766_0_0_0_2) : (⟨S32x1x768x768, .f32⟩ : BufTy).Contents (Elt F) → (⟨S32x1x768x766, .f32⟩ : BufTy).Contents (Elt F)) ⟨by decide, rfl⟩ ⟨by decide, rfl⟩ rfl (opnd 7 49 rfl (by decide)) (outp 49 rfl) (st_main_v5 m c)).trans ?_
  rfl
theorem st_main_v36 (m : (ℓ : Loc nD τ sig) → Buf (Elt F) ℓ) (c : Dev nD) :
    after (ops (F := F)) (launchContents m c) (Proc.devRef .tc main_v36) = val_main_v36 (F := F) (X0 m c) := by
  refine (eq_binary' hW (launchContents m c) 50 (hk 50 (by decide)) (subf : (⟨S32x1x768x766, .f32⟩ : BufTy).Contents (Elt F) → (⟨S32x1x768x766, .f32⟩ : BufTy).Contents (Elt F) → (⟨S32x1x768x766, .f32⟩ : BufTy).Contents (Elt F)) ⟨by decide, rfl⟩ ⟨by decide, rfl⟩ ⟨by decide, rfl⟩ rfl (opnd 48 50 rfl (by decide)) (opnd 49 50 rfl (by decide)) (outp 50 rfl) (st_main_v34 m c) (st_main_v35 m c)).trans ?_
  rfl
theorem st_main_v37 (m : (ℓ : Loc nD τ sig) → Buf (Elt F) ℓ) (c : Dev nD) :
    after (ops (F := F)) (launchContents m c) (Proc.devRef .tc main_v37) = val_main_v37 (F := F) (X0 m c) := by
  refine (eq_binary' hW (launchContents m c) 51 (hk 51 (by decide)) (mulf : (⟨S32x1x768x766, .f32⟩ : BufTy).Contents (Elt F) → (⟨S32x1x768x766, .f32⟩ : BufTy).Contents (Elt F) → (⟨S32x1x768x766, .f32⟩ : BufTy).Contents (Elt F)) ⟨by decide, rfl⟩ ⟨by decide, rfl⟩ ⟨by decide, rfl⟩ rfl (opnd 50 51 rfl (by decide)) (opnd 50 51 rfl (by decide)) (outp 51 rfl) (st_main_v36 m c) (st_main_v36 m c)).trans ?_
  rfl
theorem st_main_c_12 (m : (ℓ : Loc nD τ sig) → Buf (Elt F) ℓ) (c : Dev nD) :
    after (ops (F := F)) (launchContents m c) (Proc.devRef .tc main_c_12) = val_main_c_12 (F := F) := by
  refine (eq_nullary hW (launchContents m c) 52 (hk 52 (by decide)) (constantI S_ 32 0#32) ⟨by decide, rfl⟩ rfl (outp 52 rfl)).trans ?_
  rfl
theorem st_main_v38 (m : (ℓ : Loc nD τ sig) → Buf (Elt F) ℓ) (c : Dev nD) :
    after (ops (F := F)) (launchContents m c) (Proc.devRef .tc main_v38) = val_main_v38 (F := F) := by
  refine (eq_unary' hW (launchContents m c) 53 (hk 53 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 52 53 rfl (by decide)) (outp 53 rfl) (st_main_c_12 m c)).trans ?_
  rfl
theorem st_main_v39 (m : (ℓ : Loc nD τ sig) → Buf (Elt F) ℓ) (c : Dev nD) :
    after (ops (F := F)) (launchContents m c) (Proc.devRef .tc main_v39) = val_main_v39 (F := F) (X0 m c) := by
  refine (eq_ternary' hW (launchContents m c) 54 (hk 54 (by decide)) ((fun x i u => Host.scatter scatter_S32x1x768x768_S1_S32x1x768x766_0123_n_3_0 FloatOps.addf x i u) : (⟨S32x1x768x768, .f32⟩ : BufTy).Contents (Elt F) → (⟨S1, .i32⟩ : BufTy).Contents (Elt F) → (⟨S32x1x768x766, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 39 54 rfl (by decide)) (opnd 53 54 rfl (by decide)) (opnd 51 54 rfl (by decide)) (outp 54 rfl) (st_main_v28 m c) (st_main_v38 m c) (st_main_v37 m c)).trans ?_
  rfl
theorem st_main_c_13 (m : (ℓ : Loc nD τ sig) → Buf (Elt F) ℓ) (c : Dev nD) :
    after (ops (F := F)) (launchContents m c) (Proc.devRef .tc main_c_13) = val_main_c_13 (F := F) := by
  refine (eq_nullary hW (launchContents m c) 55 (hk 55 (by decide)) (constantI S_ 32 0#32) ⟨by decide, rfl⟩ rfl (outp 55 rfl)).trans ?_
  rfl
theorem st_main_v40 (m : (ℓ : Loc nD τ sig) → Buf (Elt F) ℓ) (c : Dev nD) :
    after (ops (F := F)) (launchContents m c) (Proc.devRef .tc main_v40) = val_main_v40 (F := F) := by
  refine (eq_unary' hW (launchContents m c) 56 (hk 56 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 55 56 rfl (by decide)) (outp 56 rfl) (st_main_c_13 m c)).trans ?_
  rfl
theorem st_main_cst_14 (m : (ℓ : Loc nD τ sig) → Buf (Elt F) ℓ) (c : Dev nD) :
    after (ops (F := F)) (launchContents m c) (Proc.devRef .tc main_cst_14) = val_main_cst_14 (F := F) := by
  refine (eq_nullary hW (launchContents m c) 57 (hk 57 (by decide)) (constant S_ .f32 0x3F800000#32) ⟨by decide, rfl⟩ rfl (outp 57 rfl)).trans ?_
  rfl
theorem st_main_v41 (m : (ℓ : Loc nD τ sig) → Buf (Elt F) ℓ) (c : Dev nD) :
    after (ops (F := F)) (launchContents m c) (Proc.devRef .tc main_v41) = val_main_v41 (F := F) := by
  refine (eq_unary' hW (launchContents m c) 58 (hk 58 (by decide)) (broadcastInDim S32x1x768x766 ![] bcast_S_S32x1x768x766 : (⟨S_, .f32⟩ : BufTy).Contents (Elt F) → (⟨S32x1x768x766, .f32⟩ : BufTy).Contents (Elt F)) ⟨by decide, rfl⟩ ⟨by decide, rfl⟩ rfl (opnd 57 58 rfl (by decide)) (outp 58 rfl) (st_main_cst_14 m c)).trans ?_
  rfl
theorem st_main_v42 (m : (ℓ : Loc nD τ sig) → Buf (Elt F) ℓ) (c : Dev nD) :
    after (ops (F := F)) (launchContents m c) (Proc.devRef .tc main_v42) = val_main_v42 (F := F) := by
  refine (eq_ternary' hW (launchContents m c) 59 (hk 59 (by decide)) ((fun x i u => Host.scatter scatter_S32x1x768x768_S1_S32x1x768x766_0123_n_3_0 FloatOps.addf x i u) : (⟨S32x1x768x768, .f32⟩ : BufTy).Contents (Elt F) → (⟨S1, .i32⟩ : BufTy).Contents (Elt F) → (⟨S32x1x768x766, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 47 59 rfl (by decide)) (opnd 56 59 rfl (by decide)) (opnd 58 59 rfl (by decide)) (outp 59 rfl) (st_main_v33 m c) (st_main_v40 m c) (st_main_v41 m c)).trans ?_
  rfl
theorem st_main_v43 (m : (ℓ : Loc nD τ sig) → Buf (Elt F) ℓ) (c : Dev nD) :
    after (ops (F := F)) (launchContents m c) (Proc.devRef .tc main_v43) = val_main_v43 (F := F) (X0 m c) := by
  refine (eq_unary' hW (launchContents m c) 60 (hk 60 (by decide)) ((extractStridedSlice S32x1x767x766 ![0, 0, 1, 0] · slices_S32x1x768x768_S32x1x767x766_0_0_1_0) : (⟨S32x1x768x768, .f32⟩ : BufTy).Contents (Elt F) → (⟨S32x1x767x766, .f32⟩ : BufTy).Contents (Elt F)) ⟨by decide, rfl⟩ ⟨by decide, rfl⟩ rfl (opnd 7 60 rfl (by decide)) (outp 60 rfl) (st_main_v5 m c)).trans ?_
  rfl
theorem st_main_v44 (m : (ℓ : Loc nD τ sig) → Buf (Elt F) ℓ) (c : Dev nD) :
    after (ops (F := F)) (launchContents m c) (Proc.devRef .tc main_v44) = val_main_v44 (F := F) (X0 m c) := by
  refine (eq_unary' hW (launchContents m c) 61 (hk 61 (by decide)) ((extractStridedSlice S32x1x767x766 ![0, 0, 0, 2] · slices_S32x1x768x768_S32x1x767x766_0_0_0_2) : (⟨S32x1x768x768, .f32⟩ : BufTy).Contents (Elt F) → (⟨S32x1x767x766, .f32⟩ : BufTy).Contents (Elt F)) ⟨by decide, rfl⟩ ⟨by decide, rfl⟩ rfl (opnd 7 61 rfl (by decide)) (outp 61 rfl) (st_main_v5 m c)).trans ?_
  rfl
theorem st_main_v45 (m : (ℓ : Loc nD τ sig) → Buf (Elt F) ℓ) (c : Dev nD) :
    after (ops (F := F)) (launchContents m c) (Proc.devRef .tc main_v45) = val_main_v45 (F := F) (X0 m c) := by
  refine (eq_binary' hW (launchContents m c) 62 (hk 62 (by decide)) (subf : (⟨S32x1x767x766, .f32⟩ : BufTy).Contents (Elt F) → (⟨S32x1x767x766, .f32⟩ : BufTy).Contents (Elt F) → (⟨S32x1x767x766, .f32⟩ : BufTy).Contents (Elt F)) ⟨by decide, rfl⟩ ⟨by decide, rfl⟩ ⟨by decide, rfl⟩ rfl (opnd 60 62 rfl (by decide)) (opnd 61 62 rfl (by decide)) (outp 62 rfl) (st_main_v43 m c) (st_main_v44 m c)).trans ?_
  rfl
theorem st_main_v46 (m : (ℓ : Loc nD τ sig) → Buf (Elt F) ℓ) (c : Dev nD) :
    after (ops (F := F)) (launchContents m c) (Proc.devRef .tc main_v46) = val_main_v46 (F := F) (X0 m c) := by
  refine (eq_binary' hW (launchContents m c) 63 (hk 63 (by decide)) (mulf : (⟨S32x1x767x766, .f32⟩ : BufTy).Contents (Elt F) → (⟨S32x1x767x766, .f32⟩ : BufTy).Contents (Elt F) → (⟨S32x1x767x766, .f32⟩ : BufTy).Contents (Elt F)) ⟨by decide, rfl⟩ ⟨by decide, rfl⟩ ⟨by decide, rfl⟩ rfl (opnd 62 63 rfl (by decide)) (opnd 62 63 rfl (by decide)) (outp 63 rfl) (st_main_v45 m c) (st_main_v45 m c)).trans ?_
  rfl
theorem st_main_c_15 (m : (ℓ : Loc nD τ sig) → Buf (Elt F) ℓ) (c : Dev nD) :
    after (ops (F := F)) (launchContents m c) (Proc.devRef .tc main_c_15) = val_main_c_15 (F := F) := by
  refine (eq_nullary hW (launchContents m c) 64 (hk 64 (by decide)) (constantI S_ 32 1#32) ⟨by decide, rfl⟩ rfl (outp 64 rfl)).trans ?_
  rfl
theorem st_main_v47 (m : (ℓ : Loc nD τ sig) → Buf (Elt F) ℓ) (c : Dev nD) :
    after (ops (F := F)) (launchContents m c) (Proc.devRef .tc main_v47) = val_main_v47 (F := F) := by
  refine (eq_unary' hW (launchContents m c) 65 (hk 65 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 64 65 rfl (by decide)) (outp 65 rfl) (st_main_c_15 m c)).trans ?_
  rfl
theorem st_main_c_16 (m : (ℓ : Loc nD τ sig) → Buf (Elt F) ℓ) (c : Dev nD) :
    after (ops (F := F)) (launchContents m c) (Proc.devRef .tc main_c_16) = val_main_c_16 (F := F) := by
  refine (eq_nullary hW (launchContents m c) 66 (hk 66 (by decide)) (constantI S_ 32 0#32) ⟨by decide, rfl⟩ rfl (outp 66 rfl)).trans ?_
  rfl
theorem st_main_v48 (m : (ℓ : Loc nD τ sig) → Buf (Elt F) ℓ) (c : Dev nD) :
    after (ops (F := F)) (launchContents m c) (Proc.devRef .tc main_v48) = val_main_v48 (F := F) := by
  refine (eq_unary' hW (launchContents m c) 67 (hk 67 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 66 67 rfl (by decide)) (outp 67 rfl) (st_main_c_16 m c)).trans ?_
  rfl
theorem st_main_v49 (m : (ℓ : Loc nD τ sig) → Buf (Elt F) ℓ) (c : Dev nD) :
    after (ops (F := F)) (launchContents m c) (Proc.devRef .tc main_v49) = val_main_v49 (F := F) := by
  refine (eq_binary' hW (launchContents m c) 68 (hk 68 (by decide)) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ⟨by decide, rfl⟩ ⟨by decide, rfl⟩ ⟨by decide, rfl⟩ rfl (opnd 65 68 rfl (by decide)) (opnd 67 68 rfl (by decide)) (outp 68 rfl) (st_main_v47 m c) (st_main_v48 m c)).trans ?_
  rfl
theorem st_main_v50 (m : (ℓ : Loc nD τ sig) → Buf (Elt F) ℓ) (c : Dev nD) :
    after (ops (F := F)) (launchContents m c) (Proc.devRef .tc main_v50) = val_main_v50 (F := F) (X0 m c) := by
  refine (eq_ternary' hW (launchContents m c) 69 (hk 69 (by decide)) ((fun x i u => Host.scatter scatter_S32x1x768x768_S2_S32x1x767x766_0123_n_23_0 FloatOps.addf x i u) : (⟨S32x1x768x768, .f32⟩ : BufTy).Contents (Elt F) → (⟨S2, .i32⟩ : BufTy).Contents (Elt F) → (⟨S32x1x767x766, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 54 69 rfl (by decide)) (opnd 68 69 rfl (by decide)) (opnd 63 69 rfl (by decide)) (outp 69 rfl) (st_main_v39 m c) (st_main_v49 m c) (st_main_v46 m c)).trans ?_
  rfl
theorem st_main_c_17 (m : (ℓ : Loc nD τ sig) → Buf (Elt F) ℓ) (c : Dev nD) :
    after (ops (F := F)) (launchContents m c) (Proc.devRef .tc main_c_17) = val_main_c_17 (F := F) := by
  refine (eq_nullary hW (launchContents m c) 70 (hk 70 (by decide)) (constantI S_ 32 1#32) ⟨by decide, rfl⟩ rfl (outp 70 rfl)).trans ?_
  rfl
theorem st_main_v51 (m : (ℓ : Loc nD τ sig) → Buf (Elt F) ℓ) (c : Dev nD) :
    after (ops (F := F)) (launchContents m c) (Proc.devRef .tc main_v51) = val_main_v51 (F := F) := by
  refine (eq_unary' hW (launchContents m c) 71 (hk 71 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 70 71 rfl (by decide)) (outp 71 rfl) (st_main_c_17 m c)).trans ?_
  rfl
theorem st_main_c_18 (m : (ℓ : Loc nD τ sig) → Buf (Elt F) ℓ) (c : Dev nD) :
    after (ops (F := F)) (launchContents m c) (Proc.devRef .tc main_c_18) = val_main_c_18 (F := F) := by
  refine (eq_nullary hW (launchContents m c) 72 (hk 72 (by decide)) (constantI S_ 32 0#32) ⟨by decide, rfl⟩ rfl (outp 72 rfl)).trans ?_
  rfl
theorem st_main_v52 (m : (ℓ : Loc nD τ sig) → Buf (Elt F) ℓ) (c : Dev nD) :
    after (ops (F := F)) (launchContents m c) (Proc.devRef .tc main_v52) = val_main_v52 (F := F) := by
  refine (eq_unary' hW (launchContents m c) 73 (hk 73 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 72 73 rfl (by decide)) (outp 73 rfl) (st_main_c_18 m c)).trans ?_
  rfl
theorem st_main_v53 (m : (ℓ : Loc nD τ sig) → Buf (Elt F) ℓ) (c : Dev nD) :
    after (ops (F := F)) (launchContents m c) (Proc.devRef .tc main_v53) = val_main_v53 (F := F) := by
  refine (eq_binary' hW (launchContents m c) 74 (hk 74 (by decide)) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ⟨by decide, rfl⟩ ⟨by decide, rfl⟩ ⟨by decide, rfl⟩ rfl (opnd 71 74 rfl (by decide)) (opnd 73 74 rfl (by decide)) (outp 74 rfl) (st_main_v51 m c) (st_main_v52 m c)).trans ?_
  rfl
theorem st_main_cst_19 (m : (ℓ : Loc nD τ sig) → Buf (Elt F) ℓ) (c : Dev nD) :
    after (ops (F := F)) (launchContents m c) (Proc.devRef .tc main_cst_19) = val_main_cst_19 (F := F) := by
  refine (eq_nullary hW (launchContents m c) 75 (hk 75 (by decide)) (constant S_ .f32 0x3F800000#32) ⟨by decide, rfl⟩ rfl (outp 75 rfl)).trans ?_
  rfl
theorem st_main_v54 (m : (ℓ : Loc nD τ sig) → Buf (Elt F) ℓ) (c : Dev nD) :
    after (ops (F := F)) (launchContents m c) (Proc.devRef .tc main_v54) = val_main_v54 (F := F) := by
  refine (eq_unary' hW (launchContents m c) 76 (hk 76 (by decide)) (broadcastInDim S32x1x767x766 ![] bcast_S_S32x1x767x766 : (⟨S_, .f32⟩ : BufTy).Contents (Elt F) → (⟨S32x1x767x766, .f32⟩ : BufTy).Contents (Elt F)) ⟨by decide, rfl⟩ ⟨by decide, rfl⟩ rfl (opnd 75 76 rfl (by decide)) (outp 76 rfl) (st_main_cst_19 m c)).trans ?_
  rfl
theorem st_main_v55 (m : (ℓ : Loc nD τ sig) → Buf (Elt F) ℓ) (c : Dev nD) :
    after (ops (F := F)) (launchContents m c) (Proc.devRef .tc main_v55) = val_main_v55 (F := F) := by
  refine (eq_ternary' hW (launchContents m c) 77 (hk 77 (by decide)) ((fun x i u => Host.scatter scatter_S32x1x768x768_S2_S32x1x767x766_0123_n_23_0 FloatOps.addf x i u) : (⟨S32x1x768x768, .f32⟩ : BufTy).Contents (Elt F) → (⟨S2, .i32⟩ : BufTy).Contents (Elt F) → (⟨S32x1x767x766, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 59 77 rfl (by decide)) (opnd 74 77 rfl (by decide)) (opnd 76 77 rfl (by decide)) (outp 77 rfl) (st_main_v42 m c) (st_main_v53 m c) (st_main_v54 m c)).trans ?_
  rfl
theorem st_main_v56 (m : (ℓ : Loc nD τ sig) → Buf (Elt F) ℓ) (c : Dev nD) :
    after (ops (F := F)) (launchContents m c) (Proc.devRef .tc main_v56) = val_main_v56 (F := F) (X0 m c) := by
  refine (eq_unary' hW (launchContents m c) 78 (hk 78 (by decide)) ((extractStridedSlice S32x1x766x766 ![0, 0, 2, 0] · slices_S32x1x768x768_S32x1x766x766_0_0_2_0) : (⟨S32x1x768x768, .f32⟩ : BufTy).Contents (Elt F) → (⟨S32x1x766x766, .f32⟩ : BufTy).Contents (Elt F)) ⟨by decide, rfl⟩ ⟨by decide, rfl⟩ rfl (opnd 7 78 rfl (by decide)) (outp 78 rfl) (st_main_v5 m c)).trans ?_
  rfl
theorem st_main_v57 (m : (ℓ : Loc nD τ sig) → Buf (Elt F) ℓ) (c : Dev nD) :
    after (ops (F := F)) (launchContents m c) (Proc.devRef .tc main_v57) = val_main_v57 (F := F) (X0 m c) := by
  refine (eq_unary' hW (launchContents m c) 79 (hk 79 (by decide)) ((extractStridedSlice S32x1x766x766 ![0, 0, 0, 2] · slices_S32x1x768x768_S32x1x766x766_0_0_0_2) : (⟨S32x1x768x768, .f32⟩ : BufTy).Contents (Elt F) → (⟨S32x1x766x766, .f32⟩ : BufTy).Contents (Elt F)) ⟨by decide, rfl⟩ ⟨by decide, rfl⟩ rfl (opnd 7 79 rfl (by decide)) (outp 79 rfl) (st_main_v5 m c)).trans ?_
  rfl
theorem st_main_v58 (m : (ℓ : Loc nD τ sig) → Buf (Elt F) ℓ) (c : Dev nD) :
    after (ops (F := F)) (launchContents m c) (Proc.devRef .tc main_v58) = val_main_v58 (F := F) (X0 m c) := by
  refine (eq_binary' hW (launchContents m c) 80 (hk 80 (by decide)) (subf : (⟨S32x1x766x766, .f32⟩ : BufTy).Contents (Elt F) → (⟨S32x1x766x766, .f32⟩ : BufTy).Contents (Elt F) → (⟨S32x1x766x766, .f32⟩ : BufTy).Contents (Elt F)) ⟨by decide, rfl⟩ ⟨by decide, rfl⟩ ⟨by decide, rfl⟩ rfl (opnd 78 80 rfl (by decide)) (opnd 79 80 rfl (by decide)) (outp 80 rfl) (st_main_v56 m c) (st_main_v57 m c)).trans ?_
  rfl
theorem st_main_v59 (m : (ℓ : Loc nD τ sig) → Buf (Elt F) ℓ) (c : Dev nD) :
    after (ops (F := F)) (launchContents m c) (Proc.devRef .tc main_v59) = val_main_v59 (F := F) (X0 m c) := by
  refine (eq_binary' hW (launchContents m c) 81 (hk 81 (by decide)) (mulf : (⟨S32x1x766x766, .f32⟩ : BufTy).Contents (Elt F) → (⟨S32x1x766x766, .f32⟩ : BufTy).Contents (Elt F) → (⟨S32x1x766x766, .f32⟩ : BufTy).Contents (Elt F)) ⟨by decide, rfl⟩ ⟨by decide, rfl⟩ ⟨by decide, rfl⟩ rfl (opnd 80 81 rfl (by decide)) (opnd 80 81 rfl (by decide)) (outp 81 rfl) (st_main_v58 m c) (st_main_v58 m c)).trans ?_
  rfl
theorem st_main_c_20 (m : (ℓ : Loc nD τ sig) → Buf (Elt F) ℓ) (c : Dev nD) :
    after (ops (F := F)) (launchContents m c) (Proc.devRef .tc main_c_20) = val_main_c_20 (F := F) := by
  refine (eq_nullary hW (launchContents m c) 82 (hk 82 (by decide)) (constantI S_ 32 2#32) ⟨by decide, rfl⟩ rfl (outp 82 rfl)).trans ?_
  rfl
theorem st_main_v60 (m : (ℓ : Loc nD τ sig) → Buf (Elt F) ℓ) (c : Dev nD) :
    after (ops (F := F)) (launchContents m c) (Proc.devRef .tc main_v60) = val_main_v60 (F := F) := by
  refine (eq_unary' hW (launchContents m c) 83 (hk 83 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 82 83 rfl (by decide)) (outp 83 rfl) (st_main_c_20 m c)).trans ?_
  rfl
theorem st_main_c_21 (m : (ℓ : Loc nD τ sig) → Buf (Elt F) ℓ) (c : Dev nD) :
    after (ops (F := F)) (launchContents m c) (Proc.devRef .tc main_c_21) = val_main_c_21 (F := F) := by
  refine (eq_nullary hW (launchContents m c) 84 (hk 84 (by decide)) (constantI S_ 32 0#32) ⟨by decide, rfl⟩ rfl (outp 84 rfl)).trans ?_
  rfl
theorem st_main_v61 (m : (ℓ : Loc nD τ sig) → Buf (Elt F) ℓ) (c : Dev nD) :
    after (ops (F := F)) (launchContents m c) (Proc.devRef .tc main_v61) = val_main_v61 (F := F) := by
  refine (eq_unary' hW (launchContents m c) 85 (hk 85 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 84 85 rfl (by decide)) (outp 85 rfl) (st_main_c_21 m c)).trans ?_
  rfl
theorem st_main_v62 (m : (ℓ : Loc nD τ sig) → Buf (Elt F) ℓ) (c : Dev nD) :
    after (ops (F := F)) (launchContents m c) (Proc.devRef .tc main_v62) = val_main_v62 (F := F) := by
  refine (eq_binary' hW (launchContents m c) 86 (hk 86 (by decide)) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ⟨by decide, rfl⟩ ⟨by decide, rfl⟩ ⟨by decide, rfl⟩ rfl (opnd 83 86 rfl (by decide)) (opnd 85 86 rfl (by decide)) (outp 86 rfl) (st_main_v60 m c) (st_main_v61 m c)).trans ?_
  rfl
theorem st_main_v63 (m : (ℓ : Loc nD τ sig) → Buf (Elt F) ℓ) (c : Dev nD) :
    after (ops (F := F)) (launchContents m c) (Proc.devRef .tc main_v63) = val_main_v63 (F := F) (X0 m c) := by
  refine (eq_ternary' hW (launchContents m c) 87 (hk 87 (by decide)) ((fun x i u => Host.scatter scatter_S32x1x768x768_S2_S32x1x766x766_0123_n_23_0 FloatOps.addf x i u) : (⟨S32x1x768x768, .f32⟩ : BufTy).Contents (Elt F) → (⟨S2, .i32⟩ : BufTy).Contents (Elt F) → (⟨S32x1x766x766, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 69 87 rfl (by decide)) (opnd 86 87 rfl (by decide)) (opnd 81 87 rfl (by decide)) (outp 87 rfl) (st_main_v50 m c) (st_main_v62 m c) (st_main_v59 m c)).trans ?_
  rfl
theorem st_main_c_22 (m : (ℓ : Loc nD τ sig) → Buf (Elt F) ℓ) (c : Dev nD) :
    after (ops (F := F)) (launchContents m c) (Proc.devRef .tc main_c_22) = val_main_c_22 (F := F) := by
  refine (eq_nullary hW (launchContents m c) 88 (hk 88 (by decide)) (constantI S_ 32 2#32) ⟨by decide, rfl⟩ rfl (outp 88 rfl)).trans ?_
  rfl
theorem st_main_v64 (m : (ℓ : Loc nD τ sig) → Buf (Elt F) ℓ) (c : Dev nD) :
    after (ops (F := F)) (launchContents m c) (Proc.devRef .tc main_v64) = val_main_v64 (F := F) := by
  refine (eq_unary' hW (launchContents m c) 89 (hk 89 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 88 89 rfl (by decide)) (outp 89 rfl) (st_main_c_22 m c)).trans ?_
  rfl
theorem st_main_c_23 (m : (ℓ : Loc nD τ sig) → Buf (Elt F) ℓ) (c : Dev nD) :
    after (ops (F := F)) (launchContents m c) (Proc.devRef .tc main_c_23) = val_main_c_23 (F := F) := by
  refine (eq_nullary hW (launchContents m c) 90 (hk 90 (by decide)) (constantI S_ 32 0#32) ⟨by decide, rfl⟩ rfl (outp 90 rfl)).trans ?_
  rfl
theorem st_main_v65 (m : (ℓ : Loc nD τ sig) → Buf (Elt F) ℓ) (c : Dev nD) :
    after (ops (F := F)) (launchContents m c) (Proc.devRef .tc main_v65) = val_main_v65 (F := F) := by
  refine (eq_unary' hW (launchContents m c) 91 (hk 91 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 90 91 rfl (by decide)) (outp 91 rfl) (st_main_c_23 m c)).trans ?_
  rfl
theorem st_main_v66 (m : (ℓ : Loc nD τ sig) → Buf (Elt F) ℓ) (c : Dev nD) :
    after (ops (F := F)) (launchContents m c) (Proc.devRef .tc main_v66) = val_main_v66 (F := F) := by
  refine (eq_binary' hW (launchContents m c) 92 (hk 92 (by decide)) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ⟨by decide, rfl⟩ ⟨by decide, rfl⟩ ⟨by decide, rfl⟩ rfl (opnd 89 92 rfl (by decide)) (opnd 91 92 rfl (by decide)) (outp 92 rfl) (st_main_v64 m c) (st_main_v65 m c)).trans ?_
  rfl
theorem st_main_cst_24 (m : (ℓ : Loc nD τ sig) → Buf (Elt F) ℓ) (c : Dev nD) :
    after (ops (F := F)) (launchContents m c) (Proc.devRef .tc main_cst_24) = val_main_cst_24 (F := F) := by
  refine (eq_nullary hW (launchContents m c) 93 (hk 93 (by decide)) (constant S_ .f32 0x3F800000#32) ⟨by decide, rfl⟩ rfl (outp 93 rfl)).trans ?_
  rfl
theorem st_main_v67 (m : (ℓ : Loc nD τ sig) → Buf (Elt F) ℓ) (c : Dev nD) :
    after (ops (F := F)) (launchContents m c) (Proc.devRef .tc main_v67) = val_main_v67 (F := F) := by
  refine (eq_unary' hW (launchContents m c) 94 (hk 94 (by decide)) (broadcastInDim S32x1x766x766 ![] bcast_S_S32x1x766x766 : (⟨S_, .f32⟩ : BufTy).Contents (Elt F) → (⟨S32x1x766x766, .f32⟩ : BufTy).Contents (Elt F)) ⟨by decide, rfl⟩ ⟨by decide, rfl⟩ rfl (opnd 93 94 rfl (by decide)) (outp 94 rfl) (st_main_cst_24 m c)).trans ?_
  rfl
theorem st_main_v68 (m : (ℓ : Loc nD τ sig) → Buf (Elt F) ℓ) (c : Dev nD) :
    after (ops (F := F)) (launchContents m c) (Proc.devRef .tc main_v68) = val_main_v68 (F := F) := by
  refine (eq_ternary' hW (launchContents m c) 95 (hk 95 (by decide)) ((fun x i u => Host.scatter scatter_S32x1x768x768_S2_S32x1x766x766_0123_n_23_0 FloatOps.addf x i u) : (⟨S32x1x768x768, .f32⟩ : BufTy).Contents (Elt F) → (⟨S2, .i32⟩ : BufTy).Contents (Elt F) → (⟨S32x1x766x766, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 77 95 rfl (by decide)) (opnd 92 95 rfl (by decide)) (opnd 94 95 rfl (by decide)) (outp 95 rfl) (st_main_v55 m c) (st_main_v66 m c) (st_main_v67 m c)).trans ?_
  rfl
theorem st_main_v69 (m : (ℓ : Loc nD τ sig) → Buf (Elt F) ℓ) (c : Dev nD) :
    after (ops (F := F)) (launchContents m c) (Proc.devRef .tc main_v69) = val_main_v69 (F := F) (X0 m c) := by
  refine (eq_unary' hW (launchContents m c) 96 (hk 96 (by decide)) ((extractStridedSlice S32x1x766x767 ![0, 0, 0, 0] · slices_S32x1x768x768_S32x1x766x767_0_0_0_0) : (⟨S32x1x768x768, .f32⟩ : BufTy).Contents (Elt F) → (⟨S32x1x766x767, .f32⟩ : BufTy).Contents (Elt F)) ⟨by decide, rfl⟩ ⟨by decide, rfl⟩ rfl (opnd 7 96 rfl (by decide)) (outp 96 rfl) (st_main_v5 m c)).trans ?_
  rfl
theorem st_main_v70 (m : (ℓ : Loc nD τ sig) → Buf (Elt F) ℓ) (c : Dev nD) :
    after (ops (F := F)) (launchContents m c) (Proc.devRef .tc main_v70) = val_main_v70 (F := F) (X0 m c) := by
  refine (eq_unary' hW (launchContents m c) 97 (hk 97 (by decide)) ((extractStridedSlice S32x1x766x767 ![0, 0, 2, 1] · slices_S32x1x768x768_S32x1x766x767_0_0_2_1) : (⟨S32x1x768x768, .f32⟩ : BufTy).Contents (Elt F) → (⟨S32x1x766x767, .f32⟩ : BufTy).Contents (Elt F)) ⟨by decide, rfl⟩ ⟨by decide, rfl⟩ rfl (opnd 7 97 rfl (by decide)) (outp 97 rfl) (st_main_v5 m c)).trans ?_
  rfl
theorem st_main_v71 (m : (ℓ : Loc nD τ sig) → Buf (Elt F) ℓ) (c : Dev nD) :
    after (ops (F := F)) (launchContents m c) (Proc.devRef .tc main_v71) = val_main_v71 (F := F) (X0 m c) := by
  refine (eq_binary' hW (launchContents m c) 98 (hk 98 (by decide)) (subf : (⟨S32x1x766x767, .f32⟩ : BufTy).Contents (Elt F) → (⟨S32x1x766x767, .f32⟩ : BufTy).Contents (Elt F) → (⟨S32x1x766x767, .f32⟩ : BufTy).Contents (Elt F)) ⟨by decide, rfl⟩ ⟨by decide, rfl⟩ ⟨by decide, rfl⟩ rfl (opnd 96 98 rfl (by decide)) (opnd 97 98 rfl (by decide)) (outp 98 rfl) (st_main_v69 m c) (st_main_v70 m c)).trans ?_
  rfl
theorem st_main_v72 (m : (ℓ : Loc nD τ sig) → Buf (Elt F) ℓ) (c : Dev nD) :
    after (ops (F := F)) (launchContents m c) (Proc.devRef .tc main_v72) = val_main_v72 (F := F) (X0 m c) := by
  refine (eq_binary' hW (launchContents m c) 99 (hk 99 (by decide)) (mulf : (⟨S32x1x766x767, .f32⟩ : BufTy).Contents (Elt F) → (⟨S32x1x766x767, .f32⟩ : BufTy).Contents (Elt F) → (⟨S32x1x766x767, .f32⟩ : BufTy).Contents (Elt F)) ⟨by decide, rfl⟩ ⟨by decide, rfl⟩ ⟨by decide, rfl⟩ rfl (opnd 98 99 rfl (by decide)) (opnd 98 99 rfl (by decide)) (outp 99 rfl) (st_main_v71 m c) (st_main_v71 m c)).trans ?_
  rfl
theorem st_main_c_25 (m : (ℓ : Loc nD τ sig) → Buf (Elt F) ℓ) (c : Dev nD) :
    after (ops (F := F)) (launchContents m c) (Proc.devRef .tc main_c_25) = val_main_c_25 (F := F) := by
  refine (eq_nullary hW (launchContents m c) 100 (hk 100 (by decide)) (constantI S_ 32 0#32) ⟨by decide, rfl⟩ rfl (outp 100 rfl)).trans ?_
  rfl
theorem st_main_v73 (m : (ℓ : Loc nD τ sig) → Buf (Elt F) ℓ) (c : Dev nD) :
    after (ops (F := F)) (launchContents m c) (Proc.devRef .tc main_v73) = val_main_v73 (F := F) := by
  refine (eq_unary' hW (launchContents m c) 101 (hk 101 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 100 101 rfl (by decide)) (outp 101 rfl) (st_main_c_25 m c)).trans ?_
  rfl
theorem st_main_c_26 (m : (ℓ : Loc nD τ sig) → Buf (Elt F) ℓ) (c : Dev nD) :
    after (ops (F := F)) (launchContents m c) (Proc.devRef .tc main_c_26) = val_main_c_26 (F := F) := by
  refine (eq_nullary hW (launchContents m c) 102 (hk 102 (by decide)) (constantI S_ 32 0#32) ⟨by decide, rfl⟩ rfl (outp 102 rfl)).trans ?_
  rfl
theorem st_main_v74 (m : (ℓ : Loc nD τ sig) → Buf (Elt F) ℓ) (c : Dev nD) :
    after (ops (F := F)) (launchContents m c) (Proc.devRef .tc main_v74) = val_main_v74 (F := F) := by
  refine (eq_unary' hW (launchContents m c) 103 (hk 103 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 102 103 rfl (by decide)) (outp 103 rfl) (st_main_c_26 m c)).trans ?_
  rfl
theorem st_main_v75 (m : (ℓ : Loc nD τ sig) → Buf (Elt F) ℓ) (c : Dev nD) :
    after (ops (F := F)) (launchContents m c) (Proc.devRef .tc main_v75) = val_main_v75 (F := F) := by
  refine (eq_binary' hW (launchContents m c) 104 (hk 104 (by decide)) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ⟨by decide, rfl⟩ ⟨by decide, rfl⟩ ⟨by decide, rfl⟩ rfl (opnd 101 104 rfl (by decide)) (opnd 103 104 rfl (by decide)) (outp 104 rfl) (st_main_v73 m c) (st_main_v74 m c)).trans ?_
  rfl
theorem st_main_v76 (m : (ℓ : Loc nD τ sig) → Buf (Elt F) ℓ) (c : Dev nD) :
    after (ops (F := F)) (launchContents m c) (Proc.devRef .tc main_v76) = val_main_v76 (F := F) (X0 m c) := by
  refine (eq_ternary' hW (launchContents m c) 105 (hk 105 (by decide)) ((fun x i u => Host.scatter scatter_S32x1x768x768_S2_S32x1x766x767_0123_n_23_0 FloatOps.addf x i u) : (⟨S32x1x768x768, .f32⟩ : BufTy).Contents (Elt F) → (⟨S2, .i32⟩ : BufTy).Contents (Elt F) → (⟨S32x1x766x767, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 87 105 rfl (by decide)) (opnd 104 105 rfl (by decide)) (opnd 99 105 rfl (by decide)) (outp 105 rfl) (st_main_v63 m c) (st_main_v75 m c) (st_main_v72 m c)).trans ?_
  rfl
theorem st_main_c_27 (m : (ℓ : Loc nD τ sig) → Buf (Elt F) ℓ) (c : Dev nD) :
    after (ops (F := F)) (launchContents m c) (Proc.devRef .tc main_c_27) = val_main_c_27 (F := F) := by
  refine (eq_nullary hW (launchContents m c) 106 (hk 106 (by decide)) (constantI S_ 32 0#32) ⟨by decide, rfl⟩ rfl (outp 106 rfl)).trans ?_
  rfl
theorem st_main_v77 (m : (ℓ : Loc nD τ sig) → Buf (Elt F) ℓ) (c : Dev nD) :
    after (ops (F := F)) (launchContents m c) (Proc.devRef .tc main_v77) = val_main_v77 (F := F) := by
  refine (eq_unary' hW (launchContents m c) 107 (hk 107 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 106 107 rfl (by decide)) (outp 107 rfl) (st_main_c_27 m c)).trans ?_
  rfl
theorem st_main_c_28 (m : (ℓ : Loc nD τ sig) → Buf (Elt F) ℓ) (c : Dev nD) :
    after (ops (F := F)) (launchContents m c) (Proc.devRef .tc main_c_28) = val_main_c_28 (F := F) := by
  refine (eq_nullary hW (launchContents m c) 108 (hk 108 (by decide)) (constantI S_ 32 0#32) ⟨by decide, rfl⟩ rfl (outp 108 rfl)).trans ?_
  rfl
theorem st_main_v78 (m : (ℓ : Loc nD τ sig) → Buf (Elt F) ℓ) (c : Dev nD) :
    after (ops (F := F)) (launchContents m c) (Proc.devRef .tc main_v78) = val_main_v78 (F := F) := by
  refine (eq_unary' hW (launchContents m c) 109 (hk 109 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 108 109 rfl (by decide)) (outp 109 rfl) (st_main_c_28 m c)).trans ?_
  rfl
theorem st_main_v79 (m : (ℓ : Loc nD τ sig) → Buf (Elt F) ℓ) (c : Dev nD) :
    after (ops (F := F)) (launchContents m c) (Proc.devRef .tc main_v79) = val_main_v79 (F := F) := by
  refine (eq_binary' hW (launchContents m c) 110 (hk 110 (by decide)) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ⟨by decide, rfl⟩ ⟨by decide, rfl⟩ ⟨by decide, rfl⟩ rfl (opnd 107 110 rfl (by decide)) (opnd 109 110 rfl (by decide)) (outp 110 rfl) (st_main_v77 m c) (st_main_v78 m c)).trans ?_
  rfl
theorem st_main_cst_29 (m : (ℓ : Loc nD τ sig) → Buf (Elt F) ℓ) (c : Dev nD) :
    after (ops (F := F)) (launchContents m c) (Proc.devRef .tc main_cst_29) = val_main_cst_29 (F := F) := by
  refine (eq_nullary hW (launchContents m c) 111 (hk 111 (by decide)) (constant S_ .f32 0x3F800000#32) ⟨by decide, rfl⟩ rfl (outp 111 rfl)).trans ?_
  rfl
theorem st_main_v80 (m : (ℓ : Loc nD τ sig) → Buf (Elt F) ℓ) (c : Dev nD) :
    after (ops (F := F)) (launchContents m c) (Proc.devRef .tc main_v80) = val_main_v80 (F := F) := by
  refine (eq_unary' hW (launchContents m c) 112 (hk 112 (by decide)) (broadcastInDim S32x1x766x767 ![] bcast_S_S32x1x766x767 : (⟨S_, .f32⟩ : BufTy).Contents (Elt F) → (⟨S32x1x766x767, .f32⟩ : BufTy).Contents (Elt F)) ⟨by decide, rfl⟩ ⟨by decide, rfl⟩ rfl (opnd 111 112 rfl (by decide)) (outp 112 rfl) (st_main_cst_29 m c)).trans ?_
  rfl
theorem st_main_v81 (m : (ℓ : Loc nD τ sig) → Buf (Elt F) ℓ) (c : Dev nD) :
    after (ops (F := F)) (launchContents m c) (Proc.devRef .tc main_v81) = val_main_v81 (F := F) := by
  refine (eq_ternary' hW (launchContents m c) 113 (hk 113 (by decide)) ((fun x i u => Host.scatter scatter_S32x1x768x768_S2_S32x1x766x767_0123_n_23_0 FloatOps.addf x i u) : (⟨S32x1x768x768, .f32⟩ : BufTy).Contents (Elt F) → (⟨S2, .i32⟩ : BufTy).Contents (Elt F) → (⟨S32x1x766x767, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 95 113 rfl (by decide)) (opnd 110 113 rfl (by decide)) (opnd 112 113 rfl (by decide)) (outp 113 rfl) (st_main_v68 m c) (st_main_v79 m c) (st_main_v80 m c)).trans ?_
  rfl
theorem st_main_v82 (m : (ℓ : Loc nD τ sig) → Buf (Elt F) ℓ) (c : Dev nD) :
    after (ops (F := F)) (launchContents m c) (Proc.devRef .tc main_v82) = val_main_v82 (F := F) (X0 m c) := by
  refine (eq_unary' hW (launchContents m c) 114 (hk 114 (by decide)) ((extractStridedSlice S32x1x767x767 ![0, 0, 0, 0] · slices_S32x1x768x768_S32x1x767x767_0_0_0_0) : (⟨S32x1x768x768, .f32⟩ : BufTy).Contents (Elt F) → (⟨S32x1x767x767, .f32⟩ : BufTy).Contents (Elt F)) ⟨by decide, rfl⟩ ⟨by decide, rfl⟩ rfl (opnd 7 114 rfl (by decide)) (outp 114 rfl) (st_main_v5 m c)).trans ?_
  rfl
theorem st_main_v83 (m : (ℓ : Loc nD τ sig) → Buf (Elt F) ℓ) (c : Dev nD) :
    after (ops (F := F)) (launchContents m c) (Proc.devRef .tc main_v83) = val_main_v83 (F := F) (X0 m c) := by
  refine (eq_unary' hW (launchContents m c) 115 (hk 115 (by decide)) ((extractStridedSlice S32x1x767x767 ![0, 0, 1, 1] · slices_S32x1x768x768_S32x1x767x767_0_0_1_1) : (⟨S32x1x768x768, .f32⟩ : BufTy).Contents (Elt F) → (⟨S32x1x767x767, .f32⟩ : BufTy).Contents (Elt F)) ⟨by decide, rfl⟩ ⟨by decide, rfl⟩ rfl (opnd 7 115 rfl (by decide)) (outp 115 rfl) (st_main_v5 m c)).trans ?_
  rfl
theorem st_main_v84 (m : (ℓ : Loc nD τ sig) → Buf (Elt F) ℓ) (c : Dev nD) :
    after (ops (F := F)) (launchContents m c) (Proc.devRef .tc main_v84) = val_main_v84 (F := F) (X0 m c) := by
  refine (eq_binary' hW (launchContents m c) 116 (hk 116 (by decide)) (subf : (⟨S32x1x767x767, .f32⟩ : BufTy).Contents (Elt F) → (⟨S32x1x767x767, .f32⟩ : BufTy).Contents (Elt F) → (⟨S32x1x767x767, .f32⟩ : BufTy).Contents (Elt F)) ⟨by decide, rfl⟩ ⟨by decide, rfl⟩ ⟨by decide, rfl⟩ rfl (opnd 114 116 rfl (by decide)) (opnd 115 116 rfl (by decide)) (outp 116 rfl) (st_main_v82 m c) (st_main_v83 m c)).trans ?_
  rfl
theorem st_main_v85 (m : (ℓ : Loc nD τ sig) → Buf (Elt F) ℓ) (c : Dev nD) :
    after (ops (F := F)) (launchContents m c) (Proc.devRef .tc main_v85) = val_main_v85 (F := F) (X0 m c) := by
  refine (eq_binary' hW (launchContents m c) 117 (hk 117 (by decide)) (mulf : (⟨S32x1x767x767, .f32⟩ : BufTy).Contents (Elt F) → (⟨S32x1x767x767, .f32⟩ : BufTy).Contents (Elt F) → (⟨S32x1x767x767, .f32⟩ : BufTy).Contents (Elt F)) ⟨by decide, rfl⟩ ⟨by decide, rfl⟩ ⟨by decide, rfl⟩ rfl (opnd 116 117 rfl (by decide)) (opnd 116 117 rfl (by decide)) (outp 117 rfl) (st_main_v84 m c) (st_main_v84 m c)).trans ?_
  rfl
theorem st_main_c_30 (m : (ℓ : Loc nD τ sig) → Buf (Elt F) ℓ) (c : Dev nD) :
    after (ops (F := F)) (launchContents m c) (Proc.devRef .tc main_c_30) = val_main_c_30 (F := F) := by
  refine (eq_nullary hW (launchContents m c) 118 (hk 118 (by decide)) (constantI S_ 32 0#32) ⟨by decide, rfl⟩ rfl (outp 118 rfl)).trans ?_
  rfl
theorem st_main_v86 (m : (ℓ : Loc nD τ sig) → Buf (Elt F) ℓ) (c : Dev nD) :
    after (ops (F := F)) (launchContents m c) (Proc.devRef .tc main_v86) = val_main_v86 (F := F) := by
  refine (eq_unary' hW (launchContents m c) 119 (hk 119 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 118 119 rfl (by decide)) (outp 119 rfl) (st_main_c_30 m c)).trans ?_
  rfl
theorem st_main_c_31 (m : (ℓ : Loc nD τ sig) → Buf (Elt F) ℓ) (c : Dev nD) :
    after (ops (F := F)) (launchContents m c) (Proc.devRef .tc main_c_31) = val_main_c_31 (F := F) := by
  refine (eq_nullary hW (launchContents m c) 120 (hk 120 (by decide)) (constantI S_ 32 0#32) ⟨by decide, rfl⟩ rfl (outp 120 rfl)).trans ?_
  rfl
theorem st_main_v87 (m : (ℓ : Loc nD τ sig) → Buf (Elt F) ℓ) (c : Dev nD) :
    after (ops (F := F)) (launchContents m c) (Proc.devRef .tc main_v87) = val_main_v87 (F := F) := by
  refine (eq_unary' hW (launchContents m c) 121 (hk 121 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 120 121 rfl (by decide)) (outp 121 rfl) (st_main_c_31 m c)).trans ?_
  rfl
theorem st_main_v88 (m : (ℓ : Loc nD τ sig) → Buf (Elt F) ℓ) (c : Dev nD) :
    after (ops (F := F)) (launchContents m c) (Proc.devRef .tc main_v88) = val_main_v88 (F := F) := by
  refine (eq_binary' hW (launchContents m c) 122 (hk 122 (by decide)) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ⟨by decide, rfl⟩ ⟨by decide, rfl⟩ ⟨by decide, rfl⟩ rfl (opnd 119 122 rfl (by decide)) (opnd 121 122 rfl (by decide)) (outp 122 rfl) (st_main_v86 m c) (st_main_v87 m c)).trans ?_
  rfl
theorem st_main_v89 (m : (ℓ : Loc nD τ sig) → Buf (Elt F) ℓ) (c : Dev nD) :
    after (ops (F := F)) (launchContents m c) (Proc.devRef .tc main_v89) = val_main_v89 (F := F) (X0 m c) := by
  refine (eq_ternary' hW (launchContents m c) 123 (hk 123 (by decide)) ((fun x i u => Host.scatter scatter_S32x1x768x768_S2_S32x1x767x767_0123_n_23_0 FloatOps.addf x i u) : (⟨S32x1x768x768, .f32⟩ : BufTy).Contents (Elt F) → (⟨S2, .i32⟩ : BufTy).Contents (Elt F) → (⟨S32x1x767x767, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 105 123 rfl (by decide)) (opnd 122 123 rfl (by decide)) (opnd 117 123 rfl (by decide)) (outp 123 rfl) (st_main_v76 m c) (st_main_v88 m c) (st_main_v85 m c)).trans ?_
  rfl
theorem st_main_c_32 (m : (ℓ : Loc nD τ sig) → Buf (Elt F) ℓ) (c : Dev nD) :
    after (ops (F := F)) (launchContents m c) (Proc.devRef .tc main_c_32) = val_main_c_32 (F := F) := by
  refine (eq_nullary hW (launchContents m c) 124 (hk 124 (by decide)) (constantI S_ 32 0#32) ⟨by decide, rfl⟩ rfl (outp 124 rfl)).trans ?_
  rfl
theorem st_main_v90 (m : (ℓ : Loc nD τ sig) → Buf (Elt F) ℓ) (c : Dev nD) :
    after (ops (F := F)) (launchContents m c) (Proc.devRef .tc main_v90) = val_main_v90 (F := F) := by
  refine (eq_unary' hW (launchContents m c) 125 (hk 125 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 124 125 rfl (by decide)) (outp 125 rfl) (st_main_c_32 m c)).trans ?_
  rfl
theorem st_main_c_33 (m : (ℓ : Loc nD τ sig) → Buf (Elt F) ℓ) (c : Dev nD) :
    after (ops (F := F)) (launchContents m c) (Proc.devRef .tc main_c_33) = val_main_c_33 (F := F) := by
  refine (eq_nullary hW (launchContents m c) 126 (hk 126 (by decide)) (constantI S_ 32 0#32) ⟨by decide, rfl⟩ rfl (outp 126 rfl)).trans ?_
  rfl
theorem st_main_v91 (m : (ℓ : Loc nD τ sig) → Buf (Elt F) ℓ) (c : Dev nD) :
    after (ops (F := F)) (launchContents m c) (Proc.devRef .tc main_v91) = val_main_v91 (F := F) := by
  refine (eq_unary' hW (launchContents m c) 127 (hk 127 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 126 127 rfl (by decide)) (outp 127 rfl) (st_main_c_33 m c)).trans ?_
  rfl
theorem st_main_v92 (m : (ℓ : Loc nD τ sig) → Buf (Elt F) ℓ) (c : Dev nD) :
    after (ops (F := F)) (launchContents m c) (Proc.devRef .tc main_v92) = val_main_v92 (F := F) := by
  refine (eq_binary' hW (launchContents m c) 128 (hk 128 (by decide)) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ⟨by decide, rfl⟩ ⟨by decide, rfl⟩ ⟨by decide, rfl⟩ rfl (opnd 125 128 rfl (by decide)) (opnd 127 128 rfl (by decide)) (outp 128 rfl) (st_main_v90 m c) (st_main_v91 m c)).trans ?_
  rfl
theorem st_main_cst_34 (m : (ℓ : Loc nD τ sig) → Buf (Elt F) ℓ) (c : Dev nD) :
    after (ops (F := F)) (launchContents m c) (Proc.devRef .tc main_cst_34) = val_main_cst_34 (F := F) := by
  refine (eq_nullary hW (launchContents m c) 129 (hk 129 (by decide)) (constant S_ .f32 0x3F800000#32) ⟨by decide, rfl⟩ rfl (outp 129 rfl)).trans ?_
  rfl
theorem st_main_v93 (m : (ℓ : Loc nD τ sig) → Buf (Elt F) ℓ) (c : Dev nD) :
    after (ops (F := F)) (launchContents m c) (Proc.devRef .tc main_v93) = val_main_v93 (F := F) := by
  refine (eq_unary' hW (launchContents m c) 130 (hk 130 (by decide)) (broadcastInDim S32x1x767x767 ![] bcast_S_S32x1x767x767 : (⟨S_, .f32⟩ : BufTy).Contents (Elt F) → (⟨S32x1x767x767, .f32⟩ : BufTy).Contents (Elt F)) ⟨by decide, rfl⟩ ⟨by decide, rfl⟩ rfl (opnd 129 130 rfl (by decide)) (outp 130 rfl) (st_main_cst_34 m c)).trans ?_
  rfl
theorem st_main_v94 (m : (ℓ : Loc nD τ sig) → Buf (Elt F) ℓ) (c : Dev nD) :
    after (ops (F := F)) (launchContents m c) (Proc.devRef .tc main_v94) = val_main_v94 (F := F) := by
  refine (eq_ternary' hW (launchContents m c) 131 (hk 131 (by decide)) ((fun x i u => Host.scatter scatter_S32x1x768x768_S2_S32x1x767x767_0123_n_23_0 FloatOps.addf x i u) : (⟨S32x1x768x768, .f32⟩ : BufTy).Contents (Elt F) → (⟨S2, .i32⟩ : BufTy).Contents (Elt F) → (⟨S32x1x767x767, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 113 131 rfl (by decide)) (opnd 128 131 rfl (by decide)) (opnd 130 131 rfl (by decide)) (outp 131 rfl) (st_main_v81 m c) (st_main_v92 m c) (st_main_v93 m c)).trans ?_
  rfl
theorem st_main_v95 (m : (ℓ : Loc nD τ sig) → Buf (Elt F) ℓ) (c : Dev nD) :
    after (ops (F := F)) (launchContents m c) (Proc.devRef .tc main_v95) = val_main_v95 (F := F) (X0 m c) := by
  refine (eq_unary' hW (launchContents m c) 132 (hk 132 (by decide)) ((extractStridedSlice S32x1x768x767 ![0, 0, 0, 0] · slices_S32x1x768x768_S32x1x768x767_0_0_0_0) : (⟨S32x1x768x768, .f32⟩ : BufTy).Contents (Elt F) → (⟨S32x1x768x767, .f32⟩ : BufTy).Contents (Elt F)) ⟨by decide, rfl⟩ ⟨by decide, rfl⟩ rfl (opnd 7 132 rfl (by decide)) (outp 132 rfl) (st_main_v5 m c)).trans ?_
  rfl
theorem st_main_v96 (m : (ℓ : Loc nD τ sig) → Buf (Elt F) ℓ) (c : Dev nD) :
    after (ops (F := F)) (launchContents m c) (Proc.devRef .tc main_v96) = val_main_v96 (F := F) (X0 m c) := by
  refine (eq_unary' hW (launchContents m c) 133 (hk 133 (by decide)) ((extractStridedSlice S32x1x768x767 ![0, 0, 0, 1] · slices_S32x1x768x768_S32x1x768x767_0_0_0_1) : (⟨S32x1x768x768, .f32⟩ : BufTy).Contents (Elt F) → (⟨S32x1x768x767, .f32⟩ : BufTy).Contents (Elt F)) ⟨by decide, rfl⟩ ⟨by decide, rfl⟩ rfl (opnd 7 133 rfl (by decide)) (outp 133 rfl) (st_main_v5 m c)).trans ?_
  rfl
theorem st_main_v97 (m : (ℓ : Loc nD τ sig) → Buf (Elt F) ℓ) (c : Dev nD) :
    after (ops (F := F)) (launchContents m c) (Proc.devRef .tc main_v97) = val_main_v97 (F := F) (X0 m c) := by
  refine (eq_binary' hW (launchContents m c) 134 (hk 134 (by decide)) (subf : (⟨S32x1x768x767, .f32⟩ : BufTy).Contents (Elt F) → (⟨S32x1x768x767, .f32⟩ : BufTy).Contents (Elt F) → (⟨S32x1x768x767, .f32⟩ : BufTy).Contents (Elt F)) ⟨by decide, rfl⟩ ⟨by decide, rfl⟩ ⟨by decide, rfl⟩ rfl (opnd 132 134 rfl (by decide)) (opnd 133 134 rfl (by decide)) (outp 134 rfl) (st_main_v95 m c) (st_main_v96 m c)).trans ?_
  rfl
theorem st_main_v98 (m : (ℓ : Loc nD τ sig) → Buf (Elt F) ℓ) (c : Dev nD) :
    after (ops (F := F)) (launchContents m c) (Proc.devRef .tc main_v98) = val_main_v98 (F := F) (X0 m c) := by
  refine (eq_binary' hW (launchContents m c) 135 (hk 135 (by decide)) (mulf : (⟨S32x1x768x767, .f32⟩ : BufTy).Contents (Elt F) → (⟨S32x1x768x767, .f32⟩ : BufTy).Contents (Elt F) → (⟨S32x1x768x767, .f32⟩ : BufTy).Contents (Elt F)) ⟨by decide, rfl⟩ ⟨by decide, rfl⟩ ⟨by decide, rfl⟩ rfl (opnd 134 135 rfl (by decide)) (opnd 134 135 rfl (by decide)) (outp 135 rfl) (st_main_v97 m c) (st_main_v97 m c)).trans ?_
  rfl
theorem st_main_c_35 (m : (ℓ : Loc nD τ sig) → Buf (Elt F) ℓ) (c : Dev nD) :
    after (ops (F := F)) (launchContents m c) (Proc.devRef .tc main_c_35) = val_main_c_35 (F := F) := by
  refine (eq_nullary hW (launchContents m c) 136 (hk 136 (by decide)) (constantI S_ 32 0#32) ⟨by decide, rfl⟩ rfl (outp 136 rfl)).trans ?_
  rfl
theorem st_main_v99 (m : (ℓ : Loc nD τ sig) → Buf (Elt F) ℓ) (c : Dev nD) :
    after (ops (F := F)) (launchContents m c) (Proc.devRef .tc main_v99) = val_main_v99 (F := F) := by
  refine (eq_unary' hW (launchContents m c) 137 (hk 137 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 136 137 rfl (by decide)) (outp 137 rfl) (st_main_c_35 m c)).trans ?_
  rfl
theorem st_main_v100 (m : (ℓ : Loc nD τ sig) → Buf (Elt F) ℓ) (c : Dev nD) :
    after (ops (F := F)) (launchContents m c) (Proc.devRef .tc main_v100) = val_main_v100 (F := F) (X0 m c) := by
  refine (eq_ternary' hW (launchContents m c) 138 (hk 138 (by decide)) ((fun x i u => Host.scatter scatter_S32x1x768x768_S1_S32x1x768x767_0123_n_3_0 FloatOps.addf x i u) : (⟨S32x1x768x768, .f32⟩ : BufTy).Contents (Elt F) → (⟨S1, .i32⟩ : BufTy).Contents (Elt F) → (⟨S32x1x768x767, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 123 138 rfl (by decide)) (opnd 137 138 rfl (by decide)) (opnd 135 138 rfl (by decide)) (outp 138 rfl) (st_main_v89 m c) (st_main_v99 m c) (st_main_v98 m c)).trans ?_
  rfl
theorem st_main_c_36 (m : (ℓ : Loc nD τ sig) → Buf (Elt F) ℓ) (c : Dev nD) :
    after (ops (F := F)) (launchContents m c) (Proc.devRef .tc main_c_36) = val_main_c_36 (F := F) := by
  refine (eq_nullary hW (launchContents m c) 139 (hk 139 (by decide)) (constantI S_ 32 0#32) ⟨by decide, rfl⟩ rfl (outp 139 rfl)).trans ?_
  rfl
theorem st_main_v101 (m : (ℓ : Loc nD τ sig) → Buf (Elt F) ℓ) (c : Dev nD) :
    after (ops (F := F)) (launchContents m c) (Proc.devRef .tc main_v101) = val_main_v101 (F := F) := by
  refine (eq_unary' hW (launchContents m c) 140 (hk 140 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 139 140 rfl (by decide)) (outp 140 rfl) (st_main_c_36 m c)).trans ?_
  rfl
theorem st_main_cst_37 (m : (ℓ : Loc nD τ sig) → Buf (Elt F) ℓ) (c : Dev nD) :
    after (ops (F := F)) (launchContents m c) (Proc.devRef .tc main_cst_37) = val_main_cst_37 (F := F) := by
  refine (eq_nullary hW (launchContents m c) 141 (hk 141 (by decide)) (constant S_ .f32 0x3F800000#32) ⟨by decide, rfl⟩ rfl (outp 141 rfl)).trans ?_
  rfl
theorem st_main_v102 (m : (ℓ : Loc nD τ sig) → Buf (Elt F) ℓ) (c : Dev nD) :
    after (ops (F := F)) (launchContents m c) (Proc.devRef .tc main_v102) = val_main_v102 (F := F) := by
  refine (eq_unary' hW (launchContents m c) 142 (hk 142 (by decide)) (broadcastInDim S32x1x768x767 ![] bcast_S_S32x1x768x767 : (⟨S_, .f32⟩ : BufTy).Contents (Elt F) → (⟨S32x1x768x767, .f32⟩ : BufTy).Contents (Elt F)) ⟨by decide, rfl⟩ ⟨by decide, rfl⟩ rfl (opnd 141 142 rfl (by decide)) (outp 142 rfl) (st_main_cst_37 m c)).trans ?_
  rfl
theorem st_main_v103 (m : (ℓ : Loc nD τ sig) → Buf (Elt F) ℓ) (c : Dev nD) :
    after (ops (F := F)) (launchContents m c) (Proc.devRef .tc main_v103) = val_main_v103 (F := F) := by
  refine (eq_ternary' hW (launchContents m c) 143 (hk 143 (by decide)) ((fun x i u => Host.scatter scatter_S32x1x768x768_S1_S32x1x768x767_0123_n_3_0 FloatOps.addf x i u) : (⟨S32x1x768x768, .f32⟩ : BufTy).Contents (Elt F) → (⟨S1, .i32⟩ : BufTy).Contents (Elt F) → (⟨S32x1x768x767, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 131 143 rfl (by decide)) (opnd 140 143 rfl (by decide)) (opnd 142 143 rfl (by decide)) (outp 143 rfl) (st_main_v94 m c) (st_main_v101 m c) (st_main_v102 m c)).trans ?_
  rfl
theorem st_main_v104 (m : (ℓ : Loc nD τ sig) → Buf (Elt F) ℓ) (c : Dev nD) :
    after (ops (F := F)) (launchContents m c) (Proc.devRef .tc main_v104) = val_main_v104 (F := F) (X0 m c) := by
  refine (eq_unary' hW (launchContents m c) 144 (hk 144 (by decide)) ((extractStridedSlice S32x1x767x767 ![0, 0, 1, 0] · slices_S32x1x768x768_S32x1x767x767_0_0_1_0) : (⟨S32x1x768x768, .f32⟩ : BufTy).Contents (Elt F) → (⟨S32x1x767x767, .f32⟩ : BufTy).Contents (Elt F)) ⟨by decide, rfl⟩ ⟨by decide, rfl⟩ rfl (opnd 7 144 rfl (by decide)) (outp 144 rfl) (st_main_v5 m c)).trans ?_
  rfl
theorem st_main_v105 (m : (ℓ : Loc nD τ sig) → Buf (Elt F) ℓ) (c : Dev nD) :
    after (ops (F := F)) (launchContents m c) (Proc.devRef .tc main_v105) = val_main_v105 (F := F) (X0 m c) := by
  refine (eq_unary' hW (launchContents m c) 145 (hk 145 (by decide)) ((extractStridedSlice S32x1x767x767 ![0, 0, 0, 1] · slices_S32x1x768x768_S32x1x767x767_0_0_0_1) : (⟨S32x1x768x768, .f32⟩ : BufTy).Contents (Elt F) → (⟨S32x1x767x767, .f32⟩ : BufTy).Contents (Elt F)) ⟨by decide, rfl⟩ ⟨by decide, rfl⟩ rfl (opnd 7 145 rfl (by decide)) (outp 145 rfl) (st_main_v5 m c)).trans ?_
  rfl
theorem st_main_v106 (m : (ℓ : Loc nD τ sig) → Buf (Elt F) ℓ) (c : Dev nD) :
    after (ops (F := F)) (launchContents m c) (Proc.devRef .tc main_v106) = val_main_v106 (F := F) (X0 m c) := by
  refine (eq_binary' hW (launchContents m c) 146 (hk 146 (by decide)) (subf : (⟨S32x1x767x767, .f32⟩ : BufTy).Contents (Elt F) → (⟨S32x1x767x767, .f32⟩ : BufTy).Contents (Elt F) → (⟨S32x1x767x767, .f32⟩ : BufTy).Contents (Elt F)) ⟨by decide, rfl⟩ ⟨by decide, rfl⟩ ⟨by decide, rfl⟩ rfl (opnd 144 146 rfl (by decide)) (opnd 145 146 rfl (by decide)) (outp 146 rfl) (st_main_v104 m c) (st_main_v105 m c)).trans ?_
  rfl
theorem st_main_v107 (m : (ℓ : Loc nD τ sig) → Buf (Elt F) ℓ) (c : Dev nD) :
    after (ops (F := F)) (launchContents m c) (Proc.devRef .tc main_v107) = val_main_v107 (F := F) (X0 m c) := by
  refine (eq_binary' hW (launchContents m c) 147 (hk 147 (by decide)) (mulf : (⟨S32x1x767x767, .f32⟩ : BufTy).Contents (Elt F) → (⟨S32x1x767x767, .f32⟩ : BufTy).Contents (Elt F) → (⟨S32x1x767x767, .f32⟩ : BufTy).Contents (Elt F)) ⟨by decide, rfl⟩ ⟨by decide, rfl⟩ ⟨by decide, rfl⟩ rfl (opnd 146 147 rfl (by decide)) (opnd 146 147 rfl (by decide)) (outp 147 rfl) (st_main_v106 m c) (st_main_v106 m c)).trans ?_
  rfl
theorem st_main_c_38 (m : (ℓ : Loc nD τ sig) → Buf (Elt F) ℓ) (c : Dev nD) :
    after (ops (F := F)) (launchContents m c) (Proc.devRef .tc main_c_38) = val_main_c_38 (F := F) := by
  refine (eq_nullary hW (launchContents m c) 148 (hk 148 (by decide)) (constantI S_ 32 1#32) ⟨by decide, rfl⟩ rfl (outp 148 rfl)).trans ?_
  rfl
theorem st_main_v108 (m : (ℓ : Loc nD τ sig) → Buf (Elt F) ℓ) (c : Dev nD) :
    after (ops (F := F)) (launchContents m c) (Proc.devRef .tc main_v108) = val_main_v108 (F := F) := by
  refine (eq_unary' hW (launchContents m c) 149 (hk 149 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 148 149 rfl (by decide)) (outp 149 rfl) (st_main_c_38 m c)).trans ?_
  rfl
theorem st_main_c_39 (m : (ℓ : Loc nD τ sig) → Buf (Elt F) ℓ) (c : Dev nD) :
    after (ops (F := F)) (launchContents m c) (Proc.devRef .tc main_c_39) = val_main_c_39 (F := F) := by
  refine (eq_nullary hW (launchContents m c) 150 (hk 150 (by decide)) (constantI S_ 32 0#32) ⟨by decide, rfl⟩ rfl (outp 150 rfl)).trans ?_
  rfl
theorem st_main_v109 (m : (ℓ : Loc nD τ sig) → Buf (Elt F) ℓ) (c : Dev nD) :
    after (ops (F := F)) (launchContents m c) (Proc.devRef .tc main_v109) = val_main_v109 (F := F) := by
  refine (eq_unary' hW (launchContents m c) 151 (hk 151 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 150 151 rfl (by decide)) (outp 151 rfl) (st_main_c_39 m c)).trans ?_
  rfl
theorem st_main_v110 (m : (ℓ : Loc nD τ sig) → Buf (Elt F) ℓ) (c : Dev nD) :
    after (ops (F := F)) (launchContents m c) (Proc.devRef .tc main_v110) = val_main_v110 (F := F) := by
  refine (eq_binary' hW (launchContents m c) 152 (hk 152 (by decide)) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ⟨by decide, rfl⟩ ⟨by decide, rfl⟩ ⟨by decide, rfl⟩ rfl (opnd 149 152 rfl (by decide)) (opnd 151 152 rfl (by decide)) (outp 152 rfl) (st_main_v108 m c) (st_main_v109 m c)).trans ?_
  rfl
theorem st_main_v111 (m : (ℓ : Loc nD τ sig) → Buf (Elt F) ℓ) (c : Dev nD) :
    after (ops (F := F)) (launchContents m c) (Proc.devRef .tc main_v111) = val_main_v111 (F := F) (X0 m c) := by
  refine (eq_ternary' hW (launchContents m c) 153 (hk 153 (by decide)) ((fun x i u => Host.scatter scatter_S32x1x768x768_S2_S32x1x767x767_0123_n_23_0 FloatOps.addf x i u) : (⟨S32x1x768x768, .f32⟩ : BufTy).Contents (Elt F) → (⟨S2, .i32⟩ : BufTy).Contents (Elt F) → (⟨S32x1x767x767, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 138 153 rfl (by decide)) (opnd 152 153 rfl (by decide)) (opnd 147 153 rfl (by decide)) (outp 153 rfl) (st_main_v100 m c) (st_main_v110 m c) (st_main_v107 m c)).trans ?_
  rfl
theorem st_main_c_40 (m : (ℓ : Loc nD τ sig) → Buf (Elt F) ℓ) (c : Dev nD) :
    after (ops (F := F)) (launchContents m c) (Proc.devRef .tc main_c_40) = val_main_c_40 (F := F) := by
  refine (eq_nullary hW (launchContents m c) 154 (hk 154 (by decide)) (constantI S_ 32 1#32) ⟨by decide, rfl⟩ rfl (outp 154 rfl)).trans ?_
  rfl
theorem st_main_v112 (m : (ℓ : Loc nD τ sig) → Buf (Elt F) ℓ) (c : Dev nD) :
    after (ops (F := F)) (launchContents m c) (Proc.devRef .tc main_v112) = val_main_v112 (F := F) := by
  refine (eq_unary' hW (launchContents m c) 155 (hk 155 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 154 155 rfl (by decide)) (outp 155 rfl) (st_main_c_40 m c)).trans ?_
  rfl
theorem st_main_c_41 (m : (ℓ : Loc nD τ sig) → Buf (Elt F) ℓ) (c : Dev nD) :
    after (ops (F := F)) (launchContents m c) (Proc.devRef .tc main_c_41) = val_main_c_41 (F := F) := by
  refine (eq_nullary hW (launchContents m c) 156 (hk 156 (by decide)) (constantI S_ 32 0#32) ⟨by decide, rfl⟩ rfl (outp 156 rfl)).trans ?_
  rfl
theorem st_main_v113 (m : (ℓ : Loc nD τ sig) → Buf (Elt F) ℓ) (c : Dev nD) :
    after (ops (F := F)) (launchContents m c) (Proc.devRef .tc main_v113) = val_main_v113 (F := F) := by
  refine (eq_unary' hW (launchContents m c) 157 (hk 157 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 156 157 rfl (by decide)) (outp 157 rfl) (st_main_c_41 m c)).trans ?_
  rfl
theorem st_main_v114 (m : (ℓ : Loc nD τ sig) → Buf (Elt F) ℓ) (c : Dev nD) :
    after (ops (F := F)) (launchContents m c) (Proc.devRef .tc main_v114) = val_main_v114 (F := F) := by
  refine (eq_binary' hW (launchContents m c) 158 (hk 158 (by decide)) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ⟨by decide, rfl⟩ ⟨by decide, rfl⟩ ⟨by decide, rfl⟩ rfl (opnd 155 158 rfl (by decide)) (opnd 157 158 rfl (by decide)) (outp 158 rfl) (st_main_v112 m c) (st_main_v113 m c)).trans ?_
  rfl
theorem st_main_cst_42 (m : (ℓ : Loc nD τ sig) → Buf (Elt F) ℓ) (c : Dev nD) :
    after (ops (F := F)) (launchContents m c) (Proc.devRef .tc main_cst_42) = val_main_cst_42 (F := F) := by
  refine (eq_nullary hW (launchContents m c) 159 (hk 159 (by decide)) (constant S_ .f32 0x3F800000#32) ⟨by decide, rfl⟩ rfl (outp 159 rfl)).trans ?_
  rfl
theorem st_main_v115 (m : (ℓ : Loc nD τ sig) → Buf (Elt F) ℓ) (c : Dev nD) :
    after (ops (F := F)) (launchContents m c) (Proc.devRef .tc main_v115) = val_main_v115 (F := F) := by
  refine (eq_unary' hW (launchContents m c) 160 (hk 160 (by decide)) (broadcastInDim S32x1x767x767 ![] bcast_S_S32x1x767x767 : (⟨S_, .f32⟩ : BufTy).Contents (Elt F) → (⟨S32x1x767x767, .f32⟩ : BufTy).Contents (Elt F)) ⟨by decide, rfl⟩ ⟨by decide, rfl⟩ rfl (opnd 159 160 rfl (by decide)) (outp 160 rfl) (st_main_cst_42 m c)).trans ?_
  rfl
theorem st_main_v116 (m : (ℓ : Loc nD τ sig) → Buf (Elt F) ℓ) (c : Dev nD) :
    after (ops (F := F)) (launchContents m c) (Proc.devRef .tc main_v116) = val_main_v116 (F := F) := by
  refine (eq_ternary' hW (launchContents m c) 161 (hk 161 (by decide)) ((fun x i u => Host.scatter scatter_S32x1x768x768_S2_S32x1x767x767_0123_n_23_0 FloatOps.addf x i u) : (⟨S32x1x768x768, .f32⟩ : BufTy).Contents (Elt F) → (⟨S2, .i32⟩ : BufTy).Contents (Elt F) → (⟨S32x1x767x767, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 143 161 rfl (by decide)) (opnd 158 161 rfl (by decide)) (opnd 160 161 rfl (by decide)) (outp 161 rfl) (st_main_v103 m c) (st_main_v114 m c) (st_main_v115 m c)).trans ?_
  rfl
theorem st_main_v117 (m : (ℓ : Loc nD τ sig) → Buf (Elt F) ℓ) (c : Dev nD) :
    after (ops (F := F)) (launchContents m c) (Proc.devRef .tc main_v117) = val_main_v117 (F := F) (X0 m c) := by
  refine (eq_unary' hW (launchContents m c) 162 (hk 162 (by decide)) ((extractStridedSlice S32x1x766x767 ![0, 0, 2, 0] · slices_S32x1x768x768_S32x1x766x767_0_0_2_0) : (⟨S32x1x768x768, .f32⟩ : BufTy).Contents (Elt F) → (⟨S32x1x766x767, .f32⟩ : BufTy).Contents (Elt F)) ⟨by decide, rfl⟩ ⟨by decide, rfl⟩ rfl (opnd 7 162 rfl (by decide)) (outp 162 rfl) (st_main_v5 m c)).trans ?_
  rfl
theorem st_main_v118 (m : (ℓ : Loc nD τ sig) → Buf (Elt F) ℓ) (c : Dev nD) :
    after (ops (F := F)) (launchContents m c) (Proc.devRef .tc main_v118) = val_main_v118 (F := F) (X0 m c) := by
  refine (eq_unary' hW (launchContents m c) 163 (hk 163 (by decide)) ((extractStridedSlice S32x1x766x767 ![0, 0, 0, 1] · slices_S32x1x768x768_S32x1x766x767_0_0_0_1) : (⟨S32x1x768x768, .f32⟩ : BufTy).Contents (Elt F) → (⟨S32x1x766x767, .f32⟩ : BufTy).Contents (Elt F)) ⟨by decide, rfl⟩ ⟨by decide, rfl⟩ rfl (opnd 7 163 rfl (by decide)) (outp 163 rfl) (st_main_v5 m c)).trans ?_
  rfl
theorem st_main_v119 (m : (ℓ : Loc nD τ sig) → Buf (Elt F) ℓ) (c : Dev nD) :
    after (ops (F := F)) (launchContents m c) (Proc.devRef .tc main_v119) = val_main_v119 (F := F) (X0 m c) := by
  refine (eq_binary' hW (launchContents m c) 164 (hk 164 (by decide)) (subf : (⟨S32x1x766x767, .f32⟩ : BufTy).Contents (Elt F) → (⟨S32x1x766x767, .f32⟩ : BufTy).Contents (Elt F) → (⟨S32x1x766x767, .f32⟩ : BufTy).Contents (Elt F)) ⟨by decide, rfl⟩ ⟨by decide, rfl⟩ ⟨by decide, rfl⟩ rfl (opnd 162 164 rfl (by decide)) (opnd 163 164 rfl (by decide)) (outp 164 rfl) (st_main_v117 m c) (st_main_v118 m c)).trans ?_
  rfl
theorem st_main_v120 (m : (ℓ : Loc nD τ sig) → Buf (Elt F) ℓ) (c : Dev nD) :
    after (ops (F := F)) (launchContents m c) (Proc.devRef .tc main_v120) = val_main_v120 (F := F) (X0 m c) := by
  refine (eq_binary' hW (launchContents m c) 165 (hk 165 (by decide)) (mulf : (⟨S32x1x766x767, .f32⟩ : BufTy).Contents (Elt F) → (⟨S32x1x766x767, .f32⟩ : BufTy).Contents (Elt F) → (⟨S32x1x766x767, .f32⟩ : BufTy).Contents (Elt F)) ⟨by decide, rfl⟩ ⟨by decide, rfl⟩ ⟨by decide, rfl⟩ rfl (opnd 164 165 rfl (by decide)) (opnd 164 165 rfl (by decide)) (outp 165 rfl) (st_main_v119 m c) (st_main_v119 m c)).trans ?_
  rfl
theorem st_main_c_43 (m : (ℓ : Loc nD τ sig) → Buf (Elt F) ℓ) (c : Dev nD) :
    after (ops (F := F)) (launchContents m c) (Proc.devRef .tc main_c_43) = val_main_c_43 (F := F) := by
  refine (eq_nullary hW (launchContents m c) 166 (hk 166 (by decide)) (constantI S_ 32 2#32) ⟨by decide, rfl⟩ rfl (outp 166 rfl)).trans ?_
  rfl
theorem st_main_v121 (m : (ℓ : Loc nD τ sig) → Buf (Elt F) ℓ) (c : Dev nD) :
    after (ops (F := F)) (launchContents m c) (Proc.devRef .tc main_v121) = val_main_v121 (F := F) := by
  refine (eq_unary' hW (launchContents m c) 167 (hk 167 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 166 167 rfl (by decide)) (outp 167 rfl) (st_main_c_43 m c)).trans ?_
  rfl
theorem st_main_c_44 (m : (ℓ : Loc nD τ sig) → Buf (Elt F) ℓ) (c : Dev nD) :
    after (ops (F := F)) (launchContents m c) (Proc.devRef .tc main_c_44) = val_main_c_44 (F := F) := by
  refine (eq_nullary hW (launchContents m c) 168 (hk 168 (by decide)) (constantI S_ 32 0#32) ⟨by decide, rfl⟩ rfl (outp 168 rfl)).trans ?_
  rfl
theorem st_main_v122 (m : (ℓ : Loc nD τ sig) → Buf (Elt F) ℓ) (c : Dev nD) :
    after (ops (F := F)) (launchContents m c) (Proc.devRef .tc main_v122) = val_main_v122 (F := F) := by
  refine (eq_unary' hW (launchContents m c) 169 (hk 169 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 168 169 rfl (by decide)) (outp 169 rfl) (st_main_c_44 m c)).trans ?_
  rfl
theorem st_main_v123 (m : (ℓ : Loc nD τ sig) → Buf (Elt F) ℓ) (c : Dev nD) :
    after (ops (F := F)) (launchContents m c) (Proc.devRef .tc main_v123) = val_main_v123 (F := F) := by
  refine (eq_binary' hW (launchContents m c) 170 (hk 170 (by decide)) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ⟨by decide, rfl⟩ ⟨by decide, rfl⟩ ⟨by decide, rfl⟩ rfl (opnd 167 170 rfl (by decide)) (opnd 169 170 rfl (by decide)) (outp 170 rfl) (st_main_v121 m c) (st_main_v122 m c)).trans ?_
  rfl
theorem st_main_v124 (m : (ℓ : Loc nD τ sig) → Buf (Elt F) ℓ) (c : Dev nD) :
    after (ops (F := F)) (launchContents m c) (Proc.devRef .tc main_v124) = val_main_v124 (F := F) (X0 m c) := by
  refine (eq_ternary' hW (launchContents m c) 171 (hk 171 (by decide)) ((fun x i u => Host.scatter scatter_S32x1x768x768_S2_S32x1x766x767_0123_n_23_0 FloatOps.addf x i u) : (⟨S32x1x768x768, .f32⟩ : BufTy).Contents (Elt F) → (⟨S2, .i32⟩ : BufTy).Contents (Elt F) → (⟨S32x1x766x767, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 153 171 rfl (by decide)) (opnd 170 171 rfl (by decide)) (opnd 165 171 rfl (by decide)) (outp 171 rfl) (st_main_v111 m c) (st_main_v123 m c) (st_main_v120 m c)).trans ?_
  rfl
theorem st_main_c_45 (m : (ℓ : Loc nD τ sig) → Buf (Elt F) ℓ) (c : Dev nD) :
    after (ops (F := F)) (launchContents m c) (Proc.devRef .tc main_c_45) = val_main_c_45 (F := F) := by
  refine (eq_nullary hW (launchContents m c) 172 (hk 172 (by decide)) (constantI S_ 32 2#32) ⟨by decide, rfl⟩ rfl (outp 172 rfl)).trans ?_
  rfl
theorem st_main_v125 (m : (ℓ : Loc nD τ sig) → Buf (Elt F) ℓ) (c : Dev nD) :
    after (ops (F := F)) (launchContents m c) (Proc.devRef .tc main_v125) = val_main_v125 (F := F) := by
  refine (eq_unary' hW (launchContents m c) 173 (hk 173 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 172 173 rfl (by decide)) (outp 173 rfl) (st_main_c_45 m c)).trans ?_
  rfl
theorem st_main_c_46 (m : (ℓ : Loc nD τ sig) → Buf (Elt F) ℓ) (c : Dev nD) :
    after (ops (F := F)) (launchContents m c) (Proc.devRef .tc main_c_46) = val_main_c_46 (F := F) := by
  refine (eq_nullary hW (launchContents m c) 174 (hk 174 (by decide)) (constantI S_ 32 0#32) ⟨by decide, rfl⟩ rfl (outp 174 rfl)).trans ?_
  rfl
theorem st_main_v126 (m : (ℓ : Loc nD τ sig) → Buf (Elt F) ℓ) (c : Dev nD) :
    after (ops (F := F)) (launchContents m c) (Proc.devRef .tc main_v126) = val_main_v126 (F := F) := by
  refine (eq_unary' hW (launchContents m c) 175 (hk 175 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 174 175 rfl (by decide)) (outp 175 rfl) (st_main_c_46 m c)).trans ?_
  rfl
theorem st_main_v127 (m : (ℓ : Loc nD τ sig) → Buf (Elt F) ℓ) (c : Dev nD) :
    after (ops (F := F)) (launchContents m c) (Proc.devRef .tc main_v127) = val_main_v127 (F := F) := by
  refine (eq_binary' hW (launchContents m c) 176 (hk 176 (by decide)) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ⟨by decide, rfl⟩ ⟨by decide, rfl⟩ ⟨by decide, rfl⟩ rfl (opnd 173 176 rfl (by decide)) (opnd 175 176 rfl (by decide)) (outp 176 rfl) (st_main_v125 m c) (st_main_v126 m c)).trans ?_
  rfl
theorem st_main_cst_47 (m : (ℓ : Loc nD τ sig) → Buf (Elt F) ℓ) (c : Dev nD) :
    after (ops (F := F)) (launchContents m c) (Proc.devRef .tc main_cst_47) = val_main_cst_47 (F := F) := by
  refine (eq_nullary hW (launchContents m c) 177 (hk 177 (by decide)) (constant S_ .f32 0x3F800000#32) ⟨by decide, rfl⟩ rfl (outp 177 rfl)).trans ?_
  rfl
theorem st_main_v128 (m : (ℓ : Loc nD τ sig) → Buf (Elt F) ℓ) (c : Dev nD) :
    after (ops (F := F)) (launchContents m c) (Proc.devRef .tc main_v128) = val_main_v128 (F := F) := by
  refine (eq_unary' hW (launchContents m c) 178 (hk 178 (by decide)) (broadcastInDim S32x1x766x767 ![] bcast_S_S32x1x766x767 : (⟨S_, .f32⟩ : BufTy).Contents (Elt F) → (⟨S32x1x766x767, .f32⟩ : BufTy).Contents (Elt F)) ⟨by decide, rfl⟩ ⟨by decide, rfl⟩ rfl (opnd 177 178 rfl (by decide)) (outp 178 rfl) (st_main_cst_47 m c)).trans ?_
  rfl
theorem st_main_v129 (m : (ℓ : Loc nD τ sig) → Buf (Elt F) ℓ) (c : Dev nD) :
    after (ops (F := F)) (launchContents m c) (Proc.devRef .tc main_v129) = val_main_v129 (F := F) := by
  refine (eq_ternary' hW (launchContents m c) 179 (hk 179 (by decide)) ((fun x i u => Host.scatter scatter_S32x1x768x768_S2_S32x1x766x767_0123_n_23_0 FloatOps.addf x i u) : (⟨S32x1x768x768, .f32⟩ : BufTy).Contents (Elt F) → (⟨S2, .i32⟩ : BufTy).Contents (Elt F) → (⟨S32x1x766x767, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 161 179 rfl (by decide)) (opnd 176 179 rfl (by decide)) (opnd 178 179 rfl (by decide)) (outp 179 rfl) (st_main_v116 m c) (st_main_v127 m c) (st_main_v128 m c)).trans ?_
  rfl
theorem st_main_v130 (m : (ℓ : Loc nD τ sig) → Buf (Elt F) ℓ) (c : Dev nD) :
    after (ops (F := F)) (launchContents m c) (Proc.devRef .tc main_v130) = val_main_v130 (F := F) (X0 m c) := by
  refine (eq_unary' hW (launchContents m c) 180 (hk 180 (by decide)) ((extractStridedSlice S32x1x766x768 ![0, 0, 0, 0] · slices_S32x1x768x768_S32x1x766x768_0_0_0_0) : (⟨S32x1x768x768, .f32⟩ : BufTy).Contents (Elt F) → (⟨S32x1x766x768, .f32⟩ : BufTy).Contents (Elt F)) ⟨by decide, rfl⟩ ⟨by decide, rfl⟩ rfl (opnd 7 180 rfl (by decide)) (outp 180 rfl) (st_main_v5 m c)).trans ?_
  rfl
theorem st_main_v131 (m : (ℓ : Loc nD τ sig) → Buf (Elt F) ℓ) (c : Dev nD) :
    after (ops (F := F)) (launchContents m c) (Proc.devRef .tc main_v131) = val_main_v131 (F := F) (X0 m c) := by
  refine (eq_unary' hW (launchContents m c) 181 (hk 181 (by decide)) ((extractStridedSlice S32x1x766x768 ![0, 0, 2, 0] · slices_S32x1x768x768_S32x1x766x768_0_0_2_0) : (⟨S32x1x768x768, .f32⟩ : BufTy).Contents (Elt F) → (⟨S32x1x766x768, .f32⟩ : BufTy).Contents (Elt F)) ⟨by decide, rfl⟩ ⟨by decide, rfl⟩ rfl (opnd 7 181 rfl (by decide)) (outp 181 rfl) (st_main_v5 m c)).trans ?_
  rfl
theorem st_main_v132 (m : (ℓ : Loc nD τ sig) → Buf (Elt F) ℓ) (c : Dev nD) :
    after (ops (F := F)) (launchContents m c) (Proc.devRef .tc main_v132) = val_main_v132 (F := F) (X0 m c) := by
  refine (eq_binary' hW (launchContents m c) 182 (hk 182 (by decide)) (subf : (⟨S32x1x766x768, .f32⟩ : BufTy).Contents (Elt F) → (⟨S32x1x766x768, .f32⟩ : BufTy).Contents (Elt F) → (⟨S32x1x766x768, .f32⟩ : BufTy).Contents (Elt F)) ⟨by decide, rfl⟩ ⟨by decide, rfl⟩ ⟨by decide, rfl⟩ rfl (opnd 180 182 rfl (by decide)) (opnd 181 182 rfl (by decide)) (outp 182 rfl) (st_main_v130 m c) (st_main_v131 m c)).trans ?_
  rfl
theorem st_main_v133 (m : (ℓ : Loc nD τ sig) → Buf (Elt F) ℓ) (c : Dev nD) :
    after (ops (F := F)) (launchContents m c) (Proc.devRef .tc main_v133) = val_main_v133 (F := F) (X0 m c) := by
  refine (eq_binary' hW (launchContents m c) 183 (hk 183 (by decide)) (mulf : (⟨S32x1x766x768, .f32⟩ : BufTy).Contents (Elt F) → (⟨S32x1x766x768, .f32⟩ : BufTy).Contents (Elt F) → (⟨S32x1x766x768, .f32⟩ : BufTy).Contents (Elt F)) ⟨by decide, rfl⟩ ⟨by decide, rfl⟩ ⟨by decide, rfl⟩ rfl (opnd 182 183 rfl (by decide)) (opnd 182 183 rfl (by decide)) (outp 183 rfl) (st_main_v132 m c) (st_main_v132 m c)).trans ?_
  rfl
theorem st_main_c_48 (m : (ℓ : Loc nD τ sig) → Buf (Elt F) ℓ) (c : Dev nD) :
    after (ops (F := F)) (launchContents m c) (Proc.devRef .tc main_c_48) = val_main_c_48 (F := F) := by
  refine (eq_nullary hW (launchContents m c) 184 (hk 184 (by decide)) (constantI S_ 32 0#32) ⟨by decide, rfl⟩ rfl (outp 184 rfl)).trans ?_
  rfl
theorem st_main_v134 (m : (ℓ : Loc nD τ sig) → Buf (Elt F) ℓ) (c : Dev nD) :
    after (ops (F := F)) (launchContents m c) (Proc.devRef .tc main_v134) = val_main_v134 (F := F) := by
  refine (eq_unary' hW (launchContents m c) 185 (hk 185 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 184 185 rfl (by decide)) (outp 185 rfl) (st_main_c_48 m c)).trans ?_
  rfl
theorem st_main_v135 (m : (ℓ : Loc nD τ sig) → Buf (Elt F) ℓ) (c : Dev nD) :
    after (ops (F := F)) (launchContents m c) (Proc.devRef .tc main_v135) = val_main_v135 (F := F) (X0 m c) := by
  refine (eq_ternary' hW (launchContents m c) 186 (hk 186 (by decide)) ((fun x i u => Host.scatter scatter_S32x1x768x768_S1_S32x1x766x768_0123_n_2_0 FloatOps.addf x i u) : (⟨S32x1x768x768, .f32⟩ : BufTy).Contents (Elt F) → (⟨S1, .i32⟩ : BufTy).Contents (Elt F) → (⟨S32x1x766x768, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 171 186 rfl (by decide)) (opnd 185 186 rfl (by decide)) (opnd 183 186 rfl (by decide)) (outp 186 rfl) (st_main_v124 m c) (st_main_v134 m c) (st_main_v133 m c)).trans ?_
  rfl
theorem st_main_c_49 (m : (ℓ : Loc nD τ sig) → Buf (Elt F) ℓ) (c : Dev nD) :
    after (ops (F := F)) (launchContents m c) (Proc.devRef .tc main_c_49) = val_main_c_49 (F := F) := by
  refine (eq_nullary hW (launchContents m c) 187 (hk 187 (by decide)) (constantI S_ 32 0#32) ⟨by decide, rfl⟩ rfl (outp 187 rfl)).trans ?_
  rfl
theorem st_main_v136 (m : (ℓ : Loc nD τ sig) → Buf (Elt F) ℓ) (c : Dev nD) :
    after (ops (F := F)) (launchContents m c) (Proc.devRef .tc main_v136) = val_main_v136 (F := F) := by
  refine (eq_unary' hW (launchContents m c) 188 (hk 188 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 187 188 rfl (by decide)) (outp 188 rfl) (st_main_c_49 m c)).trans ?_
  rfl
theorem st_main_cst_50 (m : (ℓ : Loc nD τ sig) → Buf (Elt F) ℓ) (c : Dev nD) :
    after (ops (F := F)) (launchContents m c) (Proc.devRef .tc main_cst_50) = val_main_cst_50 (F := F) := by
  refine (eq_nullary hW (launchContents m c) 189 (hk 189 (by decide)) (constant S_ .f32 0x3F800000#32) ⟨by decide, rfl⟩ rfl (outp 189 rfl)).trans ?_
  rfl
theorem st_main_v137 (m : (ℓ : Loc nD τ sig) → Buf (Elt F) ℓ) (c : Dev nD) :
    after (ops (F := F)) (launchContents m c) (Proc.devRef .tc main_v137) = val_main_v137 (F := F) := by
  refine (eq_unary' hW (launchContents m c) 190 (hk 190 (by decide)) (broadcastInDim S32x1x766x768 ![] bcast_S_S32x1x766x768 : (⟨S_, .f32⟩ : BufTy).Contents (Elt F) → (⟨S32x1x766x768, .f32⟩ : BufTy).Contents (Elt F)) ⟨by decide, rfl⟩ ⟨by decide, rfl⟩ rfl (opnd 189 190 rfl (by decide)) (outp 190 rfl) (st_main_cst_50 m c)).trans ?_
  rfl
theorem st_main_v138 (m : (ℓ : Loc nD τ sig) → Buf (Elt F) ℓ) (c : Dev nD) :
    after (ops (F := F)) (launchContents m c) (Proc.devRef .tc main_v138) = val_main_v138 (F := F) := by
  refine (eq_ternary' hW (launchContents m c) 191 (hk 191 (by decide)) ((fun x i u => Host.scatter scatter_S32x1x768x768_S1_S32x1x766x768_0123_n_2_0 FloatOps.addf x i u) : (⟨S32x1x768x768, .f32⟩ : BufTy).Contents (Elt F) → (⟨S1, .i32⟩ : BufTy).Contents (Elt F) → (⟨S32x1x766x768, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 179 191 rfl (by decide)) (opnd 188 191 rfl (by decide)) (opnd 190 191 rfl (by decide)) (outp 191 rfl) (st_main_v129 m c) (st_main_v136 m c) (st_main_v137 m c)).trans ?_
  rfl
theorem st_main_v139 (m : (ℓ : Loc nD τ sig) → Buf (Elt F) ℓ) (c : Dev nD) :
    after (ops (F := F)) (launchContents m c) (Proc.devRef .tc main_v139) = val_main_v139 (F := F) (X0 m c) := by
  refine (eq_unary' hW (launchContents m c) 192 (hk 192 (by decide)) ((extractStridedSlice S32x1x767x768 ![0, 0, 0, 0] · slices_S32x1x768x768_S32x1x767x768_0_0_0_0) : (⟨S32x1x768x768, .f32⟩ : BufTy).Contents (Elt F) → (⟨S32x1x767x768, .f32⟩ : BufTy).Contents (Elt F)) ⟨by decide, rfl⟩ ⟨by decide, rfl⟩ rfl (opnd 7 192 rfl (by decide)) (outp 192 rfl) (st_main_v5 m c)).trans ?_
  rfl
theorem st_main_v140 (m : (ℓ : Loc nD τ sig) → Buf (Elt F) ℓ) (c : Dev nD) :
    after (ops (F := F)) (launchContents m c) (Proc.devRef .tc main_v140) = val_main_v140 (F := F) (X0 m c) := by
  refine (eq_unary' hW (launchContents m c) 193 (hk 193 (by decide)) ((extractStridedSlice S32x1x767x768 ![0, 0, 1, 0] · slices_S32x1x768x768_S32x1x767x768_0_0_1_0) : (⟨S32x1x768x768, .f32⟩ : BufTy).Contents (Elt F) → (⟨S32x1x767x768, .f32⟩ : BufTy).Contents (Elt F)) ⟨by decide, rfl⟩ ⟨by decide, rfl⟩ rfl (opnd 7 193 rfl (by decide)) (outp 193 rfl) (st_main_v5 m c)).trans ?_
  rfl
theorem st_main_v141 (m : (ℓ : Loc nD τ sig) → Buf (Elt F) ℓ) (c : Dev nD) :
    after (ops (F := F)) (launchContents m c) (Proc.devRef .tc main_v141) = val_main_v141 (F := F) (X0 m c) := by
  refine (eq_binary' hW (launchContents m c) 194 (hk 194 (by decide)) (subf : (⟨S32x1x767x768, .f32⟩ : BufTy).Contents (Elt F) → (⟨S32x1x767x768, .f32⟩ : BufTy).Contents (Elt F) → (⟨S32x1x767x768, .f32⟩ : BufTy).Contents (Elt F)) ⟨by decide, rfl⟩ ⟨by decide, rfl⟩ ⟨by decide, rfl⟩ rfl (opnd 192 194 rfl (by decide)) (opnd 193 194 rfl (by decide)) (outp 194 rfl) (st_main_v139 m c) (st_main_v140 m c)).trans ?_
  rfl
theorem st_main_v142 (m : (ℓ : Loc nD τ sig) → Buf (Elt F) ℓ) (c : Dev nD) :
    after (ops (F := F)) (launchContents m c) (Proc.devRef .tc main_v142) = val_main_v142 (F := F) (X0 m c) := by
  refine (eq_binary' hW (launchContents m c) 195 (hk 195 (by decide)) (mulf : (⟨S32x1x767x768, .f32⟩ : BufTy).Contents (Elt F) → (⟨S32x1x767x768, .f32⟩ : BufTy).Contents (Elt F) → (⟨S32x1x767x768, .f32⟩ : BufTy).Contents (Elt F)) ⟨by decide, rfl⟩ ⟨by decide, rfl⟩ ⟨by decide, rfl⟩ rfl (opnd 194 195 rfl (by decide)) (opnd 194 195 rfl (by decide)) (outp 195 rfl) (st_main_v141 m c) (st_main_v141 m c)).trans ?_
  rfl
theorem st_main_c_51 (m : (ℓ : Loc nD τ sig) → Buf (Elt F) ℓ) (c : Dev nD) :
    after (ops (F := F)) (launchContents m c) (Proc.devRef .tc main_c_51) = val_main_c_51 (F := F) := by
  refine (eq_nullary hW (launchContents m c) 196 (hk 196 (by decide)) (constantI S_ 32 0#32) ⟨by decide, rfl⟩ rfl (outp 196 rfl)).trans ?_
  rfl
theorem st_main_v143 (m : (ℓ : Loc nD τ sig) → Buf (Elt F) ℓ) (c : Dev nD) :
    after (ops (F := F)) (launchContents m c) (Proc.devRef .tc main_v143) = val_main_v143 (F := F) := by
  refine (eq_unary' hW (launchContents m c) 197 (hk 197 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 196 197 rfl (by decide)) (outp 197 rfl) (st_main_c_51 m c)).trans ?_
  rfl
theorem st_main_v144 (m : (ℓ : Loc nD τ sig) → Buf (Elt F) ℓ) (c : Dev nD) :
    after (ops (F := F)) (launchContents m c) (Proc.devRef .tc main_v144) = val_main_v144 (F := F) (X0 m c) := by
  refine (eq_ternary' hW (launchContents m c) 198 (hk 198 (by decide)) ((fun x i u => Host.scatter scatter_S32x1x768x768_S1_S32x1x767x768_0123_n_2_0 FloatOps.addf x i u) : (⟨S32x1x768x768, .f32⟩ : BufTy).Contents (Elt F) → (⟨S1, .i32⟩ : BufTy).Contents (Elt F) → (⟨S32x1x767x768, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 186 198 rfl (by decide)) (opnd 197 198 rfl (by decide)) (opnd 195 198 rfl (by decide)) (outp 198 rfl) (st_main_v135 m c) (st_main_v143 m c) (st_main_v142 m c)).trans ?_
  rfl
theorem st_main_c_52 (m : (ℓ : Loc nD τ sig) → Buf (Elt F) ℓ) (c : Dev nD) :
    after (ops (F := F)) (launchContents m c) (Proc.devRef .tc main_c_52) = val_main_c_52 (F := F) := by
  refine (eq_nullary hW (launchContents m c) 199 (hk 199 (by decide)) (constantI S_ 32 0#32) ⟨by decide, rfl⟩ rfl (outp 199 rfl)).trans ?_
  rfl
theorem st_main_v145 (m : (ℓ : Loc nD τ sig) → Buf (Elt F) ℓ) (c : Dev nD) :
    after (ops (F := F)) (launchContents m c) (Proc.devRef .tc main_v145) = val_main_v145 (F := F) := by
  refine (eq_unary' hW (launchContents m c) 200 (hk 200 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 199 200 rfl (by decide)) (outp 200 rfl) (st_main_c_52 m c)).trans ?_
  rfl
theorem st_main_cst_53 (m : (ℓ : Loc nD τ sig) → Buf (Elt F) ℓ) (c : Dev nD) :
    after (ops (F := F)) (launchContents m c) (Proc.devRef .tc main_cst_53) = val_main_cst_53 (F := F) := by
  refine (eq_nullary hW (launchContents m c) 201 (hk 201 (by decide)) (constant S_ .f32 0x3F800000#32) ⟨by decide, rfl⟩ rfl (outp 201 rfl)).trans ?_
  rfl
theorem st_main_v146 (m : (ℓ : Loc nD τ sig) → Buf (Elt F) ℓ) (c : Dev nD) :
    after (ops (F := F)) (launchContents m c) (Proc.devRef .tc main_v146) = val_main_v146 (F := F) := by
  refine (eq_unary' hW (launchContents m c) 202 (hk 202 (by decide)) (broadcastInDim S32x1x767x768 ![] bcast_S_S32x1x767x768 : (⟨S_, .f32⟩ : BufTy).Contents (Elt F) → (⟨S32x1x767x768, .f32⟩ : BufTy).Contents (Elt F)) ⟨by decide, rfl⟩ ⟨by decide, rfl⟩ rfl (opnd 201 202 rfl (by decide)) (outp 202 rfl) (st_main_cst_53 m c)).trans ?_
  rfl
theorem st_main_v147 (m : (ℓ : Loc nD τ sig) → Buf (Elt F) ℓ) (c : Dev nD) :
    after (ops (F := F)) (launchContents m c) (Proc.devRef .tc main_v147) = val_main_v147 (F := F) := by
  refine (eq_ternary' hW (launchContents m c) 203 (hk 203 (by decide)) ((fun x i u => Host.scatter scatter_S32x1x768x768_S1_S32x1x767x768_0123_n_2_0 FloatOps.addf x i u) : (⟨S32x1x768x768, .f32⟩ : BufTy).Contents (Elt F) → (⟨S1, .i32⟩ : BufTy).Contents (Elt F) → (⟨S32x1x767x768, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 191 203 rfl (by decide)) (opnd 200 203 rfl (by decide)) (opnd 202 203 rfl (by decide)) (outp 203 rfl) (st_main_v138 m c) (st_main_v145 m c) (st_main_v146 m c)).trans ?_
  rfl
theorem st_main_v148 (m : (ℓ : Loc nD τ sig) → Buf (Elt F) ℓ) (c : Dev nD) :
    after (ops (F := F)) (launchContents m c) (Proc.devRef .tc main_v148) = val_main_v148 (F := F) (X0 m c) := by
  refine (eq_unary' hW (launchContents m c) 204 (hk 204 (by decide)) ((extractStridedSlice S32x1x767x768 ![0, 0, 1, 0] · slices_S32x1x768x768_S32x1x767x768_0_0_1_0) : (⟨S32x1x768x768, .f32⟩ : BufTy).Contents (Elt F) → (⟨S32x1x767x768, .f32⟩ : BufTy).Contents (Elt F)) ⟨by decide, rfl⟩ ⟨by decide, rfl⟩ rfl (opnd 7 204 rfl (by decide)) (outp 204 rfl) (st_main_v5 m c)).trans ?_
  rfl
theorem st_main_v149 (m : (ℓ : Loc nD τ sig) → Buf (Elt F) ℓ) (c : Dev nD) :
    after (ops (F := F)) (launchContents m c) (Proc.devRef .tc main_v149) = val_main_v149 (F := F) (X0 m c) := by
  refine (eq_unary' hW (launchContents m c) 205 (hk 205 (by decide)) ((extractStridedSlice S32x1x767x768 ![0, 0, 0, 0] · slices_S32x1x768x768_S32x1x767x768_0_0_0_0) : (⟨S32x1x768x768, .f32⟩ : BufTy).Contents (Elt F) → (⟨S32x1x767x768, .f32⟩ : BufTy).Contents (Elt F)) ⟨by decide, rfl⟩ ⟨by decide, rfl⟩ rfl (opnd 7 205 rfl (by decide)) (outp 205 rfl) (st_main_v5 m c)).trans ?_
  rfl
theorem st_main_v150 (m : (ℓ : Loc nD τ sig) → Buf (Elt F) ℓ) (c : Dev nD) :
    after (ops (F := F)) (launchContents m c) (Proc.devRef .tc main_v150) = val_main_v150 (F := F) (X0 m c) := by
  refine (eq_binary' hW (launchContents m c) 206 (hk 206 (by decide)) (subf : (⟨S32x1x767x768, .f32⟩ : BufTy).Contents (Elt F) → (⟨S32x1x767x768, .f32⟩ : BufTy).Contents (Elt F) → (⟨S32x1x767x768, .f32⟩ : BufTy).Contents (Elt F)) ⟨by decide, rfl⟩ ⟨by decide, rfl⟩ ⟨by decide, rfl⟩ rfl (opnd 204 206 rfl (by decide)) (opnd 205 206 rfl (by decide)) (outp 206 rfl) (st_main_v148 m c) (st_main_v149 m c)).trans ?_
  rfl
theorem st_main_v151 (m : (ℓ : Loc nD τ sig) → Buf (Elt F) ℓ) (c : Dev nD) :
    after (ops (F := F)) (launchContents m c) (Proc.devRef .tc main_v151) = val_main_v151 (F := F) (X0 m c) := by
  refine (eq_binary' hW (launchContents m c) 207 (hk 207 (by decide)) (mulf : (⟨S32x1x767x768, .f32⟩ : BufTy).Contents (Elt F) → (⟨S32x1x767x768, .f32⟩ : BufTy).Contents (Elt F) → (⟨S32x1x767x768, .f32⟩ : BufTy).Contents (Elt F)) ⟨by decide, rfl⟩ ⟨by decide, rfl⟩ ⟨by decide, rfl⟩ rfl (opnd 206 207 rfl (by decide)) (opnd 206 207 rfl (by decide)) (outp 207 rfl) (st_main_v150 m c) (st_main_v150 m c)).trans ?_
  rfl
theorem st_main_c_54 (m : (ℓ : Loc nD τ sig) → Buf (Elt F) ℓ) (c : Dev nD) :
    after (ops (F := F)) (launchContents m c) (Proc.devRef .tc main_c_54) = val_main_c_54 (F := F) := by
  refine (eq_nullary hW (launchContents m c) 208 (hk 208 (by decide)) (constantI S_ 32 1#32) ⟨by decide, rfl⟩ rfl (outp 208 rfl)).trans ?_
  rfl
theorem st_main_v152 (m : (ℓ : Loc nD τ sig) → Buf (Elt F) ℓ) (c : Dev nD) :
    after (ops (F := F)) (launchContents m c) (Proc.devRef .tc main_v152) = val_main_v152 (F := F) := by
  refine (eq_unary' hW (launchContents m c) 209 (hk 209 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 208 209 rfl (by decide)) (outp 209 rfl) (st_main_c_54 m c)).trans ?_
  rfl
theorem st_main_v153 (m : (ℓ : Loc nD τ sig) → Buf (Elt F) ℓ) (c : Dev nD) :
    after (ops (F := F)) (launchContents m c) (Proc.devRef .tc main_v153) = val_main_v153 (F := F) (X0 m c) := by
  refine (eq_ternary' hW (launchContents m c) 210 (hk 210 (by decide)) ((fun x i u => Host.scatter scatter_S32x1x768x768_S1_S32x1x767x768_0123_n_2_0 FloatOps.addf x i u) : (⟨S32x1x768x768, .f32⟩ : BufTy).Contents (Elt F) → (⟨S1, .i32⟩ : BufTy).Contents (Elt F) → (⟨S32x1x767x768, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 198 210 rfl (by decide)) (opnd 209 210 rfl (by decide)) (opnd 207 210 rfl (by decide)) (outp 210 rfl) (st_main_v144 m c) (st_main_v152 m c) (st_main_v151 m c)).trans ?_
  rfl
theorem st_main_c_55 (m : (ℓ : Loc nD τ sig) → Buf (Elt F) ℓ) (c : Dev nD) :
    after (ops (F := F)) (launchContents m c) (Proc.devRef .tc main_c_55) = val_main_c_55 (F := F) := by
  refine (eq_nullary hW (launchContents m c) 211 (hk 211 (by decide)) (constantI S_ 32 1#32) ⟨by decide, rfl⟩ rfl (outp 211 rfl)).trans ?_
  rfl
theorem st_main_v154 (m : (ℓ : Loc nD τ sig) → Buf (Elt F) ℓ) (c : Dev nD) :
    after (ops (F := F)) (launchContents m c) (Proc.devRef .tc main_v154) = val_main_v154 (F := F) := by
  refine (eq_unary' hW (launchContents m c) 212 (hk 212 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 211 212 rfl (by decide)) (outp 212 rfl) (st_main_c_55 m c)).trans ?_
  rfl
theorem st_main_cst_56 (m : (ℓ : Loc nD τ sig) → Buf (Elt F) ℓ) (c : Dev nD) :
    after (ops (F := F)) (launchContents m c) (Proc.devRef .tc main_cst_56) = val_main_cst_56 (F := F) := by
  refine (eq_nullary hW (launchContents m c) 213 (hk 213 (by decide)) (constant S_ .f32 0x3F800000#32) ⟨by decide, rfl⟩ rfl (outp 213 rfl)).trans ?_
  rfl
theorem st_main_v155 (m : (ℓ : Loc nD τ sig) → Buf (Elt F) ℓ) (c : Dev nD) :
    after (ops (F := F)) (launchContents m c) (Proc.devRef .tc main_v155) = val_main_v155 (F := F) := by
  refine (eq_unary' hW (launchContents m c) 214 (hk 214 (by decide)) (broadcastInDim S32x1x767x768 ![] bcast_S_S32x1x767x768 : (⟨S_, .f32⟩ : BufTy).Contents (Elt F) → (⟨S32x1x767x768, .f32⟩ : BufTy).Contents (Elt F)) ⟨by decide, rfl⟩ ⟨by decide, rfl⟩ rfl (opnd 213 214 rfl (by decide)) (outp 214 rfl) (st_main_cst_56 m c)).trans ?_
  rfl
theorem st_main_v156 (m : (ℓ : Loc nD τ sig) → Buf (Elt F) ℓ) (c : Dev nD) :
    after (ops (F := F)) (launchContents m c) (Proc.devRef .tc main_v156) = val_main_v156 (F := F) := by
  refine (eq_ternary' hW (launchContents m c) 215 (hk 215 (by decide)) ((fun x i u => Host.scatter scatter_S32x1x768x768_S1_S32x1x767x768_0123_n_2_0 FloatOps.addf x i u) : (⟨S32x1x768x768, .f32⟩ : BufTy).Contents (Elt F) → (⟨S1, .i32⟩ : BufTy).Contents (Elt F) → (⟨S32x1x767x768, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 203 215 rfl (by decide)) (opnd 212 215 rfl (by decide)) (opnd 214 215 rfl (by decide)) (outp 215 rfl) (st_main_v147 m c) (st_main_v154 m c) (st_main_v155 m c)).trans ?_
  rfl
theorem st_main_v157 (m : (ℓ : Loc nD τ sig) → Buf (Elt F) ℓ) (c : Dev nD) :
    after (ops (F := F)) (launchContents m c) (Proc.devRef .tc main_v157) = val_main_v157 (F := F) (X0 m c) := by
  refine (eq_unary' hW (launchContents m c) 216 (hk 216 (by decide)) ((extractStridedSlice S32x1x766x768 ![0, 0, 2, 0] · slices_S32x1x768x768_S32x1x766x768_0_0_2_0) : (⟨S32x1x768x768, .f32⟩ : BufTy).Contents (Elt F) → (⟨S32x1x766x768, .f32⟩ : BufTy).Contents (Elt F)) ⟨by decide, rfl⟩ ⟨by decide, rfl⟩ rfl (opnd 7 216 rfl (by decide)) (outp 216 rfl) (st_main_v5 m c)).trans ?_
  rfl
theorem st_main_v158 (m : (ℓ : Loc nD τ sig) → Buf (Elt F) ℓ) (c : Dev nD) :
    after (ops (F := F)) (launchContents m c) (Proc.devRef .tc main_v158) = val_main_v158 (F := F) (X0 m c) := by
  refine (eq_unary' hW (launchContents m c) 217 (hk 217 (by decide)) ((extractStridedSlice S32x1x766x768 ![0, 0, 0, 0] · slices_S32x1x768x768_S32x1x766x768_0_0_0_0) : (⟨S32x1x768x768, .f32⟩ : BufTy).Contents (Elt F) → (⟨S32x1x766x768, .f32⟩ : BufTy).Contents (Elt F)) ⟨by decide, rfl⟩ ⟨by decide, rfl⟩ rfl (opnd 7 217 rfl (by decide)) (outp 217 rfl) (st_main_v5 m c)).trans ?_
  rfl
theorem st_main_v159 (m : (ℓ : Loc nD τ sig) → Buf (Elt F) ℓ) (c : Dev nD) :
    after (ops (F := F)) (launchContents m c) (Proc.devRef .tc main_v159) = val_main_v159 (F := F) (X0 m c) := by
  refine (eq_binary' hW (launchContents m c) 218 (hk 218 (by decide)) (subf : (⟨S32x1x766x768, .f32⟩ : BufTy).Contents (Elt F) → (⟨S32x1x766x768, .f32⟩ : BufTy).Contents (Elt F) → (⟨S32x1x766x768, .f32⟩ : BufTy).Contents (Elt F)) ⟨by decide, rfl⟩ ⟨by decide, rfl⟩ ⟨by decide, rfl⟩ rfl (opnd 216 218 rfl (by decide)) (opnd 217 218 rfl (by decide)) (outp 218 rfl) (st_main_v157 m c) (st_main_v158 m c)).trans ?_
  rfl
theorem st_main_v160 (m : (ℓ : Loc nD τ sig) → Buf (Elt F) ℓ) (c : Dev nD) :
    after (ops (F := F)) (launchContents m c) (Proc.devRef .tc main_v160) = val_main_v160 (F := F) (X0 m c) := by
  refine (eq_binary' hW (launchContents m c) 219 (hk 219 (by decide)) (mulf : (⟨S32x1x766x768, .f32⟩ : BufTy).Contents (Elt F) → (⟨S32x1x766x768, .f32⟩ : BufTy).Contents (Elt F) → (⟨S32x1x766x768, .f32⟩ : BufTy).Contents (Elt F)) ⟨by decide, rfl⟩ ⟨by decide, rfl⟩ ⟨by decide, rfl⟩ rfl (opnd 218 219 rfl (by decide)) (opnd 218 219 rfl (by decide)) (outp 219 rfl) (st_main_v159 m c) (st_main_v159 m c)).trans ?_
  rfl
theorem st_main_c_57 (m : (ℓ : Loc nD τ sig) → Buf (Elt F) ℓ) (c : Dev nD) :
    after (ops (F := F)) (launchContents m c) (Proc.devRef .tc main_c_57) = val_main_c_57 (F := F) := by
  refine (eq_nullary hW (launchContents m c) 220 (hk 220 (by decide)) (constantI S_ 32 2#32) ⟨by decide, rfl⟩ rfl (outp 220 rfl)).trans ?_
  rfl
theorem st_main_v161 (m : (ℓ : Loc nD τ sig) → Buf (Elt F) ℓ) (c : Dev nD) :
    after (ops (F := F)) (launchContents m c) (Proc.devRef .tc main_v161) = val_main_v161 (F := F) := by
  refine (eq_unary' hW (launchContents m c) 221 (hk 221 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 220 221 rfl (by decide)) (outp 221 rfl) (st_main_c_57 m c)).trans ?_
  rfl
theorem st_main_v162 (m : (ℓ : Loc nD τ sig) → Buf (Elt F) ℓ) (c : Dev nD) :
    after (ops (F := F)) (launchContents m c) (Proc.devRef .tc main_v162) = val_main_v162 (F := F) (X0 m c) := by
  refine (eq_ternary' hW (launchContents m c) 222 (hk 222 (by decide)) ((fun x i u => Host.scatter scatter_S32x1x768x768_S1_S32x1x766x768_0123_n_2_0 FloatOps.addf x i u) : (⟨S32x1x768x768, .f32⟩ : BufTy).Contents (Elt F) → (⟨S1, .i32⟩ : BufTy).Contents (Elt F) → (⟨S32x1x766x768, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 210 222 rfl (by decide)) (opnd 221 222 rfl (by decide)) (opnd 219 222 rfl (by decide)) (outp 222 rfl) (st_main_v153 m c) (st_main_v161 m c) (st_main_v160 m c)).trans ?_
  rfl
theorem st_main_c_58 (m : (ℓ : Loc nD τ sig) → Buf (Elt F) ℓ) (c : Dev nD) :
    after (ops (F := F)) (launchContents m c) (Proc.devRef .tc main_c_58) = val_main_c_58 (F := F) := by
  refine (eq_nullary hW (launchContents m c) 223 (hk 223 (by decide)) (constantI S_ 32 2#32) ⟨by decide, rfl⟩ rfl (outp 223 rfl)).trans ?_
  rfl
theorem st_main_v163 (m : (ℓ : Loc nD τ sig) → Buf (Elt F) ℓ) (c : Dev nD) :
    after (ops (F := F)) (launchContents m c) (Proc.devRef .tc main_v163) = val_main_v163 (F := F) := by
  refine (eq_unary' hW (launchContents m c) 224 (hk 224 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 223 224 rfl (by decide)) (outp 224 rfl) (st_main_c_58 m c)).trans ?_
  rfl
theorem st_main_cst_59 (m : (ℓ : Loc nD τ sig) → Buf (Elt F) ℓ) (c : Dev nD) :
    after (ops (F := F)) (launchContents m c) (Proc.devRef .tc main_cst_59) = val_main_cst_59 (F := F) := by
  refine (eq_nullary hW (launchContents m c) 225 (hk 225 (by decide)) (constant S_ .f32 0x3F800000#32) ⟨by decide, rfl⟩ rfl (outp 225 rfl)).trans ?_
  rfl
theorem st_main_v164 (m : (ℓ : Loc nD τ sig) → Buf (Elt F) ℓ) (c : Dev nD) :
    after (ops (F := F)) (launchContents m c) (Proc.devRef .tc main_v164) = val_main_v164 (F := F) := by
  refine (eq_unary' hW (launchContents m c) 226 (hk 226 (by decide)) (broadcastInDim S32x1x766x768 ![] bcast_S_S32x1x766x768 : (⟨S_, .f32⟩ : BufTy).Contents (Elt F) → (⟨S32x1x766x768, .f32⟩ : BufTy).Contents (Elt F)) ⟨by decide, rfl⟩ ⟨by decide, rfl⟩ rfl (opnd 225 226 rfl (by decide)) (outp 226 rfl) (st_main_cst_59 m c)).trans ?_
  rfl
theorem st_main_v165 (m : (ℓ : Loc nD τ sig) → Buf (Elt F) ℓ) (c : Dev nD) :
    after (ops (F := F)) (launchContents m c) (Proc.devRef .tc main_v165) = val_main_v165 (F := F) := by
  refine (eq_ternary' hW (launchContents m c) 227 (hk 227 (by decide)) ((fun x i u => Host.scatter scatter_S32x1x768x768_S1_S32x1x766x768_0123_n_2_0 FloatOps.addf x i u) : (⟨S32x1x768x768, .f32⟩ : BufTy).Contents (Elt F) → (⟨S1, .i32⟩ : BufTy).Contents (Elt F) → (⟨S32x1x766x768, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 215 227 rfl (by decide)) (opnd 224 227 rfl (by decide)) (opnd 226 227 rfl (by decide)) (outp 227 rfl) (st_main_v156 m c) (st_main_v163 m c) (st_main_v164 m c)).trans ?_
  rfl
theorem st_main_v166 (m : (ℓ : Loc nD τ sig) → Buf (Elt F) ℓ) (c : Dev nD) :
    after (ops (F := F)) (launchContents m c) (Proc.devRef .tc main_v166) = val_main_v166 (F := F) (X0 m c) := by
  refine (eq_unary' hW (launchContents m c) 228 (hk 228 (by decide)) ((extractStridedSlice S32x1x766x767 ![0, 0, 0, 1] · slices_S32x1x768x768_S32x1x766x767_0_0_0_1) : (⟨S32x1x768x768, .f32⟩ : BufTy).Contents (Elt F) → (⟨S32x1x766x767, .f32⟩ : BufTy).Contents (Elt F)) ⟨by decide, rfl⟩ ⟨by decide, rfl⟩ rfl (opnd 7 228 rfl (by decide)) (outp 228 rfl) (st_main_v5 m c)).trans ?_
  rfl
theorem st_main_v167 (m : (ℓ : Loc nD τ sig) → Buf (Elt F) ℓ) (c : Dev nD) :
    after (ops (F := F)) (launchContents m c) (Proc.devRef .tc main_v167) = val_main_v167 (F := F) (X0 m c) := by
  refine (eq_unary' hW (launchContents m c) 229 (hk 229 (by decide)) ((extractStridedSlice S32x1x766x767 ![0, 0, 2, 0] · slices_S32x1x768x768_S32x1x766x767_0_0_2_0) : (⟨S32x1x768x768, .f32⟩ : BufTy).Contents (Elt F) → (⟨S32x1x766x767, .f32⟩ : BufTy).Contents (Elt F)) ⟨by decide, rfl⟩ ⟨by decide, rfl⟩ rfl (opnd 7 229 rfl (by decide)) (outp 229 rfl) (st_main_v5 m c)).trans ?_
  rfl
theorem st_main_v168 (m : (ℓ : Loc nD τ sig) → Buf (Elt F) ℓ) (c : Dev nD) :
    after (ops (F := F)) (launchContents m c) (Proc.devRef .tc main_v168) = val_main_v168 (F := F) (X0 m c) := by
  refine (eq_binary' hW (launchContents m c) 230 (hk 230 (by decide)) (subf : (⟨S32x1x766x767, .f32⟩ : BufTy).Contents (Elt F) → (⟨S32x1x766x767, .f32⟩ : BufTy).Contents (Elt F) → (⟨S32x1x766x767, .f32⟩ : BufTy).Contents (Elt F)) ⟨by decide, rfl⟩ ⟨by decide, rfl⟩ ⟨by decide, rfl⟩ rfl (opnd 228 230 rfl (by decide)) (opnd 229 230 rfl (by decide)) (outp 230 rfl) (st_main_v166 m c) (st_main_v167 m c)).trans ?_
  rfl
theorem st_main_v169 (m : (ℓ : Loc nD τ sig) → Buf (Elt F) ℓ) (c : Dev nD) :
    after (ops (F := F)) (launchContents m c) (Proc.devRef .tc main_v169) = val_main_v169 (F := F) (X0 m c) := by
  refine (eq_binary' hW (launchContents m c) 231 (hk 231 (by decide)) (mulf : (⟨S32x1x766x767, .f32⟩ : BufTy).Contents (Elt F) → (⟨S32x1x766x767, .f32⟩ : BufTy).Contents (Elt F) → (⟨S32x1x766x767, .f32⟩ : BufTy).Contents (Elt F)) ⟨by decide, rfl⟩ ⟨by decide, rfl⟩ ⟨by decide, rfl⟩ rfl (opnd 230 231 rfl (by decide)) (opnd 230 231 rfl (by decide)) (outp 231 rfl) (st_main_v168 m c) (st_main_v168 m c)).trans ?_
  rfl
theorem st_main_c_60 (m : (ℓ : Loc nD τ sig) → Buf (Elt F) ℓ) (c : Dev nD) :
    after (ops (F := F)) (launchContents m c) (Proc.devRef .tc main_c_60) = val_main_c_60 (F := F) := by
  refine (eq_nullary hW (launchContents m c) 232 (hk 232 (by decide)) (constantI S_ 32 0#32) ⟨by decide, rfl⟩ rfl (outp 232 rfl)).trans ?_
  rfl
theorem st_main_v170 (m : (ℓ : Loc nD τ sig) → Buf (Elt F) ℓ) (c : Dev nD) :
    after (ops (F := F)) (launchContents m c) (Proc.devRef .tc main_v170) = val_main_v170 (F := F) := by
  refine (eq_unary' hW (launchContents m c) 233 (hk 233 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 232 233 rfl (by decide)) (outp 233 rfl) (st_main_c_60 m c)).trans ?_
  rfl
theorem st_main_c_61 (m : (ℓ : Loc nD τ sig) → Buf (Elt F) ℓ) (c : Dev nD) :
    after (ops (F := F)) (launchContents m c) (Proc.devRef .tc main_c_61) = val_main_c_61 (F := F) := by
  refine (eq_nullary hW (launchContents m c) 234 (hk 234 (by decide)) (constantI S_ 32 1#32) ⟨by decide, rfl⟩ rfl (outp 234 rfl)).trans ?_
  rfl
theorem st_main_v171 (m : (ℓ : Loc nD τ sig) → Buf (Elt F) ℓ) (c : Dev nD) :
    after (ops (F := F)) (launchContents m c) (Proc.devRef .tc main_v171) = val_main_v171 (F := F) := by
  refine (eq_unary' hW (launchContents m c) 235 (hk 235 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 234 235 rfl (by decide)) (outp 235 rfl) (st_main_c_61 m c)).trans ?_
  rfl
theorem st_main_v172 (m : (ℓ : Loc nD τ sig) → Buf (Elt F) ℓ) (c : Dev nD) :
    after (ops (F := F)) (launchContents m c) (Proc.devRef .tc main_v172) = val_main_v172 (F := F) := by
  refine (eq_binary' hW (launchContents m c) 236 (hk 236 (by decide)) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ⟨by decide, rfl⟩ ⟨by decide, rfl⟩ ⟨by decide, rfl⟩ rfl (opnd 233 236 rfl (by decide)) (opnd 235 236 rfl (by decide)) (outp 236 rfl) (st_main_v170 m c) (st_main_v171 m c)).trans ?_
  rfl
theorem st_main_v173 (m : (ℓ : Loc nD τ sig) → Buf (Elt F) ℓ) (c : Dev nD) :
    after (ops (F := F)) (launchContents m c) (Proc.devRef .tc main_v173) = val_main_v173 (F := F) (X0 m c) := by
  refine (eq_ternary' hW (launchContents m c) 237 (hk 237 (by decide)) ((fun x i u => Host.scatter scatter_S32x1x768x768_S2_S32x1x766x767_0123_n_23_0 FloatOps.addf x i u) : (⟨S32x1x768x768, .f32⟩ : BufTy).Contents (Elt F) → (⟨S2, .i32⟩ : BufTy).Contents (Elt F) → (⟨S32x1x766x767, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 222 237 rfl (by decide)) (opnd 236 237 rfl (by decide)) (opnd 231 237 rfl (by decide)) (outp 237 rfl) (st_main_v162 m c) (st_main_v172 m c) (st_main_v169 m c)).trans ?_
  rfl
theorem st_main_c_62 (m : (ℓ : Loc nD τ sig) → Buf (Elt F) ℓ) (c : Dev nD) :
    after (ops (F := F)) (launchContents m c) (Proc.devRef .tc main_c_62) = val_main_c_62 (F := F) := by
  refine (eq_nullary hW (launchContents m c) 238 (hk 238 (by decide)) (constantI S_ 32 0#32) ⟨by decide, rfl⟩ rfl (outp 238 rfl)).trans ?_
  rfl
theorem st_main_v174 (m : (ℓ : Loc nD τ sig) → Buf (Elt F) ℓ) (c : Dev nD) :
    after (ops (F := F)) (launchContents m c) (Proc.devRef .tc main_v174) = val_main_v174 (F := F) := by
  refine (eq_unary' hW (launchContents m c) 239 (hk 239 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 238 239 rfl (by decide)) (outp 239 rfl) (st_main_c_62 m c)).trans ?_
  rfl
theorem st_main_c_63 (m : (ℓ : Loc nD τ sig) → Buf (Elt F) ℓ) (c : Dev nD) :
    after (ops (F := F)) (launchContents m c) (Proc.devRef .tc main_c_63) = val_main_c_63 (F := F) := by
  refine (eq_nullary hW (launchContents m c) 240 (hk 240 (by decide)) (constantI S_ 32 1#32) ⟨by decide, rfl⟩ rfl (outp 240 rfl)).trans ?_
  rfl
theorem st_main_v175 (m : (ℓ : Loc nD τ sig) → Buf (Elt F) ℓ) (c : Dev nD) :
    after (ops (F := F)) (launchContents m c) (Proc.devRef .tc main_v175) = val_main_v175 (F := F) := by
  refine (eq_unary' hW (launchContents m c) 241 (hk 241 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 240 241 rfl (by decide)) (outp 241 rfl) (st_main_c_63 m c)).trans ?_
  rfl
theorem st_main_v176 (m : (ℓ : Loc nD τ sig) → Buf (Elt F) ℓ) (c : Dev nD) :
    after (ops (F := F)) (launchContents m c) (Proc.devRef .tc main_v176) = val_main_v176 (F := F) := by
  refine (eq_binary' hW (launchContents m c) 242 (hk 242 (by decide)) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ⟨by decide, rfl⟩ ⟨by decide, rfl⟩ ⟨by decide, rfl⟩ rfl (opnd 239 242 rfl (by decide)) (opnd 241 242 rfl (by decide)) (outp 242 rfl) (st_main_v174 m c) (st_main_v175 m c)).trans ?_
  rfl
theorem st_main_cst_64 (m : (ℓ : Loc nD τ sig) → Buf (Elt F) ℓ) (c : Dev nD) :
    after (ops (F := F)) (launchContents m c) (Proc.devRef .tc main_cst_64) = val_main_cst_64 (F := F) := by
  refine (eq_nullary hW (launchContents m c) 243 (hk 243 (by decide)) (constant S_ .f32 0x3F800000#32) ⟨by decide, rfl⟩ rfl (outp 243 rfl)).trans ?_
  rfl
theorem st_main_v177 (m : (ℓ : Loc nD τ sig) → Buf (Elt F) ℓ) (c : Dev nD) :
    after (ops (F := F)) (launchContents m c) (Proc.devRef .tc main_v177) = val_main_v177 (F := F) := by
  refine (eq_unary' hW (launchContents m c) 244 (hk 244 (by decide)) (broadcastInDim S32x1x766x767 ![] bcast_S_S32x1x766x767 : (⟨S_, .f32⟩ : BufTy).Contents (Elt F) → (⟨S32x1x766x767, .f32⟩ : BufTy).Contents (Elt F)) ⟨by decide, rfl⟩ ⟨by decide, rfl⟩ rfl (opnd 243 244 rfl (by decide)) (outp 244 rfl) (st_main_cst_64 m c)).trans ?_
  rfl
theorem st_main_v178 (m : (ℓ : Loc nD τ sig) → Buf (Elt F) ℓ) (c : Dev nD) :
    after (ops (F := F)) (launchContents m c) (Proc.devRef .tc main_v178) = val_main_v178 (F := F) := by
  refine (eq_ternary' hW (launchContents m c) 245 (hk 245 (by decide)) ((fun x i u => Host.scatter scatter_S32x1x768x768_S2_S32x1x766x767_0123_n_23_0 FloatOps.addf x i u) : (⟨S32x1x768x768, .f32⟩ : BufTy).Contents (Elt F) → (⟨S2, .i32⟩ : BufTy).Contents (Elt F) → (⟨S32x1x766x767, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 227 245 rfl (by decide)) (opnd 242 245 rfl (by decide)) (opnd 244 245 rfl (by decide)) (outp 245 rfl) (st_main_v165 m c) (st_main_v176 m c) (st_main_v177 m c)).trans ?_
  rfl
theorem st_main_v179 (m : (ℓ : Loc nD τ sig) → Buf (Elt F) ℓ) (c : Dev nD) :
    after (ops (F := F)) (launchContents m c) (Proc.devRef .tc main_v179) = val_main_v179 (F := F) (X0 m c) := by
  refine (eq_unary' hW (launchContents m c) 246 (hk 246 (by decide)) ((extractStridedSlice S32x1x767x767 ![0, 0, 0, 1] · slices_S32x1x768x768_S32x1x767x767_0_0_0_1) : (⟨S32x1x768x768, .f32⟩ : BufTy).Contents (Elt F) → (⟨S32x1x767x767, .f32⟩ : BufTy).Contents (Elt F)) ⟨by decide, rfl⟩ ⟨by decide, rfl⟩ rfl (opnd 7 246 rfl (by decide)) (outp 246 rfl) (st_main_v5 m c)).trans ?_
  rfl
theorem st_main_v180 (m : (ℓ : Loc nD τ sig) → Buf (Elt F) ℓ) (c : Dev nD) :
    after (ops (F := F)) (launchContents m c) (Proc.devRef .tc main_v180) = val_main_v180 (F := F) (X0 m c) := by
  refine (eq_unary' hW (launchContents m c) 247 (hk 247 (by decide)) ((extractStridedSlice S32x1x767x767 ![0, 0, 1, 0] · slices_S32x1x768x768_S32x1x767x767_0_0_1_0) : (⟨S32x1x768x768, .f32⟩ : BufTy).Contents (Elt F) → (⟨S32x1x767x767, .f32⟩ : BufTy).Contents (Elt F)) ⟨by decide, rfl⟩ ⟨by decide, rfl⟩ rfl (opnd 7 247 rfl (by decide)) (outp 247 rfl) (st_main_v5 m c)).trans ?_
  rfl
theorem st_main_v181 (m : (ℓ : Loc nD τ sig) → Buf (Elt F) ℓ) (c : Dev nD) :
    after (ops (F := F)) (launchContents m c) (Proc.devRef .tc main_v181) = val_main_v181 (F := F) (X0 m c) := by
  refine (eq_binary' hW (launchContents m c) 248 (hk 248 (by decide)) (subf : (⟨S32x1x767x767, .f32⟩ : BufTy).Contents (Elt F) → (⟨S32x1x767x767, .f32⟩ : BufTy).Contents (Elt F) → (⟨S32x1x767x767, .f32⟩ : BufTy).Contents (Elt F)) ⟨by decide, rfl⟩ ⟨by decide, rfl⟩ ⟨by decide, rfl⟩ rfl (opnd 246 248 rfl (by decide)) (opnd 247 248 rfl (by decide)) (outp 248 rfl) (st_main_v179 m c) (st_main_v180 m c)).trans ?_
  rfl
theorem st_main_v182 (m : (ℓ : Loc nD τ sig) → Buf (Elt F) ℓ) (c : Dev nD) :
    after (ops (F := F)) (launchContents m c) (Proc.devRef .tc main_v182) = val_main_v182 (F := F) (X0 m c) := by
  refine (eq_binary' hW (launchContents m c) 249 (hk 249 (by decide)) (mulf : (⟨S32x1x767x767, .f32⟩ : BufTy).Contents (Elt F) → (⟨S32x1x767x767, .f32⟩ : BufTy).Contents (Elt F) → (⟨S32x1x767x767, .f32⟩ : BufTy).Contents (Elt F)) ⟨by decide, rfl⟩ ⟨by decide, rfl⟩ ⟨by decide, rfl⟩ rfl (opnd 248 249 rfl (by decide)) (opnd 248 249 rfl (by decide)) (outp 249 rfl) (st_main_v181 m c) (st_main_v181 m c)).trans ?_
  rfl
theorem st_main_c_65 (m : (ℓ : Loc nD τ sig) → Buf (Elt F) ℓ) (c : Dev nD) :
    after (ops (F := F)) (launchContents m c) (Proc.devRef .tc main_c_65) = val_main_c_65 (F := F) := by
  refine (eq_nullary hW (launchContents m c) 250 (hk 250 (by decide)) (constantI S_ 32 0#32) ⟨by decide, rfl⟩ rfl (outp 250 rfl)).trans ?_
  rfl
theorem st_main_v183 (m : (ℓ : Loc nD τ sig) → Buf (Elt F) ℓ) (c : Dev nD) :
    after (ops (F := F)) (launchContents m c) (Proc.devRef .tc main_v183) = val_main_v183 (F := F) := by
  refine (eq_unary' hW (launchContents m c) 251 (hk 251 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 250 251 rfl (by decide)) (outp 251 rfl) (st_main_c_65 m c)).trans ?_
  rfl
theorem st_main_c_66 (m : (ℓ : Loc nD τ sig) → Buf (Elt F) ℓ) (c : Dev nD) :
    after (ops (F := F)) (launchContents m c) (Proc.devRef .tc main_c_66) = val_main_c_66 (F := F) := by
  refine (eq_nullary hW (launchContents m c) 252 (hk 252 (by decide)) (constantI S_ 32 1#32) ⟨by decide, rfl⟩ rfl (outp 252 rfl)).trans ?_
  rfl
theorem st_main_v184 (m : (ℓ : Loc nD τ sig) → Buf (Elt F) ℓ) (c : Dev nD) :
    after (ops (F := F)) (launchContents m c) (Proc.devRef .tc main_v184) = val_main_v184 (F := F) := by
  refine (eq_unary' hW (launchContents m c) 253 (hk 253 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 252 253 rfl (by decide)) (outp 253 rfl) (st_main_c_66 m c)).trans ?_
  rfl
theorem st_main_v185 (m : (ℓ : Loc nD τ sig) → Buf (Elt F) ℓ) (c : Dev nD) :
    after (ops (F := F)) (launchContents m c) (Proc.devRef .tc main_v185) = val_main_v185 (F := F) := by
  refine (eq_binary' hW (launchContents m c) 254 (hk 254 (by decide)) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ⟨by decide, rfl⟩ ⟨by decide, rfl⟩ ⟨by decide, rfl⟩ rfl (opnd 251 254 rfl (by decide)) (opnd 253 254 rfl (by decide)) (outp 254 rfl) (st_main_v183 m c) (st_main_v184 m c)).trans ?_
  rfl
theorem st_main_v186 (m : (ℓ : Loc nD τ sig) → Buf (Elt F) ℓ) (c : Dev nD) :
    after (ops (F := F)) (launchContents m c) (Proc.devRef .tc main_v186) = val_main_v186 (F := F) (X0 m c) := by
  refine (eq_ternary' hW (launchContents m c) 255 (hk 255 (by decide)) ((fun x i u => Host.scatter scatter_S32x1x768x768_S2_S32x1x767x767_0123_n_23_0 FloatOps.addf x i u) : (⟨S32x1x768x768, .f32⟩ : BufTy).Contents (Elt F) → (⟨S2, .i32⟩ : BufTy).Contents (Elt F) → (⟨S32x1x767x767, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 237 255 rfl (by decide)) (opnd 254 255 rfl (by decide)) (opnd 249 255 rfl (by decide)) (outp 255 rfl) (st_main_v173 m c) (st_main_v185 m c) (st_main_v182 m c)).trans ?_
  rfl
theorem st_main_c_67 (m : (ℓ : Loc nD τ sig) → Buf (Elt F) ℓ) (c : Dev nD) :
    after (ops (F := F)) (launchContents m c) (Proc.devRef .tc main_c_67) = val_main_c_67 (F := F) := by
  refine (eq_nullary hW (launchContents m c) 256 (hk 256 (by decide)) (constantI S_ 32 0#32) ⟨by decide, rfl⟩ rfl (outp 256 rfl)).trans ?_
  rfl
theorem st_main_v187 (m : (ℓ : Loc nD τ sig) → Buf (Elt F) ℓ) (c : Dev nD) :
    after (ops (F := F)) (launchContents m c) (Proc.devRef .tc main_v187) = val_main_v187 (F := F) := by
  refine (eq_unary' hW (launchContents m c) 257 (hk 257 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 256 257 rfl (by decide)) (outp 257 rfl) (st_main_c_67 m c)).trans ?_
  rfl
theorem st_main_c_68 (m : (ℓ : Loc nD τ sig) → Buf (Elt F) ℓ) (c : Dev nD) :
    after (ops (F := F)) (launchContents m c) (Proc.devRef .tc main_c_68) = val_main_c_68 (F := F) := by
  refine (eq_nullary hW (launchContents m c) 258 (hk 258 (by decide)) (constantI S_ 32 1#32) ⟨by decide, rfl⟩ rfl (outp 258 rfl)).trans ?_
  rfl
theorem st_main_v188 (m : (ℓ : Loc nD τ sig) → Buf (Elt F) ℓ) (c : Dev nD) :
    after (ops (F := F)) (launchContents m c) (Proc.devRef .tc main_v188) = val_main_v188 (F := F) := by
  refine (eq_unary' hW (launchContents m c) 259 (hk 259 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 258 259 rfl (by decide)) (outp 259 rfl) (st_main_c_68 m c)).trans ?_
  rfl
theorem st_main_v189 (m : (ℓ : Loc nD τ sig) → Buf (Elt F) ℓ) (c : Dev nD) :
    after (ops (F := F)) (launchContents m c) (Proc.devRef .tc main_v189) = val_main_v189 (F := F) := by
  refine (eq_binary' hW (launchContents m c) 260 (hk 260 (by decide)) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ⟨by decide, rfl⟩ ⟨by decide, rfl⟩ ⟨by decide, rfl⟩ rfl (opnd 257 260 rfl (by decide)) (opnd 259 260 rfl (by decide)) (outp 260 rfl) (st_main_v187 m c) (st_main_v188 m c)).trans ?_
  rfl
theorem st_main_cst_69 (m : (ℓ : Loc nD τ sig) → Buf (Elt F) ℓ) (c : Dev nD) :
    after (ops (F := F)) (launchContents m c) (Proc.devRef .tc main_cst_69) = val_main_cst_69 (F := F) := by
  refine (eq_nullary hW (launchContents m c) 261 (hk 261 (by decide)) (constant S_ .f32 0x3F800000#32) ⟨by decide, rfl⟩ rfl (outp 261 rfl)).trans ?_
  rfl
theorem st_main_v190 (m : (ℓ : Loc nD τ sig) → Buf (Elt F) ℓ) (c : Dev nD) :
    after (ops (F := F)) (launchContents m c) (Proc.devRef .tc main_v190) = val_main_v190 (F := F) := by
  refine (eq_unary' hW (launchContents m c) 262 (hk 262 (by decide)) (broadcastInDim S32x1x767x767 ![] bcast_S_S32x1x767x767 : (⟨S_, .f32⟩ : BufTy).Contents (Elt F) → (⟨S32x1x767x767, .f32⟩ : BufTy).Contents (Elt F)) ⟨by decide, rfl⟩ ⟨by decide, rfl⟩ rfl (opnd 261 262 rfl (by decide)) (outp 262 rfl) (st_main_cst_69 m c)).trans ?_
  rfl
theorem st_main_v191 (m : (ℓ : Loc nD τ sig) → Buf (Elt F) ℓ) (c : Dev nD) :
    after (ops (F := F)) (launchContents m c) (Proc.devRef .tc main_v191) = val_main_v191 (F := F) := by
  refine (eq_ternary' hW (launchContents m c) 263 (hk 263 (by decide)) ((fun x i u => Host.scatter scatter_S32x1x768x768_S2_S32x1x767x767_0123_n_23_0 FloatOps.addf x i u) : (⟨S32x1x768x768, .f32⟩ : BufTy).Contents (Elt F) → (⟨S2, .i32⟩ : BufTy).Contents (Elt F) → (⟨S32x1x767x767, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 245 263 rfl (by decide)) (opnd 260 263 rfl (by decide)) (opnd 262 263 rfl (by decide)) (outp 263 rfl) (st_main_v178 m c) (st_main_v189 m c) (st_main_v190 m c)).trans ?_
  rfl
theorem st_main_v192 (m : (ℓ : Loc nD τ sig) → Buf (Elt F) ℓ) (c : Dev nD) :
    after (ops (F := F)) (launchContents m c) (Proc.devRef .tc main_v192) = val_main_v192 (F := F) (X0 m c) := by
  refine (eq_unary' hW (launchContents m c) 264 (hk 264 (by decide)) ((extractStridedSlice S32x1x768x767 ![0, 0, 0, 1] · slices_S32x1x768x768_S32x1x768x767_0_0_0_1) : (⟨S32x1x768x768, .f32⟩ : BufTy).Contents (Elt F) → (⟨S32x1x768x767, .f32⟩ : BufTy).Contents (Elt F)) ⟨by decide, rfl⟩ ⟨by decide, rfl⟩ rfl (opnd 7 264 rfl (by decide)) (outp 264 rfl) (st_main_v5 m c)).trans ?_
  rfl
theorem st_main_v193 (m : (ℓ : Loc nD τ sig) → Buf (Elt F) ℓ) (c : Dev nD) :
    after (ops (F := F)) (launchContents m c) (Proc.devRef .tc main_v193) = val_main_v193 (F := F) (X0 m c) := by
  refine (eq_unary' hW (launchContents m c) 265 (hk 265 (by decide)) ((extractStridedSlice S32x1x768x767 ![0, 0, 0, 0] · slices_S32x1x768x768_S32x1x768x767_0_0_0_0) : (⟨S32x1x768x768, .f32⟩ : BufTy).Contents (Elt F) → (⟨S32x1x768x767, .f32⟩ : BufTy).Contents (Elt F)) ⟨by decide, rfl⟩ ⟨by decide, rfl⟩ rfl (opnd 7 265 rfl (by decide)) (outp 265 rfl) (st_main_v5 m c)).trans ?_
  rfl
theorem st_main_v194 (m : (ℓ : Loc nD τ sig) → Buf (Elt F) ℓ) (c : Dev nD) :
    after (ops (F := F)) (launchContents m c) (Proc.devRef .tc main_v194) = val_main_v194 (F := F) (X0 m c) := by
  refine (eq_binary' hW (launchContents m c) 266 (hk 266 (by decide)) (subf : (⟨S32x1x768x767, .f32⟩ : BufTy).Contents (Elt F) → (⟨S32x1x768x767, .f32⟩ : BufTy).Contents (Elt F) → (⟨S32x1x768x767, .f32⟩ : BufTy).Contents (Elt F)) ⟨by decide, rfl⟩ ⟨by decide, rfl⟩ ⟨by decide, rfl⟩ rfl (opnd 264 266 rfl (by decide)) (opnd 265 266 rfl (by decide)) (outp 266 rfl) (st_main_v192 m c) (st_main_v193 m c)).trans ?_
  rfl
theorem st_main_v195 (m : (ℓ : Loc nD τ sig) → Buf (Elt F) ℓ) (c : Dev nD) :
    after (ops (F := F)) (launchContents m c) (Proc.devRef .tc main_v195) = val_main_v195 (F := F) (X0 m c) := by
  refine (eq_binary' hW (launchContents m c) 267 (hk 267 (by decide)) (mulf : (⟨S32x1x768x767, .f32⟩ : BufTy).Contents (Elt F) → (⟨S32x1x768x767, .f32⟩ : BufTy).Contents (Elt F) → (⟨S32x1x768x767, .f32⟩ : BufTy).Contents (Elt F)) ⟨by decide, rfl⟩ ⟨by decide, rfl⟩ ⟨by decide, rfl⟩ rfl (opnd 266 267 rfl (by decide)) (opnd 266 267 rfl (by decide)) (outp 267 rfl) (st_main_v194 m c) (st_main_v194 m c)).trans ?_
  rfl
theorem st_main_c_70 (m : (ℓ : Loc nD τ sig) → Buf (Elt F) ℓ) (c : Dev nD) :
    after (ops (F := F)) (launchContents m c) (Proc.devRef .tc main_c_70) = val_main_c_70 (F := F) := by
  refine (eq_nullary hW (launchContents m c) 268 (hk 268 (by decide)) (constantI S_ 32 1#32) ⟨by decide, rfl⟩ rfl (outp 268 rfl)).trans ?_
  rfl
theorem st_main_v196 (m : (ℓ : Loc nD τ sig) → Buf (Elt F) ℓ) (c : Dev nD) :
    after (ops (F := F)) (launchContents m c) (Proc.devRef .tc main_v196) = val_main_v196 (F := F) := by
  refine (eq_unary' hW (launchContents m c) 269 (hk 269 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 268 269 rfl (by decide)) (outp 269 rfl) (st_main_c_70 m c)).trans ?_
  rfl
theorem st_main_v197 (m : (ℓ : Loc nD τ sig) → Buf (Elt F) ℓ) (c : Dev nD) :
    after (ops (F := F)) (launchContents m c) (Proc.devRef .tc main_v197) = val_main_v197 (F := F) (X0 m c) := by
  refine (eq_ternary' hW (launchContents m c) 270 (hk 270 (by decide)) ((fun x i u => Host.scatter scatter_S32x1x768x768_S1_S32x1x768x767_0123_n_3_0 FloatOps.addf x i u) : (⟨S32x1x768x768, .f32⟩ : BufTy).Contents (Elt F) → (⟨S1, .i32⟩ : BufTy).Contents (Elt F) → (⟨S32x1x768x767, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 255 270 rfl (by decide)) (opnd 269 270 rfl (by decide)) (opnd 267 270 rfl (by decide)) (outp 270 rfl) (st_main_v186 m c) (st_main_v196 m c) (st_main_v195 m c)).trans ?_
  rfl
theorem st_main_c_71 (m : (ℓ : Loc nD τ sig) → Buf (Elt F) ℓ) (c : Dev nD) :
    after (ops (F := F)) (launchContents m c) (Proc.devRef .tc main_c_71) = val_main_c_71 (F := F) := by
  refine (eq_nullary hW (launchContents m c) 271 (hk 271 (by decide)) (constantI S_ 32 1#32) ⟨by decide, rfl⟩ rfl (outp 271 rfl)).trans ?_
  rfl
theorem st_main_v198 (m : (ℓ : Loc nD τ sig) → Buf (Elt F) ℓ) (c : Dev nD) :
    after (ops (F := F)) (launchContents m c) (Proc.devRef .tc main_v198) = val_main_v198 (F := F) := by
  refine (eq_unary' hW (launchContents m c) 272 (hk 272 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 271 272 rfl (by decide)) (outp 272 rfl) (st_main_c_71 m c)).trans ?_
  rfl
theorem st_main_cst_72 (m : (ℓ : Loc nD τ sig) → Buf (Elt F) ℓ) (c : Dev nD) :
    after (ops (F := F)) (launchContents m c) (Proc.devRef .tc main_cst_72) = val_main_cst_72 (F := F) := by
  refine (eq_nullary hW (launchContents m c) 273 (hk 273 (by decide)) (constant S_ .f32 0x3F800000#32) ⟨by decide, rfl⟩ rfl (outp 273 rfl)).trans ?_
  rfl
theorem st_main_v199 (m : (ℓ : Loc nD τ sig) → Buf (Elt F) ℓ) (c : Dev nD) :
    after (ops (F := F)) (launchContents m c) (Proc.devRef .tc main_v199) = val_main_v199 (F := F) := by
  refine (eq_unary' hW (launchContents m c) 274 (hk 274 (by decide)) (broadcastInDim S32x1x768x767 ![] bcast_S_S32x1x768x767 : (⟨S_, .f32⟩ : BufTy).Contents (Elt F) → (⟨S32x1x768x767, .f32⟩ : BufTy).Contents (Elt F)) ⟨by decide, rfl⟩ ⟨by decide, rfl⟩ rfl (opnd 273 274 rfl (by decide)) (outp 274 rfl) (st_main_cst_72 m c)).trans ?_
  rfl
theorem st_main_v200 (m : (ℓ : Loc nD τ sig) → Buf (Elt F) ℓ) (c : Dev nD) :
    after (ops (F := F)) (launchContents m c) (Proc.devRef .tc main_v200) = val_main_v200 (F := F) := by
  refine (eq_ternary' hW (launchContents m c) 275 (hk 275 (by decide)) ((fun x i u => Host.scatter scatter_S32x1x768x768_S1_S32x1x768x767_0123_n_3_0 FloatOps.addf x i u) : (⟨S32x1x768x768, .f32⟩ : BufTy).Contents (Elt F) → (⟨S1, .i32⟩ : BufTy).Contents (Elt F) → (⟨S32x1x768x767, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 263 275 rfl (by decide)) (opnd 272 275 rfl (by decide)) (opnd 274 275 rfl (by decide)) (outp 275 rfl) (st_main_v191 m c) (st_main_v198 m c) (st_main_v199 m c)).trans ?_
  rfl
theorem st_main_v201 (m : (ℓ : Loc nD τ sig) → Buf (Elt F) ℓ) (c : Dev nD) :
    after (ops (F := F)) (launchContents m c) (Proc.devRef .tc main_v201) = val_main_v201 (F := F) (X0 m c) := by
  refine (eq_unary' hW (launchContents m c) 276 (hk 276 (by decide)) ((extractStridedSlice S32x1x767x767 ![0, 0, 1, 1] · slices_S32x1x768x768_S32x1x767x767_0_0_1_1) : (⟨S32x1x768x768, .f32⟩ : BufTy).Contents (Elt F) → (⟨S32x1x767x767, .f32⟩ : BufTy).Contents (Elt F)) ⟨by decide, rfl⟩ ⟨by decide, rfl⟩ rfl (opnd 7 276 rfl (by decide)) (outp 276 rfl) (st_main_v5 m c)).trans ?_
  rfl
theorem st_main_v202 (m : (ℓ : Loc nD τ sig) → Buf (Elt F) ℓ) (c : Dev nD) :
    after (ops (F := F)) (launchContents m c) (Proc.devRef .tc main_v202) = val_main_v202 (F := F) (X0 m c) := by
  refine (eq_unary' hW (launchContents m c) 277 (hk 277 (by decide)) ((extractStridedSlice S32x1x767x767 ![0, 0, 0, 0] · slices_S32x1x768x768_S32x1x767x767_0_0_0_0) : (⟨S32x1x768x768, .f32⟩ : BufTy).Contents (Elt F) → (⟨S32x1x767x767, .f32⟩ : BufTy).Contents (Elt F)) ⟨by decide, rfl⟩ ⟨by decide, rfl⟩ rfl (opnd 7 277 rfl (by decide)) (outp 277 rfl) (st_main_v5 m c)).trans ?_
  rfl
theorem st_main_v203 (m : (ℓ : Loc nD τ sig) → Buf (Elt F) ℓ) (c : Dev nD) :
    after (ops (F := F)) (launchContents m c) (Proc.devRef .tc main_v203) = val_main_v203 (F := F) (X0 m c) := by
  refine (eq_binary' hW (launchContents m c) 278 (hk 278 (by decide)) (subf : (⟨S32x1x767x767, .f32⟩ : BufTy).Contents (Elt F) → (⟨S32x1x767x767, .f32⟩ : BufTy).Contents (Elt F) → (⟨S32x1x767x767, .f32⟩ : BufTy).Contents (Elt F)) ⟨by decide, rfl⟩ ⟨by decide, rfl⟩ ⟨by decide, rfl⟩ rfl (opnd 276 278 rfl (by decide)) (opnd 277 278 rfl (by decide)) (outp 278 rfl) (st_main_v201 m c) (st_main_v202 m c)).trans ?_
  rfl
theorem st_main_v204 (m : (ℓ : Loc nD τ sig) → Buf (Elt F) ℓ) (c : Dev nD) :
    after (ops (F := F)) (launchContents m c) (Proc.devRef .tc main_v204) = val_main_v204 (F := F) (X0 m c) := by
  refine (eq_binary' hW (launchContents m c) 279 (hk 279 (by decide)) (mulf : (⟨S32x1x767x767, .f32⟩ : BufTy).Contents (Elt F) → (⟨S32x1x767x767, .f32⟩ : BufTy).Contents (Elt F) → (⟨S32x1x767x767, .f32⟩ : BufTy).Contents (Elt F)) ⟨by decide, rfl⟩ ⟨by decide, rfl⟩ ⟨by decide, rfl⟩ rfl (opnd 278 279 rfl (by decide)) (opnd 278 279 rfl (by decide)) (outp 279 rfl) (st_main_v203 m c) (st_main_v203 m c)).trans ?_
  rfl
theorem st_main_c_73 (m : (ℓ : Loc nD τ sig) → Buf (Elt F) ℓ) (c : Dev nD) :
    after (ops (F := F)) (launchContents m c) (Proc.devRef .tc main_c_73) = val_main_c_73 (F := F) := by
  refine (eq_nullary hW (launchContents m c) 280 (hk 280 (by decide)) (constantI S_ 32 1#32) ⟨by decide, rfl⟩ rfl (outp 280 rfl)).trans ?_
  rfl
theorem st_main_v205 (m : (ℓ : Loc nD τ sig) → Buf (Elt F) ℓ) (c : Dev nD) :
    after (ops (F := F)) (launchContents m c) (Proc.devRef .tc main_v205) = val_main_v205 (F := F) := by
  refine (eq_unary' hW (launchContents m c) 281 (hk 281 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 280 281 rfl (by decide)) (outp 281 rfl) (st_main_c_73 m c)).trans ?_
  rfl
theorem st_main_c_74 (m : (ℓ : Loc nD τ sig) → Buf (Elt F) ℓ) (c : Dev nD) :
    after (ops (F := F)) (launchContents m c) (Proc.devRef .tc main_c_74) = val_main_c_74 (F := F) := by
  refine (eq_nullary hW (launchContents m c) 282 (hk 282 (by decide)) (constantI S_ 32 1#32) ⟨by decide, rfl⟩ rfl (outp 282 rfl)).trans ?_
  rfl
theorem st_main_v206 (m : (ℓ : Loc nD τ sig) → Buf (Elt F) ℓ) (c : Dev nD) :
    after (ops (F := F)) (launchContents m c) (Proc.devRef .tc main_v206) = val_main_v206 (F := F) := by
  refine (eq_unary' hW (launchContents m c) 283 (hk 283 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 282 283 rfl (by decide)) (outp 283 rfl) (st_main_c_74 m c)).trans ?_
  rfl
theorem st_main_v207 (m : (ℓ : Loc nD τ sig) → Buf (Elt F) ℓ) (c : Dev nD) :
    after (ops (F := F)) (launchContents m c) (Proc.devRef .tc main_v207) = val_main_v207 (F := F) := by
  refine (eq_binary' hW (launchContents m c) 284 (hk 284 (by decide)) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ⟨by decide, rfl⟩ ⟨by decide, rfl⟩ ⟨by decide, rfl⟩ rfl (opnd 281 284 rfl (by decide)) (opnd 283 284 rfl (by decide)) (outp 284 rfl) (st_main_v205 m c) (st_main_v206 m c)).trans ?_
  rfl
theorem st_main_v208 (m : (ℓ : Loc nD τ sig) → Buf (Elt F) ℓ) (c : Dev nD) :
    after (ops (F := F)) (launchContents m c) (Proc.devRef .tc main_v208) = val_main_v208 (F := F) (X0 m c) := by
  refine (eq_ternary' hW (launchContents m c) 285 (hk 285 (by decide)) ((fun x i u => Host.scatter scatter_S32x1x768x768_S2_S32x1x767x767_0123_n_23_0 FloatOps.addf x i u) : (⟨S32x1x768x768, .f32⟩ : BufTy).Contents (Elt F) → (⟨S2, .i32⟩ : BufTy).Contents (Elt F) → (⟨S32x1x767x767, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 270 285 rfl (by decide)) (opnd 284 285 rfl (by decide)) (opnd 279 285 rfl (by decide)) (outp 285 rfl) (st_main_v197 m c) (st_main_v207 m c) (st_main_v204 m c)).trans ?_
  rfl
theorem st_main_c_75 (m : (ℓ : Loc nD τ sig) → Buf (Elt F) ℓ) (c : Dev nD) :
    after (ops (F := F)) (launchContents m c) (Proc.devRef .tc main_c_75) = val_main_c_75 (F := F) := by
  refine (eq_nullary hW (launchContents m c) 286 (hk 286 (by decide)) (constantI S_ 32 1#32) ⟨by decide, rfl⟩ rfl (outp 286 rfl)).trans ?_
  rfl
theorem st_main_v209 (m : (ℓ : Loc nD τ sig) → Buf (Elt F) ℓ) (c : Dev nD) :
    after (ops (F := F)) (launchContents m c) (Proc.devRef .tc main_v209) = val_main_v209 (F := F) := by
  refine (eq_unary' hW (launchContents m c) 287 (hk 287 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 286 287 rfl (by decide)) (outp 287 rfl) (st_main_c_75 m c)).trans ?_
  rfl
theorem st_main_c_76 (m : (ℓ : Loc nD τ sig) → Buf (Elt F) ℓ) (c : Dev nD) :
    after (ops (F := F)) (launchContents m c) (Proc.devRef .tc main_c_76) = val_main_c_76 (F := F) := by
  refine (eq_nullary hW (launchContents m c) 288 (hk 288 (by decide)) (constantI S_ 32 1#32) ⟨by decide, rfl⟩ rfl (outp 288 rfl)).trans ?_
  rfl
theorem st_main_v210 (m : (ℓ : Loc nD τ sig) → Buf (Elt F) ℓ) (c : Dev nD) :
    after (ops (F := F)) (launchContents m c) (Proc.devRef .tc main_v210) = val_main_v210 (F := F) := by
  refine (eq_unary' hW (launchContents m c) 289 (hk 289 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 288 289 rfl (by decide)) (outp 289 rfl) (st_main_c_76 m c)).trans ?_
  rfl
theorem st_main_v211 (m : (ℓ : Loc nD τ sig) → Buf (Elt F) ℓ) (c : Dev nD) :
    after (ops (F := F)) (launchContents m c) (Proc.devRef .tc main_v211) = val_main_v211 (F := F) := by
  refine (eq_binary' hW (launchContents m c) 290 (hk 290 (by decide)) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ⟨by decide, rfl⟩ ⟨by decide, rfl⟩ ⟨by decide, rfl⟩ rfl (opnd 287 290 rfl (by decide)) (opnd 289 290 rfl (by decide)) (outp 290 rfl) (st_main_v209 m c) (st_main_v210 m c)).trans ?_
  rfl
theorem st_main_cst_77 (m : (ℓ : Loc nD τ sig) → Buf (Elt F) ℓ) (c : Dev nD) :
    after (ops (F := F)) (launchContents m c) (Proc.devRef .tc main_cst_77) = val_main_cst_77 (F := F) := by
  refine (eq_nullary hW (launchContents m c) 291 (hk 291 (by decide)) (constant S_ .f32 0x3F800000#32) ⟨by decide, rfl⟩ rfl (outp 291 rfl)).trans ?_
  rfl
theorem st_main_v212 (m : (ℓ : Loc nD τ sig) → Buf (Elt F) ℓ) (c : Dev nD) :
    after (ops (F := F)) (launchContents m c) (Proc.devRef .tc main_v212) = val_main_v212 (F := F) := by
  refine (eq_unary' hW (launchContents m c) 292 (hk 292 (by decide)) (broadcastInDim S32x1x767x767 ![] bcast_S_S32x1x767x767 : (⟨S_, .f32⟩ : BufTy).Contents (Elt F) → (⟨S32x1x767x767, .f32⟩ : BufTy).Contents (Elt F)) ⟨by decide, rfl⟩ ⟨by decide, rfl⟩ rfl (opnd 291 292 rfl (by decide)) (outp 292 rfl) (st_main_cst_77 m c)).trans ?_
  rfl
theorem st_main_v213 (m : (ℓ : Loc nD τ sig) → Buf (Elt F) ℓ) (c : Dev nD) :
    after (ops (F := F)) (launchContents m c) (Proc.devRef .tc main_v213) = val_main_v213 (F := F) := by
  refine (eq_ternary' hW (launchContents m c) 293 (hk 293 (by decide)) ((fun x i u => Host.scatter scatter_S32x1x768x768_S2_S32x1x767x767_0123_n_23_0 FloatOps.addf x i u) : (⟨S32x1x768x768, .f32⟩ : BufTy).Contents (Elt F) → (⟨S2, .i32⟩ : BufTy).Contents (Elt F) → (⟨S32x1x767x767, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 275 293 rfl (by decide)) (opnd 290 293 rfl (by decide)) (opnd 292 293 rfl (by decide)) (outp 293 rfl) (st_main_v200 m c) (st_main_v211 m c) (st_main_v212 m c)).trans ?_
  rfl
theorem st_main_v214 (m : (ℓ : Loc nD τ sig) → Buf (Elt F) ℓ) (c : Dev nD) :
    after (ops (F := F)) (launchContents m c) (Proc.devRef .tc main_v214) = val_main_v214 (F := F) (X0 m c) := by
  refine (eq_unary' hW (launchContents m c) 294 (hk 294 (by decide)) ((extractStridedSlice S32x1x766x767 ![0, 0, 2, 1] · slices_S32x1x768x768_S32x1x766x767_0_0_2_1) : (⟨S32x1x768x768, .f32⟩ : BufTy).Contents (Elt F) → (⟨S32x1x766x767, .f32⟩ : BufTy).Contents (Elt F)) ⟨by decide, rfl⟩ ⟨by decide, rfl⟩ rfl (opnd 7 294 rfl (by decide)) (outp 294 rfl) (st_main_v5 m c)).trans ?_
  rfl
theorem st_main_v215 (m : (ℓ : Loc nD τ sig) → Buf (Elt F) ℓ) (c : Dev nD) :
    after (ops (F := F)) (launchContents m c) (Proc.devRef .tc main_v215) = val_main_v215 (F := F) (X0 m c) := by
  refine (eq_unary' hW (launchContents m c) 295 (hk 295 (by decide)) ((extractStridedSlice S32x1x766x767 ![0, 0, 0, 0] · slices_S32x1x768x768_S32x1x766x767_0_0_0_0) : (⟨S32x1x768x768, .f32⟩ : BufTy).Contents (Elt F) → (⟨S32x1x766x767, .f32⟩ : BufTy).Contents (Elt F)) ⟨by decide, rfl⟩ ⟨by decide, rfl⟩ rfl (opnd 7 295 rfl (by decide)) (outp 295 rfl) (st_main_v5 m c)).trans ?_
  rfl
theorem st_main_v216 (m : (ℓ : Loc nD τ sig) → Buf (Elt F) ℓ) (c : Dev nD) :
    after (ops (F := F)) (launchContents m c) (Proc.devRef .tc main_v216) = val_main_v216 (F := F) (X0 m c) := by
  refine (eq_binary' hW (launchContents m c) 296 (hk 296 (by decide)) (subf : (⟨S32x1x766x767, .f32⟩ : BufTy).Contents (Elt F) → (⟨S32x1x766x767, .f32⟩ : BufTy).Contents (Elt F) → (⟨S32x1x766x767, .f32⟩ : BufTy).Contents (Elt F)) ⟨by decide, rfl⟩ ⟨by decide, rfl⟩ ⟨by decide, rfl⟩ rfl (opnd 294 296 rfl (by decide)) (opnd 295 296 rfl (by decide)) (outp 296 rfl) (st_main_v214 m c) (st_main_v215 m c)).trans ?_
  rfl
theorem st_main_v217 (m : (ℓ : Loc nD τ sig) → Buf (Elt F) ℓ) (c : Dev nD) :
    after (ops (F := F)) (launchContents m c) (Proc.devRef .tc main_v217) = val_main_v217 (F := F) (X0 m c) := by
  refine (eq_binary' hW (launchContents m c) 297 (hk 297 (by decide)) (mulf : (⟨S32x1x766x767, .f32⟩ : BufTy).Contents (Elt F) → (⟨S32x1x766x767, .f32⟩ : BufTy).Contents (Elt F) → (⟨S32x1x766x767, .f32⟩ : BufTy).Contents (Elt F)) ⟨by decide, rfl⟩ ⟨by decide, rfl⟩ ⟨by decide, rfl⟩ rfl (opnd 296 297 rfl (by decide)) (opnd 296 297 rfl (by decide)) (outp 297 rfl) (st_main_v216 m c) (st_main_v216 m c)).trans ?_
  rfl
theorem st_main_c_78 (m : (ℓ : Loc nD τ sig) → Buf (Elt F) ℓ) (c : Dev nD) :
    after (ops (F := F)) (launchContents m c) (Proc.devRef .tc main_c_78) = val_main_c_78 (F := F) := by
  refine (eq_nullary hW (launchContents m c) 298 (hk 298 (by decide)) (constantI S_ 32 2#32) ⟨by decide, rfl⟩ rfl (outp 298 rfl)).trans ?_
  rfl
theorem st_main_v218 (m : (ℓ : Loc nD τ sig) → Buf (Elt F) ℓ) (c : Dev nD) :
    after (ops (F := F)) (launchContents m c) (Proc.devRef .tc main_v218) = val_main_v218 (F := F) := by
  refine (eq_unary' hW (launchContents m c) 299 (hk 299 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 298 299 rfl (by decide)) (outp 299 rfl) (st_main_c_78 m c)).trans ?_
  rfl
theorem st_main_c_79 (m : (ℓ : Loc nD τ sig) → Buf (Elt F) ℓ) (c : Dev nD) :
    after (ops (F := F)) (launchContents m c) (Proc.devRef .tc main_c_79) = val_main_c_79 (F := F) := by
  refine (eq_nullary hW (launchContents m c) 300 (hk 300 (by decide)) (constantI S_ 32 1#32) ⟨by decide, rfl⟩ rfl (outp 300 rfl)).trans ?_
  rfl
theorem st_main_v219 (m : (ℓ : Loc nD τ sig) → Buf (Elt F) ℓ) (c : Dev nD) :
    after (ops (F := F)) (launchContents m c) (Proc.devRef .tc main_v219) = val_main_v219 (F := F) := by
  refine (eq_unary' hW (launchContents m c) 301 (hk 301 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 300 301 rfl (by decide)) (outp 301 rfl) (st_main_c_79 m c)).trans ?_
  rfl
theorem st_main_v220 (m : (ℓ : Loc nD τ sig) → Buf (Elt F) ℓ) (c : Dev nD) :
    after (ops (F := F)) (launchContents m c) (Proc.devRef .tc main_v220) = val_main_v220 (F := F) := by
  refine (eq_binary' hW (launchContents m c) 302 (hk 302 (by decide)) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ⟨by decide, rfl⟩ ⟨by decide, rfl⟩ ⟨by decide, rfl⟩ rfl (opnd 299 302 rfl (by decide)) (opnd 301 302 rfl (by decide)) (outp 302 rfl) (st_main_v218 m c) (st_main_v219 m c)).trans ?_
  rfl
theorem st_main_v221 (m : (ℓ : Loc nD τ sig) → Buf (Elt F) ℓ) (c : Dev nD) :
    after (ops (F := F)) (launchContents m c) (Proc.devRef .tc main_v221) = val_main_v221 (F := F) (X0 m c) := by
  refine (eq_ternary' hW (launchContents m c) 303 (hk 303 (by decide)) ((fun x i u => Host.scatter scatter_S32x1x768x768_S2_S32x1x766x767_0123_n_23_0 FloatOps.addf x i u) : (⟨S32x1x768x768, .f32⟩ : BufTy).Contents (Elt F) → (⟨S2, .i32⟩ : BufTy).Contents (Elt F) → (⟨S32x1x766x767, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 285 303 rfl (by decide)) (opnd 302 303 rfl (by decide)) (opnd 297 303 rfl (by decide)) (outp 303 rfl) (st_main_v208 m c) (st_main_v220 m c) (st_main_v217 m c)).trans ?_
  rfl
theorem st_main_c_80 (m : (ℓ : Loc nD τ sig) → Buf (Elt F) ℓ) (c : Dev nD) :
    after (ops (F := F)) (launchContents m c) (Proc.devRef .tc main_c_80) = val_main_c_80 (F := F) := by
  refine (eq_nullary hW (launchContents m c) 304 (hk 304 (by decide)) (constantI S_ 32 2#32) ⟨by decide, rfl⟩ rfl (outp 304 rfl)).trans ?_
  rfl
theorem st_main_v222 (m : (ℓ : Loc nD τ sig) → Buf (Elt F) ℓ) (c : Dev nD) :
    after (ops (F := F)) (launchContents m c) (Proc.devRef .tc main_v222) = val_main_v222 (F := F) := by
  refine (eq_unary' hW (launchContents m c) 305 (hk 305 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 304 305 rfl (by decide)) (outp 305 rfl) (st_main_c_80 m c)).trans ?_
  rfl
theorem st_main_c_81 (m : (ℓ : Loc nD τ sig) → Buf (Elt F) ℓ) (c : Dev nD) :
    after (ops (F := F)) (launchContents m c) (Proc.devRef .tc main_c_81) = val_main_c_81 (F := F) := by
  refine (eq_nullary hW (launchContents m c) 306 (hk 306 (by decide)) (constantI S_ 32 1#32) ⟨by decide, rfl⟩ rfl (outp 306 rfl)).trans ?_
  rfl
theorem st_main_v223 (m : (ℓ : Loc nD τ sig) → Buf (Elt F) ℓ) (c : Dev nD) :
    after (ops (F := F)) (launchContents m c) (Proc.devRef .tc main_v223) = val_main_v223 (F := F) := by
  refine (eq_unary' hW (launchContents m c) 307 (hk 307 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 306 307 rfl (by decide)) (outp 307 rfl) (st_main_c_81 m c)).trans ?_
  rfl
theorem st_main_v224 (m : (ℓ : Loc nD τ sig) → Buf (Elt F) ℓ) (c : Dev nD) :
    after (ops (F := F)) (launchContents m c) (Proc.devRef .tc main_v224) = val_main_v224 (F := F) := by
  refine (eq_binary' hW (launchContents m c) 308 (hk 308 (by decide)) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ⟨by decide, rfl⟩ ⟨by decide, rfl⟩ ⟨by decide, rfl⟩ rfl (opnd 305 308 rfl (by decide)) (opnd 307 308 rfl (by decide)) (outp 308 rfl) (st_main_v222 m c) (st_main_v223 m c)).trans ?_
  rfl
theorem st_main_cst_82 (m : (ℓ : Loc nD τ sig) → Buf (Elt F) ℓ) (c : Dev nD) :
    after (ops (F := F)) (launchContents m c) (Proc.devRef .tc main_cst_82) = val_main_cst_82 (F := F) := by
  refine (eq_nullary hW (launchContents m c) 309 (hk 309 (by decide)) (constant S_ .f32 0x3F800000#32) ⟨by decide, rfl⟩ rfl (outp 309 rfl)).trans ?_
  rfl
theorem st_main_v225 (m : (ℓ : Loc nD τ sig) → Buf (Elt F) ℓ) (c : Dev nD) :
    after (ops (F := F)) (launchContents m c) (Proc.devRef .tc main_v225) = val_main_v225 (F := F) := by
  refine (eq_unary' hW (launchContents m c) 310 (hk 310 (by decide)) (broadcastInDim S32x1x766x767 ![] bcast_S_S32x1x766x767 : (⟨S_, .f32⟩ : BufTy).Contents (Elt F) → (⟨S32x1x766x767, .f32⟩ : BufTy).Contents (Elt F)) ⟨by decide, rfl⟩ ⟨by decide, rfl⟩ rfl (opnd 309 310 rfl (by decide)) (outp 310 rfl) (st_main_cst_82 m c)).trans ?_
  rfl
theorem st_main_v226 (m : (ℓ : Loc nD τ sig) → Buf (Elt F) ℓ) (c : Dev nD) :
    after (ops (F := F)) (launchContents m c) (Proc.devRef .tc main_v226) = val_main_v226 (F := F) := by
  refine (eq_ternary' hW (launchContents m c) 311 (hk 311 (by decide)) ((fun x i u => Host.scatter scatter_S32x1x768x768_S2_S32x1x766x767_0123_n_23_0 FloatOps.addf x i u) : (⟨S32x1x768x768, .f32⟩ : BufTy).Contents (Elt F) → (⟨S2, .i32⟩ : BufTy).Contents (Elt F) → (⟨S32x1x766x767, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 293 311 rfl (by decide)) (opnd 308 311 rfl (by decide)) (opnd 310 311 rfl (by decide)) (outp 311 rfl) (st_main_v213 m c) (st_main_v224 m c) (st_main_v225 m c)).trans ?_
  rfl
theorem st_main_v227 (m : (ℓ : Loc nD τ sig) → Buf (Elt F) ℓ) (c : Dev nD) :
    after (ops (F := F)) (launchContents m c) (Proc.devRef .tc main_v227) = val_main_v227 (F := F) (X0 m c) := by
  refine (eq_unary' hW (launchContents m c) 312 (hk 312 (by decide)) ((extractStridedSlice S32x1x766x766 ![0, 0, 0, 2] · slices_S32x1x768x768_S32x1x766x766_0_0_0_2) : (⟨S32x1x768x768, .f32⟩ : BufTy).Contents (Elt F) → (⟨S32x1x766x766, .f32⟩ : BufTy).Contents (Elt F)) ⟨by decide, rfl⟩ ⟨by decide, rfl⟩ rfl (opnd 7 312 rfl (by decide)) (outp 312 rfl) (st_main_v5 m c)).trans ?_
  rfl
theorem st_main_v228 (m : (ℓ : Loc nD τ sig) → Buf (Elt F) ℓ) (c : Dev nD) :
    after (ops (F := F)) (launchContents m c) (Proc.devRef .tc main_v228) = val_main_v228 (F := F) (X0 m c) := by
  refine (eq_unary' hW (launchContents m c) 313 (hk 313 (by decide)) ((extractStridedSlice S32x1x766x766 ![0, 0, 2, 0] · slices_S32x1x768x768_S32x1x766x766_0_0_2_0) : (⟨S32x1x768x768, .f32⟩ : BufTy).Contents (Elt F) → (⟨S32x1x766x766, .f32⟩ : BufTy).Contents (Elt F)) ⟨by decide, rfl⟩ ⟨by decide, rfl⟩ rfl (opnd 7 313 rfl (by decide)) (outp 313 rfl) (st_main_v5 m c)).trans ?_
  rfl
theorem st_main_v229 (m : (ℓ : Loc nD τ sig) → Buf (Elt F) ℓ) (c : Dev nD) :
    after (ops (F := F)) (launchContents m c) (Proc.devRef .tc main_v229) = val_main_v229 (F := F) (X0 m c) := by
  refine (eq_binary' hW (launchContents m c) 314 (hk 314 (by decide)) (subf : (⟨S32x1x766x766, .f32⟩ : BufTy).Contents (Elt F) → (⟨S32x1x766x766, .f32⟩ : BufTy).Contents (Elt F) → (⟨S32x1x766x766, .f32⟩ : BufTy).Contents (Elt F)) ⟨by decide, rfl⟩ ⟨by decide, rfl⟩ ⟨by decide, rfl⟩ rfl (opnd 312 314 rfl (by decide)) (opnd 313 314 rfl (by decide)) (outp 314 rfl) (st_main_v227 m c) (st_main_v228 m c)).trans ?_
  rfl
theorem st_main_v230 (m : (ℓ : Loc nD τ sig) → Buf (Elt F) ℓ) (c : Dev nD) :
    after (ops (F := F)) (launchContents m c) (Proc.devRef .tc main_v230) = val_main_v230 (F := F) (X0 m c) := by
  refine (eq_binary' hW (launchContents m c) 315 (hk 315 (by decide)) (mulf : (⟨S32x1x766x766, .f32⟩ : BufTy).Contents (Elt F) → (⟨S32x1x766x766, .f32⟩ : BufTy).Contents (Elt F) → (⟨S32x1x766x766, .f32⟩ : BufTy).Contents (Elt F)) ⟨by decide, rfl⟩ ⟨by decide, rfl⟩ ⟨by decide, rfl⟩ rfl (opnd 314 315 rfl (by decide)) (opnd 314 315 rfl (by decide)) (outp 315 rfl) (st_main_v229 m c) (st_main_v229 m c)).trans ?_
  rfl
theorem st_main_c_83 (m : (ℓ : Loc nD τ sig) → Buf (Elt F) ℓ) (c : Dev nD) :
    after (ops (F := F)) (launchContents m c) (Proc.devRef .tc main_c_83) = val_main_c_83 (F := F) := by
  refine (eq_nullary hW (launchContents m c) 316 (hk 316 (by decide)) (constantI S_ 32 0#32) ⟨by decide, rfl⟩ rfl (outp 316 rfl)).trans ?_
  rfl
theorem st_main_v231 (m : (ℓ : Loc nD τ sig) → Buf (Elt F) ℓ) (c : Dev nD) :
    after (ops (F := F)) (launchContents m c) (Proc.devRef .tc main_v231) = val_main_v231 (F := F) := by
  refine (eq_unary' hW (launchContents m c) 317 (hk 317 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 316 317 rfl (by decide)) (outp 317 rfl) (st_main_c_83 m c)).trans ?_
  rfl
theorem st_main_c_84 (m : (ℓ : Loc nD τ sig) → Buf (Elt F) ℓ) (c : Dev nD) :
    after (ops (F := F)) (launchContents m c) (Proc.devRef .tc main_c_84) = val_main_c_84 (F := F) := by
  refine (eq_nullary hW (launchContents m c) 318 (hk 318 (by decide)) (constantI S_ 32 2#32) ⟨by decide, rfl⟩ rfl (outp 318 rfl)).trans ?_
  rfl
theorem st_main_v232 (m : (ℓ : Loc nD τ sig) → Buf (Elt F) ℓ) (c : Dev nD) :
    after (ops (F := F)) (launchContents m c) (Proc.devRef .tc main_v232) = val_main_v232 (F := F) := by
  refine (eq_unary' hW (launchContents m c) 319 (hk 319 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 318 319 rfl (by decide)) (outp 319 rfl) (st_main_c_84 m c)).trans ?_
  rfl
theorem st_main_v233 (m : (ℓ : Loc nD τ sig) → Buf (Elt F) ℓ) (c : Dev nD) :
    after (ops (F := F)) (launchContents m c) (Proc.devRef .tc main_v233) = val_main_v233 (F := F) := by
  refine (eq_binary' hW (launchContents m c) 320 (hk 320 (by decide)) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ⟨by decide, rfl⟩ ⟨by decide, rfl⟩ ⟨by decide, rfl⟩ rfl (opnd 317 320 rfl (by decide)) (opnd 319 320 rfl (by decide)) (outp 320 rfl) (st_main_v231 m c) (st_main_v232 m c)).trans ?_
  rfl
theorem st_main_v234 (m : (ℓ : Loc nD τ sig) → Buf (Elt F) ℓ) (c : Dev nD) :
    after (ops (F := F)) (launchContents m c) (Proc.devRef .tc main_v234) = val_main_v234 (F := F) (X0 m c) := by
  refine (eq_ternary' hW (launchContents m c) 321 (hk 321 (by decide)) ((fun x i u => Host.scatter scatter_S32x1x768x768_S2_S32x1x766x766_0123_n_23_0 FloatOps.addf x i u) : (⟨S32x1x768x768, .f32⟩ : BufTy).Contents (Elt F) → (⟨S2, .i32⟩ : BufTy).Contents (Elt F) → (⟨S32x1x766x766, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 303 321 rfl (by decide)) (opnd 320 321 rfl (by decide)) (opnd 315 321 rfl (by decide)) (outp 321 rfl) (st_main_v221 m c) (st_main_v233 m c) (st_main_v230 m c)).trans ?_
  rfl
theorem st_main_c_85 (m : (ℓ : Loc nD τ sig) → Buf (Elt F) ℓ) (c : Dev nD) :
    after (ops (F := F)) (launchContents m c) (Proc.devRef .tc main_c_85) = val_main_c_85 (F := F) := by
  refine (eq_nullary hW (launchContents m c) 322 (hk 322 (by decide)) (constantI S_ 32 0#32) ⟨by decide, rfl⟩ rfl (outp 322 rfl)).trans ?_
  rfl
theorem st_main_v235 (m : (ℓ : Loc nD τ sig) → Buf (Elt F) ℓ) (c : Dev nD) :
    after (ops (F := F)) (launchContents m c) (Proc.devRef .tc main_v235) = val_main_v235 (F := F) := by
  refine (eq_unary' hW (launchContents m c) 323 (hk 323 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 322 323 rfl (by decide)) (outp 323 rfl) (st_main_c_85 m c)).trans ?_
  rfl
theorem st_main_c_86 (m : (ℓ : Loc nD τ sig) → Buf (Elt F) ℓ) (c : Dev nD) :
    after (ops (F := F)) (launchContents m c) (Proc.devRef .tc main_c_86) = val_main_c_86 (F := F) := by
  refine (eq_nullary hW (launchContents m c) 324 (hk 324 (by decide)) (constantI S_ 32 2#32) ⟨by decide, rfl⟩ rfl (outp 324 rfl)).trans ?_
  rfl
theorem st_main_v236 (m : (ℓ : Loc nD τ sig) → Buf (Elt F) ℓ) (c : Dev nD) :
    after (ops (F := F)) (launchContents m c) (Proc.devRef .tc main_v236) = val_main_v236 (F := F) := by
  refine (eq_unary' hW (launchContents m c) 325 (hk 325 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 324 325 rfl (by decide)) (outp 325 rfl) (st_main_c_86 m c)).trans ?_
  rfl
theorem st_main_v237 (m : (ℓ : Loc nD τ sig) → Buf (Elt F) ℓ) (c : Dev nD) :
    after (ops (F := F)) (launchContents m c) (Proc.devRef .tc main_v237) = val_main_v237 (F := F) := by
  refine (eq_binary' hW (launchContents m c) 326 (hk 326 (by decide)) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ⟨by decide, rfl⟩ ⟨by decide, rfl⟩ ⟨by decide, rfl⟩ rfl (opnd 323 326 rfl (by decide)) (opnd 325 326 rfl (by decide)) (outp 326 rfl) (st_main_v235 m c) (st_main_v236 m c)).trans ?_
  rfl
theorem st_main_cst_87 (m : (ℓ : Loc nD τ sig) → Buf (Elt F) ℓ) (c : Dev nD) :
    after (ops (F := F)) (launchContents m c) (Proc.devRef .tc main_cst_87) = val_main_cst_87 (F := F) := by
  refine (eq_nullary hW (launchContents m c) 327 (hk 327 (by decide)) (constant S_ .f32 0x3F800000#32) ⟨by decide, rfl⟩ rfl (outp 327 rfl)).trans ?_
  rfl
theorem st_main_v238 (m : (ℓ : Loc nD τ sig) → Buf (Elt F) ℓ) (c : Dev nD) :
    after (ops (F := F)) (launchContents m c) (Proc.devRef .tc main_v238) = val_main_v238 (F := F) := by
  refine (eq_unary' hW (launchContents m c) 328 (hk 328 (by decide)) (broadcastInDim S32x1x766x766 ![] bcast_S_S32x1x766x766 : (⟨S_, .f32⟩ : BufTy).Contents (Elt F) → (⟨S32x1x766x766, .f32⟩ : BufTy).Contents (Elt F)) ⟨by decide, rfl⟩ ⟨by decide, rfl⟩ rfl (opnd 327 328 rfl (by decide)) (outp 328 rfl) (st_main_cst_87 m c)).trans ?_
  rfl
theorem st_main_v239 (m : (ℓ : Loc nD τ sig) → Buf (Elt F) ℓ) (c : Dev nD) :
    after (ops (F := F)) (launchContents m c) (Proc.devRef .tc main_v239) = val_main_v239 (F := F) := by
  refine (eq_ternary' hW (launchContents m c) 329 (hk 329 (by decide)) ((fun x i u => Host.scatter scatter_S32x1x768x768_S2_S32x1x766x766_0123_n_23_0 FloatOps.addf x i u) : (⟨S32x1x768x768, .f32⟩ : BufTy).Contents (Elt F) → (⟨S2, .i32⟩ : BufTy).Contents (Elt F) → (⟨S32x1x766x766, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 311 329 rfl (by decide)) (opnd 326 329 rfl (by decide)) (opnd 328 329 rfl (by decide)) (outp 329 rfl) (st_main_v226 m c) (st_main_v237 m c) (st_main_v238 m c)).trans ?_
  rfl
theorem st_main_v240 (m : (ℓ : Loc nD τ sig) → Buf (Elt F) ℓ) (c : Dev nD) :
    after (ops (F := F)) (launchContents m c) (Proc.devRef .tc main_v240) = val_main_v240 (F := F) (X0 m c) := by
  refine (eq_unary' hW (launchContents m c) 330 (hk 330 (by decide)) ((extractStridedSlice S32x1x767x766 ![0, 0, 0, 2] · slices_S32x1x768x768_S32x1x767x766_0_0_0_2) : (⟨S32x1x768x768, .f32⟩ : BufTy).Contents (Elt F) → (⟨S32x1x767x766, .f32⟩ : BufTy).Contents (Elt F)) ⟨by decide, rfl⟩ ⟨by decide, rfl⟩ rfl (opnd 7 330 rfl (by decide)) (outp 330 rfl) (st_main_v5 m c)).trans ?_
  rfl
theorem st_main_v241 (m : (ℓ : Loc nD τ sig) → Buf (Elt F) ℓ) (c : Dev nD) :
    after (ops (F := F)) (launchContents m c) (Proc.devRef .tc main_v241) = val_main_v241 (F := F) (X0 m c) := by
  refine (eq_unary' hW (launchContents m c) 331 (hk 331 (by decide)) ((extractStridedSlice S32x1x767x766 ![0, 0, 1, 0] · slices_S32x1x768x768_S32x1x767x766_0_0_1_0) : (⟨S32x1x768x768, .f32⟩ : BufTy).Contents (Elt F) → (⟨S32x1x767x766, .f32⟩ : BufTy).Contents (Elt F)) ⟨by decide, rfl⟩ ⟨by decide, rfl⟩ rfl (opnd 7 331 rfl (by decide)) (outp 331 rfl) (st_main_v5 m c)).trans ?_
  rfl
theorem st_main_v242 (m : (ℓ : Loc nD τ sig) → Buf (Elt F) ℓ) (c : Dev nD) :
    after (ops (F := F)) (launchContents m c) (Proc.devRef .tc main_v242) = val_main_v242 (F := F) (X0 m c) := by
  refine (eq_binary' hW (launchContents m c) 332 (hk 332 (by decide)) (subf : (⟨S32x1x767x766, .f32⟩ : BufTy).Contents (Elt F) → (⟨S32x1x767x766, .f32⟩ : BufTy).Contents (Elt F) → (⟨S32x1x767x766, .f32⟩ : BufTy).Contents (Elt F)) ⟨by decide, rfl⟩ ⟨by decide, rfl⟩ ⟨by decide, rfl⟩ rfl (opnd 330 332 rfl (by decide)) (opnd 331 332 rfl (by decide)) (outp 332 rfl) (st_main_v240 m c) (st_main_v241 m c)).trans ?_
  rfl
theorem st_main_v243 (m : (ℓ : Loc nD τ sig) → Buf (Elt F) ℓ) (c : Dev nD) :
    after (ops (F := F)) (launchContents m c) (Proc.devRef .tc main_v243) = val_main_v243 (F := F) (X0 m c) := by
  refine (eq_binary' hW (launchContents m c) 333 (hk 333 (by decide)) (mulf : (⟨S32x1x767x766, .f32⟩ : BufTy).Contents (Elt F) → (⟨S32x1x767x766, .f32⟩ : BufTy).Contents (Elt F) → (⟨S32x1x767x766, .f32⟩ : BufTy).Contents (Elt F)) ⟨by decide, rfl⟩ ⟨by decide, rfl⟩ ⟨by decide, rfl⟩ rfl (opnd 332 333 rfl (by decide)) (opnd 332 333 rfl (by decide)) (outp 333 rfl) (st_main_v242 m c) (st_main_v242 m c)).trans ?_
  rfl
theorem st_main_c_88 (m : (ℓ : Loc nD τ sig) → Buf (Elt F) ℓ) (c : Dev nD) :
    after (ops (F := F)) (launchContents m c) (Proc.devRef .tc main_c_88) = val_main_c_88 (F := F) := by
  refine (eq_nullary hW (launchContents m c) 334 (hk 334 (by decide)) (constantI S_ 32 0#32) ⟨by decide, rfl⟩ rfl (outp 334 rfl)).trans ?_
  rfl
theorem st_main_v244 (m : (ℓ : Loc nD τ sig) → Buf (Elt F) ℓ) (c : Dev nD) :
    after (ops (F := F)) (launchContents m c) (Proc.devRef .tc main_v244) = val_main_v244 (F := F) := by
  refine (eq_unary' hW (launchContents m c) 335 (hk 335 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 334 335 rfl (by decide)) (outp 335 rfl) (st_main_c_88 m c)).trans ?_
  rfl
theorem st_main_c_89 (m : (ℓ : Loc nD τ sig) → Buf (Elt F) ℓ) (c : Dev nD) :
    after (ops (F := F)) (launchContents m c) (Proc.devRef .tc main_c_89) = val_main_c_89 (F := F) := by
  refine (eq_nullary hW (launchContents m c) 336 (hk 336 (by decide)) (constantI S_ 32 2#32) ⟨by decide, rfl⟩ rfl (outp 336 rfl)).trans ?_
  rfl
theorem st_main_v245 (m : (ℓ : Loc nD τ sig) → Buf (Elt F) ℓ) (c : Dev nD) :
    after (ops (F := F)) (launchContents m c) (Proc.devRef .tc main_v245) = val_main_v245 (F := F) := by
  refine (eq_unary' hW (launchContents m c) 337 (hk 337 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 336 337 rfl (by decide)) (outp 337 rfl) (st_main_c_89 m c)).trans ?_
  rfl
theorem st_main_v246 (m : (ℓ : Loc nD τ sig) → Buf (Elt F) ℓ) (c : Dev nD) :
    after (ops (F := F)) (launchContents m c) (Proc.devRef .tc main_v246) = val_main_v246 (F := F) := by
  refine (eq_binary' hW (launchContents m c) 338 (hk 338 (by decide)) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ⟨by decide, rfl⟩ ⟨by decide, rfl⟩ ⟨by decide, rfl⟩ rfl (opnd 335 338 rfl (by decide)) (opnd 337 338 rfl (by decide)) (outp 338 rfl) (st_main_v244 m c) (st_main_v245 m c)).trans ?_
  rfl
theorem st_main_v247 (m : (ℓ : Loc nD τ sig) → Buf (Elt F) ℓ) (c : Dev nD) :
    after (ops (F := F)) (launchContents m c) (Proc.devRef .tc main_v247) = val_main_v247 (F := F) (X0 m c) := by
  refine (eq_ternary' hW (launchContents m c) 339 (hk 339 (by decide)) ((fun x i u => Host.scatter scatter_S32x1x768x768_S2_S32x1x767x766_0123_n_23_0 FloatOps.addf x i u) : (⟨S32x1x768x768, .f32⟩ : BufTy).Contents (Elt F) → (⟨S2, .i32⟩ : BufTy).Contents (Elt F) → (⟨S32x1x767x766, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 321 339 rfl (by decide)) (opnd 338 339 rfl (by decide)) (opnd 333 339 rfl (by decide)) (outp 339 rfl) (st_main_v234 m c) (st_main_v246 m c) (st_main_v243 m c)).trans ?_
  rfl
theorem st_main_c_90 (m : (ℓ : Loc nD τ sig) → Buf (Elt F) ℓ) (c : Dev nD) :
    after (ops (F := F)) (launchContents m c) (Proc.devRef .tc main_c_90) = val_main_c_90 (F := F) := by
  refine (eq_nullary hW (launchContents m c) 340 (hk 340 (by decide)) (constantI S_ 32 0#32) ⟨by decide, rfl⟩ rfl (outp 340 rfl)).trans ?_
  rfl
theorem st_main_v248 (m : (ℓ : Loc nD τ sig) → Buf (Elt F) ℓ) (c : Dev nD) :
    after (ops (F := F)) (launchContents m c) (Proc.devRef .tc main_v248) = val_main_v248 (F := F) := by
  refine (eq_unary' hW (launchContents m c) 341 (hk 341 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 340 341 rfl (by decide)) (outp 341 rfl) (st_main_c_90 m c)).trans ?_
  rfl
theorem st_main_c_91 (m : (ℓ : Loc nD τ sig) → Buf (Elt F) ℓ) (c : Dev nD) :
    after (ops (F := F)) (launchContents m c) (Proc.devRef .tc main_c_91) = val_main_c_91 (F := F) := by
  refine (eq_nullary hW (launchContents m c) 342 (hk 342 (by decide)) (constantI S_ 32 2#32) ⟨by decide, rfl⟩ rfl (outp 342 rfl)).trans ?_
  rfl
theorem st_main_v249 (m : (ℓ : Loc nD τ sig) → Buf (Elt F) ℓ) (c : Dev nD) :
    after (ops (F := F)) (launchContents m c) (Proc.devRef .tc main_v249) = val_main_v249 (F := F) := by
  refine (eq_unary' hW (launchContents m c) 343 (hk 343 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 342 343 rfl (by decide)) (outp 343 rfl) (st_main_c_91 m c)).trans ?_
  rfl
theorem st_main_v250 (m : (ℓ : Loc nD τ sig) → Buf (Elt F) ℓ) (c : Dev nD) :
    after (ops (F := F)) (launchContents m c) (Proc.devRef .tc main_v250) = val_main_v250 (F := F) := by
  refine (eq_binary' hW (launchContents m c) 344 (hk 344 (by decide)) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ⟨by decide, rfl⟩ ⟨by decide, rfl⟩ ⟨by decide, rfl⟩ rfl (opnd 341 344 rfl (by decide)) (opnd 343 344 rfl (by decide)) (outp 344 rfl) (st_main_v248 m c) (st_main_v249 m c)).trans ?_
  rfl
theorem st_main_cst_92 (m : (ℓ : Loc nD τ sig) → Buf (Elt F) ℓ) (c : Dev nD) :
    after (ops (F := F)) (launchContents m c) (Proc.devRef .tc main_cst_92) = val_main_cst_92 (F := F) := by
  refine (eq_nullary hW (launchContents m c) 345 (hk 345 (by decide)) (constant S_ .f32 0x3F800000#32) ⟨by decide, rfl⟩ rfl (outp 345 rfl)).trans ?_
  rfl
theorem st_main_v251 (m : (ℓ : Loc nD τ sig) → Buf (Elt F) ℓ) (c : Dev nD) :
    after (ops (F := F)) (launchContents m c) (Proc.devRef .tc main_v251) = val_main_v251 (F := F) := by
  refine (eq_unary' hW (launchContents m c) 346 (hk 346 (by decide)) (broadcastInDim S32x1x767x766 ![] bcast_S_S32x1x767x766 : (⟨S_, .f32⟩ : BufTy).Contents (Elt F) → (⟨S32x1x767x766, .f32⟩ : BufTy).Contents (Elt F)) ⟨by decide, rfl⟩ ⟨by decide, rfl⟩ rfl (opnd 345 346 rfl (by decide)) (outp 346 rfl) (st_main_cst_92 m c)).trans ?_
  rfl
theorem st_main_v252 (m : (ℓ : Loc nD τ sig) → Buf (Elt F) ℓ) (c : Dev nD) :
    after (ops (F := F)) (launchContents m c) (Proc.devRef .tc main_v252) = val_main_v252 (F := F) := by
  refine (eq_ternary' hW (launchContents m c) 347 (hk 347 (by decide)) ((fun x i u => Host.scatter scatter_S32x1x768x768_S2_S32x1x767x766_0123_n_23_0 FloatOps.addf x i u) : (⟨S32x1x768x768, .f32⟩ : BufTy).Contents (Elt F) → (⟨S2, .i32⟩ : BufTy).Contents (Elt F) → (⟨S32x1x767x766, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 329 347 rfl (by decide)) (opnd 344 347 rfl (by decide)) (opnd 346 347 rfl (by decide)) (outp 347 rfl) (st_main_v239 m c) (st_main_v250 m c) (st_main_v251 m c)).trans ?_
  rfl
theorem st_main_v253 (m : (ℓ : Loc nD τ sig) → Buf (Elt F) ℓ) (c : Dev nD) :
    after (ops (F := F)) (launchContents m c) (Proc.devRef .tc main_v253) = val_main_v253 (F := F) (X0 m c) := by
  refine (eq_unary' hW (launchContents m c) 348 (hk 348 (by decide)) ((extractStridedSlice S32x1x768x766 ![0, 0, 0, 2] · slices_S32x1x768x768_S32x1x768x766_0_0_0_2) : (⟨S32x1x768x768, .f32⟩ : BufTy).Contents (Elt F) → (⟨S32x1x768x766, .f32⟩ : BufTy).Contents (Elt F)) ⟨by decide, rfl⟩ ⟨by decide, rfl⟩ rfl (opnd 7 348 rfl (by decide)) (outp 348 rfl) (st_main_v5 m c)).trans ?_
  rfl
theorem st_main_v254 (m : (ℓ : Loc nD τ sig) → Buf (Elt F) ℓ) (c : Dev nD) :
    after (ops (F := F)) (launchContents m c) (Proc.devRef .tc main_v254) = val_main_v254 (F := F) (X0 m c) := by
  refine (eq_unary' hW (launchContents m c) 349 (hk 349 (by decide)) ((extractStridedSlice S32x1x768x766 ![0, 0, 0, 0] · slices_S32x1x768x768_S32x1x768x766_0_0_0_0) : (⟨S32x1x768x768, .f32⟩ : BufTy).Contents (Elt F) → (⟨S32x1x768x766, .f32⟩ : BufTy).Contents (Elt F)) ⟨by decide, rfl⟩ ⟨by decide, rfl⟩ rfl (opnd 7 349 rfl (by decide)) (outp 349 rfl) (st_main_v5 m c)).trans ?_
  rfl
theorem st_main_v255 (m : (ℓ : Loc nD τ sig) → Buf (Elt F) ℓ) (c : Dev nD) :
    after (ops (F := F)) (launchContents m c) (Proc.devRef .tc main_v255) = val_main_v255 (F := F) (X0 m c) := by
  refine (eq_binary' hW (launchContents m c) 350 (hk 350 (by decide)) (subf : (⟨S32x1x768x766, .f32⟩ : BufTy).Contents (Elt F) → (⟨S32x1x768x766, .f32⟩ : BufTy).Contents (Elt F) → (⟨S32x1x768x766, .f32⟩ : BufTy).Contents (Elt F)) ⟨by decide, rfl⟩ ⟨by decide, rfl⟩ ⟨by decide, rfl⟩ rfl (opnd 348 350 rfl (by decide)) (opnd 349 350 rfl (by decide)) (outp 350 rfl) (st_main_v253 m c) (st_main_v254 m c)).trans ?_
  rfl
theorem st_main_v256 (m : (ℓ : Loc nD τ sig) → Buf (Elt F) ℓ) (c : Dev nD) :
    after (ops (F := F)) (launchContents m c) (Proc.devRef .tc main_v256) = val_main_v256 (F := F) (X0 m c) := by
  refine (eq_binary' hW (launchContents m c) 351 (hk 351 (by decide)) (mulf : (⟨S32x1x768x766, .f32⟩ : BufTy).Contents (Elt F) → (⟨S32x1x768x766, .f32⟩ : BufTy).Contents (Elt F) → (⟨S32x1x768x766, .f32⟩ : BufTy).Contents (Elt F)) ⟨by decide, rfl⟩ ⟨by decide, rfl⟩ ⟨by decide, rfl⟩ rfl (opnd 350 351 rfl (by decide)) (opnd 350 351 rfl (by decide)) (outp 351 rfl) (st_main_v255 m c) (st_main_v255 m c)).trans ?_
  rfl
theorem st_main_c_93 (m : (ℓ : Loc nD τ sig) → Buf (Elt F) ℓ) (c : Dev nD) :
    after (ops (F := F)) (launchContents m c) (Proc.devRef .tc main_c_93) = val_main_c_93 (F := F) := by
  refine (eq_nullary hW (launchContents m c) 352 (hk 352 (by decide)) (constantI S_ 32 2#32) ⟨by decide, rfl⟩ rfl (outp 352 rfl)).trans ?_
  rfl
theorem st_main_v257 (m : (ℓ : Loc nD τ sig) → Buf (Elt F) ℓ) (c : Dev nD) :
    after (ops (F := F)) (launchContents m c) (Proc.devRef .tc main_v257) = val_main_v257 (F := F) := by
  refine (eq_unary' hW (launchContents m c) 353 (hk 353 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 352 353 rfl (by decide)) (outp 353 rfl) (st_main_c_93 m c)).trans ?_
  rfl
theorem st_main_v258 (m : (ℓ : Loc nD τ sig) → Buf (Elt F) ℓ) (c : Dev nD) :
    after (ops (F := F)) (launchContents m c) (Proc.devRef .tc main_v258) = val_main_v258 (F := F) (X0 m c) := by
  refine (eq_ternary' hW (launchContents m c) 354 (hk 354 (by decide)) ((fun x i u => Host.scatter scatter_S32x1x768x768_S1_S32x1x768x766_0123_n_3_0 FloatOps.addf x i u) : (⟨S32x1x768x768, .f32⟩ : BufTy).Contents (Elt F) → (⟨S1, .i32⟩ : BufTy).Contents (Elt F) → (⟨S32x1x768x766, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 339 354 rfl (by decide)) (opnd 353 354 rfl (by decide)) (opnd 351 354 rfl (by decide)) (outp 354 rfl) (st_main_v247 m c) (st_main_v257 m c) (st_main_v256 m c)).trans ?_
  rfl
theorem st_main_c_94 (m : (ℓ : Loc nD τ sig) → Buf (Elt F) ℓ) (c : Dev nD) :
    after (ops (F := F)) (launchContents m c) (Proc.devRef .tc main_c_94) = val_main_c_94 (F := F) := by
  refine (eq_nullary hW (launchContents m c) 355 (hk 355 (by decide)) (constantI S_ 32 2#32) ⟨by decide, rfl⟩ rfl (outp 355 rfl)).trans ?_
  rfl
theorem st_main_v259 (m : (ℓ : Loc nD τ sig) → Buf (Elt F) ℓ) (c : Dev nD) :
    after (ops (F := F)) (launchContents m c) (Proc.devRef .tc main_v259) = val_main_v259 (F := F) := by
  refine (eq_unary' hW (launchContents m c) 356 (hk 356 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 355 356 rfl (by decide)) (outp 356 rfl) (st_main_c_94 m c)).trans ?_
  rfl
theorem st_main_cst_95 (m : (ℓ : Loc nD τ sig) → Buf (Elt F) ℓ) (c : Dev nD) :
    after (ops (F := F)) (launchContents m c) (Proc.devRef .tc main_cst_95) = val_main_cst_95 (F := F) := by
  refine (eq_nullary hW (launchContents m c) 357 (hk 357 (by decide)) (constant S_ .f32 0x3F800000#32) ⟨by decide, rfl⟩ rfl (outp 357 rfl)).trans ?_
  rfl
theorem st_main_v260 (m : (ℓ : Loc nD τ sig) → Buf (Elt F) ℓ) (c : Dev nD) :
    after (ops (F := F)) (launchContents m c) (Proc.devRef .tc main_v260) = val_main_v260 (F := F) := by
  refine (eq_unary' hW (launchContents m c) 358 (hk 358 (by decide)) (broadcastInDim S32x1x768x766 ![] bcast_S_S32x1x768x766 : (⟨S_, .f32⟩ : BufTy).Contents (Elt F) → (⟨S32x1x768x766, .f32⟩ : BufTy).Contents (Elt F)) ⟨by decide, rfl⟩ ⟨by decide, rfl⟩ rfl (opnd 357 358 rfl (by decide)) (outp 358 rfl) (st_main_cst_95 m c)).trans ?_
  rfl
theorem st_main_v261 (m : (ℓ : Loc nD τ sig) → Buf (Elt F) ℓ) (c : Dev nD) :
    after (ops (F := F)) (launchContents m c) (Proc.devRef .tc main_v261) = val_main_v261 (F := F) := by
  refine (eq_ternary' hW (launchContents m c) 359 (hk 359 (by decide)) ((fun x i u => Host.scatter scatter_S32x1x768x768_S1_S32x1x768x766_0123_n_3_0 FloatOps.addf x i u) : (⟨S32x1x768x768, .f32⟩ : BufTy).Contents (Elt F) → (⟨S1, .i32⟩ : BufTy).Contents (Elt F) → (⟨S32x1x768x766, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 347 359 rfl (by decide)) (opnd 356 359 rfl (by decide)) (opnd 358 359 rfl (by decide)) (outp 359 rfl) (st_main_v252 m c) (st_main_v259 m c) (st_main_v260 m c)).trans ?_
  rfl
theorem st_main_v262 (m : (ℓ : Loc nD τ sig) → Buf (Elt F) ℓ) (c : Dev nD) :
    after (ops (F := F)) (launchContents m c) (Proc.devRef .tc main_v262) = val_main_v262 (F := F) (X0 m c) := by
  refine (eq_unary' hW (launchContents m c) 360 (hk 360 (by decide)) ((extractStridedSlice S32x1x767x766 ![0, 0, 1, 2] · slices_S32x1x768x768_S32x1x767x766_0_0_1_2) : (⟨S32x1x768x768, .f32⟩ : BufTy).Contents (Elt F) → (⟨S32x1x767x766, .f32⟩ : BufTy).Contents (Elt F)) ⟨by decide, rfl⟩ ⟨by decide, rfl⟩ rfl (opnd 7 360 rfl (by decide)) (outp 360 rfl) (st_main_v5 m c)).trans ?_
  rfl
theorem st_main_v263 (m : (ℓ : Loc nD τ sig) → Buf (Elt F) ℓ) (c : Dev nD) :
    after (ops (F := F)) (launchContents m c) (Proc.devRef .tc main_v263) = val_main_v263 (F := F) (X0 m c) := by
  refine (eq_unary' hW (launchContents m c) 361 (hk 361 (by decide)) ((extractStridedSlice S32x1x767x766 ![0, 0, 0, 0] · slices_S32x1x768x768_S32x1x767x766_0_0_0_0) : (⟨S32x1x768x768, .f32⟩ : BufTy).Contents (Elt F) → (⟨S32x1x767x766, .f32⟩ : BufTy).Contents (Elt F)) ⟨by decide, rfl⟩ ⟨by decide, rfl⟩ rfl (opnd 7 361 rfl (by decide)) (outp 361 rfl) (st_main_v5 m c)).trans ?_
  rfl
theorem st_main_v264 (m : (ℓ : Loc nD τ sig) → Buf (Elt F) ℓ) (c : Dev nD) :
    after (ops (F := F)) (launchContents m c) (Proc.devRef .tc main_v264) = val_main_v264 (F := F) (X0 m c) := by
  refine (eq_binary' hW (launchContents m c) 362 (hk 362 (by decide)) (subf : (⟨S32x1x767x766, .f32⟩ : BufTy).Contents (Elt F) → (⟨S32x1x767x766, .f32⟩ : BufTy).Contents (Elt F) → (⟨S32x1x767x766, .f32⟩ : BufTy).Contents (Elt F)) ⟨by decide, rfl⟩ ⟨by decide, rfl⟩ ⟨by decide, rfl⟩ rfl (opnd 360 362 rfl (by decide)) (opnd 361 362 rfl (by decide)) (outp 362 rfl) (st_main_v262 m c) (st_main_v263 m c)).trans ?_
  rfl
theorem st_main_v265 (m : (ℓ : Loc nD τ sig) → Buf (Elt F) ℓ) (c : Dev nD) :
    after (ops (F := F)) (launchContents m c) (Proc.devRef .tc main_v265) = val_main_v265 (F := F) (X0 m c) := by
  refine (eq_binary' hW (launchContents m c) 363 (hk 363 (by decide)) (mulf : (⟨S32x1x767x766, .f32⟩ : BufTy).Contents (Elt F) → (⟨S32x1x767x766, .f32⟩ : BufTy).Contents (Elt F) → (⟨S32x1x767x766, .f32⟩ : BufTy).Contents (Elt F)) ⟨by decide, rfl⟩ ⟨by decide, rfl⟩ ⟨by decide, rfl⟩ rfl (opnd 362 363 rfl (by decide)) (opnd 362 363 rfl (by decide)) (outp 363 rfl) (st_main_v264 m c) (st_main_v264 m c)).trans ?_
  rfl
theorem st_main_c_96 (m : (ℓ : Loc nD τ sig) → Buf (Elt F) ℓ) (c : Dev nD) :
    after (ops (F := F)) (launchContents m c) (Proc.devRef .tc main_c_96) = val_main_c_96 (F := F) := by
  refine (eq_nullary hW (launchContents m c) 364 (hk 364 (by decide)) (constantI S_ 32 1#32) ⟨by decide, rfl⟩ rfl (outp 364 rfl)).trans ?_
  rfl
theorem st_main_v266 (m : (ℓ : Loc nD τ sig) → Buf (Elt F) ℓ) (c : Dev nD) :
    after (ops (F := F)) (launchContents m c) (Proc.devRef .tc main_v266) = val_main_v266 (F := F) := by
  refine (eq_unary' hW (launchContents m c) 365 (hk 365 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 364 365 rfl (by decide)) (outp 365 rfl) (st_main_c_96 m c)).trans ?_
  rfl
theorem st_main_c_97 (m : (ℓ : Loc nD τ sig) → Buf (Elt F) ℓ) (c : Dev nD) :
    after (ops (F := F)) (launchContents m c) (Proc.devRef .tc main_c_97) = val_main_c_97 (F := F) := by
  refine (eq_nullary hW (launchContents m c) 366 (hk 366 (by decide)) (constantI S_ 32 2#32) ⟨by decide, rfl⟩ rfl (outp 366 rfl)).trans ?_
  rfl
theorem st_main_v267 (m : (ℓ : Loc nD τ sig) → Buf (Elt F) ℓ) (c : Dev nD) :
    after (ops (F := F)) (launchContents m c) (Proc.devRef .tc main_v267) = val_main_v267 (F := F) := by
  refine (eq_unary' hW (launchContents m c) 367 (hk 367 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 366 367 rfl (by decide)) (outp 367 rfl) (st_main_c_97 m c)).trans ?_
  rfl
theorem st_main_v268 (m : (ℓ : Loc nD τ sig) → Buf (Elt F) ℓ) (c : Dev nD) :
    after (ops (F := F)) (launchContents m c) (Proc.devRef .tc main_v268) = val_main_v268 (F := F) := by
  refine (eq_binary' hW (launchContents m c) 368 (hk 368 (by decide)) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ⟨by decide, rfl⟩ ⟨by decide, rfl⟩ ⟨by decide, rfl⟩ rfl (opnd 365 368 rfl (by decide)) (opnd 367 368 rfl (by decide)) (outp 368 rfl) (st_main_v266 m c) (st_main_v267 m c)).trans ?_
  rfl
theorem st_main_v269 (m : (ℓ : Loc nD τ sig) → Buf (Elt F) ℓ) (c : Dev nD) :
    after (ops (F := F)) (launchContents m c) (Proc.devRef .tc main_v269) = val_main_v269 (F := F) (X0 m c) := by
  refine (eq_ternary' hW (launchContents m c) 369 (hk 369 (by decide)) ((fun x i u => Host.scatter scatter_S32x1x768x768_S2_S32x1x767x766_0123_n_23_0 FloatOps.addf x i u) : (⟨S32x1x768x768, .f32⟩ : BufTy).Contents (Elt F) → (⟨S2, .i32⟩ : BufTy).Contents (Elt F) → (⟨S32x1x767x766, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 354 369 rfl (by decide)) (opnd 368 369 rfl (by decide)) (opnd 363 369 rfl (by decide)) (outp 369 rfl) (st_main_v258 m c) (st_main_v268 m c) (st_main_v265 m c)).trans ?_
  rfl
theorem st_main_c_98 (m : (ℓ : Loc nD τ sig) → Buf (Elt F) ℓ) (c : Dev nD) :
    after (ops (F := F)) (launchContents m c) (Proc.devRef .tc main_c_98) = val_main_c_98 (F := F) := by
  refine (eq_nullary hW (launchContents m c) 370 (hk 370 (by decide)) (constantI S_ 32 1#32) ⟨by decide, rfl⟩ rfl (outp 370 rfl)).trans ?_
  rfl
theorem st_main_v270 (m : (ℓ : Loc nD τ sig) → Buf (Elt F) ℓ) (c : Dev nD) :
    after (ops (F := F)) (launchContents m c) (Proc.devRef .tc main_v270) = val_main_v270 (F := F) := by
  refine (eq_unary' hW (launchContents m c) 371 (hk 371 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 370 371 rfl (by decide)) (outp 371 rfl) (st_main_c_98 m c)).trans ?_
  rfl
theorem st_main_c_99 (m : (ℓ : Loc nD τ sig) → Buf (Elt F) ℓ) (c : Dev nD) :
    after (ops (F := F)) (launchContents m c) (Proc.devRef .tc main_c_99) = val_main_c_99 (F := F) := by
  refine (eq_nullary hW (launchContents m c) 372 (hk 372 (by decide)) (constantI S_ 32 2#32) ⟨by decide, rfl⟩ rfl (outp 372 rfl)).trans ?_
  rfl
theorem st_main_v271 (m : (ℓ : Loc nD τ sig) → Buf (Elt F) ℓ) (c : Dev nD) :
    after (ops (F := F)) (launchContents m c) (Proc.devRef .tc main_v271) = val_main_v271 (F := F) := by
  refine (eq_unary' hW (launchContents m c) 373 (hk 373 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 372 373 rfl (by decide)) (outp 373 rfl) (st_main_c_99 m c)).trans ?_
  rfl
theorem st_main_v272 (m : (ℓ : Loc nD τ sig) → Buf (Elt F) ℓ) (c : Dev nD) :
    after (ops (F := F)) (launchContents m c) (Proc.devRef .tc main_v272) = val_main_v272 (F := F) := by
  refine (eq_binary' hW (launchContents m c) 374 (hk 374 (by decide)) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ⟨by decide, rfl⟩ ⟨by decide, rfl⟩ ⟨by decide, rfl⟩ rfl (opnd 371 374 rfl (by decide)) (opnd 373 374 rfl (by decide)) (outp 374 rfl) (st_main_v270 m c) (st_main_v271 m c)).trans ?_
  rfl
theorem st_main_cst_100 (m : (ℓ : Loc nD τ sig) → Buf (Elt F) ℓ) (c : Dev nD) :
    after (ops (F := F)) (launchContents m c) (Proc.devRef .tc main_cst_100) = val_main_cst_100 (F := F) := by
  refine (eq_nullary hW (launchContents m c) 375 (hk 375 (by decide)) (constant S_ .f32 0x3F800000#32) ⟨by decide, rfl⟩ rfl (outp 375 rfl)).trans ?_
  rfl
theorem st_main_v273 (m : (ℓ : Loc nD τ sig) → Buf (Elt F) ℓ) (c : Dev nD) :
    after (ops (F := F)) (launchContents m c) (Proc.devRef .tc main_v273) = val_main_v273 (F := F) := by
  refine (eq_unary' hW (launchContents m c) 376 (hk 376 (by decide)) (broadcastInDim S32x1x767x766 ![] bcast_S_S32x1x767x766 : (⟨S_, .f32⟩ : BufTy).Contents (Elt F) → (⟨S32x1x767x766, .f32⟩ : BufTy).Contents (Elt F)) ⟨by decide, rfl⟩ ⟨by decide, rfl⟩ rfl (opnd 375 376 rfl (by decide)) (outp 376 rfl) (st_main_cst_100 m c)).trans ?_
  rfl
theorem st_main_v274 (m : (ℓ : Loc nD τ sig) → Buf (Elt F) ℓ) (c : Dev nD) :
    after (ops (F := F)) (launchContents m c) (Proc.devRef .tc main_v274) = val_main_v274 (F := F) := by
  refine (eq_ternary' hW (launchContents m c) 377 (hk 377 (by decide)) ((fun x i u => Host.scatter scatter_S32x1x768x768_S2_S32x1x767x766_0123_n_23_0 FloatOps.addf x i u) : (⟨S32x1x768x768, .f32⟩ : BufTy).Contents (Elt F) → (⟨S2, .i32⟩ : BufTy).Contents (Elt F) → (⟨S32x1x767x766, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 359 377 rfl (by decide)) (opnd 374 377 rfl (by decide)) (opnd 376 377 rfl (by decide)) (outp 377 rfl) (st_main_v261 m c) (st_main_v272 m c) (st_main_v273 m c)).trans ?_
  rfl
theorem st_main_v275 (m : (ℓ : Loc nD τ sig) → Buf (Elt F) ℓ) (c : Dev nD) :
    after (ops (F := F)) (launchContents m c) (Proc.devRef .tc main_v275) = val_main_v275 (F := F) (X0 m c) := by
  refine (eq_unary' hW (launchContents m c) 378 (hk 378 (by decide)) ((extractStridedSlice S32x1x766x766 ![0, 0, 2, 2] · slices_S32x1x768x768_S32x1x766x766_0_0_2_2) : (⟨S32x1x768x768, .f32⟩ : BufTy).Contents (Elt F) → (⟨S32x1x766x766, .f32⟩ : BufTy).Contents (Elt F)) ⟨by decide, rfl⟩ ⟨by decide, rfl⟩ rfl (opnd 7 378 rfl (by decide)) (outp 378 rfl) (st_main_v5 m c)).trans ?_
  rfl
theorem st_main_v276 (m : (ℓ : Loc nD τ sig) → Buf (Elt F) ℓ) (c : Dev nD) :
    after (ops (F := F)) (launchContents m c) (Proc.devRef .tc main_v276) = val_main_v276 (F := F) (X0 m c) := by
  refine (eq_unary' hW (launchContents m c) 379 (hk 379 (by decide)) ((extractStridedSlice S32x1x766x766 ![0, 0, 0, 0] · slices_S32x1x768x768_S32x1x766x766_0_0_0_0) : (⟨S32x1x768x768, .f32⟩ : BufTy).Contents (Elt F) → (⟨S32x1x766x766, .f32⟩ : BufTy).Contents (Elt F)) ⟨by decide, rfl⟩ ⟨by decide, rfl⟩ rfl (opnd 7 379 rfl (by decide)) (outp 379 rfl) (st_main_v5 m c)).trans ?_
  rfl
theorem st_main_v277 (m : (ℓ : Loc nD τ sig) → Buf (Elt F) ℓ) (c : Dev nD) :
    after (ops (F := F)) (launchContents m c) (Proc.devRef .tc main_v277) = val_main_v277 (F := F) (X0 m c) := by
  refine (eq_binary' hW (launchContents m c) 380 (hk 380 (by decide)) (subf : (⟨S32x1x766x766, .f32⟩ : BufTy).Contents (Elt F) → (⟨S32x1x766x766, .f32⟩ : BufTy).Contents (Elt F) → (⟨S32x1x766x766, .f32⟩ : BufTy).Contents (Elt F)) ⟨by decide, rfl⟩ ⟨by decide, rfl⟩ ⟨by decide, rfl⟩ rfl (opnd 378 380 rfl (by decide)) (opnd 379 380 rfl (by decide)) (outp 380 rfl) (st_main_v275 m c) (st_main_v276 m c)).trans ?_
  rfl
theorem st_main_v278 (m : (ℓ : Loc nD τ sig) → Buf (Elt F) ℓ) (c : Dev nD) :
    after (ops (F := F)) (launchContents m c) (Proc.devRef .tc main_v278) = val_main_v278 (F := F) (X0 m c) := by
  refine (eq_binary' hW (launchContents m c) 381 (hk 381 (by decide)) (mulf : (⟨S32x1x766x766, .f32⟩ : BufTy).Contents (Elt F) → (⟨S32x1x766x766, .f32⟩ : BufTy).Contents (Elt F) → (⟨S32x1x766x766, .f32⟩ : BufTy).Contents (Elt F)) ⟨by decide, rfl⟩ ⟨by decide, rfl⟩ ⟨by decide, rfl⟩ rfl (opnd 380 381 rfl (by decide)) (opnd 380 381 rfl (by decide)) (outp 381 rfl) (st_main_v277 m c) (st_main_v277 m c)).trans ?_
  rfl
theorem st_main_c_101 (m : (ℓ : Loc nD τ sig) → Buf (Elt F) ℓ) (c : Dev nD) :
    after (ops (F := F)) (launchContents m c) (Proc.devRef .tc main_c_101) = val_main_c_101 (F := F) := by
  refine (eq_nullary hW (launchContents m c) 382 (hk 382 (by decide)) (constantI S_ 32 2#32) ⟨by decide, rfl⟩ rfl (outp 382 rfl)).trans ?_
  rfl
theorem st_main_v279 (m : (ℓ : Loc nD τ sig) → Buf (Elt F) ℓ) (c : Dev nD) :
    after (ops (F := F)) (launchContents m c) (Proc.devRef .tc main_v279) = val_main_v279 (F := F) := by
  refine (eq_unary' hW (launchContents m c) 383 (hk 383 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 382 383 rfl (by decide)) (outp 383 rfl) (st_main_c_101 m c)).trans ?_
  rfl
theorem st_main_c_102 (m : (ℓ : Loc nD τ sig) → Buf (Elt F) ℓ) (c : Dev nD) :
    after (ops (F := F)) (launchContents m c) (Proc.devRef .tc main_c_102) = val_main_c_102 (F := F) := by
  refine (eq_nullary hW (launchContents m c) 384 (hk 384 (by decide)) (constantI S_ 32 2#32) ⟨by decide, rfl⟩ rfl (outp 384 rfl)).trans ?_
  rfl
theorem st_main_v280 (m : (ℓ : Loc nD τ sig) → Buf (Elt F) ℓ) (c : Dev nD) :
    after (ops (F := F)) (launchContents m c) (Proc.devRef .tc main_v280) = val_main_v280 (F := F) := by
  refine (eq_unary' hW (launchContents m c) 385 (hk 385 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 384 385 rfl (by decide)) (outp 385 rfl) (st_main_c_102 m c)).trans ?_
  rfl
theorem st_main_v281 (m : (ℓ : Loc nD τ sig) → Buf (Elt F) ℓ) (c : Dev nD) :
    after (ops (F := F)) (launchContents m c) (Proc.devRef .tc main_v281) = val_main_v281 (F := F) := by
  refine (eq_binary' hW (launchContents m c) 386 (hk 386 (by decide)) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ⟨by decide, rfl⟩ ⟨by decide, rfl⟩ ⟨by decide, rfl⟩ rfl (opnd 383 386 rfl (by decide)) (opnd 385 386 rfl (by decide)) (outp 386 rfl) (st_main_v279 m c) (st_main_v280 m c)).trans ?_
  rfl
theorem st_main_v282 (m : (ℓ : Loc nD τ sig) → Buf (Elt F) ℓ) (c : Dev nD) :
    after (ops (F := F)) (launchContents m c) (Proc.devRef .tc main_v282) = val_main_v282 (F := F) (X0 m c) := by
  refine (eq_ternary' hW (launchContents m c) 387 (hk 387 (by decide)) ((fun x i u => Host.scatter scatter_S32x1x768x768_S2_S32x1x766x766_0123_n_23_0 FloatOps.addf x i u) : (⟨S32x1x768x768, .f32⟩ : BufTy).Contents (Elt F) → (⟨S2, .i32⟩ : BufTy).Contents (Elt F) → (⟨S32x1x766x766, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 369 387 rfl (by decide)) (opnd 386 387 rfl (by decide)) (opnd 381 387 rfl (by decide)) (outp 387 rfl) (st_main_v269 m c) (st_main_v281 m c) (st_main_v278 m c)).trans ?_
  rfl
theorem st_main_c_103 (m : (ℓ : Loc nD τ sig) → Buf (Elt F) ℓ) (c : Dev nD) :
    after (ops (F := F)) (launchContents m c) (Proc.devRef .tc main_c_103) = val_main_c_103 (F := F) := by
  refine (eq_nullary hW (launchContents m c) 388 (hk 388 (by decide)) (constantI S_ 32 2#32) ⟨by decide, rfl⟩ rfl (outp 388 rfl)).trans ?_
  rfl
theorem st_main_v283 (m : (ℓ : Loc nD τ sig) → Buf (Elt F) ℓ) (c : Dev nD) :
    after (ops (F := F)) (launchContents m c) (Proc.devRef .tc main_v283) = val_main_v283 (F := F) := by
  refine (eq_unary' hW (launchContents m c) 389 (hk 389 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 388 389 rfl (by decide)) (outp 389 rfl) (st_main_c_103 m c)).trans ?_
  rfl
theorem st_main_c_104 (m : (ℓ : Loc nD τ sig) → Buf (Elt F) ℓ) (c : Dev nD) :
    after (ops (F := F)) (launchContents m c) (Proc.devRef .tc main_c_104) = val_main_c_104 (F := F) := by
  refine (eq_nullary hW (launchContents m c) 390 (hk 390 (by decide)) (constantI S_ 32 2#32) ⟨by decide, rfl⟩ rfl (outp 390 rfl)).trans ?_
  rfl
theorem st_main_v284 (m : (ℓ : Loc nD τ sig) → Buf (Elt F) ℓ) (c : Dev nD) :
    after (ops (F := F)) (launchContents m c) (Proc.devRef .tc main_v284) = val_main_v284 (F := F) := by
  refine (eq_unary' hW (launchContents m c) 391 (hk 391 (by decide)) (broadcastInDim S1 ![] bcast_S_S1 : (⟨S_, .i32⟩ : BufTy).Contents (Elt F) → (⟨S1, .i32⟩ : BufTy).Contents (Elt F)) ⟨by decide, rfl⟩ ⟨by decide, rfl⟩ rfl (opnd 390 391 rfl (by decide)) (outp 391 rfl) (st_main_c_104 m c)).trans ?_
  rfl
theorem st_main_v285 (m : (ℓ : Loc nD τ sig) → Buf (Elt F) ℓ) (c : Dev nD) :
    after (ops (F := F)) (launchContents m c) (Proc.devRef .tc main_v285) = val_main_v285 (F := F) := by
  refine (eq_binary' hW (launchContents m c) 392 (hk 392 (by decide)) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ⟨by decide, rfl⟩ ⟨by decide, rfl⟩ ⟨by decide, rfl⟩ rfl (opnd 389 392 rfl (by decide)) (opnd 391 392 rfl (by decide)) (outp 392 rfl) (st_main_v283 m c) (st_main_v284 m c)).trans ?_
  rfl
theorem st_main_cst_105 (m : (ℓ : Loc nD τ sig) → Buf (Elt F) ℓ) (c : Dev nD) :
    after (ops (F := F)) (launchContents m c) (Proc.devRef .tc main_cst_105) = val_main_cst_105 (F := F) := by
  refine (eq_nullary hW (launchContents m c) 393 (hk 393 (by decide)) (constant S_ .f32 0x3F800000#32) ⟨by decide, rfl⟩ rfl (outp 393 rfl)).trans ?_
  rfl
theorem st_main_v286 (m : (ℓ : Loc nD τ sig) → Buf (Elt F) ℓ) (c : Dev nD) :
    after (ops (F := F)) (launchContents m c) (Proc.devRef .tc main_v286) = val_main_v286 (F := F) := by
  refine (eq_unary' hW (launchContents m c) 394 (hk 394 (by decide)) (broadcastInDim S32x1x766x766 ![] bcast_S_S32x1x766x766 : (⟨S_, .f32⟩ : BufTy).Contents (Elt F) → (⟨S32x1x766x766, .f32⟩ : BufTy).Contents (Elt F)) ⟨by decide, rfl⟩ ⟨by decide, rfl⟩ rfl (opnd 393 394 rfl (by decide)) (outp 394 rfl) (st_main_cst_105 m c)).trans ?_
  rfl
theorem st_main_v287 (m : (ℓ : Loc nD τ sig) → Buf (Elt F) ℓ) (c : Dev nD) :
    after (ops (F := F)) (launchContents m c) (Proc.devRef .tc main_v287) = val_main_v287 (F := F) := by
  refine (eq_ternary' hW (launchContents m c) 395 (hk 395 (by decide)) ((fun x i u => Host.scatter scatter_S32x1x768x768_S2_S32x1x766x766_0123_n_23_0 FloatOps.addf x i u) : (⟨S32x1x768x768, .f32⟩ : BufTy).Contents (Elt F) → (⟨S2, .i32⟩ : BufTy).Contents (Elt F) → (⟨S32x1x766x766, .f32⟩ : BufTy).Contents (Elt F) → (⟨S32x1x768x768, .f32⟩ : BufTy).Contents (Elt F)) ⟨by decide, rfl⟩ ⟨by decide, rfl⟩ ⟨by decide, rfl⟩ ⟨by decide, rfl⟩ rfl (opnd 377 395 rfl (by decide)) (opnd 392 395 rfl (by decide)) (opnd 394 395 rfl (by decide)) (outp 395 rfl) (st_main_v274 m c) (st_main_v285 m c) (st_main_v286 m c)).trans ?_
  rfl
theorem st_main_v288 (m : (ℓ : Loc nD τ sig) → Buf (Elt F) ℓ) (c : Dev nD) :
    after (ops (F := F)) (launchContents m c) (Proc.devRef .tc main_v288) = val_main_v288 (F := F) (X0 m c) := by
  refine (eq_binary' hW (launchContents m c) 396 (hk 396 (by decide)) (Host.divf : (⟨S32x1x768x768, .f32⟩ : BufTy).Contents (Elt F) → (⟨S32x1x768x768, .f32⟩ : BufTy).Contents (Elt F) → (⟨S32x1x768x768, .f32⟩ : BufTy).Contents (Elt F)) ⟨by decide, rfl⟩ ⟨by decide, rfl⟩ ⟨by decide, rfl⟩ rfl (opnd 387 396 rfl (by decide)) (opnd 395 396 rfl (by decide)) (outp 396 rfl) (st_main_v282 m c) (st_main_v287 m c)).trans ?_
  rfl
theorem st_main_cst_106 (m : (ℓ : Loc nD τ sig) → Buf (Elt F) ℓ) (c : Dev nD) :
    after (ops (F := F)) (launchContents m c) (Proc.devRef .tc main_cst_106) = val_main_cst_106 (F := F) := by
  refine (eq_nullary hW (launchContents m c) 397 (hk 397 (by decide)) (constant S_ .f32 0x3F800000#32) ⟨by decide, rfl⟩ rfl (outp 397 rfl)).trans ?_
  rfl
theorem st_main_v289 (m : (ℓ : Loc nD τ sig) → Buf (Elt F) ℓ) (c : Dev nD) :
    after (ops (F := F)) (launchContents m c) (Proc.devRef .tc main_v289) = val_main_v289 (F := F) := by
  refine (eq_unary' hW (launchContents m c) 398 (hk 398 (by decide)) (broadcastInDim S32x1x768x768 ![] bcast_S_S32x1x768x768 : (⟨S_, .f32⟩ : BufTy).Contents (Elt F) → (⟨S32x1x768x768, .f32⟩ : BufTy).Contents (Elt F)) ⟨by decide, rfl⟩ ⟨by decide, rfl⟩ rfl (opnd 397 398 rfl (by decide)) (outp 398 rfl) (st_main_cst_106 m c)).trans ?_
  rfl
theorem st_main_v290 (m : (ℓ : Loc nD τ sig) → Buf (Elt F) ℓ) (c : Dev nD) :
    after (ops (F := F)) (launchContents m c) (Proc.devRef .tc main_v290) = val_main_v290 (F := F) (X0 m c) := by
  refine (eq_binary' hW (launchContents m c) 399 (hk 399 (by decide)) (subf : (⟨S32x1x768x768, .f32⟩ : BufTy).Contents (Elt F) → (⟨S32x1x768x768, .f32⟩ : BufTy).Contents (Elt F) → (⟨S32x1x768x768, .f32⟩ : BufTy).Contents (Elt F)) ⟨by decide, rfl⟩ ⟨by decide, rfl⟩ ⟨by decide, rfl⟩ rfl (opnd 398 399 rfl (by decide)) (opnd 396 399 rfl (by decide)) (outp 399 rfl) (st_main_v289 m c) (st_main_v288 m c)).trans ?_
  rfl
theorem st_main_v291 (m : (ℓ : Loc nD τ sig) → Buf (Elt F) ℓ) (c : Dev nD) :
    after (ops (F := F)) (launchContents m c) (Proc.devRef .tc main_v291) = val_main_v291 (F := F) (X0 m c) := by
  refine (eq_unary' hW (launchContents m c) 400 (hk 400 (by decide)) (Host.negf : (⟨S32x1x768x768, .f32⟩ : BufTy).Contents (Elt F) → (⟨S32x1x768x768, .f32⟩ : BufTy).Contents (Elt F)) ⟨by decide, rfl⟩ ⟨by decide, rfl⟩ rfl (arg_main_arg0 400) (outp 400 rfl) (st_main_arg0 m c)).trans ?_
  rfl
theorem st_main_v292 (m : (ℓ : Loc nD τ sig) → Buf (Elt F) ℓ) (c : Dev nD) :
    after (ops (F := F)) (launchContents m c) (Proc.devRef .tc main_v292) = val_main_v292 (F := F) (X0 m c) := by
  refine (eq_unary' hW (launchContents m c) 401 (hk 401 (by decide)) (Host.exp : (⟨S32x1x768x768, .f32⟩ : BufTy).Contents (Elt F) → (⟨S32x1x768x768, .f32⟩ : BufTy).Contents (Elt F)) ⟨by decide, rfl⟩ ⟨by decide, rfl⟩ rfl (opnd 400 401 rfl (by decide)) (outp 401 rfl) (st_main_v291 m c)).trans ?_
  rfl
theorem st_main_cst_107 (m : (ℓ : Loc nD τ sig) → Buf (Elt F) ℓ) (c : Dev nD) :
    after (ops (F := F)) (launchContents m c) (Proc.devRef .tc main_cst_107) = val_main_cst_107 (F := F) := by
  refine (eq_nullary hW (launchContents m c) 402 (hk 402 (by decide)) (constant S_ .f32 0x3F800000#32) ⟨by decide, rfl⟩ rfl (outp 402 rfl)).trans ?_
  rfl
theorem st_main_v293 (m : (ℓ : Loc nD τ sig) → Buf (Elt F) ℓ) (c : Dev nD) :
    after (ops (F := F)) (launchContents m c) (Proc.devRef .tc main_v293) = val_main_v293 (F := F) := by
  refine (eq_unary' hW (launchContents m c) 403 (hk 403 (by decide)) (broadcastInDim S32x1x768x768 ![] bcast_S_S32x1x768x768 : (⟨S_, .f32⟩ : BufTy).Contents (Elt F) → (⟨S32x1x768x768, .f32⟩ : BufTy).Contents (Elt F)) ⟨by decide, rfl⟩ ⟨by decide, rfl⟩ rfl (opnd 402 403 rfl (by decide)) (outp 403 rfl) (st_main_cst_107 m c)).trans ?_
  rfl
theorem st_main_v294 (m : (ℓ : Loc nD τ sig) → Buf (Elt F) ℓ) (c : Dev nD) :
    after (ops (F := F)) (launchContents m c) (Proc.devRef .tc main_v294) = val_main_v294 (F := F) (X0 m c) := by
  refine (eq_binary' hW (launchContents m c) 404 (hk 404 (by decide)) (addf : (⟨S32x1x768x768, .f32⟩ : BufTy).Contents (Elt F) → (⟨S32x1x768x768, .f32⟩ : BufTy).Contents (Elt F) → (⟨S32x1x768x768, .f32⟩ : BufTy).Contents (Elt F)) ⟨by decide, rfl⟩ ⟨by decide, rfl⟩ ⟨by decide, rfl⟩ rfl (opnd 403 404 rfl (by decide)) (opnd 401 404 rfl (by decide)) (outp 404 rfl) (st_main_v293 m c) (st_main_v292 m c)).trans ?_
  rfl
theorem st_main_cst_108 (m : (ℓ : Loc nD τ sig) → Buf (Elt F) ℓ) (c : Dev nD) :
    after (ops (F := F)) (launchContents m c) (Proc.devRef .tc main_cst_108) = val_main_cst_108 (F := F) := by
  refine (eq_nullary hW (launchContents m c) 405 (hk 405 (by decide)) (constant S_ .f32 0x3F800000#32) ⟨by decide, rfl⟩ rfl (outp 405 rfl)).trans ?_
  rfl
theorem st_main_v295 (m : (ℓ : Loc nD τ sig) → Buf (Elt F) ℓ) (c : Dev nD) :
    after (ops (F := F)) (launchContents m c) (Proc.devRef .tc main_v295) = val_main_v295 (F := F) := by
  refine (eq_unary' hW (launchContents m c) 406 (hk 406 (by decide)) (broadcastInDim S32x1x768x768 ![] bcast_S_S32x1x768x768 : (⟨S_, .f32⟩ : BufTy).Contents (Elt F) → (⟨S32x1x768x768, .f32⟩ : BufTy).Contents (Elt F)) ⟨by decide, rfl⟩ ⟨by decide, rfl⟩ rfl (opnd 405 406 rfl (by decide)) (outp 406 rfl) (st_main_cst_108 m c)).trans ?_
  rfl
theorem st_main_v296 (m : (ℓ : Loc nD τ sig) → Buf (Elt F) ℓ) (c : Dev nD) :
    after (ops (F := F)) (launchContents m c) (Proc.devRef .tc main_v296) = val_main_v296 (F := F) (X0 m c) := by
  refine (eq_binary' hW (launchContents m c) 407 (hk 407 (by decide)) (Host.divf : (⟨S32x1x768x768, .f32⟩ : BufTy).Contents (Elt F) → (⟨S32x1x768x768, .f32⟩ : BufTy).Contents (Elt F) → (⟨S32x1x768x768, .f32⟩ : BufTy).Contents (Elt F)) ⟨by decide, rfl⟩ ⟨by decide, rfl⟩ ⟨by decide, rfl⟩ rfl (opnd 406 407 rfl (by decide)) (opnd 404 407 rfl (by decide)) (outp 407 rfl) (st_main_v295 m c) (st_main_v294 m c)).trans ?_
  rfl
theorem st_main_call0_cst (m : (ℓ : Loc nD τ sig) → Buf (Elt F) ℓ) (c : Dev nD) :
    after (ops (F := F)) (launchContents m c) (Proc.devRef .tc main_call0_cst) = val_main_call0_cst (F := F) := by
  refine (eq_nullary hW (launchContents m c) 408 (hk 408 (by decide)) ((TRef.of (T := ⟨S_, .f32⟩) main_call0_cst).toBuf (constant S_ .f32 0x00000000#32)) (TRef.of (T := ⟨S_, .f32⟩) main_call0_cst).dev rfl (outp 408 rfl)).trans ?_
  rfl
theorem st_main_call0_v0 (m : (ℓ : Loc nD τ sig) → Buf (Elt F) ℓ) (c : Dev nD) :
    after (ops (F := F)) (launchContents m c) (Proc.devRef .tc main_call0_v0) = val_main_call0_v0 (F := F) := by
  refine (eq_unary' hW (launchContents m c) 409 (hk 409 (by decide)) (fun v => (TRef.of (T := ⟨S32x1x768x768, .f32⟩) main_call0_v0).toBuf ((broadcastInDim S32x1x768x768 ![] bcast_S_S32x1x768x768) ((TRef.of (T := ⟨S_, .f32⟩) main_call0_cst).ofBuf v))) (TRef.of (T := ⟨S_, .f32⟩) main_call0_cst).dev (TRef.of (T := ⟨S32x1x768x768, .f32⟩) main_call0_v0).dev rfl (opnd 408 409 rfl (by decide)) (outp 409 rfl) (st_main_call0_cst m c)).trans ?_
  rfl
theorem st_main_call0_v1 (m : (ℓ : Loc nD τ sig) → Buf (Elt F) ℓ) (c : Dev nD) :
    after (ops (F := F)) (launchContents m c) (Proc.devRef .tc main_call0_v1) = val_main_call0_v1 (F := F) (X0 m c) := by
  refine (eq_binary' hW (launchContents m c) 410 (hk 410 (by decide)) (fun u v => (TRef.of (T := ⟨S32x1x768x768, .f32⟩) main_call0_v1).toBuf (maximumf ((TRef.of (T := ⟨S32x1x768x768, .f32⟩) main_arg0).ofBuf u) ((TRef.of (T := ⟨S32x1x768x768, .f32⟩) main_call0_v0).ofBuf v))) (TRef.of (T := ⟨S32x1x768x768, .f32⟩) main_arg0).dev (TRef.of (T := ⟨S32x1x768x768, .f32⟩) main_call0_v0).dev (TRef.of (T := ⟨S32x1x768x768, .f32⟩) main_call0_v1).dev rfl (arg_main_arg0 410) (opnd 409 410 rfl (by decide)) (outp 410 rfl) (st_main_arg0 m c) (st_main_call0_v0 m c)).trans ?_
  rfl
theorem st_main_call0_v2 (m : (ℓ : Loc nD τ sig) → Buf (Elt F) ℓ) (c : Dev nD) :
    after (ops (F := F)) (launchContents m c) (Proc.devRef .tc main_call0_v2) = val_main_call0_v2 (F := F) := by
  refine (eq_unary' hW (launchContents m c) 411 (hk 411 (by decide)) (fun v => (TRef.of (T := ⟨S32x1x768x768, .f32⟩) main_call0_v2).toBuf ((broadcastInDim S32x1x768x768 ![] bcast_S_S32x1x768x768) ((TRef.of (T := ⟨S_, .f32⟩) main_call0_cst).ofBuf v))) (TRef.of (T := ⟨S_, .f32⟩) main_call0_cst).dev (TRef.of (T := ⟨S32x1x768x768, .f32⟩) main_call0_v2).dev rfl (opnd 408 411 rfl (by decide)) (outp 411 rfl) (st_main_call0_cst m c)).trans ?_
  rfl
theorem st_main_call0_v3 (m : (ℓ : Loc nD τ sig) → Buf (Elt F) ℓ) (c : Dev nD) :
    after (ops (F := F)) (launchContents m c) (Proc.devRef .tc main_call0_v3) = val_main_call0_v3 (F := F) (X0 m c) := by
  refine (eq_binary' hW (launchContents m c) 412 (hk 412 (by decide)) (fun u v => (TRef.of (T := ⟨S32x1x768x768, .f32⟩) main_call0_v3).toBuf (subf ((TRef.of (T := ⟨S32x1x768x768, .f32⟩) main_arg0).ofBuf u) ((TRef.of (T := ⟨S32x1x768x768, .f32⟩) main_call0_v2).ofBuf v))) (TRef.of (T := ⟨S32x1x768x768, .f32⟩) main_arg0).dev (TRef.of (T := ⟨S32x1x768x768, .f32⟩) main_call0_v2).dev (TRef.of (T := ⟨S32x1x768x768, .f32⟩) main_call0_v3).dev rfl (arg_main_arg0 412) (opnd 411 412 rfl (by decide)) (outp 412 rfl) (st_main_arg0 m c) (st_main_call0_v2 m c)).trans ?_
  rfl
theorem st_main_call0_v4 (m : (ℓ : Loc nD τ sig) → Buf (Elt F) ℓ) (c : Dev nD) :
    after (ops (F := F)) (launchContents m c) (Proc.devRef .tc main_call0_v4) = val_main_call0_v4 (F := F) (X0 m c) := by
  refine (eq_binary' hW (launchContents m c) 413 (hk 413 (by decide)) (fun u v => (TRef.of (T := ⟨S32x1x768x768, .i1⟩) main_call0_v4).toBuf ((cmpf .une) ((TRef.of (T := ⟨S32x1x768x768, .f32⟩) main_call0_v3).ofBuf u) ((TRef.of (T := ⟨S32x1x768x768, .f32⟩) main_call0_v3).ofBuf v))) (TRef.of (T := ⟨S32x1x768x768, .f32⟩) main_call0_v3).dev (TRef.of (T := ⟨S32x1x768x768, .f32⟩) main_call0_v3).dev (TRef.of (T := ⟨S32x1x768x768, .i1⟩) main_call0_v4).dev rfl (opnd 412 413 rfl (by decide)) (opnd 412 413 rfl (by decide)) (outp 413 rfl) (st_main_call0_v3 m c) (st_main_call0_v3 m c)).trans ?_
  rfl
theorem st_main_call0_v5 (m : (ℓ : Loc nD τ sig) → Buf (Elt F) ℓ) (c : Dev nD) :
    after (ops (F := F)) (launchContents m c) (Proc.devRef .tc main_call0_v5) = val_main_call0_v5 (F := F) := by
  refine (eq_unary' hW (launchContents m c) 414 (hk 414 (by decide)) (fun v => (TRef.of (T := ⟨S32x1x768x768, .f32⟩) main_call0_v5).toBuf ((broadcastInDim S32x1x768x768 ![] bcast_S_S32x1x768x768) ((TRef.of (T := ⟨S_, .f32⟩) main_call0_cst).ofBuf v))) (TRef.of (T := ⟨S_, .f32⟩) main_call0_cst).dev (TRef.of (T := ⟨S32x1x768x768, .f32⟩) main_call0_v5).dev rfl (opnd 408 414 rfl (by decide)) (outp 414 rfl) (st_main_call0_cst m c)).trans ?_
  rfl
theorem st_main_call0_v6 (m : (ℓ : Loc nD τ sig) → Buf (Elt F) ℓ) (c : Dev nD) :
    after (ops (F := F)) (launchContents m c) (Proc.devRef .tc main_call0_v6) = val_main_call0_v6 (F := F) (X0 m c) := by
  refine (eq_binary' hW (launchContents m c) 415 (hk 415 (by decide)) (fun u v => (TRef.of (T := ⟨S32x1x768x768, .f32⟩) main_call0_v6).toBuf (addf ((TRef.of (T := ⟨S32x1x768x768, .f32⟩) main_arg0).ofBuf u) ((TRef.of (T := ⟨S32x1x768x768, .f32⟩) main_call0_v5).ofBuf v))) (TRef.of (T := ⟨S32x1x768x768, .f32⟩) main_arg0).dev (TRef.of (T := ⟨S32x1x768x768, .f32⟩) main_call0_v5).dev (TRef.of (T := ⟨S32x1x768x768, .f32⟩) main_call0_v6).dev rfl (arg_main_arg0 415) (opnd 414 415 rfl (by decide)) (outp 415 rfl) (st_main_arg0 m c) (st_main_call0_v5 m c)).trans ?_
  rfl
theorem st_main_call0_v7 (m : (ℓ : Loc nD τ sig) → Buf (Elt F) ℓ) (c : Dev nD) :
    after (ops (F := F)) (launchContents m c) (Proc.devRef .tc main_call0_v7) = val_main_call0_v7 (F := F) (X0 m c) := by
  refine (eq_unary' hW (launchContents m c) 416 (hk 416 (by decide)) (fun v => (TRef.of (T := ⟨S32x1x768x768, .f32⟩) main_call0_v7).toBuf (Host.absf ((TRef.of (T := ⟨S32x1x768x768, .f32⟩) main_call0_v3).ofBuf v))) (TRef.of (T := ⟨S32x1x768x768, .f32⟩) main_call0_v3).dev (TRef.of (T := ⟨S32x1x768x768, .f32⟩) main_call0_v7).dev rfl (opnd 412 416 rfl (by decide)) (outp 416 rfl) (st_main_call0_v3 m c)).trans ?_
  rfl
theorem st_main_call0_v8 (m : (ℓ : Loc nD τ sig) → Buf (Elt F) ℓ) (c : Dev nD) :
    after (ops (F := F)) (launchContents m c) (Proc.devRef .tc main_call0_v8) = val_main_call0_v8 (F := F) (X0 m c) := by
  refine (eq_unary' hW (launchContents m c) 417 (hk 417 (by decide)) (fun v => (TRef.of (T := ⟨S32x1x768x768, .f32⟩) main_call0_v8).toBuf (Host.negf ((TRef.of (T := ⟨S32x1x768x768, .f32⟩) main_call0_v7).ofBuf v))) (TRef.of (T := ⟨S32x1x768x768, .f32⟩) main_call0_v7).dev (TRef.of (T := ⟨S32x1x768x768, .f32⟩) main_call0_v8).dev rfl (opnd 416 417 rfl (by decide)) (outp 417 rfl) (st_main_call0_v7 m c)).trans ?_
  rfl
theorem st_main_call0_v9 (m : (ℓ : Loc nD τ sig) → Buf (Elt F) ℓ) (c : Dev nD) :
    after (ops (F := F)) (launchContents m c) (Proc.devRef .tc main_call0_v9) = val_main_call0_v9 (F := F) (X0 m c) := by
  refine (eq_unary' hW (launchContents m c) 418 (hk 418 (by decide)) (fun v => (TRef.of (T := ⟨S32x1x768x768, .f32⟩) main_call0_v9).toBuf (Host.exp ((TRef.of (T := ⟨S32x1x768x768, .f32⟩) main_call0_v8).ofBuf v))) (TRef.of (T := ⟨S32x1x768x768, .f32⟩) main_call0_v8).dev (TRef.of (T := ⟨S32x1x768x768, .f32⟩) main_call0_v9).dev rfl (opnd 417 418 rfl (by decide)) (outp 418 rfl) (st_main_call0_v8 m c)).trans ?_
  rfl
theorem st_main_call0_v10 (m : (ℓ : Loc nD τ sig) → Buf (Elt F) ℓ) (c : Dev nD) :
    after (ops (F := F)) (launchContents m c) (Proc.devRef .tc main_call0_v10) = val_main_call0_v10 (F := F) (X0 m c) := by
  refine (eq_unary' hW (launchContents m c) 419 (hk 419 (by decide)) (fun v => (TRef.of (T := ⟨S32x1x768x768, .f32⟩) main_call0_v10).toBuf (Host.log1p ((TRef.of (T := ⟨S32x1x768x768, .f32⟩) main_call0_v9).ofBuf v))) (TRef.of (T := ⟨S32x1x768x768, .f32⟩) main_call0_v9).dev (TRef.of (T := ⟨S32x1x768x768, .f32⟩) main_call0_v10).dev rfl (opnd 418 419 rfl (by decide)) (outp 419 rfl) (st_main_call0_v9 m c)).trans ?_
  rfl
theorem st_main_call0_v11 (m : (ℓ : Loc nD τ sig) → Buf (Elt F) ℓ) (c : Dev nD) :
    after (ops (F := F)) (launchContents m c) (Proc.devRef .tc main_call0_v11) = val_main_call0_v11 (F := F) (X0 m c) := by
  refine (eq_binary' hW (launchContents m c) 420 (hk 420 (by decide)) (fun u v => (TRef.of (T := ⟨S32x1x768x768, .f32⟩) main_call0_v11).toBuf (addf ((TRef.of (T := ⟨S32x1x768x768, .f32⟩) main_call0_v1).ofBuf u) ((TRef.of (T := ⟨S32x1x768x768, .f32⟩) main_call0_v10).ofBuf v))) (TRef.of (T := ⟨S32x1x768x768, .f32⟩) main_call0_v1).dev (TRef.of (T := ⟨S32x1x768x768, .f32⟩) main_call0_v10).dev (TRef.of (T := ⟨S32x1x768x768, .f32⟩) main_call0_v11).dev rfl (opnd 410 420 rfl (by decide)) (opnd 419 420 rfl (by decide)) (outp 420 rfl) (st_main_call0_v1 m c) (st_main_call0_v10 m c)).trans ?_
  rfl
theorem st_main_v297 (m : (ℓ : Loc nD τ sig) → Buf (Elt F) ℓ) (c : Dev nD) :
    after (ops (F := F)) (launchContents m c) (Proc.devRef .tc main_v297) = val_main_v297 (F := F) (X0 m c) := by
  refine (eq_ternary' hW (launchContents m c) 421 (hk 421 (by decide)) (fun w u v => (TRef.of (T := ⟨S32x1x768x768, .f32⟩) main_v297).toBuf (select ((TRef.of (T := ⟨S32x1x768x768, .i1⟩) main_call0_v4).ofBuf w) ((TRef.of (T := ⟨S32x1x768x768, .f32⟩) main_call0_v6).ofBuf u) ((TRef.of (T := ⟨S32x1x768x768, .f32⟩) main_call0_v11).ofBuf v))) (TRef.of (T := ⟨S32x1x768x768, .i1⟩) main_call0_v4).dev (TRef.of (T := ⟨S32x1x768x768, .f32⟩) main_call0_v6).dev (TRef.of (T := ⟨S32x1x768x768, .f32⟩) main_call0_v11).dev (TRef.of (T := ⟨S32x1x768x768, .f32⟩) main_v297).dev rfl (opnd 413 421 rfl (by decide)) (opnd 415 421 rfl (by decide)) (opnd 420 421 rfl (by decide)) (outp 421 rfl) (st_main_call0_v4 m c) (st_main_call0_v6 m c) (st_main_call0_v11 m c)).trans ?_
  rfl
theorem st_main_v298 (m : (ℓ : Loc nD τ sig) → Buf (Elt F) ℓ) (c : Dev nD) :
    after (ops (F := F)) (launchContents m c) (Proc.devRef .tc main_v298) = val_main_v298 (F := F) (X0 m c) := by
  refine (eq_binary' hW (launchContents m c) 422 (hk 422 (by decide)) (subf : (⟨S32x1x768x768, .f32⟩ : BufTy).Contents (Elt F) → (⟨S32x1x768x768, .f32⟩ : BufTy).Contents (Elt F) → (⟨S32x1x768x768, .f32⟩ : BufTy).Contents (Elt F)) ⟨by decide, rfl⟩ ⟨by decide, rfl⟩ ⟨by decide, rfl⟩ rfl (arg_main_arg0 422) (opnd 421 422 rfl (by decide)) (outp 422 rfl) (st_main_arg0 m c) (st_main_v297 m c)).trans ?_
  rfl
theorem st_main_v299 (m : (ℓ : Loc nD τ sig) → Buf (Elt F) ℓ) (c : Dev nD) :
    after (ops (F := F)) (launchContents m c) (Proc.devRef .tc main_v299) = val_main_v299 (F := F) (X0 m c) := by
  refine (eq_binary' hW (launchContents m c) 423 (hk 423 (by decide)) (mulf : (⟨S32x1x768x768, .f32⟩ : BufTy).Contents (Elt F) → (⟨S32x1x768x768, .f32⟩ : BufTy).Contents (Elt F) → (⟨S32x1x768x768, .f32⟩ : BufTy).Contents (Elt F)) ⟨by decide, rfl⟩ ⟨by decide, rfl⟩ ⟨by decide, rfl⟩ rfl (opnd 407 423 rfl (by decide)) (opnd 422 423 rfl (by decide)) (outp 423 rfl) (st_main_v296 m c) (st_main_v298 m c)).trans ?_
  rfl
theorem st_main_cst_109 (m : (ℓ : Loc nD τ sig) → Buf (Elt F) ℓ) (c : Dev nD) :
    after (ops (F := F)) (launchContents m c) (Proc.devRef .tc main_cst_109) = val_main_cst_109 (F := F) := by
  refine (eq_nullary hW (launchContents m c) 424 (hk 424 (by decide)) (constant S_ .f32 0x3F800000#32) ⟨by decide, rfl⟩ rfl (outp 424 rfl)).trans ?_
  rfl
theorem st_main_v300 (m : (ℓ : Loc nD τ sig) → Buf (Elt F) ℓ) (c : Dev nD) :
    after (ops (F := F)) (launchContents m c) (Proc.devRef .tc main_v300) = val_main_v300 (F := F) := by
  refine (eq_unary' hW (launchContents m c) 425 (hk 425 (by decide)) (broadcastInDim S32x1x768x768 ![] bcast_S_S32x1x768x768 : (⟨S_, .f32⟩ : BufTy).Contents (Elt F) → (⟨S32x1x768x768, .f32⟩ : BufTy).Contents (Elt F)) ⟨by decide, rfl⟩ ⟨by decide, rfl⟩ rfl (opnd 424 425 rfl (by decide)) (outp 425 rfl) (st_main_cst_109 m c)).trans ?_
  rfl
theorem st_main_v301 (m : (ℓ : Loc nD τ sig) → Buf (Elt F) ℓ) (c : Dev nD) :
    after (ops (F := F)) (launchContents m c) (Proc.devRef .tc main_v301) = val_main_v301 (F := F) (X0 m c) := by
  refine (eq_binary' hW (launchContents m c) 426 (hk 426 (by decide)) (subf : (⟨S32x1x768x768, .f32⟩ : BufTy).Contents (Elt F) → (⟨S32x1x768x768, .f32⟩ : BufTy).Contents (Elt F) → (⟨S32x1x768x768, .f32⟩ : BufTy).Contents (Elt F)) ⟨by decide, rfl⟩ ⟨by decide, rfl⟩ ⟨by decide, rfl⟩ rfl (opnd 425 426 rfl (by decide)) (opnd 407 426 rfl (by decide)) (outp 426 rfl) (st_main_v300 m c) (st_main_v296 m c)).trans ?_
  rfl
theorem st_main_v302 (m : (ℓ : Loc nD τ sig) → Buf (Elt F) ℓ) (c : Dev nD) :
    after (ops (F := F)) (launchContents m c) (Proc.devRef .tc main_v302) = val_main_v302 (F := F) (X0 m c) := by
  refine (eq_binary' hW (launchContents m c) 427 (hk 427 (by decide)) (mulf : (⟨S32x1x768x768, .f32⟩ : BufTy).Contents (Elt F) → (⟨S32x1x768x768, .f32⟩ : BufTy).Contents (Elt F) → (⟨S32x1x768x768, .f32⟩ : BufTy).Contents (Elt F)) ⟨by decide, rfl⟩ ⟨by decide, rfl⟩ ⟨by decide, rfl⟩ rfl (opnd 426 427 rfl (by decide)) (opnd 421 427 rfl (by decide)) (outp 427 rfl) (st_main_v301 m c) (st_main_v297 m c)).trans ?_
  rfl
theorem st_main_v303 (m : (ℓ : Loc nD τ sig) → Buf (Elt F) ℓ) (c : Dev nD) :
    after (ops (F := F)) (launchContents m c) (Proc.devRef .tc main_v303) = val_main_v303 (F := F) (X0 m c) := by
  refine (eq_binary' hW (launchContents m c) 428 (hk 428 (by decide)) (subf : (⟨S32x1x768x768, .f32⟩ : BufTy).Contents (Elt F) → (⟨S32x1x768x768, .f32⟩ : BufTy).Contents (Elt F) → (⟨S32x1x768x768, .f32⟩ : BufTy).Contents (Elt F)) ⟨by decide, rfl⟩ ⟨by decide, rfl⟩ ⟨by decide, rfl⟩ rfl (opnd 423 428 rfl (by decide)) (opnd 427 428 rfl (by decide)) (outp 428 rfl) (st_main_v299 m c) (st_main_v302 m c)).trans ?_
  rfl
theorem st_main_cst_110 (m : (ℓ : Loc nD τ sig) → Buf (Elt F) ℓ) (c : Dev nD) :
    after (ops (F := F)) (launchContents m c) (Proc.devRef .tc main_cst_110) = val_main_cst_110 (F := F) := by
  refine (eq_nullary hW (launchContents m c) 429 (hk 429 (by decide)) (constant S_ .f32 0x3FB8AA3B#32) ⟨by decide, rfl⟩ rfl (outp 429 rfl)).trans ?_
  rfl
theorem st_main_v304 (m : (ℓ : Loc nD τ sig) → Buf (Elt F) ℓ) (c : Dev nD) :
    after (ops (F := F)) (launchContents m c) (Proc.devRef .tc main_v304) = val_main_v304 (F := F) := by
  refine (eq_unary' hW (launchContents m c) 430 (hk 430 (by decide)) (broadcastInDim S32x1x768x768 ![] bcast_S_S32x1x768x768 : (⟨S_, .f32⟩ : BufTy).Contents (Elt F) → (⟨S32x1x768x768, .f32⟩ : BufTy).Contents (Elt F)) ⟨by decide, rfl⟩ ⟨by decide, rfl⟩ rfl (opnd 429 430 rfl (by decide)) (outp 430 rfl) (st_main_cst_110 m c)).trans ?_
  rfl
theorem st_main_v305 (m : (ℓ : Loc nD τ sig) → Buf (Elt F) ℓ) (c : Dev nD) :
    after (ops (F := F)) (launchContents m c) (Proc.devRef .tc main_v305) = val_main_v305 (F := F) (X0 m c) := by
  refine (eq_binary' hW (launchContents m c) 431 (hk 431 (by decide)) (mulf : (⟨S32x1x768x768, .f32⟩ : BufTy).Contents (Elt F) → (⟨S32x1x768x768, .f32⟩ : BufTy).Contents (Elt F) → (⟨S32x1x768x768, .f32⟩ : BufTy).Contents (Elt F)) ⟨by decide, rfl⟩ ⟨by decide, rfl⟩ ⟨by decide, rfl⟩ rfl (opnd 428 431 rfl (by decide)) (opnd 430 431 rfl (by decide)) (outp 431 rfl) (st_main_v303 m c) (st_main_v304 m c)).trans ?_
  rfl
theorem st_main_cst_111 (m : (ℓ : Loc nD τ sig) → Buf (Elt F) ℓ) (c : Dev nD) :
    after (ops (F := F)) (launchContents m c) (Proc.devRef .tc main_cst_111) = val_main_cst_111 (F := F) := by
  refine (eq_nullary hW (launchContents m c) 432 (hk 432 (by decide)) (constant S_ .f32 0x3F800000#32) ⟨by decide, rfl⟩ rfl (outp 432 rfl)).trans ?_
  rfl
theorem st_main_v306 (m : (ℓ : Loc nD τ sig) → Buf (Elt F) ℓ) (c : Dev nD) :
    after (ops (F := F)) (launchContents m c) (Proc.devRef .tc main_v306) = val_main_v306 (F := F) := by
  refine (eq_unary' hW (launchContents m c) 433 (hk 433 (by decide)) (broadcastInDim S32x1x768x768 ![] bcast_S_S32x1x768x768 : (⟨S_, .f32⟩ : BufTy).Contents (Elt F) → (⟨S32x1x768x768, .f32⟩ : BufTy).Contents (Elt F)) ⟨by decide, rfl⟩ ⟨by decide, rfl⟩ rfl (opnd 432 433 rfl (by decide)) (outp 433 rfl) (st_main_cst_111 m c)).trans ?_
  rfl
theorem st_main_v307 (m : (ℓ : Loc nD τ sig) → Buf (Elt F) ℓ) (c : Dev nD) :
    after (ops (F := F)) (launchContents m c) (Proc.devRef .tc main_v307) = val_main_v307 (F := F) (X0 m c) := by
  refine (eq_binary' hW (launchContents m c) 434 (hk 434 (by decide)) (addf : (⟨S32x1x768x768, .f32⟩ : BufTy).Contents (Elt F) → (⟨S32x1x768x768, .f32⟩ : BufTy).Contents (Elt F) → (⟨S32x1x768x768, .f32⟩ : BufTy).Contents (Elt F)) ⟨by decide, rfl⟩ ⟨by decide, rfl⟩ ⟨by decide, rfl⟩ rfl (opnd 433 434 rfl (by decide)) (opnd 431 434 rfl (by decide)) (outp 434 rfl) (st_main_v306 m c) (st_main_v305 m c)).trans ?_
  rfl
theorem st_main_v308 (m : (ℓ : Loc nD τ sig) → Buf (Elt F) ℓ) (c : Dev nD) :
    after (ops (F := F)) (launchContents m c) (Proc.devRef .tc main_v308) = val_main_v308 (F := F) (X0 m c) := by
  refine (eq_binary' hW (launchContents m c) 435 (hk 435 (by decide)) (mulf : (⟨S32x1x768x768, .f32⟩ : BufTy).Contents (Elt F) → (⟨S32x1x768x768, .f32⟩ : BufTy).Contents (Elt F) → (⟨S32x1x768x768, .f32⟩ : BufTy).Contents (Elt F)) ⟨by decide, rfl⟩ ⟨by decide, rfl⟩ ⟨by decide, rfl⟩ rfl (opnd 399 435 rfl (by decide)) (opnd 434 435 rfl (by decide)) (outp 435 rfl) (st_main_v290 m c) (st_main_v307 m c)).trans ?_
  rfl
theorem st_main_v309 (m : (ℓ : Loc nD τ sig) → Buf (Elt F) ℓ) (c : Dev nD) :
    after (ops (F := F)) (launchContents m c) (Proc.devRef .tc main_v309) = val_main_v309 (F := F) (X0 m c) (X1 m c) := by
  refine (eq_binary' hW (launchContents m c) 436 (hk 436 (by decide)) (maximumf : (⟨S32x1x768x768, .f32⟩ : BufTy).Contents (Elt F) → (⟨S32x1x768x768, .f32⟩ : BufTy).Contents (Elt F) → (⟨S32x1x768x768, .f32⟩ : BufTy).Contents (Elt F)) ⟨by decide, rfl⟩ ⟨by decide, rfl⟩ ⟨by decide, rfl⟩ rfl (opnd 435 436 rfl (by decide)) (arg_main_arg1 436) (outp 436 rfl) (st_main_v308 m c) (st_main_arg1 m c)).trans ?_
  rfl
theorem st_main_cst_112 (m : (ℓ : Loc nD τ sig) → Buf (Elt F) ℓ) (c : Dev nD) :
    after (ops (F := F)) (launchContents m c) (Proc.devRef .tc main_cst_112) = val_main_cst_112 (F := F) := by
  refine (eq_nullary hW (launchContents m c) 437 (hk 437 (by decide)) (constant S_ .f32 0x3F666666#32) ⟨by decide, rfl⟩ rfl (outp 437 rfl)).trans ?_
  rfl
theorem st_main_v310 (m : (ℓ : Loc nD τ sig) → Buf (Elt F) ℓ) (c : Dev nD) :
    after (ops (F := F)) (launchContents m c) (Proc.devRef .tc main_v310) = val_main_v310 (F := F) := by
  refine (eq_unary' hW (launchContents m c) 438 (hk 438 (by decide)) (broadcastInDim S32x1x768x768 ![] bcast_S_S32x1x768x768 : (⟨S_, .f32⟩ : BufTy).Contents (Elt F) → (⟨S32x1x768x768, .f32⟩ : BufTy).Contents (Elt F)) ⟨by decide, rfl⟩ ⟨by decide, rfl⟩ rfl (opnd 437 438 rfl (by decide)) (outp 438 rfl) (st_main_cst_112 m c)).trans ?_
  rfl
theorem st_main_v311 (m : (ℓ : Loc nD τ sig) → Buf (Elt F) ℓ) (c : Dev nD) :
    after (ops (F := F)) (launchContents m c) (Proc.devRef .tc main_v311) = val_main_v311 (F := F) (X0 m c) (X1 m c) := by
  refine (eq_binary' hW (launchContents m c) 439 (hk 439 (by decide)) (mulf : (⟨S32x1x768x768, .f32⟩ : BufTy).Contents (Elt F) → (⟨S32x1x768x768, .f32⟩ : BufTy).Contents (Elt F) → (⟨S32x1x768x768, .f32⟩ : BufTy).Contents (Elt F)) ⟨by decide, rfl⟩ ⟨by decide, rfl⟩ ⟨by decide, rfl⟩ rfl (opnd 438 439 rfl (by decide)) (opnd 436 439 rfl (by decide)) (outp 439 rfl) (st_main_v310 m c) (st_main_v309 m c)).trans ?_
  rfl
theorem st_main_cst_113 (m : (ℓ : Loc nD τ sig) → Buf (Elt F) ℓ) (c : Dev nD) :
    after (ops (F := F)) (launchContents m c) (Proc.devRef .tc main_cst_113) = val_main_cst_113 (F := F) := by
  refine (eq_nullary hW (launchContents m c) 440 (hk 440 (by decide)) (constant S_ .f32 0x3DCCCCCD#32) ⟨by decide, rfl⟩ rfl (outp 440 rfl)).trans ?_
  rfl
theorem st_main_v312 (m : (ℓ : Loc nD τ sig) → Buf (Elt F) ℓ) (c : Dev nD) :
    after (ops (F := F)) (launchContents m c) (Proc.devRef .tc main_v312) = val_main_v312 (F := F) := by
  refine (eq_unary' hW (launchContents m c) 441 (hk 441 (by decide)) (broadcastInDim S32x1x768x768 ![] bcast_S_S32x1x768x768 : (⟨S_, .f32⟩ : BufTy).Contents (Elt F) → (⟨S32x1x768x768, .f32⟩ : BufTy).Contents (Elt F)) ⟨by decide, rfl⟩ ⟨by decide, rfl⟩ rfl (opnd 440 441 rfl (by decide)) (outp 441 rfl) (st_main_cst_113 m c)).trans ?_
  rfl
theorem st_main_v313 (m : (ℓ : Loc nD τ sig) → Buf (Elt F) ℓ) (c : Dev nD) :
    after (ops (F := F)) (launchContents m c) (Proc.devRef .tc main_v313) = val_main_v313 (F := F) (X0 m c) (X1 m c) := by
  refine (eq_binary' hW (launchContents m c) 442 (hk 442 (by decide)) (addf : (⟨S32x1x768x768, .f32⟩ : BufTy).Contents (Elt F) → (⟨S32x1x768x768, .f32⟩ : BufTy).Contents (Elt F) → (⟨S32x1x768x768, .f32⟩ : BufTy).Contents (Elt F)) ⟨by decide, rfl⟩ ⟨by decide, rfl⟩ ⟨by decide, rfl⟩ rfl (opnd 439 442 rfl (by decide)) (opnd 441 442 rfl (by decide)) (outp 442 rfl) (st_main_v311 m c) (st_main_v312 m c)).trans ?_
  rfl
theorem st_main_cst_114 (m : (ℓ : Loc nD τ sig) → Buf (Elt F) ℓ) (c : Dev nD) :
    after (ops (F := F)) (launchContents m c) (Proc.devRef .tc main_cst_114) = val_main_cst_114 (F := F) := by
  refine (eq_nullary hW (launchContents m c) 443 (hk 443 (by decide)) (constant S_ .f32 0x00000000#32) ⟨by decide, rfl⟩ rfl (outp 443 rfl)).trans ?_
  rfl
theorem st_main_v314 (m : (ℓ : Loc nD τ sig) → Buf (Elt F) ℓ) (c : Dev nD) :
    after (ops (F := F)) (launchContents m c) (Proc.devRef .tc main_v314) = val_main_v314 (F := F) (X0 m c) (X1 m c) := by
  refine (eq_binary' hW (launchContents m c) 444 (hk 444 (by decide)) ((fun x v => Host.reduceAdd x v reducesTo_S32x1x768x768_S32x1_d2_3 h_S_) : (⟨S32x1x768x768, .f32⟩ : BufTy).Contents (Elt F) → (⟨S_, .f32⟩ : BufTy).Contents (Elt F) → (⟨S32x1, .f32⟩ : BufTy).Contents (Elt F)) ⟨by decide, rfl⟩ ⟨by decide, rfl⟩ ⟨by decide, rfl⟩ rfl (opnd 442 444 rfl (by decide)) (opnd 443 444 rfl (by decide)) (outp 444 rfl) (st_main_v313 m c) (st_main_cst_114 m c)).trans ?_
  rfl
theorem st_main_v315 (m : (ℓ : Loc nD τ sig) → Buf (Elt F) ℓ) (c : Dev nD) :
    after (ops (F := F)) (launchContents m c) (Proc.devRef .tc main_v315) = val_main_v315 (F := F) (X0 m c) (X1 m c) := by
  refine (eq_unary' hW (launchContents m c) 445 (hk 445 (by decide)) (broadcastInDim S32x1x1x1 ![0, 1] bcast_S32x1_S32x1x1x1_0_1 : (⟨S32x1, .f32⟩ : BufTy).Contents (Elt F) → (⟨S32x1x1x1, .f32⟩ : BufTy).Contents (Elt F)) ⟨by decide, rfl⟩ ⟨by decide, rfl⟩ rfl (opnd 444 445 rfl (by decide)) (outp 445 rfl) (st_main_v314 m c)).trans ?_
  rfl
theorem st_main_cst_115 (m : (ℓ : Loc nD τ sig) → Buf (Elt F) ℓ) (c : Dev nD) :
    after (ops (F := F)) (launchContents m c) (Proc.devRef .tc main_cst_115) = val_main_cst_115 (F := F) := by
  refine (eq_nullary hW (launchContents m c) 446 (hk 446 (by decide)) (constant S_ .f32 0x49100000#32) ⟨by decide, rfl⟩ rfl (outp 446 rfl)).trans ?_
  rfl
theorem st_main_v316 (m : (ℓ : Loc nD τ sig) → Buf (Elt F) ℓ) (c : Dev nD) :
    after (ops (F := F)) (launchContents m c) (Proc.devRef .tc main_v316) = val_main_v316 (F := F) := by
  refine (eq_unary' hW (launchContents m c) 447 (hk 447 (by decide)) (broadcastInDim S32x1x1x1 ![] bcast_S_S32x1x1x1 : (⟨S_, .f32⟩ : BufTy).Contents (Elt F) → (⟨S32x1x1x1, .f32⟩ : BufTy).Contents (Elt F)) ⟨by decide, rfl⟩ ⟨by decide, rfl⟩ rfl (opnd 446 447 rfl (by decide)) (outp 447 rfl) (st_main_cst_115 m c)).trans ?_
  rfl
theorem st_main_v317 (m : (ℓ : Loc nD τ sig) → Buf (Elt F) ℓ) (c : Dev nD) :
    after (ops (F := F)) (launchContents m c) (Proc.devRef .tc main_v317) = val_main_v317 (F := F) (X0 m c) (X1 m c) := by
  refine (eq_binary' hW (launchContents m c) 448 (hk 448 (by decide)) (Host.divf : (⟨S32x1x1x1, .f32⟩ : BufTy).Contents (Elt F) → (⟨S32x1x1x1, .f32⟩ : BufTy).Contents (Elt F) → (⟨S32x1x1x1, .f32⟩ : BufTy).Contents (Elt F)) ⟨by decide, rfl⟩ ⟨by decide, rfl⟩ ⟨by decide, rfl⟩ rfl (opnd 445 448 rfl (by decide)) (opnd 447 448 rfl (by decide)) (outp 448 rfl) (st_main_v315 m c) (st_main_v316 m c)).trans ?_
  rfl
theorem st_main_v318 (m : (ℓ : Loc nD τ sig) → Buf (Elt F) ℓ) (c : Dev nD) :
    after (ops (F := F)) (launchContents m c) (Proc.devRef .tc main_v318) = val_main_v318 (F := F) (X0 m c) (X1 m c) := by
  refine (eq_unary' hW (launchContents m c) 449 (hk 449 (by decide)) (broadcastInDim S32x1x768x768 ![0, 1, 2, 3] bcast_S32x1x1x1_S32x1x768x768_0_1_2_3 : (⟨S32x1x1x1, .f32⟩ : BufTy).Contents (Elt F) → (⟨S32x1x768x768, .f32⟩ : BufTy).Contents (Elt F)) ⟨by decide, rfl⟩ ⟨by decide, rfl⟩ rfl (opnd 448 449 rfl (by decide)) (outp 449 rfl) (st_main_v317 m c)).trans ?_
  rfl
theorem st_main_v319 (m : (ℓ : Loc nD τ sig) → Buf (Elt F) ℓ) (c : Dev nD) :
    after (ops (F := F)) (launchContents m c) (Proc.devRef .tc main_v319) = val_main_v319 (F := F) (X0 m c) (X1 m c) := by
  refine (eq_binary' hW (launchContents m c) 450 (hk 450 (by decide)) (Host.divf : (⟨S32x1x768x768, .f32⟩ : BufTy).Contents (Elt F) → (⟨S32x1x768x768, .f32⟩ : BufTy).Contents (Elt F) → (⟨S32x1x768x768, .f32⟩ : BufTy).Contents (Elt F)) ⟨by decide, rfl⟩ ⟨by decide, rfl⟩ ⟨by decide, rfl⟩ rfl (opnd 442 450 rfl (by decide)) (opnd 449 450 rfl (by decide)) (outp 450 rfl) (st_main_v313 m c) (st_main_v318 m c)).trans ?_
  rfl

end Cert.ReferenceIdeal.RRun

end
-- ==== Proof.RRun.lean ====
/-
  The reference program's run, read stage by stage.

  Every weakly fair execution of the reference's @main terminates with each buffer at the fold of the operations over the
  launch contents (`run_seq`). Stage by stage (Proof/RRunStages.lean) that fold holds, at the result buffer, the last
  stage function of Proof/RefRead.lean applied to the launch contents of the two arguments; and the arguments, written by
  no operation, end as launched.
-/
import proofs.«119324_j40802189312445_2_alg».proof.Proof.RRunStages

noncomputable section

namespace Cert.ReferenceIdeal.RRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The reference's run: the result at the last stage function of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v319) = val_main_v319 (F := F) (X0 m c) (X1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v319).trans (st_main_v319 m c),
      (h c main_arg0).trans (st_main_arg0 m c), (h c main_arg1).trans (st_main_arg1 m c)⟩)
    (run_seq scopedRefs_eq scopedSems_eq defs main (fun _ => ops) main_eq (fun _ => ops_sub) m ρ)

end Cert.ReferenceIdeal.RRun

end
-- ==== Proof.RStencil.lean ====
/-
  The reference's 24-neighbour sum of squared differences and its neighbour count, read at one pixel.

  The reference builds each of the two arrays by 24 successive scatter-adds into an array of zeros. The k-th
  scatter-add adds a whole rectangular window (all images, the one channel, `hh` rows, `ww` columns) at the constant
  corner `(ry, rx)`. For the sum, the window is the squared difference of two equally sized slices of the sigmoid image,
  the first cut at `(ry, rx)` (the pixels that have the neighbour), the second at `(ty, tx)` (their neighbours); for the
  count, the window is constantly `1`. One window lands on each pixel at most once, so a scatter-add read at pixel
  `(p, q)` is the old value plus the offset's term (the squared difference inside the rectangle, `0` outside),
  respectively plus its count. Chaining the 24 steps from the zero array gives the sum and the count with the COLUMN
  offset outermost, the order in which the reference meets the offsets.
-/
import proofs.«119324_j40802189312445_2_alg».proof.Proof.RefRead
import proofs.«119324_j40802189312445_2_alg».proof.Proof.LibScatter
import proofs.«119324_j40802189312445_2_alg».proof.Proof.Stencil
import Idealize.ShloMosaic.PureOps.Ideal.Laws

noncomputable section

namespace Cert.ReferenceIdeal.RStencil

open Idealize.ShloMosaic Idealize.ShloMosaic.ValueIdx Cert.ReferenceIdeal Cert.ReferenceIdeal.ReadP

/-! ## One scatter-add of a window, read at a pixel -/

/-- A window of `hh × ww` squared differences added at the corner `(ry, rx)`: at pixel `(p, q)` the result is the old
    value plus the offset's term, provided the window's entry that lands on `(p, q)` (when one does) is the squared
    difference of `P` at the pixel and at its neighbour `(p - ry + ty, q - rx + tx)`. -/
theorem scatter_term_step {hh ww : Nat} {si : Shape} {wd : Nat}
    (d : ScatterDims ⟨4, ![32, 1, 768, 768]⟩ si ⟨4, ![32, 1, hh, ww]⟩)
    (X : (⟨4, ![32, 1, 768, 768]⟩ : Shape).Idx → EReal) (idx : IVec si wd)
    (upd : (⟨4, ![32, 1, hh, ww]⟩ : Shape).Idx → EReal) (P : Nat → Nat → EReal) (ry rx ty tx : Nat)
    (hw0 : ∀ j, d.window j 0 = (j 0).val) (hw1 : ∀ j, d.window j 1 = (j 1).val)
    (hw2 : ∀ j, d.window j 2 = (j 2).val) (hw3 : ∀ j, d.window j 3 = (j 3).val)
    (hs0 : ∀ j, d.start j idx 0 = 0) (hs1 : ∀ j, d.start j idx 1 = 0)
    (hs2 : ∀ j, d.start j idx 2 = (ry : Int)) (hs3 : ∀ j, d.start j idx 3 = (rx : Int))
    (hb2 : ry + hh ≤ 768) (hb3 : rx + ww ≤ 768) (n : Fin 32) (p q : Fin 768)
    (hv : ∀ hin : Cert.Stencil.inRect ry rx hh ww p.val q.val,
      upd (ix4 n (0 : Fin 1) (⟨p.val - ry, by have := hin; omega⟩ : Fin hh) (⟨q.val - rx, by have := hin; omega⟩ : Fin ww)) =
        (P p.val q.val - P (p.val - ry + ty) (q.val - rx + tx)) * (P p.val q.val - P (p.val - ry + ty) (q.val - rx + tx))) :
    Host.scatter d (FloatOps.addf (F := Ideal) (φ := .f32)) X idx upd (ix4 n (0 : Fin 1) p q) =
      X (ix4 n (0 : Fin 1) p q) + Cert.Stencil.term P ry rx ty tx hh ww p.val q.val := by
  refine (Host.scatter_window4_apply d _ X idx upd ry rx hw0 hw1 hw2 hw3 hs0 hs1 hs2 hs3 hb2 hb3 n 0 p q).trans ?_
  exact Cert.Stencil.dite_add_eq_add_ite _ _ _ _ hv

/-- A window constantly `one` added at the corner `(ry, rx)`: at pixel `(p, q)` the result is the old value plus the
    offset's count. -/
theorem scatter_cnt_step {hh ww : Nat} {si : Shape} {wd : Nat}
    (d : ScatterDims ⟨4, ![32, 1, 768, 768]⟩ si ⟨4, ![32, 1, hh, ww]⟩)
    (X : (⟨4, ![32, 1, 768, 768]⟩ : Shape).Idx → EReal) (idx : IVec si wd)
    (upd : (⟨4, ![32, 1, hh, ww]⟩ : Shape).Idx → EReal) (one : EReal) (ry rx : Nat)
    (hw0 : ∀ j, d.window j 0 = (j 0).val) (hw1 : ∀ j, d.window j 1 = (j 1).val)
    (hw2 : ∀ j, d.window j 2 = (j 2).val) (hw3 : ∀ j, d.window j 3 = (j 3).val)
    (hs0 : ∀ j, d.start j idx 0 = 0) (hs1 : ∀ j, d.start j idx 1 = 0)
    (hs2 : ∀ j, d.start j idx 2 = (ry : Int)) (hs3 : ∀ j, d.start j idx 3 = (rx : Int))
    (hb2 : ry + hh ≤ 768) (hb3 : rx + ww ≤ 768) (n : Fin 32) (p q : Fin 768)
    (hv : ∀ j, upd j = one) :
    Host.scatter d (FloatOps.addf (F := Ideal) (φ := .f32)) X idx upd (ix4 n (0 : Fin 1) p q) =
      X (ix4 n (0 : Fin 1) p q) + Cert.Stencil.cnt one ry rx hh ww p.val q.val := by
  refine (Host.scatter_window4_apply d _ X idx upd ry rx hw0 hw1 hw2 hw3 hs0 hs1 hs2 hs3 hb2 hb3 n 0 p q).trans ?_
  exact Cert.Stencil.dite_add_eq_add_ite _ _ _ _ (fun _ => hv _)

/-- An image that is `P` on image `n` (in row and column coordinates), read at any index of image `n` whose row is `a`
    and whose column is `b`: the one channel coordinate can only be `0`. -/
theorem sig_at (S : (⟨4, ![32, 1, 768, 768]⟩ : Shape).Idx → EReal) (n : Fin 32) (P : Nat → Nat → EReal)
    (hP : ∀ a b : Fin 768, S (ix4 n (0 : Fin 1) a b) = P a.val b.val)
    (k : (⟨4, ![32, 1, 768, 768]⟩ : Shape).Idx) (a b : Nat)
    (h0 : (k 0).val = n.val) (h2 : (k 2).val = a) (h3 : (k 3).val = b) : S k = P a b := by
  have ha : a < 768 := by rw [← h2]; exact (k 2).isLt
  have hb : b < 768 := by rw [← h3]; exact (k 3).isLt
  have e : k = ix4 n (0 : Fin 1) (⟨a, ha⟩ : Fin 768) (⟨b, hb⟩ : Fin 768) := by
    funext c
    match c with
    | ⟨0, _⟩ => exact Fin.ext h0
    | ⟨1, _⟩ => exact Fin.ext (by have h1 : (k 1).val < 1 := (k 1).isLt; show (k 1).val = 0; omega)
    | ⟨2, _⟩ => exact Fin.ext h2
    | ⟨3, _⟩ => exact Fin.ext h3
  rw [e]; exact hP ⟨a, ha⟩ ⟨b, hb⟩

/-- The square of a difference of two arrays, read at an index where the two arrays' values are known. -/
theorem sq_diff_at {s : Shape} (U D A B : FVec Ideal s .f32)
    (hU : ∀ i, U i = FloatOps.mulf (F := Ideal) (φ := .f32) (D i) (D i))
    (hD : ∀ i, D i = FloatOps.subf (F := Ideal) (φ := .f32) (A i) (B i))
    (i : s.Idx) (a b : EReal) (ha : A i = a) (hb : B i = b) : U i = (a - b) * (a - b) := by
  have hd : D i = a - b := (hD i).trans (congrArg₂ (fun x y : EReal => x - y) ha hb)
  exact (hU i).trans (congrArg₂ (fun x y : EReal => x * y) hd hd)

/-- Both sides of a sum get the same last term. -/
theorem add_congr_left {a b t : EReal} (h : a = b) : a + t = b + t := by rw [h]

/-- The 32-bit words `0`, `1`, `2` read as signed integers. -/
theorem toInt0 : (0#32 : BitVec 32).toInt = ((0 : Nat) : Int) := by decide
theorem toInt1 : (1#32 : BitVec 32).toInt = ((1 : Nat) : Int) := by decide
theorem toInt2 : (2#32 : BitVec 32).toInt = ((2 : Nat) : Int) := by decide

/-! ## Where each kind of scatter reads its corner

  A scatter whose index vector has two entries reads the window's first row from entry `0` and its first column from
  entry `1`; one that moves only the columns (or only the rows) reads that one coordinate from its single entry, the
  other being `0`. -/

theorem start2_766x766 (idx : IVec S2 32) (j : S32x1x766x766.Idx) :
    scatter_S32x1x768x768_S2_S32x1x766x766_0123_n_23_0.start j idx 2 = (idx (ix1 (0 : Fin 2))).toInt := by
  refine Eq.trans (b := (idx (scatter_S32x1x768x768_S2_S32x1x766x766_0123_n_23_0.siIdx j ⟨0, by decide⟩)).toInt) rfl ?_
  refine congrArg (fun k => (idx k).toInt) (funext fun b => ?_)
  match b with
  | ⟨0, _⟩ => rfl
theorem start3_766x766 (idx : IVec S2 32) (j : S32x1x766x766.Idx) :
    scatter_S32x1x768x768_S2_S32x1x766x766_0123_n_23_0.start j idx 3 = (idx (ix1 (1 : Fin 2))).toInt := by
  refine Eq.trans (b := (idx (scatter_S32x1x768x768_S2_S32x1x766x766_0123_n_23_0.siIdx j ⟨1, by decide⟩)).toInt) rfl ?_
  refine congrArg (fun k => (idx k).toInt) (funext fun b => ?_)
  match b with
  | ⟨0, _⟩ => rfl
theorem start2_767x766 (idx : IVec S2 32) (j : S32x1x767x766.Idx) :
    scatter_S32x1x768x768_S2_S32x1x767x766_0123_n_23_0.start j idx 2 = (idx (ix1 (0 : Fin 2))).toInt := by
  refine Eq.trans (b := (idx (scatter_S32x1x768x768_S2_S32x1x767x766_0123_n_23_0.siIdx j ⟨0, by decide⟩)).toInt) rfl ?_
  refine congrArg (fun k => (idx k).toInt) (funext fun b => ?_)
  match b with
  | ⟨0, _⟩ => rfl
theorem start3_767x766 (idx : IVec S2 32) (j : S32x1x767x766.Idx) :
    scatter_S32x1x768x768_S2_S32x1x767x766_0123_n_23_0.start j idx 3 = (idx (ix1 (1 : Fin 2))).toInt := by
  refine Eq.trans (b := (idx (scatter_S32x1x768x768_S2_S32x1x767x766_0123_n_23_0.siIdx j ⟨1, by decide⟩)).toInt) rfl ?_
  refine congrArg (fun k => (idx k).toInt) (funext fun b => ?_)
  match b with
  | ⟨0, _⟩ => rfl
theorem start3_768x766 (idx : IVec S1 32) (j : S32x1x768x766.Idx) :
    scatter_S32x1x768x768_S1_S32x1x768x766_0123_n_3_0.start j idx 3 = (idx (ix1 (0 : Fin 1))).toInt := by
  refine Eq.trans (b := (idx (scatter_S32x1x768x768_S1_S32x1x768x766_0123_n_3_0.siIdx j ⟨0, by decide⟩)).toInt) rfl ?_
  refine congrArg (fun k => (idx k).toInt) (funext fun b => ?_)
  match b with
  | ⟨0, _⟩ => rfl
theorem start2_766x767 (idx : IVec S2 32) (j : S32x1x766x767.Idx) :
    scatter_S32x1x768x768_S2_S32x1x766x767_0123_n_23_0.start j idx 2 = (idx (ix1 (0 : Fin 2))).toInt := by
  refine Eq.trans (b := (idx (scatter_S32x1x768x768_S2_S32x1x766x767_0123_n_23_0.siIdx j ⟨0, by decide⟩)).toInt) rfl ?_
  refine congrArg (fun k => (idx k).toInt) (funext fun b => ?_)
  match b with
  | ⟨0, _⟩ => rfl
theorem start3_766x767 (idx : IVec S2 32) (j : S32x1x766x767.Idx) :
    scatter_S32x1x768x768_S2_S32x1x766x767_0123_n_23_0.start j idx 3 = (idx (ix1 (1 : Fin 2))).toInt := by
  refine Eq.trans (b := (idx (scatter_S32x1x768x768_S2_S32x1x766x767_0123_n_23_0.siIdx j ⟨1, by decide⟩)).toInt) rfl ?_
  refine congrArg (fun k => (idx k).toInt) (funext fun b => ?_)
  match b with
  | ⟨0, _⟩ => rfl
theorem start2_767x767 (idx : IVec S2 32) (j : S32x1x767x767.Idx) :
    scatter_S32x1x768x768_S2_S32x1x767x767_0123_n_23_0.start j idx 2 = (idx (ix1 (0 : Fin 2))).toInt := by
  refine Eq.trans (b := (idx (scatter_S32x1x768x768_S2_S32x1x767x767_0123_n_23_0.siIdx j ⟨0, by decide⟩)).toInt) rfl ?_
  refine congrArg (fun k => (idx k).toInt) (funext fun b => ?_)
  match b with
  | ⟨0, _⟩ => rfl
theorem start3_767x767 (idx : IVec S2 32) (j : S32x1x767x767.Idx) :
    scatter_S32x1x768x768_S2_S32x1x767x767_0123_n_23_0.start j idx 3 = (idx (ix1 (1 : Fin 2))).toInt := by
  refine Eq.trans (b := (idx (scatter_S32x1x768x768_S2_S32x1x767x767_0123_n_23_0.siIdx j ⟨1, by decide⟩)).toInt) rfl ?_
  refine congrArg (fun k => (idx k).toInt) (funext fun b => ?_)
  match b with
  | ⟨0, _⟩ => rfl
theorem start3_768x767 (idx : IVec S1 32) (j : S32x1x768x767.Idx) :
    scatter_S32x1x768x768_S1_S32x1x768x767_0123_n_3_0.start j idx 3 = (idx (ix1 (0 : Fin 1))).toInt := by
  refine Eq.trans (b := (idx (scatter_S32x1x768x768_S1_S32x1x768x767_0123_n_3_0.siIdx j ⟨0, by decide⟩)).toInt) rfl ?_
  refine congrArg (fun k => (idx k).toInt) (funext fun b => ?_)
  match b with
  | ⟨0, _⟩ => rfl
theorem start2_766x768 (idx : IVec S1 32) (j : S32x1x766x768.Idx) :
    scatter_S32x1x768x768_S1_S32x1x766x768_0123_n_2_0.start j idx 2 = (idx (ix1 (0 : Fin 1))).toInt := by
  refine Eq.trans (b := (idx (scatter_S32x1x768x768_S1_S32x1x766x768_0123_n_2_0.siIdx j ⟨0, by decide⟩)).toInt) rfl ?_
  refine congrArg (fun k => (idx k).toInt) (funext fun b => ?_)
  match b with
  | ⟨0, _⟩ => rfl
theorem start2_767x768 (idx : IVec S1 32) (j : S32x1x767x768.Idx) :
    scatter_S32x1x768x768_S1_S32x1x767x768_0123_n_2_0.start j idx 2 = (idx (ix1 (0 : Fin 1))).toInt := by
  refine Eq.trans (b := (idx (scatter_S32x1x768x768_S1_S32x1x767x768_0123_n_2_0.siIdx j ⟨0, by decide⟩)).toInt) rfl ?_
  refine congrArg (fun k => (idx k).toInt) (funext fun b => ?_)
  match b with
  | ⟨0, _⟩ => rfl

/-! ## The index vectors' entries

  Each index vector is one or two constant words (a broadcast constant, or two of them joined). -/

theorem iv14_0 : val_main_v14 (F := Ideal) (ix1 (0 : Fin 2)) = 0#32 := rfl
theorem iv14_1 : val_main_v14 (F := Ideal) (ix1 (1 : Fin 2)) = 0#32 := rfl
theorem iv18_0 : val_main_v18 (F := Ideal) (ix1 (0 : Fin 2)) = 0#32 := rfl
theorem iv18_1 : val_main_v18 (F := Ideal) (ix1 (1 : Fin 2)) = 0#32 := rfl
theorem iv27_0 : val_main_v27 (F := Ideal) (ix1 (0 : Fin 2)) = 0#32 := rfl
theorem iv27_1 : val_main_v27 (F := Ideal) (ix1 (1 : Fin 2)) = 0#32 := rfl
theorem iv31_0 : val_main_v31 (F := Ideal) (ix1 (0 : Fin 2)) = 0#32 := rfl
theorem iv31_1 : val_main_v31 (F := Ideal) (ix1 (1 : Fin 2)) = 0#32 := rfl
theorem iv38_0 : val_main_v38 (F := Ideal) (ix1 (0 : Fin 1)) = 0#32 := rfl
theorem iv40_0 : val_main_v40 (F := Ideal) (ix1 (0 : Fin 1)) = 0#32 := rfl
theorem iv49_0 : val_main_v49 (F := Ideal) (ix1 (0 : Fin 2)) = 1#32 := rfl
theorem iv49_1 : val_main_v49 (F := Ideal) (ix1 (1 : Fin 2)) = 0#32 := rfl
theorem iv53_0 : val_main_v53 (F := Ideal) (ix1 (0 : Fin 2)) = 1#32 := rfl
theorem iv53_1 : val_main_v53 (F := Ideal) (ix1 (1 : Fin 2)) = 0#32 := rfl
theorem iv62_0 : val_main_v62 (F := Ideal) (ix1 (0 : Fin 2)) = 2#32 := rfl
theorem iv62_1 : val_main_v62 (F := Ideal) (ix1 (1 : Fin 2)) = 0#32 := rfl
theorem iv66_0 : val_main_v66 (F := Ideal) (ix1 (0 : Fin 2)) = 2#32 := rfl
theorem iv66_1 : val_main_v66 (F := Ideal) (ix1 (1 : Fin 2)) = 0#32 := rfl
theorem iv75_0 : val_main_v75 (F := Ideal) (ix1 (0 : Fin 2)) = 0#32 := rfl
theorem iv75_1 : val_main_v75 (F := Ideal) (ix1 (1 : Fin 2)) = 0#32 := rfl
theorem iv79_0 : val_main_v79 (F := Ideal) (ix1 (0 : Fin 2)) = 0#32 := rfl
theorem iv79_1 : val_main_v79 (F := Ideal) (ix1 (1 : Fin 2)) = 0#32 := rfl
theorem iv88_0 : val_main_v88 (F := Ideal) (ix1 (0 : Fin 2)) = 0#32 := rfl
theorem iv88_1 : val_main_v88 (F := Ideal) (ix1 (1 : Fin 2)) = 0#32 := rfl
theorem iv92_0 : val_main_v92 (F := Ideal) (ix1 (0 : Fin 2)) = 0#32 := rfl
theorem iv92_1 : val_main_v92 (F := Ideal) (ix1 (1 : Fin 2)) = 0#32 := rfl
theorem iv99_0 : val_main_v99 (F := Ideal) (ix1 (0 : Fin 1)) = 0#32 := rfl
theorem iv101_0 : val_main_v101 (F := Ideal) (ix1 (0 : Fin 1)) = 0#32 := rfl
theorem iv110_0 : val_main_v110 (F := Ideal) (ix1 (0 : Fin 2)) = 1#32 := rfl
theorem iv110_1 : val_main_v110 (F := Ideal) (ix1 (1 : Fin 2)) = 0#32 := rfl
theorem iv114_0 : val_main_v114 (F := Ideal) (ix1 (0 : Fin 2)) = 1#32 := rfl
theorem iv114_1 : val_main_v114 (F := Ideal) (ix1 (1 : Fin 2)) = 0#32 := rfl
theorem iv123_0 : val_main_v123 (F := Ideal) (ix1 (0 : Fin 2)) = 2#32 := rfl
theorem iv123_1 : val_main_v123 (F := Ideal) (ix1 (1 : Fin 2)) = 0#32 := rfl
theorem iv127_0 : val_main_v127 (F := Ideal) (ix1 (0 : Fin 2)) = 2#32 := rfl
theorem iv127_1 : val_main_v127 (F := Ideal) (ix1 (1 : Fin 2)) = 0#32 := rfl
theorem iv134_0 : val_main_v134 (F := Ideal) (ix1 (0 : Fin 1)) = 0#32 := rfl
theorem iv136_0 : val_main_v136 (F := Ideal) (ix1 (0 : Fin 1)) = 0#32 := rfl
theorem iv143_0 : val_main_v143 (F := Ideal) (ix1 (0 : Fin 1)) = 0#32 := rfl
theorem iv145_0 : val_main_v145 (F := Ideal) (ix1 (0 : Fin 1)) = 0#32 := rfl
theorem iv152_0 : val_main_v152 (F := Ideal) (ix1 (0 : Fin 1)) = 1#32 := rfl
theorem iv154_0 : val_main_v154 (F := Ideal) (ix1 (0 : Fin 1)) = 1#32 := rfl
theorem iv161_0 : val_main_v161 (F := Ideal) (ix1 (0 : Fin 1)) = 2#32 := rfl
theorem iv163_0 : val_main_v163 (F := Ideal) (ix1 (0 : Fin 1)) = 2#32 := rfl
theorem iv172_0 : val_main_v172 (F := Ideal) (ix1 (0 : Fin 2)) = 0#32 := rfl
theorem iv172_1 : val_main_v172 (F := Ideal) (ix1 (1 : Fin 2)) = 1#32 := rfl
theorem iv176_0 : val_main_v176 (F := Ideal) (ix1 (0 : Fin 2)) = 0#32 := rfl
theorem iv176_1 : val_main_v176 (F := Ideal) (ix1 (1 : Fin 2)) = 1#32 := rfl
theorem iv185_0 : val_main_v185 (F := Ideal) (ix1 (0 : Fin 2)) = 0#32 := rfl
theorem iv185_1 : val_main_v185 (F := Ideal) (ix1 (1 : Fin 2)) = 1#32 := rfl
theorem iv189_0 : val_main_v189 (F := Ideal) (ix1 (0 : Fin 2)) = 0#32 := rfl
theorem iv189_1 : val_main_v189 (F := Ideal) (ix1 (1 : Fin 2)) = 1#32 := rfl
theorem iv196_0 : val_main_v196 (F := Ideal) (ix1 (0 : Fin 1)) = 1#32 := rfl
theorem iv198_0 : val_main_v198 (F := Ideal) (ix1 (0 : Fin 1)) = 1#32 := rfl
theorem iv207_0 : val_main_v207 (F := Ideal) (ix1 (0 : Fin 2)) = 1#32 := rfl
theorem iv207_1 : val_main_v207 (F := Ideal) (ix1 (1 : Fin 2)) = 1#32 := rfl
theorem iv211_0 : val_main_v211 (F := Ideal) (ix1 (0 : Fin 2)) = 1#32 := rfl
theorem iv211_1 : val_main_v211 (F := Ideal) (ix1 (1 : Fin 2)) = 1#32 := rfl
theorem iv220_0 : val_main_v220 (F := Ideal) (ix1 (0 : Fin 2)) = 2#32 := rfl
theorem iv220_1 : val_main_v220 (F := Ideal) (ix1 (1 : Fin 2)) = 1#32 := rfl
theorem iv224_0 : val_main_v224 (F := Ideal) (ix1 (0 : Fin 2)) = 2#32 := rfl
theorem iv224_1 : val_main_v224 (F := Ideal) (ix1 (1 : Fin 2)) = 1#32 := rfl
theorem iv233_0 : val_main_v233 (F := Ideal) (ix1 (0 : Fin 2)) = 0#32 := rfl
theorem iv233_1 : val_main_v233 (F := Ideal) (ix1 (1 : Fin 2)) = 2#32 := rfl
theorem iv237_0 : val_main_v237 (F := Ideal) (ix1 (0 : Fin 2)) = 0#32 := rfl
theorem iv237_1 : val_main_v237 (F := Ideal) (ix1 (1 : Fin 2)) = 2#32 := rfl
theorem iv246_0 : val_main_v246 (F := Ideal) (ix1 (0 : Fin 2)) = 0#32 := rfl
theorem iv246_1 : val_main_v246 (F := Ideal) (ix1 (1 : Fin 2)) = 2#32 := rfl
theorem iv250_0 : val_main_v250 (F := Ideal) (ix1 (0 : Fin 2)) = 0#32 := rfl
theorem iv250_1 : val_main_v250 (F := Ideal) (ix1 (1 : Fin 2)) = 2#32 := rfl
theorem iv257_0 : val_main_v257 (F := Ideal) (ix1 (0 : Fin 1)) = 2#32 := rfl
theorem iv259_0 : val_main_v259 (F := Ideal) (ix1 (0 : Fin 1)) = 2#32 := rfl
theorem iv268_0 : val_main_v268 (F := Ideal) (ix1 (0 : Fin 2)) = 1#32 := rfl
theorem iv268_1 : val_main_v268 (F := Ideal) (ix1 (1 : Fin 2)) = 2#32 := rfl
theorem iv272_0 : val_main_v272 (F := Ideal) (ix1 (0 : Fin 2)) = 1#32 := rfl
theorem iv272_1 : val_main_v272 (F := Ideal) (ix1 (1 : Fin 2)) = 2#32 := rfl
theorem iv281_0 : val_main_v281 (F := Ideal) (ix1 (0 : Fin 2)) = 2#32 := rfl
theorem iv281_1 : val_main_v281 (F := Ideal) (ix1 (1 : Fin 2)) = 2#32 := rfl
theorem iv285_0 : val_main_v285 (F := Ideal) (ix1 (0 : Fin 2)) = 2#32 := rfl
theorem iv285_1 : val_main_v285 (F := Ideal) (ix1 (1 : Fin 2)) = 2#32 := rfl

/-! ## The 24 steps of the sum

  Step by step: the new array at pixel `(p, q)` of image `n` is the old one plus the term of the offset whose rectangle
  starts at `(ry, rx)`, has `hh` rows and `ww` columns, and whose neighbours start at `(ty, tx)`. `P` is the sigmoid image
  `n` in row and column coordinates. -/

/-- Rectangle from `(0, 0)`, `766 × 766`; neighbours from `(2, 2)`. -/
theorem acc_step_v15 (x0 : (⟨S32x1x768x768, .f32⟩ : BufTy).Contents (Elt Ideal)) (n : Fin 32) (P : Nat → Nat → EReal)
    (hP : ∀ a b : Fin 768, val_main_v5 (F := Ideal) x0 (ix4 n (0 : Fin 1) a b) = P a.val b.val) (p q : Fin 768) :
    val_main_v15 (F := Ideal) x0 (ix4 n (0 : Fin 1) p q) =
      val_main_v6 (F := Ideal) (ix4 n (0 : Fin 1) p q) + Cert.Stencil.term P 0 0 2 2 766 766 p.val q.val := by
  unfold val_main_v15
  refine scatter_term_step scatter_S32x1x768x768_S2_S32x1x766x766_0123_n_23_0 (val_main_v6 (F := Ideal))
    (val_main_v14 (F := Ideal)) (val_main_v11 (F := Ideal) x0) P 0 0 2 2
    (fun _ => rfl) (fun _ => rfl) (fun _ => rfl) (fun _ => rfl) (fun _ => rfl) (fun _ => rfl)
    (fun j => (start2_766x766 _ j).trans (by rw [iv14_0]; exact toInt0))
    (fun j => (start3_766x766 _ j).trans (by rw [iv14_1]; exact toInt0))
    (by omega) (by omega) n p q (fun hin => ?_)
  exact sq_diff_at (val_main_v11 (F := Ideal) x0) (val_main_v10 (F := Ideal) x0)
    (val_main_v8 (F := Ideal) x0) (val_main_v9 (F := Ideal) x0)
    (val_main_v11_apply x0) (val_main_v10_apply x0) _ _ _
    ((val_main_v8_apply x0 _).trans (sig_at (val_main_v5 (F := Ideal) x0) n P hP _ p.val q.val rfl
      (by show p.val - 0 = p.val; omega) (by show q.val - 0 = q.val; omega)))
    ((val_main_v9_apply x0 _).trans (sig_at (val_main_v5 (F := Ideal) x0) n P hP _ (p.val - 0 + 2) (q.val - 0 + 2) rfl
      (by show 2 + (p.val - 0) = p.val - 0 + 2; omega) (by show 2 + (q.val - 0) = q.val - 0 + 2; omega)))

/-- Rectangle from `(0, 0)`, `767 × 766`; neighbours from `(1, 2)`. -/
theorem acc_step_v28 (x0 : (⟨S32x1x768x768, .f32⟩ : BufTy).Contents (Elt Ideal)) (n : Fin 32) (P : Nat → Nat → EReal)
    (hP : ∀ a b : Fin 768, val_main_v5 (F := Ideal) x0 (ix4 n (0 : Fin 1) a b) = P a.val b.val) (p q : Fin 768) :
    val_main_v28 (F := Ideal) x0 (ix4 n (0 : Fin 1) p q) =
      val_main_v15 (F := Ideal) x0 (ix4 n (0 : Fin 1) p q) + Cert.Stencil.term P 0 0 1 2 767 766 p.val q.val := by
  unfold val_main_v28
  refine scatter_term_step scatter_S32x1x768x768_S2_S32x1x767x766_0123_n_23_0 (val_main_v15 (F := Ideal) x0)
    (val_main_v27 (F := Ideal)) (val_main_v24 (F := Ideal) x0) P 0 0 1 2
    (fun _ => rfl) (fun _ => rfl) (fun _ => rfl) (fun _ => rfl) (fun _ => rfl) (fun _ => rfl)
    (fun j => (start2_767x766 _ j).trans (by rw [iv27_0]; exact toInt0))
    (fun j => (start3_767x766 _ j).trans (by rw [iv27_1]; exact toInt0))
    (by omega) (by omega) n p q (fun hin => ?_)
  exact sq_diff_at (val_main_v24 (F := Ideal) x0) (val_main_v23 (F := Ideal) x0)
    (val_main_v21 (F := Ideal) x0) (val_main_v22 (F := Ideal) x0)
    (val_main_v24_apply x0) (val_main_v23_apply x0) _ _ _
    ((val_main_v21_apply x0 _).trans (sig_at (val_main_v5 (F := Ideal) x0) n P hP _ p.val q.val rfl
      (by show p.val - 0 = p.val; omega) (by show q.val - 0 = q.val; omega)))
    ((val_main_v22_apply x0 _).trans (sig_at (val_main_v5 (F := Ideal) x0) n P hP _ (p.val - 0 + 1) (q.val - 0 + 2) rfl
      (by show 1 + (p.val - 0) = p.val - 0 + 1; omega) (by show 2 + (q.val - 0) = q.val - 0 + 2; omega)))

/-- Rectangle from `(0, 0)`, `768 × 766`; neighbours from `(0, 2)`. -/
theorem acc_step_v39 (x0 : (⟨S32x1x768x768, .f32⟩ : BufTy).Contents (Elt Ideal)) (n : Fin 32) (P : Nat → Nat → EReal)
    (hP : ∀ a b : Fin 768, val_main_v5 (F := Ideal) x0 (ix4 n (0 : Fin 1) a b) = P a.val b.val) (p q : Fin 768) :
    val_main_v39 (F := Ideal) x0 (ix4 n (0 : Fin 1) p q) =
      val_main_v28 (F := Ideal) x0 (ix4 n (0 : Fin 1) p q) + Cert.Stencil.term P 0 0 0 2 768 766 p.val q.val := by
  unfold val_main_v39
  refine scatter_term_step scatter_S32x1x768x768_S1_S32x1x768x766_0123_n_3_0 (val_main_v28 (F := Ideal) x0)
    (val_main_v38 (F := Ideal)) (val_main_v37 (F := Ideal) x0) P 0 0 0 2
    (fun _ => rfl) (fun _ => rfl) (fun _ => rfl) (fun _ => rfl) (fun _ => rfl) (fun _ => rfl)
    (fun _ => rfl)
    (fun j => (start3_768x766 _ j).trans (by rw [iv38_0]; exact toInt0))
    (by omega) (by omega) n p q (fun hin => ?_)
  exact sq_diff_at (val_main_v37 (F := Ideal) x0) (val_main_v36 (F := Ideal) x0)
    (val_main_v34 (F := Ideal) x0) (val_main_v35 (F := Ideal) x0)
    (val_main_v37_apply x0) (val_main_v36_apply x0) _ _ _
    ((val_main_v34_apply x0 _).trans (sig_at (val_main_v5 (F := Ideal) x0) n P hP _ p.val q.val rfl
      (by show p.val - 0 = p.val; omega) (by show q.val - 0 = q.val; omega)))
    ((val_main_v35_apply x0 _).trans (sig_at (val_main_v5 (F := Ideal) x0) n P hP _ (p.val - 0 + 0) (q.val - 0 + 2) rfl
      (by show p.val - 0 = p.val - 0 + 0; omega) (by show 2 + (q.val - 0) = q.val - 0 + 2; omega)))

/-- Rectangle from `(1, 0)`, `767 × 766`; neighbours from `(0, 2)`. -/
theorem acc_step_v50 (x0 : (⟨S32x1x768x768, .f32⟩ : BufTy).Contents (Elt Ideal)) (n : Fin 32) (P : Nat → Nat → EReal)
    (hP : ∀ a b : Fin 768, val_main_v5 (F := Ideal) x0 (ix4 n (0 : Fin 1) a b) = P a.val b.val) (p q : Fin 768) :
    val_main_v50 (F := Ideal) x0 (ix4 n (0 : Fin 1) p q) =
      val_main_v39 (F := Ideal) x0 (ix4 n (0 : Fin 1) p q) + Cert.Stencil.term P 1 0 0 2 767 766 p.val q.val := by
  unfold val_main_v50
  refine scatter_term_step scatter_S32x1x768x768_S2_S32x1x767x766_0123_n_23_0 (val_main_v39 (F := Ideal) x0)
    (val_main_v49 (F := Ideal)) (val_main_v46 (F := Ideal) x0) P 1 0 0 2
    (fun _ => rfl) (fun _ => rfl) (fun _ => rfl) (fun _ => rfl) (fun _ => rfl) (fun _ => rfl)
    (fun j => (start2_767x766 _ j).trans (by rw [iv49_0]; exact toInt1))
    (fun j => (start3_767x766 _ j).trans (by rw [iv49_1]; exact toInt0))
    (by omega) (by omega) n p q (fun hin => ?_)
  exact sq_diff_at (val_main_v46 (F := Ideal) x0) (val_main_v45 (F := Ideal) x0)
    (val_main_v43 (F := Ideal) x0) (val_main_v44 (F := Ideal) x0)
    (val_main_v46_apply x0) (val_main_v45_apply x0) _ _ _
    ((val_main_v43_apply x0 _).trans (sig_at (val_main_v5 (F := Ideal) x0) n P hP _ p.val q.val rfl
      (by show 1 + (p.val - 1) = p.val; omega) (by show q.val - 0 = q.val; omega)))
    ((val_main_v44_apply x0 _).trans (sig_at (val_main_v5 (F := Ideal) x0) n P hP _ (p.val - 1 + 0) (q.val - 0 + 2) rfl
      (by show p.val - 1 = p.val - 1 + 0; omega) (by show 2 + (q.val - 0) = q.val - 0 + 2; omega)))

/-- Rectangle from `(2, 0)`, `766 × 766`; neighbours from `(0, 2)`. -/
theorem acc_step_v63 (x0 : (⟨S32x1x768x768, .f32⟩ : BufTy).Contents (Elt Ideal)) (n : Fin 32) (P : Nat → Nat → EReal)
    (hP : ∀ a b : Fin 768, val_main_v5 (F := Ideal) x0 (ix4 n (0 : Fin 1) a b) = P a.val b.val) (p q : Fin 768) :
    val_main_v63 (F := Ideal) x0 (ix4 n (0 : Fin 1) p q) =
      val_main_v50 (F := Ideal) x0 (ix4 n (0 : Fin 1) p q) + Cert.Stencil.term P 2 0 0 2 766 766 p.val q.val := by
  unfold val_main_v63
  refine scatter_term_step scatter_S32x1x768x768_S2_S32x1x766x766_0123_n_23_0 (val_main_v50 (F := Ideal) x0)
    (val_main_v62 (F := Ideal)) (val_main_v59 (F := Ideal) x0) P 2 0 0 2
    (fun _ => rfl) (fun _ => rfl) (fun _ => rfl) (fun _ => rfl) (fun _ => rfl) (fun _ => rfl)
    (fun j => (start2_766x766 _ j).trans (by rw [iv62_0]; exact toInt2))
    (fun j => (start3_766x766 _ j).trans (by rw [iv62_1]; exact toInt0))
    (by omega) (by omega) n p q (fun hin => ?_)
  exact sq_diff_at (val_main_v59 (F := Ideal) x0) (val_main_v58 (F := Ideal) x0)
    (val_main_v56 (F := Ideal) x0) (val_main_v57 (F := Ideal) x0)
    (val_main_v59_apply x0) (val_main_v58_apply x0) _ _ _
    ((val_main_v56_apply x0 _).trans (sig_at (val_main_v5 (F := Ideal) x0) n P hP _ p.val q.val rfl
      (by show 2 + (p.val - 2) = p.val; omega) (by show q.val - 0 = q.val; omega)))
    ((val_main_v57_apply x0 _).trans (sig_at (val_main_v5 (F := Ideal) x0) n P hP _ (p.val - 2 + 0) (q.val - 0 + 2) rfl
      (by show p.val - 2 = p.val - 2 + 0; omega) (by show 2 + (q.val - 0) = q.val - 0 + 2; omega)))

/-- Rectangle from `(0, 0)`, `766 × 767`; neighbours from `(2, 1)`. -/
theorem acc_step_v76 (x0 : (⟨S32x1x768x768, .f32⟩ : BufTy).Contents (Elt Ideal)) (n : Fin 32) (P : Nat → Nat → EReal)
    (hP : ∀ a b : Fin 768, val_main_v5 (F := Ideal) x0 (ix4 n (0 : Fin 1) a b) = P a.val b.val) (p q : Fin 768) :
    val_main_v76 (F := Ideal) x0 (ix4 n (0 : Fin 1) p q) =
      val_main_v63 (F := Ideal) x0 (ix4 n (0 : Fin 1) p q) + Cert.Stencil.term P 0 0 2 1 766 767 p.val q.val := by
  unfold val_main_v76
  refine scatter_term_step scatter_S32x1x768x768_S2_S32x1x766x767_0123_n_23_0 (val_main_v63 (F := Ideal) x0)
    (val_main_v75 (F := Ideal)) (val_main_v72 (F := Ideal) x0) P 0 0 2 1
    (fun _ => rfl) (fun _ => rfl) (fun _ => rfl) (fun _ => rfl) (fun _ => rfl) (fun _ => rfl)
    (fun j => (start2_766x767 _ j).trans (by rw [iv75_0]; exact toInt0))
    (fun j => (start3_766x767 _ j).trans (by rw [iv75_1]; exact toInt0))
    (by omega) (by omega) n p q (fun hin => ?_)
  exact sq_diff_at (val_main_v72 (F := Ideal) x0) (val_main_v71 (F := Ideal) x0)
    (val_main_v69 (F := Ideal) x0) (val_main_v70 (F := Ideal) x0)
    (val_main_v72_apply x0) (val_main_v71_apply x0) _ _ _
    ((val_main_v69_apply x0 _).trans (sig_at (val_main_v5 (F := Ideal) x0) n P hP _ p.val q.val rfl
      (by show p.val - 0 = p.val; omega) (by show q.val - 0 = q.val; omega)))
    ((val_main_v70_apply x0 _).trans (sig_at (val_main_v5 (F := Ideal) x0) n P hP _ (p.val - 0 + 2) (q.val - 0 + 1) rfl
      (by show 2 + (p.val - 0) = p.val - 0 + 2; omega) (by show 1 + (q.val - 0) = q.val - 0 + 1; omega)))

/-- Rectangle from `(0, 0)`, `767 × 767`; neighbours from `(1, 1)`. -/
theorem acc_step_v89 (x0 : (⟨S32x1x768x768, .f32⟩ : BufTy).Contents (Elt Ideal)) (n : Fin 32) (P : Nat → Nat → EReal)
    (hP : ∀ a b : Fin 768, val_main_v5 (F := Ideal) x0 (ix4 n (0 : Fin 1) a b) = P a.val b.val) (p q : Fin 768) :
    val_main_v89 (F := Ideal) x0 (ix4 n (0 : Fin 1) p q) =
      val_main_v76 (F := Ideal) x0 (ix4 n (0 : Fin 1) p q) + Cert.Stencil.term P 0 0 1 1 767 767 p.val q.val := by
  unfold val_main_v89
  refine scatter_term_step scatter_S32x1x768x768_S2_S32x1x767x767_0123_n_23_0 (val_main_v76 (F := Ideal) x0)
    (val_main_v88 (F := Ideal)) (val_main_v85 (F := Ideal) x0) P 0 0 1 1
    (fun _ => rfl) (fun _ => rfl) (fun _ => rfl) (fun _ => rfl) (fun _ => rfl) (fun _ => rfl)
    (fun j => (start2_767x767 _ j).trans (by rw [iv88_0]; exact toInt0))
    (fun j => (start3_767x767 _ j).trans (by rw [iv88_1]; exact toInt0))
    (by omega) (by omega) n p q (fun hin => ?_)
  exact sq_diff_at (val_main_v85 (F := Ideal) x0) (val_main_v84 (F := Ideal) x0)
    (val_main_v82 (F := Ideal) x0) (val_main_v83 (F := Ideal) x0)
    (val_main_v85_apply x0) (val_main_v84_apply x0) _ _ _
    ((val_main_v82_apply x0 _).trans (sig_at (val_main_v5 (F := Ideal) x0) n P hP _ p.val q.val rfl
      (by show p.val - 0 = p.val; omega) (by show q.val - 0 = q.val; omega)))
    ((val_main_v83_apply x0 _).trans (sig_at (val_main_v5 (F := Ideal) x0) n P hP _ (p.val - 0 + 1) (q.val - 0 + 1) rfl
      (by show 1 + (p.val - 0) = p.val - 0 + 1; omega) (by show 1 + (q.val - 0) = q.val - 0 + 1; omega)))

/-- Rectangle from `(0, 0)`, `768 × 767`; neighbours from `(0, 1)`. -/
theorem acc_step_v100 (x0 : (⟨S32x1x768x768, .f32⟩ : BufTy).Contents (Elt Ideal)) (n : Fin 32) (P : Nat → Nat → EReal)
    (hP : ∀ a b : Fin 768, val_main_v5 (F := Ideal) x0 (ix4 n (0 : Fin 1) a b) = P a.val b.val) (p q : Fin 768) :
    val_main_v100 (F := Ideal) x0 (ix4 n (0 : Fin 1) p q) =
      val_main_v89 (F := Ideal) x0 (ix4 n (0 : Fin 1) p q) + Cert.Stencil.term P 0 0 0 1 768 767 p.val q.val := by
  unfold val_main_v100
  refine scatter_term_step scatter_S32x1x768x768_S1_S32x1x768x767_0123_n_3_0 (val_main_v89 (F := Ideal) x0)
    (val_main_v99 (F := Ideal)) (val_main_v98 (F := Ideal) x0) P 0 0 0 1
    (fun _ => rfl) (fun _ => rfl) (fun _ => rfl) (fun _ => rfl) (fun _ => rfl) (fun _ => rfl)
    (fun _ => rfl)
    (fun j => (start3_768x767 _ j).trans (by rw [iv99_0]; exact toInt0))
    (by omega) (by omega) n p q (fun hin => ?_)
  exact sq_diff_at (val_main_v98 (F := Ideal) x0) (val_main_v97 (F := Ideal) x0)
    (val_main_v95 (F := Ideal) x0) (val_main_v96 (F := Ideal) x0)
    (val_main_v98_apply x0) (val_main_v97_apply x0) _ _ _
    ((val_main_v95_apply x0 _).trans (sig_at (val_main_v5 (F := Ideal) x0) n P hP _ p.val q.val rfl
      (by show p.val - 0 = p.val; omega) (by show q.val - 0 = q.val; omega)))
    ((val_main_v96_apply x0 _).trans (sig_at (val_main_v5 (F := Ideal) x0) n P hP _ (p.val - 0 + 0) (q.val - 0 + 1) rfl
      (by show p.val - 0 = p.val - 0 + 0; omega) (by show 1 + (q.val - 0) = q.val - 0 + 1; omega)))

/-- Rectangle from `(1, 0)`, `767 × 767`; neighbours from `(0, 1)`. -/
theorem acc_step_v111 (x0 : (⟨S32x1x768x768, .f32⟩ : BufTy).Contents (Elt Ideal)) (n : Fin 32) (P : Nat → Nat → EReal)
    (hP : ∀ a b : Fin 768, val_main_v5 (F := Ideal) x0 (ix4 n (0 : Fin 1) a b) = P a.val b.val) (p q : Fin 768) :
    val_main_v111 (F := Ideal) x0 (ix4 n (0 : Fin 1) p q) =
      val_main_v100 (F := Ideal) x0 (ix4 n (0 : Fin 1) p q) + Cert.Stencil.term P 1 0 0 1 767 767 p.val q.val := by
  unfold val_main_v111
  refine scatter_term_step scatter_S32x1x768x768_S2_S32x1x767x767_0123_n_23_0 (val_main_v100 (F := Ideal) x0)
    (val_main_v110 (F := Ideal)) (val_main_v107 (F := Ideal) x0) P 1 0 0 1
    (fun _ => rfl) (fun _ => rfl) (fun _ => rfl) (fun _ => rfl) (fun _ => rfl) (fun _ => rfl)
    (fun j => (start2_767x767 _ j).trans (by rw [iv110_0]; exact toInt1))
    (fun j => (start3_767x767 _ j).trans (by rw [iv110_1]; exact toInt0))
    (by omega) (by omega) n p q (fun hin => ?_)
  exact sq_diff_at (val_main_v107 (F := Ideal) x0) (val_main_v106 (F := Ideal) x0)
    (val_main_v104 (F := Ideal) x0) (val_main_v105 (F := Ideal) x0)
    (val_main_v107_apply x0) (val_main_v106_apply x0) _ _ _
    ((val_main_v104_apply x0 _).trans (sig_at (val_main_v5 (F := Ideal) x0) n P hP _ p.val q.val rfl
      (by show 1 + (p.val - 1) = p.val; omega) (by show q.val - 0 = q.val; omega)))
    ((val_main_v105_apply x0 _).trans (sig_at (val_main_v5 (F := Ideal) x0) n P hP _ (p.val - 1 + 0) (q.val - 0 + 1) rfl
      (by show p.val - 1 = p.val - 1 + 0; omega) (by show 1 + (q.val - 0) = q.val - 0 + 1; omega)))

/-- Rectangle from `(2, 0)`, `766 × 767`; neighbours from `(0, 1)`. -/
theorem acc_step_v124 (x0 : (⟨S32x1x768x768, .f32⟩ : BufTy).Contents (Elt Ideal)) (n : Fin 32) (P : Nat → Nat → EReal)
    (hP : ∀ a b : Fin 768, val_main_v5 (F := Ideal) x0 (ix4 n (0 : Fin 1) a b) = P a.val b.val) (p q : Fin 768) :
    val_main_v124 (F := Ideal) x0 (ix4 n (0 : Fin 1) p q) =
      val_main_v111 (F := Ideal) x0 (ix4 n (0 : Fin 1) p q) + Cert.Stencil.term P 2 0 0 1 766 767 p.val q.val := by
  unfold val_main_v124
  refine scatter_term_step scatter_S32x1x768x768_S2_S32x1x766x767_0123_n_23_0 (val_main_v111 (F := Ideal) x0)
    (val_main_v123 (F := Ideal)) (val_main_v120 (F := Ideal) x0) P 2 0 0 1
    (fun _ => rfl) (fun _ => rfl) (fun _ => rfl) (fun _ => rfl) (fun _ => rfl) (fun _ => rfl)
    (fun j => (start2_766x767 _ j).trans (by rw [iv123_0]; exact toInt2))
    (fun j => (start3_766x767 _ j).trans (by rw [iv123_1]; exact toInt0))
    (by omega) (by omega) n p q (fun hin => ?_)
  exact sq_diff_at (val_main_v120 (F := Ideal) x0) (val_main_v119 (F := Ideal) x0)
    (val_main_v117 (F := Ideal) x0) (val_main_v118 (F := Ideal) x0)
    (val_main_v120_apply x0) (val_main_v119_apply x0) _ _ _
    ((val_main_v117_apply x0 _).trans (sig_at (val_main_v5 (F := Ideal) x0) n P hP _ p.val q.val rfl
      (by show 2 + (p.val - 2) = p.val; omega) (by show q.val - 0 = q.val; omega)))
    ((val_main_v118_apply x0 _).trans (sig_at (val_main_v5 (F := Ideal) x0) n P hP _ (p.val - 2 + 0) (q.val - 0 + 1) rfl
      (by show p.val - 2 = p.val - 2 + 0; omega) (by show 1 + (q.val - 0) = q.val - 0 + 1; omega)))

/-- Rectangle from `(0, 0)`, `766 × 768`; neighbours from `(2, 0)`. -/
theorem acc_step_v135 (x0 : (⟨S32x1x768x768, .f32⟩ : BufTy).Contents (Elt Ideal)) (n : Fin 32) (P : Nat → Nat → EReal)
    (hP : ∀ a b : Fin 768, val_main_v5 (F := Ideal) x0 (ix4 n (0 : Fin 1) a b) = P a.val b.val) (p q : Fin 768) :
    val_main_v135 (F := Ideal) x0 (ix4 n (0 : Fin 1) p q) =
      val_main_v124 (F := Ideal) x0 (ix4 n (0 : Fin 1) p q) + Cert.Stencil.term P 0 0 2 0 766 768 p.val q.val := by
  unfold val_main_v135
  refine scatter_term_step scatter_S32x1x768x768_S1_S32x1x766x768_0123_n_2_0 (val_main_v124 (F := Ideal) x0)
    (val_main_v134 (F := Ideal)) (val_main_v133 (F := Ideal) x0) P 0 0 2 0
    (fun _ => rfl) (fun _ => rfl) (fun _ => rfl) (fun _ => rfl) (fun _ => rfl) (fun _ => rfl)
    (fun j => (start2_766x768 _ j).trans (by rw [iv134_0]; exact toInt0))
    (fun _ => rfl)
    (by omega) (by omega) n p q (fun hin => ?_)
  exact sq_diff_at (val_main_v133 (F := Ideal) x0) (val_main_v132 (F := Ideal) x0)
    (val_main_v130 (F := Ideal) x0) (val_main_v131 (F := Ideal) x0)
    (val_main_v133_apply x0) (val_main_v132_apply x0) _ _ _
    ((val_main_v130_apply x0 _).trans (sig_at (val_main_v5 (F := Ideal) x0) n P hP _ p.val q.val rfl
      (by show p.val - 0 = p.val; omega) (by show q.val - 0 = q.val; omega)))
    ((val_main_v131_apply x0 _).trans (sig_at (val_main_v5 (F := Ideal) x0) n P hP _ (p.val - 0 + 2) (q.val - 0 + 0) rfl
      (by show 2 + (p.val - 0) = p.val - 0 + 2; omega) (by show q.val - 0 = q.val - 0 + 0; omega)))

/-- Rectangle from `(0, 0)`, `767 × 768`; neighbours from `(1, 0)`. -/
theorem acc_step_v144 (x0 : (⟨S32x1x768x768, .f32⟩ : BufTy).Contents (Elt Ideal)) (n : Fin 32) (P : Nat → Nat → EReal)
    (hP : ∀ a b : Fin 768, val_main_v5 (F := Ideal) x0 (ix4 n (0 : Fin 1) a b) = P a.val b.val) (p q : Fin 768) :
    val_main_v144 (F := Ideal) x0 (ix4 n (0 : Fin 1) p q) =
      val_main_v135 (F := Ideal) x0 (ix4 n (0 : Fin 1) p q) + Cert.Stencil.term P 0 0 1 0 767 768 p.val q.val := by
  unfold val_main_v144
  refine scatter_term_step scatter_S32x1x768x768_S1_S32x1x767x768_0123_n_2_0 (val_main_v135 (F := Ideal) x0)
    (val_main_v143 (F := Ideal)) (val_main_v142 (F := Ideal) x0) P 0 0 1 0
    (fun _ => rfl) (fun _ => rfl) (fun _ => rfl) (fun _ => rfl) (fun _ => rfl) (fun _ => rfl)
    (fun j => (start2_767x768 _ j).trans (by rw [iv143_0]; exact toInt0))
    (fun _ => rfl)
    (by omega) (by omega) n p q (fun hin => ?_)
  exact sq_diff_at (val_main_v142 (F := Ideal) x0) (val_main_v141 (F := Ideal) x0)
    (val_main_v139 (F := Ideal) x0) (val_main_v140 (F := Ideal) x0)
    (val_main_v142_apply x0) (val_main_v141_apply x0) _ _ _
    ((val_main_v139_apply x0 _).trans (sig_at (val_main_v5 (F := Ideal) x0) n P hP _ p.val q.val rfl
      (by show p.val - 0 = p.val; omega) (by show q.val - 0 = q.val; omega)))
    ((val_main_v140_apply x0 _).trans (sig_at (val_main_v5 (F := Ideal) x0) n P hP _ (p.val - 0 + 1) (q.val - 0 + 0) rfl
      (by show 1 + (p.val - 0) = p.val - 0 + 1; omega) (by show q.val - 0 = q.val - 0 + 0; omega)))

/-- Rectangle from `(1, 0)`, `767 × 768`; neighbours from `(0, 0)`. -/
theorem acc_step_v153 (x0 : (⟨S32x1x768x768, .f32⟩ : BufTy).Contents (Elt Ideal)) (n : Fin 32) (P : Nat → Nat → EReal)
    (hP : ∀ a b : Fin 768, val_main_v5 (F := Ideal) x0 (ix4 n (0 : Fin 1) a b) = P a.val b.val) (p q : Fin 768) :
    val_main_v153 (F := Ideal) x0 (ix4 n (0 : Fin 1) p q) =
      val_main_v144 (F := Ideal) x0 (ix4 n (0 : Fin 1) p q) + Cert.Stencil.term P 1 0 0 0 767 768 p.val q.val := by
  unfold val_main_v153
  refine scatter_term_step scatter_S32x1x768x768_S1_S32x1x767x768_0123_n_2_0 (val_main_v144 (F := Ideal) x0)
    (val_main_v152 (F := Ideal)) (val_main_v151 (F := Ideal) x0) P 1 0 0 0
    (fun _ => rfl) (fun _ => rfl) (fun _ => rfl) (fun _ => rfl) (fun _ => rfl) (fun _ => rfl)
    (fun j => (start2_767x768 _ j).trans (by rw [iv152_0]; exact toInt1))
    (fun _ => rfl)
    (by omega) (by omega) n p q (fun hin => ?_)
  exact sq_diff_at (val_main_v151 (F := Ideal) x0) (val_main_v150 (F := Ideal) x0)
    (val_main_v148 (F := Ideal) x0) (val_main_v149 (F := Ideal) x0)
    (val_main_v151_apply x0) (val_main_v150_apply x0) _ _ _
    ((val_main_v148_apply x0 _).trans (sig_at (val_main_v5 (F := Ideal) x0) n P hP _ p.val q.val rfl
      (by show 1 + (p.val - 1) = p.val; omega) (by show q.val - 0 = q.val; omega)))
    ((val_main_v149_apply x0 _).trans (sig_at (val_main_v5 (F := Ideal) x0) n P hP _ (p.val - 1 + 0) (q.val - 0 + 0) rfl
      (by show p.val - 1 = p.val - 1 + 0; omega) (by show q.val - 0 = q.val - 0 + 0; omega)))

/-- Rectangle from `(2, 0)`, `766 × 768`; neighbours from `(0, 0)`. -/
theorem acc_step_v162 (x0 : (⟨S32x1x768x768, .f32⟩ : BufTy).Contents (Elt Ideal)) (n : Fin 32) (P : Nat → Nat → EReal)
    (hP : ∀ a b : Fin 768, val_main_v5 (F := Ideal) x0 (ix4 n (0 : Fin 1) a b) = P a.val b.val) (p q : Fin 768) :
    val_main_v162 (F := Ideal) x0 (ix4 n (0 : Fin 1) p q) =
      val_main_v153 (F := Ideal) x0 (ix4 n (0 : Fin 1) p q) + Cert.Stencil.term P 2 0 0 0 766 768 p.val q.val := by
  unfold val_main_v162
  refine scatter_term_step scatter_S32x1x768x768_S1_S32x1x766x768_0123_n_2_0 (val_main_v153 (F := Ideal) x0)
    (val_main_v161 (F := Ideal)) (val_main_v160 (F := Ideal) x0) P 2 0 0 0
    (fun _ => rfl) (fun _ => rfl) (fun _ => rfl) (fun _ => rfl) (fun _ => rfl) (fun _ => rfl)
    (fun j => (start2_766x768 _ j).trans (by rw [iv161_0]; exact toInt2))
    (fun _ => rfl)
    (by omega) (by omega) n p q (fun hin => ?_)
  exact sq_diff_at (val_main_v160 (F := Ideal) x0) (val_main_v159 (F := Ideal) x0)
    (val_main_v157 (F := Ideal) x0) (val_main_v158 (F := Ideal) x0)
    (val_main_v160_apply x0) (val_main_v159_apply x0) _ _ _
    ((val_main_v157_apply x0 _).trans (sig_at (val_main_v5 (F := Ideal) x0) n P hP _ p.val q.val rfl
      (by show 2 + (p.val - 2) = p.val; omega) (by show q.val - 0 = q.val; omega)))
    ((val_main_v158_apply x0 _).trans (sig_at (val_main_v5 (F := Ideal) x0) n P hP _ (p.val - 2 + 0) (q.val - 0 + 0) rfl
      (by show p.val - 2 = p.val - 2 + 0; omega) (by show q.val - 0 = q.val - 0 + 0; omega)))

/-- Rectangle from `(0, 1)`, `766 × 767`; neighbours from `(2, 0)`. -/
theorem acc_step_v173 (x0 : (⟨S32x1x768x768, .f32⟩ : BufTy).Contents (Elt Ideal)) (n : Fin 32) (P : Nat → Nat → EReal)
    (hP : ∀ a b : Fin 768, val_main_v5 (F := Ideal) x0 (ix4 n (0 : Fin 1) a b) = P a.val b.val) (p q : Fin 768) :
    val_main_v173 (F := Ideal) x0 (ix4 n (0 : Fin 1) p q) =
      val_main_v162 (F := Ideal) x0 (ix4 n (0 : Fin 1) p q) + Cert.Stencil.term P 0 1 2 0 766 767 p.val q.val := by
  unfold val_main_v173
  refine scatter_term_step scatter_S32x1x768x768_S2_S32x1x766x767_0123_n_23_0 (val_main_v162 (F := Ideal) x0)
    (val_main_v172 (F := Ideal)) (val_main_v169 (F := Ideal) x0) P 0 1 2 0
    (fun _ => rfl) (fun _ => rfl) (fun _ => rfl) (fun _ => rfl) (fun _ => rfl) (fun _ => rfl)
    (fun j => (start2_766x767 _ j).trans (by rw [iv172_0]; exact toInt0))
    (fun j => (start3_766x767 _ j).trans (by rw [iv172_1]; exact toInt1))
    (by omega) (by omega) n p q (fun hin => ?_)
  exact sq_diff_at (val_main_v169 (F := Ideal) x0) (val_main_v168 (F := Ideal) x0)
    (val_main_v166 (F := Ideal) x0) (val_main_v167 (F := Ideal) x0)
    (val_main_v169_apply x0) (val_main_v168_apply x0) _ _ _
    ((val_main_v166_apply x0 _).trans (sig_at (val_main_v5 (F := Ideal) x0) n P hP _ p.val q.val rfl
      (by show p.val - 0 = p.val; omega) (by show 1 + (q.val - 1) = q.val; omega)))
    ((val_main_v167_apply x0 _).trans (sig_at (val_main_v5 (F := Ideal) x0) n P hP _ (p.val - 0 + 2) (q.val - 1 + 0) rfl
      (by show 2 + (p.val - 0) = p.val - 0 + 2; omega) (by show q.val - 1 = q.val - 1 + 0; omega)))

/-- Rectangle from `(0, 1)`, `767 × 767`; neighbours from `(1, 0)`. -/
theorem acc_step_v186 (x0 : (⟨S32x1x768x768, .f32⟩ : BufTy).Contents (Elt Ideal)) (n : Fin 32) (P : Nat → Nat → EReal)
    (hP : ∀ a b : Fin 768, val_main_v5 (F := Ideal) x0 (ix4 n (0 : Fin 1) a b) = P a.val b.val) (p q : Fin 768) :
    val_main_v186 (F := Ideal) x0 (ix4 n (0 : Fin 1) p q) =
      val_main_v173 (F := Ideal) x0 (ix4 n (0 : Fin 1) p q) + Cert.Stencil.term P 0 1 1 0 767 767 p.val q.val := by
  unfold val_main_v186
  refine scatter_term_step scatter_S32x1x768x768_S2_S32x1x767x767_0123_n_23_0 (val_main_v173 (F := Ideal) x0)
    (val_main_v185 (F := Ideal)) (val_main_v182 (F := Ideal) x0) P 0 1 1 0
    (fun _ => rfl) (fun _ => rfl) (fun _ => rfl) (fun _ => rfl) (fun _ => rfl) (fun _ => rfl)
    (fun j => (start2_767x767 _ j).trans (by rw [iv185_0]; exact toInt0))
    (fun j => (start3_767x767 _ j).trans (by rw [iv185_1]; exact toInt1))
    (by omega) (by omega) n p q (fun hin => ?_)
  exact sq_diff_at (val_main_v182 (F := Ideal) x0) (val_main_v181 (F := Ideal) x0)
    (val_main_v179 (F := Ideal) x0) (val_main_v180 (F := Ideal) x0)
    (val_main_v182_apply x0) (val_main_v181_apply x0) _ _ _
    ((val_main_v179_apply x0 _).trans (sig_at (val_main_v5 (F := Ideal) x0) n P hP _ p.val q.val rfl
      (by show p.val - 0 = p.val; omega) (by show 1 + (q.val - 1) = q.val; omega)))
    ((val_main_v180_apply x0 _).trans (sig_at (val_main_v5 (F := Ideal) x0) n P hP _ (p.val - 0 + 1) (q.val - 1 + 0) rfl
      (by show 1 + (p.val - 0) = p.val - 0 + 1; omega) (by show q.val - 1 = q.val - 1 + 0; omega)))

/-- Rectangle from `(0, 1)`, `768 × 767`; neighbours from `(0, 0)`. -/
theorem acc_step_v197 (x0 : (⟨S32x1x768x768, .f32⟩ : BufTy).Contents (Elt Ideal)) (n : Fin 32) (P : Nat → Nat → EReal)
    (hP : ∀ a b : Fin 768, val_main_v5 (F := Ideal) x0 (ix4 n (0 : Fin 1) a b) = P a.val b.val) (p q : Fin 768) :
    val_main_v197 (F := Ideal) x0 (ix4 n (0 : Fin 1) p q) =
      val_main_v186 (F := Ideal) x0 (ix4 n (0 : Fin 1) p q) + Cert.Stencil.term P 0 1 0 0 768 767 p.val q.val := by
  unfold val_main_v197
  refine scatter_term_step scatter_S32x1x768x768_S1_S32x1x768x767_0123_n_3_0 (val_main_v186 (F := Ideal) x0)
    (val_main_v196 (F := Ideal)) (val_main_v195 (F := Ideal) x0) P 0 1 0 0
    (fun _ => rfl) (fun _ => rfl) (fun _ => rfl) (fun _ => rfl) (fun _ => rfl) (fun _ => rfl)
    (fun _ => rfl)
    (fun j => (start3_768x767 _ j).trans (by rw [iv196_0]; exact toInt1))
    (by omega) (by omega) n p q (fun hin => ?_)
  exact sq_diff_at (val_main_v195 (F := Ideal) x0) (val_main_v194 (F := Ideal) x0)
    (val_main_v192 (F := Ideal) x0) (val_main_v193 (F := Ideal) x0)
    (val_main_v195_apply x0) (val_main_v194_apply x0) _ _ _
    ((val_main_v192_apply x0 _).trans (sig_at (val_main_v5 (F := Ideal) x0) n P hP _ p.val q.val rfl
      (by show p.val - 0 = p.val; omega) (by show 1 + (q.val - 1) = q.val; omega)))
    ((val_main_v193_apply x0 _).trans (sig_at (val_main_v5 (F := Ideal) x0) n P hP _ (p.val - 0 + 0) (q.val - 1 + 0) rfl
      (by show p.val - 0 = p.val - 0 + 0; omega) (by show q.val - 1 = q.val - 1 + 0; omega)))

/-- Rectangle from `(1, 1)`, `767 × 767`; neighbours from `(0, 0)`. -/
theorem acc_step_v208 (x0 : (⟨S32x1x768x768, .f32⟩ : BufTy).Contents (Elt Ideal)) (n : Fin 32) (P : Nat → Nat → EReal)
    (hP : ∀ a b : Fin 768, val_main_v5 (F := Ideal) x0 (ix4 n (0 : Fin 1) a b) = P a.val b.val) (p q : Fin 768) :
    val_main_v208 (F := Ideal) x0 (ix4 n (0 : Fin 1) p q) =
      val_main_v197 (F := Ideal) x0 (ix4 n (0 : Fin 1) p q) + Cert.Stencil.term P 1 1 0 0 767 767 p.val q.val := by
  unfold val_main_v208
  refine scatter_term_step scatter_S32x1x768x768_S2_S32x1x767x767_0123_n_23_0 (val_main_v197 (F := Ideal) x0)
    (val_main_v207 (F := Ideal)) (val_main_v204 (F := Ideal) x0) P 1 1 0 0
    (fun _ => rfl) (fun _ => rfl) (fun _ => rfl) (fun _ => rfl) (fun _ => rfl) (fun _ => rfl)
    (fun j => (start2_767x767 _ j).trans (by rw [iv207_0]; exact toInt1))
    (fun j => (start3_767x767 _ j).trans (by rw [iv207_1]; exact toInt1))
    (by omega) (by omega) n p q (fun hin => ?_)
  exact sq_diff_at (val_main_v204 (F := Ideal) x0) (val_main_v203 (F := Ideal) x0)
    (val_main_v201 (F := Ideal) x0) (val_main_v202 (F := Ideal) x0)
    (val_main_v204_apply x0) (val_main_v203_apply x0) _ _ _
    ((val_main_v201_apply x0 _).trans (sig_at (val_main_v5 (F := Ideal) x0) n P hP _ p.val q.val rfl
      (by show 1 + (p.val - 1) = p.val; omega) (by show 1 + (q.val - 1) = q.val; omega)))
    ((val_main_v202_apply x0 _).trans (sig_at (val_main_v5 (F := Ideal) x0) n P hP _ (p.val - 1 + 0) (q.val - 1 + 0) rfl
      (by show p.val - 1 = p.val - 1 + 0; omega) (by show q.val - 1 = q.val - 1 + 0; omega)))

/-- Rectangle from `(2, 1)`, `766 × 767`; neighbours from `(0, 0)`. -/
theorem acc_step_v221 (x0 : (⟨S32x1x768x768, .f32⟩ : BufTy).Contents (Elt Ideal)) (n : Fin 32) (P : Nat → Nat → EReal)
    (hP : ∀ a b : Fin 768, val_main_v5 (F := Ideal) x0 (ix4 n (0 : Fin 1) a b) = P a.val b.val) (p q : Fin 768) :
    val_main_v221 (F := Ideal) x0 (ix4 n (0 : Fin 1) p q) =
      val_main_v208 (F := Ideal) x0 (ix4 n (0 : Fin 1) p q) + Cert.Stencil.term P 2 1 0 0 766 767 p.val q.val := by
  unfold val_main_v221
  refine scatter_term_step scatter_S32x1x768x768_S2_S32x1x766x767_0123_n_23_0 (val_main_v208 (F := Ideal) x0)
    (val_main_v220 (F := Ideal)) (val_main_v217 (F := Ideal) x0) P 2 1 0 0
    (fun _ => rfl) (fun _ => rfl) (fun _ => rfl) (fun _ => rfl) (fun _ => rfl) (fun _ => rfl)
    (fun j => (start2_766x767 _ j).trans (by rw [iv220_0]; exact toInt2))
    (fun j => (start3_766x767 _ j).trans (by rw [iv220_1]; exact toInt1))
    (by omega) (by omega) n p q (fun hin => ?_)
  exact sq_diff_at (val_main_v217 (F := Ideal) x0) (val_main_v216 (F := Ideal) x0)
    (val_main_v214 (F := Ideal) x0) (val_main_v215 (F := Ideal) x0)
    (val_main_v217_apply x0) (val_main_v216_apply x0) _ _ _
    ((val_main_v214_apply x0 _).trans (sig_at (val_main_v5 (F := Ideal) x0) n P hP _ p.val q.val rfl
      (by show 2 + (p.val - 2) = p.val; omega) (by show 1 + (q.val - 1) = q.val; omega)))
    ((val_main_v215_apply x0 _).trans (sig_at (val_main_v5 (F := Ideal) x0) n P hP _ (p.val - 2 + 0) (q.val - 1 + 0) rfl
      (by show p.val - 2 = p.val - 2 + 0; omega) (by show q.val - 1 = q.val - 1 + 0; omega)))

/-- Rectangle from `(0, 2)`, `766 × 766`; neighbours from `(2, 0)`. -/
theorem acc_step_v234 (x0 : (⟨S32x1x768x768, .f32⟩ : BufTy).Contents (Elt Ideal)) (n : Fin 32) (P : Nat → Nat → EReal)
    (hP : ∀ a b : Fin 768, val_main_v5 (F := Ideal) x0 (ix4 n (0 : Fin 1) a b) = P a.val b.val) (p q : Fin 768) :
    val_main_v234 (F := Ideal) x0 (ix4 n (0 : Fin 1) p q) =
      val_main_v221 (F := Ideal) x0 (ix4 n (0 : Fin 1) p q) + Cert.Stencil.term P 0 2 2 0 766 766 p.val q.val := by
  unfold val_main_v234
  refine scatter_term_step scatter_S32x1x768x768_S2_S32x1x766x766_0123_n_23_0 (val_main_v221 (F := Ideal) x0)
    (val_main_v233 (F := Ideal)) (val_main_v230 (F := Ideal) x0) P 0 2 2 0
    (fun _ => rfl) (fun _ => rfl) (fun _ => rfl) (fun _ => rfl) (fun _ => rfl) (fun _ => rfl)
    (fun j => (start2_766x766 _ j).trans (by rw [iv233_0]; exact toInt0))
    (fun j => (start3_766x766 _ j).trans (by rw [iv233_1]; exact toInt2))
    (by omega) (by omega) n p q (fun hin => ?_)
  exact sq_diff_at (val_main_v230 (F := Ideal) x0) (val_main_v229 (F := Ideal) x0)
    (val_main_v227 (F := Ideal) x0) (val_main_v228 (F := Ideal) x0)
    (val_main_v230_apply x0) (val_main_v229_apply x0) _ _ _
    ((val_main_v227_apply x0 _).trans (sig_at (val_main_v5 (F := Ideal) x0) n P hP _ p.val q.val rfl
      (by show p.val - 0 = p.val; omega) (by show 2 + (q.val - 2) = q.val; omega)))
    ((val_main_v228_apply x0 _).trans (sig_at (val_main_v5 (F := Ideal) x0) n P hP _ (p.val - 0 + 2) (q.val - 2 + 0) rfl
      (by show 2 + (p.val - 0) = p.val - 0 + 2; omega) (by show q.val - 2 = q.val - 2 + 0; omega)))

/-- Rectangle from `(0, 2)`, `767 × 766`; neighbours from `(1, 0)`. -/
theorem acc_step_v247 (x0 : (⟨S32x1x768x768, .f32⟩ : BufTy).Contents (Elt Ideal)) (n : Fin 32) (P : Nat → Nat → EReal)
    (hP : ∀ a b : Fin 768, val_main_v5 (F := Ideal) x0 (ix4 n (0 : Fin 1) a b) = P a.val b.val) (p q : Fin 768) :
    val_main_v247 (F := Ideal) x0 (ix4 n (0 : Fin 1) p q) =
      val_main_v234 (F := Ideal) x0 (ix4 n (0 : Fin 1) p q) + Cert.Stencil.term P 0 2 1 0 767 766 p.val q.val := by
  unfold val_main_v247
  refine scatter_term_step scatter_S32x1x768x768_S2_S32x1x767x766_0123_n_23_0 (val_main_v234 (F := Ideal) x0)
    (val_main_v246 (F := Ideal)) (val_main_v243 (F := Ideal) x0) P 0 2 1 0
    (fun _ => rfl) (fun _ => rfl) (fun _ => rfl) (fun _ => rfl) (fun _ => rfl) (fun _ => rfl)
    (fun j => (start2_767x766 _ j).trans (by rw [iv246_0]; exact toInt0))
    (fun j => (start3_767x766 _ j).trans (by rw [iv246_1]; exact toInt2))
    (by omega) (by omega) n p q (fun hin => ?_)
  exact sq_diff_at (val_main_v243 (F := Ideal) x0) (val_main_v242 (F := Ideal) x0)
    (val_main_v240 (F := Ideal) x0) (val_main_v241 (F := Ideal) x0)
    (val_main_v243_apply x0) (val_main_v242_apply x0) _ _ _
    ((val_main_v240_apply x0 _).trans (sig_at (val_main_v5 (F := Ideal) x0) n P hP _ p.val q.val rfl
      (by show p.val - 0 = p.val; omega) (by show 2 + (q.val - 2) = q.val; omega)))
    ((val_main_v241_apply x0 _).trans (sig_at (val_main_v5 (F := Ideal) x0) n P hP _ (p.val - 0 + 1) (q.val - 2 + 0) rfl
      (by show 1 + (p.val - 0) = p.val - 0 + 1; omega) (by show q.val - 2 = q.val - 2 + 0; omega)))

/-- Rectangle from `(0, 2)`, `768 × 766`; neighbours from `(0, 0)`. -/
theorem acc_step_v258 (x0 : (⟨S32x1x768x768, .f32⟩ : BufTy).Contents (Elt Ideal)) (n : Fin 32) (P : Nat → Nat → EReal)
    (hP : ∀ a b : Fin 768, val_main_v5 (F := Ideal) x0 (ix4 n (0 : Fin 1) a b) = P a.val b.val) (p q : Fin 768) :
    val_main_v258 (F := Ideal) x0 (ix4 n (0 : Fin 1) p q) =
      val_main_v247 (F := Ideal) x0 (ix4 n (0 : Fin 1) p q) + Cert.Stencil.term P 0 2 0 0 768 766 p.val q.val := by
  unfold val_main_v258
  refine scatter_term_step scatter_S32x1x768x768_S1_S32x1x768x766_0123_n_3_0 (val_main_v247 (F := Ideal) x0)
    (val_main_v257 (F := Ideal)) (val_main_v256 (F := Ideal) x0) P 0 2 0 0
    (fun _ => rfl) (fun _ => rfl) (fun _ => rfl) (fun _ => rfl) (fun _ => rfl) (fun _ => rfl)
    (fun _ => rfl)
    (fun j => (start3_768x766 _ j).trans (by rw [iv257_0]; exact toInt2))
    (by omega) (by omega) n p q (fun hin => ?_)
  exact sq_diff_at (val_main_v256 (F := Ideal) x0) (val_main_v255 (F := Ideal) x0)
    (val_main_v253 (F := Ideal) x0) (val_main_v254 (F := Ideal) x0)
    (val_main_v256_apply x0) (val_main_v255_apply x0) _ _ _
    ((val_main_v253_apply x0 _).trans (sig_at (val_main_v5 (F := Ideal) x0) n P hP _ p.val q.val rfl
      (by show p.val - 0 = p.val; omega) (by show 2 + (q.val - 2) = q.val; omega)))
    ((val_main_v254_apply x0 _).trans (sig_at (val_main_v5 (F := Ideal) x0) n P hP _ (p.val - 0 + 0) (q.val - 2 + 0) rfl
      (by show p.val - 0 = p.val - 0 + 0; omega) (by show q.val - 2 = q.val - 2 + 0; omega)))

/-- Rectangle from `(1, 2)`, `767 × 766`; neighbours from `(0, 0)`. -/
theorem acc_step_v269 (x0 : (⟨S32x1x768x768, .f32⟩ : BufTy).Contents (Elt Ideal)) (n : Fin 32) (P : Nat → Nat → EReal)
    (hP : ∀ a b : Fin 768, val_main_v5 (F := Ideal) x0 (ix4 n (0 : Fin 1) a b) = P a.val b.val) (p q : Fin 768) :
    val_main_v269 (F := Ideal) x0 (ix4 n (0 : Fin 1) p q) =
      val_main_v258 (F := Ideal) x0 (ix4 n (0 : Fin 1) p q) + Cert.Stencil.term P 1 2 0 0 767 766 p.val q.val := by
  unfold val_main_v269
  refine scatter_term_step scatter_S32x1x768x768_S2_S32x1x767x766_0123_n_23_0 (val_main_v258 (F := Ideal) x0)
    (val_main_v268 (F := Ideal)) (val_main_v265 (F := Ideal) x0) P 1 2 0 0
    (fun _ => rfl) (fun _ => rfl) (fun _ => rfl) (fun _ => rfl) (fun _ => rfl) (fun _ => rfl)
    (fun j => (start2_767x766 _ j).trans (by rw [iv268_0]; exact toInt1))
    (fun j => (start3_767x766 _ j).trans (by rw [iv268_1]; exact toInt2))
    (by omega) (by omega) n p q (fun hin => ?_)
  exact sq_diff_at (val_main_v265 (F := Ideal) x0) (val_main_v264 (F := Ideal) x0)
    (val_main_v262 (F := Ideal) x0) (val_main_v263 (F := Ideal) x0)
    (val_main_v265_apply x0) (val_main_v264_apply x0) _ _ _
    ((val_main_v262_apply x0 _).trans (sig_at (val_main_v5 (F := Ideal) x0) n P hP _ p.val q.val rfl
      (by show 1 + (p.val - 1) = p.val; omega) (by show 2 + (q.val - 2) = q.val; omega)))
    ((val_main_v263_apply x0 _).trans (sig_at (val_main_v5 (F := Ideal) x0) n P hP _ (p.val - 1 + 0) (q.val - 2 + 0) rfl
      (by show p.val - 1 = p.val - 1 + 0; omega) (by show q.val - 2 = q.val - 2 + 0; omega)))

/-- Rectangle from `(2, 2)`, `766 × 766`; neighbours from `(0, 0)`. -/
theorem acc_step_v282 (x0 : (⟨S32x1x768x768, .f32⟩ : BufTy).Contents (Elt Ideal)) (n : Fin 32) (P : Nat → Nat → EReal)
    (hP : ∀ a b : Fin 768, val_main_v5 (F := Ideal) x0 (ix4 n (0 : Fin 1) a b) = P a.val b.val) (p q : Fin 768) :
    val_main_v282 (F := Ideal) x0 (ix4 n (0 : Fin 1) p q) =
      val_main_v269 (F := Ideal) x0 (ix4 n (0 : Fin 1) p q) + Cert.Stencil.term P 2 2 0 0 766 766 p.val q.val := by
  unfold val_main_v282
  refine scatter_term_step scatter_S32x1x768x768_S2_S32x1x766x766_0123_n_23_0 (val_main_v269 (F := Ideal) x0)
    (val_main_v281 (F := Ideal)) (val_main_v278 (F := Ideal) x0) P 2 2 0 0
    (fun _ => rfl) (fun _ => rfl) (fun _ => rfl) (fun _ => rfl) (fun _ => rfl) (fun _ => rfl)
    (fun j => (start2_766x766 _ j).trans (by rw [iv281_0]; exact toInt2))
    (fun j => (start3_766x766 _ j).trans (by rw [iv281_1]; exact toInt2))
    (by omega) (by omega) n p q (fun hin => ?_)
  exact sq_diff_at (val_main_v278 (F := Ideal) x0) (val_main_v277 (F := Ideal) x0)
    (val_main_v275 (F := Ideal) x0) (val_main_v276 (F := Ideal) x0)
    (val_main_v278_apply x0) (val_main_v277_apply x0) _ _ _
    ((val_main_v275_apply x0 _).trans (sig_at (val_main_v5 (F := Ideal) x0) n P hP _ p.val q.val rfl
      (by show 2 + (p.val - 2) = p.val; omega) (by show 2 + (q.val - 2) = q.val; omega)))
    ((val_main_v276_apply x0 _).trans (sig_at (val_main_v5 (F := Ideal) x0) n P hP _ (p.val - 2 + 0) (q.val - 2 + 0) rfl
      (by show p.val - 2 = p.val - 2 + 0; omega) (by show q.val - 2 = q.val - 2 + 0; omega)))

/-- The sum starts from the zero array. -/
theorem acc_base (n : Fin 32) (p q : Fin 768) : val_main_v6 (F := Ideal) (ix4 n (0 : Fin 1) p q) = 0 :=
  (val_main_v6_apply _).trans ((val_main_cst_1_apply _).trans ((Ideal.ofBits_def _).trans Ideal.ofBits_zero_f32))

/-- The reference's sum of the 24 terms at a pixel, the column offset outermost. -/
theorem acc_apply (x0 : (⟨S32x1x768x768, .f32⟩ : BufTy).Contents (Elt Ideal)) (n : Fin 32) (P : Nat → Nat → EReal)
    (hP : ∀ a b : Fin 768, val_main_v5 (F := Ideal) x0 (ix4 n (0 : Fin 1) a b) = P a.val b.val) (p q : Fin 768) :
    val_main_v282 (F := Ideal) x0 (ix4 n (0 : Fin 1) p q) = Cert.Stencil.accCols P p.val q.val := by
  unfold Cert.Stencil.accCols
  refine (acc_step_v282 x0 n P hP p q).trans (add_congr_left ?_)
  refine (acc_step_v269 x0 n P hP p q).trans (add_congr_left ?_)
  refine (acc_step_v258 x0 n P hP p q).trans (add_congr_left ?_)
  refine (acc_step_v247 x0 n P hP p q).trans (add_congr_left ?_)
  refine (acc_step_v234 x0 n P hP p q).trans (add_congr_left ?_)
  refine (acc_step_v221 x0 n P hP p q).trans (add_congr_left ?_)
  refine (acc_step_v208 x0 n P hP p q).trans (add_congr_left ?_)
  refine (acc_step_v197 x0 n P hP p q).trans (add_congr_left ?_)
  refine (acc_step_v186 x0 n P hP p q).trans (add_congr_left ?_)
  refine (acc_step_v173 x0 n P hP p q).trans (add_congr_left ?_)
  refine (acc_step_v162 x0 n P hP p q).trans (add_congr_left ?_)
  refine (acc_step_v153 x0 n P hP p q).trans (add_congr_left ?_)
  refine (acc_step_v144 x0 n P hP p q).trans (add_congr_left ?_)
  refine (acc_step_v135 x0 n P hP p q).trans (add_congr_left ?_)
  refine (acc_step_v124 x0 n P hP p q).trans (add_congr_left ?_)
  refine (acc_step_v111 x0 n P hP p q).trans (add_congr_left ?_)
  refine (acc_step_v100 x0 n P hP p q).trans (add_congr_left ?_)
  refine (acc_step_v89 x0 n P hP p q).trans (add_congr_left ?_)
  refine (acc_step_v76 x0 n P hP p q).trans (add_congr_left ?_)
  refine (acc_step_v63 x0 n P hP p q).trans (add_congr_left ?_)
  refine (acc_step_v50 x0 n P hP p q).trans (add_congr_left ?_)
  refine (acc_step_v39 x0 n P hP p q).trans (add_congr_left ?_)
  refine (acc_step_v28 x0 n P hP p q).trans (add_congr_left ?_)
  refine (acc_step_v15 x0 n P hP p q).trans (add_congr_left ?_)
  exact acc_base n p q

/-! ## The 24 steps of the count

  The same rectangles, the window constantly `1.0`. -/

/-- Rectangle from `(0, 0)`, `766 × 766`. -/
theorem div_step_v20 (n : Fin 32) (p q : Fin 768) :
    val_main_v20 (F := Ideal) (ix4 n (0 : Fin 1) p q) =
      val_main_v7 (F := Ideal) (ix4 n (0 : Fin 1) p q) +
        Cert.Stencil.cnt (Ideal.ofBits .f32 0x3F800000#32) 0 0 766 766 p.val q.val := by
  unfold val_main_v20
  exact scatter_cnt_step scatter_S32x1x768x768_S2_S32x1x766x766_0123_n_23_0 (val_main_v7 (F := Ideal))
    (val_main_v18 (F := Ideal)) (val_main_v19 (F := Ideal)) (Ideal.ofBits .f32 0x3F800000#32) 0 0
    (fun _ => rfl) (fun _ => rfl) (fun _ => rfl) (fun _ => rfl) (fun _ => rfl) (fun _ => rfl)
    (fun j => (start2_766x766 _ j).trans (by rw [iv18_0]; exact toInt0))
    (fun j => (start3_766x766 _ j).trans (by rw [iv18_1]; exact toInt0))
    (by omega) (by omega) n p q
    (fun j => (val_main_v19_apply j).trans ((val_main_cst_6_apply _).trans (Ideal.ofBits_def _)))

/-- Rectangle from `(0, 0)`, `767 × 766`. -/
theorem div_step_v33 (n : Fin 32) (p q : Fin 768) :
    val_main_v33 (F := Ideal) (ix4 n (0 : Fin 1) p q) =
      val_main_v20 (F := Ideal) (ix4 n (0 : Fin 1) p q) +
        Cert.Stencil.cnt (Ideal.ofBits .f32 0x3F800000#32) 0 0 767 766 p.val q.val := by
  unfold val_main_v33
  exact scatter_cnt_step scatter_S32x1x768x768_S2_S32x1x767x766_0123_n_23_0 (val_main_v20 (F := Ideal))
    (val_main_v31 (F := Ideal)) (val_main_v32 (F := Ideal)) (Ideal.ofBits .f32 0x3F800000#32) 0 0
    (fun _ => rfl) (fun _ => rfl) (fun _ => rfl) (fun _ => rfl) (fun _ => rfl) (fun _ => rfl)
    (fun j => (start2_767x766 _ j).trans (by rw [iv31_0]; exact toInt0))
    (fun j => (start3_767x766 _ j).trans (by rw [iv31_1]; exact toInt0))
    (by omega) (by omega) n p q
    (fun j => (val_main_v32_apply j).trans ((val_main_cst_11_apply _).trans (Ideal.ofBits_def _)))

/-- Rectangle from `(0, 0)`, `768 × 766`. -/
theorem div_step_v42 (n : Fin 32) (p q : Fin 768) :
    val_main_v42 (F := Ideal) (ix4 n (0 : Fin 1) p q) =
      val_main_v33 (F := Ideal) (ix4 n (0 : Fin 1) p q) +
        Cert.Stencil.cnt (Ideal.ofBits .f32 0x3F800000#32) 0 0 768 766 p.val q.val := by
  unfold val_main_v42
  exact scatter_cnt_step scatter_S32x1x768x768_S1_S32x1x768x766_0123_n_3_0 (val_main_v33 (F := Ideal))
    (val_main_v40 (F := Ideal)) (val_main_v41 (F := Ideal)) (Ideal.ofBits .f32 0x3F800000#32) 0 0
    (fun _ => rfl) (fun _ => rfl) (fun _ => rfl) (fun _ => rfl) (fun _ => rfl) (fun _ => rfl)
    (fun _ => rfl)
    (fun j => (start3_768x766 _ j).trans (by rw [iv40_0]; exact toInt0))
    (by omega) (by omega) n p q
    (fun j => (val_main_v41_apply j).trans ((val_main_cst_14_apply _).trans (Ideal.ofBits_def _)))

/-- Rectangle from `(1, 0)`, `767 × 766`. -/
theorem div_step_v55 (n : Fin 32) (p q : Fin 768) :
    val_main_v55 (F := Ideal) (ix4 n (0 : Fin 1) p q) =
      val_main_v42 (F := Ideal) (ix4 n (0 : Fin 1) p q) +
        Cert.Stencil.cnt (Ideal.ofBits .f32 0x3F800000#32) 1 0 767 766 p.val q.val := by
  unfold val_main_v55
  exact scatter_cnt_step scatter_S32x1x768x768_S2_S32x1x767x766_0123_n_23_0 (val_main_v42 (F := Ideal))
    (val_main_v53 (F := Ideal)) (val_main_v54 (F := Ideal)) (Ideal.ofBits .f32 0x3F800000#32) 1 0
    (fun _ => rfl) (fun _ => rfl) (fun _ => rfl) (fun _ => rfl) (fun _ => rfl) (fun _ => rfl)
    (fun j => (start2_767x766 _ j).trans (by rw [iv53_0]; exact toInt1))
    (fun j => (start3_767x766 _ j).trans (by rw [iv53_1]; exact toInt0))
    (by omega) (by omega) n p q
    (fun j => (val_main_v54_apply j).trans ((val_main_cst_19_apply _).trans (Ideal.ofBits_def _)))

/-- Rectangle from `(2, 0)`, `766 × 766`. -/
theorem div_step_v68 (n : Fin 32) (p q : Fin 768) :
    val_main_v68 (F := Ideal) (ix4 n (0 : Fin 1) p q) =
      val_main_v55 (F := Ideal) (ix4 n (0 : Fin 1) p q) +
        Cert.Stencil.cnt (Ideal.ofBits .f32 0x3F800000#32) 2 0 766 766 p.val q.val := by
  unfold val_main_v68
  exact scatter_cnt_step scatter_S32x1x768x768_S2_S32x1x766x766_0123_n_23_0 (val_main_v55 (F := Ideal))
    (val_main_v66 (F := Ideal)) (val_main_v67 (F := Ideal)) (Ideal.ofBits .f32 0x3F800000#32) 2 0
    (fun _ => rfl) (fun _ => rfl) (fun _ => rfl) (fun _ => rfl) (fun _ => rfl) (fun _ => rfl)
    (fun j => (start2_766x766 _ j).trans (by rw [iv66_0]; exact toInt2))
    (fun j => (start3_766x766 _ j).trans (by rw [iv66_1]; exact toInt0))
    (by omega) (by omega) n p q
    (fun j => (val_main_v67_apply j).trans ((val_main_cst_24_apply _).trans (Ideal.ofBits_def _)))

/-- Rectangle from `(0, 0)`, `766 × 767`. -/
theorem div_step_v81 (n : Fin 32) (p q : Fin 768) :
    val_main_v81 (F := Ideal) (ix4 n (0 : Fin 1) p q) =
      val_main_v68 (F := Ideal) (ix4 n (0 : Fin 1) p q) +
        Cert.Stencil.cnt (Ideal.ofBits .f32 0x3F800000#32) 0 0 766 767 p.val q.val := by
  unfold val_main_v81
  exact scatter_cnt_step scatter_S32x1x768x768_S2_S32x1x766x767_0123_n_23_0 (val_main_v68 (F := Ideal))
    (val_main_v79 (F := Ideal)) (val_main_v80 (F := Ideal)) (Ideal.ofBits .f32 0x3F800000#32) 0 0
    (fun _ => rfl) (fun _ => rfl) (fun _ => rfl) (fun _ => rfl) (fun _ => rfl) (fun _ => rfl)
    (fun j => (start2_766x767 _ j).trans (by rw [iv79_0]; exact toInt0))
    (fun j => (start3_766x767 _ j).trans (by rw [iv79_1]; exact toInt0))
    (by omega) (by omega) n p q
    (fun j => (val_main_v80_apply j).trans ((val_main_cst_29_apply _).trans (Ideal.ofBits_def _)))

/-- Rectangle from `(0, 0)`, `767 × 767`. -/
theorem div_step_v94 (n : Fin 32) (p q : Fin 768) :
    val_main_v94 (F := Ideal) (ix4 n (0 : Fin 1) p q) =
      val_main_v81 (F := Ideal) (ix4 n (0 : Fin 1) p q) +
        Cert.Stencil.cnt (Ideal.ofBits .f32 0x3F800000#32) 0 0 767 767 p.val q.val := by
  unfold val_main_v94
  exact scatter_cnt_step scatter_S32x1x768x768_S2_S32x1x767x767_0123_n_23_0 (val_main_v81 (F := Ideal))
    (val_main_v92 (F := Ideal)) (val_main_v93 (F := Ideal)) (Ideal.ofBits .f32 0x3F800000#32) 0 0
    (fun _ => rfl) (fun _ => rfl) (fun _ => rfl) (fun _ => rfl) (fun _ => rfl) (fun _ => rfl)
    (fun j => (start2_767x767 _ j).trans (by rw [iv92_0]; exact toInt0))
    (fun j => (start3_767x767 _ j).trans (by rw [iv92_1]; exact toInt0))
    (by omega) (by omega) n p q
    (fun j => (val_main_v93_apply j).trans ((val_main_cst_34_apply _).trans (Ideal.ofBits_def _)))

/-- Rectangle from `(0, 0)`, `768 × 767`. -/
theorem div_step_v103 (n : Fin 32) (p q : Fin 768) :
    val_main_v103 (F := Ideal) (ix4 n (0 : Fin 1) p q) =
      val_main_v94 (F := Ideal) (ix4 n (0 : Fin 1) p q) +
        Cert.Stencil.cnt (Ideal.ofBits .f32 0x3F800000#32) 0 0 768 767 p.val q.val := by
  unfold val_main_v103
  exact scatter_cnt_step scatter_S32x1x768x768_S1_S32x1x768x767_0123_n_3_0 (val_main_v94 (F := Ideal))
    (val_main_v101 (F := Ideal)) (val_main_v102 (F := Ideal)) (Ideal.ofBits .f32 0x3F800000#32) 0 0
    (fun _ => rfl) (fun _ => rfl) (fun _ => rfl) (fun _ => rfl) (fun _ => rfl) (fun _ => rfl)
    (fun _ => rfl)
    (fun j => (start3_768x767 _ j).trans (by rw [iv101_0]; exact toInt0))
    (by omega) (by omega) n p q
    (fun j => (val_main_v102_apply j).trans ((val_main_cst_37_apply _).trans (Ideal.ofBits_def _)))

/-- Rectangle from `(1, 0)`, `767 × 767`. -/
theorem div_step_v116 (n : Fin 32) (p q : Fin 768) :
    val_main_v116 (F := Ideal) (ix4 n (0 : Fin 1) p q) =
      val_main_v103 (F := Ideal) (ix4 n (0 : Fin 1) p q) +
        Cert.Stencil.cnt (Ideal.ofBits .f32 0x3F800000#32) 1 0 767 767 p.val q.val := by
  unfold val_main_v116
  exact scatter_cnt_step scatter_S32x1x768x768_S2_S32x1x767x767_0123_n_23_0 (val_main_v103 (F := Ideal))
    (val_main_v114 (F := Ideal)) (val_main_v115 (F := Ideal)) (Ideal.ofBits .f32 0x3F800000#32) 1 0
    (fun _ => rfl) (fun _ => rfl) (fun _ => rfl) (fun _ => rfl) (fun _ => rfl) (fun _ => rfl)
    (fun j => (start2_767x767 _ j).trans (by rw [iv114_0]; exact toInt1))
    (fun j => (start3_767x767 _ j).trans (by rw [iv114_1]; exact toInt0))
    (by omega) (by omega) n p q
    (fun j => (val_main_v115_apply j).trans ((val_main_cst_42_apply _).trans (Ideal.ofBits_def _)))

/-- Rectangle from `(2, 0)`, `766 × 767`. -/
theorem div_step_v129 (n : Fin 32) (p q : Fin 768) :
    val_main_v129 (F := Ideal) (ix4 n (0 : Fin 1) p q) =
      val_main_v116 (F := Ideal) (ix4 n (0 : Fin 1) p q) +
        Cert.Stencil.cnt (Ideal.ofBits .f32 0x3F800000#32) 2 0 766 767 p.val q.val := by
  unfold val_main_v129
  exact scatter_cnt_step scatter_S32x1x768x768_S2_S32x1x766x767_0123_n_23_0 (val_main_v116 (F := Ideal))
    (val_main_v127 (F := Ideal)) (val_main_v128 (F := Ideal)) (Ideal.ofBits .f32 0x3F800000#32) 2 0
    (fun _ => rfl) (fun _ => rfl) (fun _ => rfl) (fun _ => rfl) (fun _ => rfl) (fun _ => rfl)
    (fun j => (start2_766x767 _ j).trans (by rw [iv127_0]; exact toInt2))
    (fun j => (start3_766x767 _ j).trans (by rw [iv127_1]; exact toInt0))
    (by omega) (by omega) n p q
    (fun j => (val_main_v128_apply j).trans ((val_main_cst_47_apply _).trans (Ideal.ofBits_def _)))

/-- Rectangle from `(0, 0)`, `766 × 768`. -/
theorem div_step_v138 (n : Fin 32) (p q : Fin 768) :
    val_main_v138 (F := Ideal) (ix4 n (0 : Fin 1) p q) =
      val_main_v129 (F := Ideal) (ix4 n (0 : Fin 1) p q) +
        Cert.Stencil.cnt (Ideal.ofBits .f32 0x3F800000#32) 0 0 766 768 p.val q.val := by
  unfold val_main_v138
  exact scatter_cnt_step scatter_S32x1x768x768_S1_S32x1x766x768_0123_n_2_0 (val_main_v129 (F := Ideal))
    (val_main_v136 (F := Ideal)) (val_main_v137 (F := Ideal)) (Ideal.ofBits .f32 0x3F800000#32) 0 0
    (fun _ => rfl) (fun _ => rfl) (fun _ => rfl) (fun _ => rfl) (fun _ => rfl) (fun _ => rfl)
    (fun j => (start2_766x768 _ j).trans (by rw [iv136_0]; exact toInt0))
    (fun _ => rfl)
    (by omega) (by omega) n p q
    (fun j => (val_main_v137_apply j).trans ((val_main_cst_50_apply _).trans (Ideal.ofBits_def _)))

/-- Rectangle from `(0, 0)`, `767 × 768`. -/
theorem div_step_v147 (n : Fin 32) (p q : Fin 768) :
    val_main_v147 (F := Ideal) (ix4 n (0 : Fin 1) p q) =
      val_main_v138 (F := Ideal) (ix4 n (0 : Fin 1) p q) +
        Cert.Stencil.cnt (Ideal.ofBits .f32 0x3F800000#32) 0 0 767 768 p.val q.val := by
  unfold val_main_v147
  exact scatter_cnt_step scatter_S32x1x768x768_S1_S32x1x767x768_0123_n_2_0 (val_main_v138 (F := Ideal))
    (val_main_v145 (F := Ideal)) (val_main_v146 (F := Ideal)) (Ideal.ofBits .f32 0x3F800000#32) 0 0
    (fun _ => rfl) (fun _ => rfl) (fun _ => rfl) (fun _ => rfl) (fun _ => rfl) (fun _ => rfl)
    (fun j => (start2_767x768 _ j).trans (by rw [iv145_0]; exact toInt0))
    (fun _ => rfl)
    (by omega) (by omega) n p q
    (fun j => (val_main_v146_apply j).trans ((val_main_cst_53_apply _).trans (Ideal.ofBits_def _)))

/-- Rectangle from `(1, 0)`, `767 × 768`. -/
theorem div_step_v156 (n : Fin 32) (p q : Fin 768) :
    val_main_v156 (F := Ideal) (ix4 n (0 : Fin 1) p q) =
      val_main_v147 (F := Ideal) (ix4 n (0 : Fin 1) p q) +
        Cert.Stencil.cnt (Ideal.ofBits .f32 0x3F800000#32) 1 0 767 768 p.val q.val := by
  unfold val_main_v156
  exact scatter_cnt_step scatter_S32x1x768x768_S1_S32x1x767x768_0123_n_2_0 (val_main_v147 (F := Ideal))
    (val_main_v154 (F := Ideal)) (val_main_v155 (F := Ideal)) (Ideal.ofBits .f32 0x3F800000#32) 1 0
    (fun _ => rfl) (fun _ => rfl) (fun _ => rfl) (fun _ => rfl) (fun _ => rfl) (fun _ => rfl)
    (fun j => (start2_767x768 _ j).trans (by rw [iv154_0]; exact toInt1))
    (fun _ => rfl)
    (by omega) (by omega) n p q
    (fun j => (val_main_v155_apply j).trans ((val_main_cst_56_apply _).trans (Ideal.ofBits_def _)))

/-- Rectangle from `(2, 0)`, `766 × 768`. -/
theorem div_step_v165 (n : Fin 32) (p q : Fin 768) :
    val_main_v165 (F := Ideal) (ix4 n (0 : Fin 1) p q) =
      val_main_v156 (F := Ideal) (ix4 n (0 : Fin 1) p q) +
        Cert.Stencil.cnt (Ideal.ofBits .f32 0x3F800000#32) 2 0 766 768 p.val q.val := by
  unfold val_main_v165
  exact scatter_cnt_step scatter_S32x1x768x768_S1_S32x1x766x768_0123_n_2_0 (val_main_v156 (F := Ideal))
    (val_main_v163 (F := Ideal)) (val_main_v164 (F := Ideal)) (Ideal.ofBits .f32 0x3F800000#32) 2 0
    (fun _ => rfl) (fun _ => rfl) (fun _ => rfl) (fun _ => rfl) (fun _ => rfl) (fun _ => rfl)
    (fun j => (start2_766x768 _ j).trans (by rw [iv163_0]; exact toInt2))
    (fun _ => rfl)
    (by omega) (by omega) n p q
    (fun j => (val_main_v164_apply j).trans ((val_main_cst_59_apply _).trans (Ideal.ofBits_def _)))

/-- Rectangle from `(0, 1)`, `766 × 767`. -/
theorem div_step_v178 (n : Fin 32) (p q : Fin 768) :
    val_main_v178 (F := Ideal) (ix4 n (0 : Fin 1) p q) =
      val_main_v165 (F := Ideal) (ix4 n (0 : Fin 1) p q) +
        Cert.Stencil.cnt (Ideal.ofBits .f32 0x3F800000#32) 0 1 766 767 p.val q.val := by
  unfold val_main_v178
  exact scatter_cnt_step scatter_S32x1x768x768_S2_S32x1x766x767_0123_n_23_0 (val_main_v165 (F := Ideal))
    (val_main_v176 (F := Ideal)) (val_main_v177 (F := Ideal)) (Ideal.ofBits .f32 0x3F800000#32) 0 1
    (fun _ => rfl) (fun _ => rfl) (fun _ => rfl) (fun _ => rfl) (fun _ => rfl) (fun _ => rfl)
    (fun j => (start2_766x767 _ j).trans (by rw [iv176_0]; exact toInt0))
    (fun j => (start3_766x767 _ j).trans (by rw [iv176_1]; exact toInt1))
    (by omega) (by omega) n p q
    (fun j => (val_main_v177_apply j).trans ((val_main_cst_64_apply _).trans (Ideal.ofBits_def _)))

/-- Rectangle from `(0, 1)`, `767 × 767`. -/
theorem div_step_v191 (n : Fin 32) (p q : Fin 768) :
    val_main_v191 (F := Ideal) (ix4 n (0 : Fin 1) p q) =
      val_main_v178 (F := Ideal) (ix4 n (0 : Fin 1) p q) +
        Cert.Stencil.cnt (Ideal.ofBits .f32 0x3F800000#32) 0 1 767 767 p.val q.val := by
  unfold val_main_v191
  exact scatter_cnt_step scatter_S32x1x768x768_S2_S32x1x767x767_0123_n_23_0 (val_main_v178 (F := Ideal))
    (val_main_v189 (F := Ideal)) (val_main_v190 (F := Ideal)) (Ideal.ofBits .f32 0x3F800000#32) 0 1
    (fun _ => rfl) (fun _ => rfl) (fun _ => rfl) (fun _ => rfl) (fun _ => rfl) (fun _ => rfl)
    (fun j => (start2_767x767 _ j).trans (by rw [iv189_0]; exact toInt0))
    (fun j => (start3_767x767 _ j).trans (by rw [iv189_1]; exact toInt1))
    (by omega) (by omega) n p q
    (fun j => (val_main_v190_apply j).trans ((val_main_cst_69_apply _).trans (Ideal.ofBits_def _)))

/-- Rectangle from `(0, 1)`, `768 × 767`. -/
theorem div_step_v200 (n : Fin 32) (p q : Fin 768) :
    val_main_v200 (F := Ideal) (ix4 n (0 : Fin 1) p q) =
      val_main_v191 (F := Ideal) (ix4 n (0 : Fin 1) p q) +
        Cert.Stencil.cnt (Ideal.ofBits .f32 0x3F800000#32) 0 1 768 767 p.val q.val := by
  unfold val_main_v200
  exact scatter_cnt_step scatter_S32x1x768x768_S1_S32x1x768x767_0123_n_3_0 (val_main_v191 (F := Ideal))
    (val_main_v198 (F := Ideal)) (val_main_v199 (F := Ideal)) (Ideal.ofBits .f32 0x3F800000#32) 0 1
    (fun _ => rfl) (fun _ => rfl) (fun _ => rfl) (fun _ => rfl) (fun _ => rfl) (fun _ => rfl)
    (fun _ => rfl)
    (fun j => (start3_768x767 _ j).trans (by rw [iv198_0]; exact toInt1))
    (by omega) (by omega) n p q
    (fun j => (val_main_v199_apply j).trans ((val_main_cst_72_apply _).trans (Ideal.ofBits_def _)))

/-- Rectangle from `(1, 1)`, `767 × 767`. -/
theorem div_step_v213 (n : Fin 32) (p q : Fin 768) :
    val_main_v213 (F := Ideal) (ix4 n (0 : Fin 1) p q) =
      val_main_v200 (F := Ideal) (ix4 n (0 : Fin 1) p q) +
        Cert.Stencil.cnt (Ideal.ofBits .f32 0x3F800000#32) 1 1 767 767 p.val q.val := by
  unfold val_main_v213
  exact scatter_cnt_step scatter_S32x1x768x768_S2_S32x1x767x767_0123_n_23_0 (val_main_v200 (F := Ideal))
    (val_main_v211 (F := Ideal)) (val_main_v212 (F := Ideal)) (Ideal.ofBits .f32 0x3F800000#32) 1 1
    (fun _ => rfl) (fun _ => rfl) (fun _ => rfl) (fun _ => rfl) (fun _ => rfl) (fun _ => rfl)
    (fun j => (start2_767x767 _ j).trans (by rw [iv211_0]; exact toInt1))
    (fun j => (start3_767x767 _ j).trans (by rw [iv211_1]; exact toInt1))
    (by omega) (by omega) n p q
    (fun j => (val_main_v212_apply j).trans ((val_main_cst_77_apply _).trans (Ideal.ofBits_def _)))

/-- Rectangle from `(2, 1)`, `766 × 767`. -/
theorem div_step_v226 (n : Fin 32) (p q : Fin 768) :
    val_main_v226 (F := Ideal) (ix4 n (0 : Fin 1) p q) =
      val_main_v213 (F := Ideal) (ix4 n (0 : Fin 1) p q) +
        Cert.Stencil.cnt (Ideal.ofBits .f32 0x3F800000#32) 2 1 766 767 p.val q.val := by
  unfold val_main_v226
  exact scatter_cnt_step scatter_S32x1x768x768_S2_S32x1x766x767_0123_n_23_0 (val_main_v213 (F := Ideal))
    (val_main_v224 (F := Ideal)) (val_main_v225 (F := Ideal)) (Ideal.ofBits .f32 0x3F800000#32) 2 1
    (fun _ => rfl) (fun _ => rfl) (fun _ => rfl) (fun _ => rfl) (fun _ => rfl) (fun _ => rfl)
    (fun j => (start2_766x767 _ j).trans (by rw [iv224_0]; exact toInt2))
    (fun j => (start3_766x767 _ j).trans (by rw [iv224_1]; exact toInt1))
    (by omega) (by omega) n p q
    (fun j => (val_main_v225_apply j).trans ((val_main_cst_82_apply _).trans (Ideal.ofBits_def _)))

/-- Rectangle from `(0, 2)`, `766 × 766`. -/
theorem div_step_v239 (n : Fin 32) (p q : Fin 768) :
    val_main_v239 (F := Ideal) (ix4 n (0 : Fin 1) p q) =
      val_main_v226 (F := Ideal) (ix4 n (0 : Fin 1) p q) +
        Cert.Stencil.cnt (Ideal.ofBits .f32 0x3F800000#32) 0 2 766 766 p.val q.val := by
  unfold val_main_v239
  exact scatter_cnt_step scatter_S32x1x768x768_S2_S32x1x766x766_0123_n_23_0 (val_main_v226 (F := Ideal))
    (val_main_v237 (F := Ideal)) (val_main_v238 (F := Ideal)) (Ideal.ofBits .f32 0x3F800000#32) 0 2
    (fun _ => rfl) (fun _ => rfl) (fun _ => rfl) (fun _ => rfl) (fun _ => rfl) (fun _ => rfl)
    (fun j => (start2_766x766 _ j).trans (by rw [iv237_0]; exact toInt0))
    (fun j => (start3_766x766 _ j).trans (by rw [iv237_1]; exact toInt2))
    (by omega) (by omega) n p q
    (fun j => (val_main_v238_apply j).trans ((val_main_cst_87_apply _).trans (Ideal.ofBits_def _)))

/-- Rectangle from `(0, 2)`, `767 × 766`. -/
theorem div_step_v252 (n : Fin 32) (p q : Fin 768) :
    val_main_v252 (F := Ideal) (ix4 n (0 : Fin 1) p q) =
      val_main_v239 (F := Ideal) (ix4 n (0 : Fin 1) p q) +
        Cert.Stencil.cnt (Ideal.ofBits .f32 0x3F800000#32) 0 2 767 766 p.val q.val := by
  unfold val_main_v252
  exact scatter_cnt_step scatter_S32x1x768x768_S2_S32x1x767x766_0123_n_23_0 (val_main_v239 (F := Ideal))
    (val_main_v250 (F := Ideal)) (val_main_v251 (F := Ideal)) (Ideal.ofBits .f32 0x3F800000#32) 0 2
    (fun _ => rfl) (fun _ => rfl) (fun _ => rfl) (fun _ => rfl) (fun _ => rfl) (fun _ => rfl)
    (fun j => (start2_767x766 _ j).trans (by rw [iv250_0]; exact toInt0))
    (fun j => (start3_767x766 _ j).trans (by rw [iv250_1]; exact toInt2))
    (by omega) (by omega) n p q
    (fun j => (val_main_v251_apply j).trans ((val_main_cst_92_apply _).trans (Ideal.ofBits_def _)))

/-- Rectangle from `(0, 2)`, `768 × 766`. -/
theorem div_step_v261 (n : Fin 32) (p q : Fin 768) :
    val_main_v261 (F := Ideal) (ix4 n (0 : Fin 1) p q) =
      val_main_v252 (F := Ideal) (ix4 n (0 : Fin 1) p q) +
        Cert.Stencil.cnt (Ideal.ofBits .f32 0x3F800000#32) 0 2 768 766 p.val q.val := by
  unfold val_main_v261
  exact scatter_cnt_step scatter_S32x1x768x768_S1_S32x1x768x766_0123_n_3_0 (val_main_v252 (F := Ideal))
    (val_main_v259 (F := Ideal)) (val_main_v260 (F := Ideal)) (Ideal.ofBits .f32 0x3F800000#32) 0 2
    (fun _ => rfl) (fun _ => rfl) (fun _ => rfl) (fun _ => rfl) (fun _ => rfl) (fun _ => rfl)
    (fun _ => rfl)
    (fun j => (start3_768x766 _ j).trans (by rw [iv259_0]; exact toInt2))
    (by omega) (by omega) n p q
    (fun j => (val_main_v260_apply j).trans ((val_main_cst_95_apply _).trans (Ideal.ofBits_def _)))

/-- Rectangle from `(1, 2)`, `767 × 766`. -/
theorem div_step_v274 (n : Fin 32) (p q : Fin 768) :
    val_main_v274 (F := Ideal) (ix4 n (0 : Fin 1) p q) =
      val_main_v261 (F := Ideal) (ix4 n (0 : Fin 1) p q) +
        Cert.Stencil.cnt (Ideal.ofBits .f32 0x3F800000#32) 1 2 767 766 p.val q.val := by
  unfold val_main_v274
  exact scatter_cnt_step scatter_S32x1x768x768_S2_S32x1x767x766_0123_n_23_0 (val_main_v261 (F := Ideal))
    (val_main_v272 (F := Ideal)) (val_main_v273 (F := Ideal)) (Ideal.ofBits .f32 0x3F800000#32) 1 2
    (fun _ => rfl) (fun _ => rfl) (fun _ => rfl) (fun _ => rfl) (fun _ => rfl) (fun _ => rfl)
    (fun j => (start2_767x766 _ j).trans (by rw [iv272_0]; exact toInt1))
    (fun j => (start3_767x766 _ j).trans (by rw [iv272_1]; exact toInt2))
    (by omega) (by omega) n p q
    (fun j => (val_main_v273_apply j).trans ((val_main_cst_100_apply _).trans (Ideal.ofBits_def _)))

/-- Rectangle from `(2, 2)`, `766 × 766`. -/
theorem div_step_v287 (n : Fin 32) (p q : Fin 768) :
    val_main_v287 (F := Ideal) (ix4 n (0 : Fin 1) p q) =
      val_main_v274 (F := Ideal) (ix4 n (0 : Fin 1) p q) +
        Cert.Stencil.cnt (Ideal.ofBits .f32 0x3F800000#32) 2 2 766 766 p.val q.val := by
  unfold val_main_v287
  exact scatter_cnt_step scatter_S32x1x768x768_S2_S32x1x766x766_0123_n_23_0 (val_main_v274 (F := Ideal))
    (val_main_v285 (F := Ideal)) (val_main_v286 (F := Ideal)) (Ideal.ofBits .f32 0x3F800000#32) 2 2
    (fun _ => rfl) (fun _ => rfl) (fun _ => rfl) (fun _ => rfl) (fun _ => rfl) (fun _ => rfl)
    (fun j => (start2_766x766 _ j).trans (by rw [iv285_0]; exact toInt2))
    (fun j => (start3_766x766 _ j).trans (by rw [iv285_1]; exact toInt2))
    (by omega) (by omega) n p q
    (fun j => (val_main_v286_apply j).trans ((val_main_cst_105_apply _).trans (Ideal.ofBits_def _)))

/-- The count starts from the zero array. -/
theorem div_base (n : Fin 32) (p q : Fin 768) : val_main_v7 (F := Ideal) (ix4 n (0 : Fin 1) p q) = 0 :=
  (val_main_v7_apply _).trans ((val_main_cst_2_apply _).trans ((Ideal.ofBits_def _).trans Ideal.ofBits_zero_f32))

/-- The reference's count of the neighbours at a pixel, the column offset outermost. -/
theorem div_apply (n : Fin 32) (p q : Fin 768) :
    val_main_v287 (F := Ideal) (ix4 n (0 : Fin 1) p q) =
      Cert.Stencil.cntCols (Ideal.ofBits .f32 0x3F800000#32) p.val q.val := by
  unfold Cert.Stencil.cntCols
  refine (div_step_v287 n p q).trans (add_congr_left ?_)
  refine (div_step_v274 n p q).trans (add_congr_left ?_)
  refine (div_step_v261 n p q).trans (add_congr_left ?_)
  refine (div_step_v252 n p q).trans (add_congr_left ?_)
  refine (div_step_v239 n p q).trans (add_congr_left ?_)
  refine (div_step_v226 n p q).trans (add_congr_left ?_)
  refine (div_step_v213 n p q).trans (add_congr_left ?_)
  refine (div_step_v200 n p q).trans (add_congr_left ?_)
  refine (div_step_v191 n p q).trans (add_congr_left ?_)
  refine (div_step_v178 n p q).trans (add_congr_left ?_)
  refine (div_step_v165 n p q).trans (add_congr_left ?_)
  refine (div_step_v156 n p q).trans (add_congr_left ?_)
  refine (div_step_v147 n p q).trans (add_congr_left ?_)
  refine (div_step_v138 n p q).trans (add_congr_left ?_)
  refine (div_step_v129 n p q).trans (add_congr_left ?_)
  refine (div_step_v116 n p q).trans (add_congr_left ?_)
  refine (div_step_v103 n p q).trans (add_congr_left ?_)
  refine (div_step_v94 n p q).trans (add_congr_left ?_)
  refine (div_step_v81 n p q).trans (add_congr_left ?_)
  refine (div_step_v68 n p q).trans (add_congr_left ?_)
  refine (div_step_v55 n p q).trans (add_congr_left ?_)
  refine (div_step_v42 n p q).trans (add_congr_left ?_)
  refine (div_step_v33 n p q).trans (add_congr_left ?_)
  refine (div_step_v20 n p q).trans (add_congr_left ?_)
  exact div_base n p q

end Cert.ReferenceIdeal.RStencil

end
-- ==== Proof.RPoint.lean ====
/-
  The reference's pointwise stages, read at one pixel.

  After the neighbour sum `A` and the neighbour count `C` the reference computes, pixel by pixel,
  `0.9 · max ((1 - A / C) · E, y) + 0.1`, where `E` is its entropy factor, `y` the second argument, and `0.9`, `1`, `0.1`
  are the values of three 32-bit float words (kept as words). The sigmoid image, which it computes twice, is
  `1 / (1 + exp (-x))` at every pixel, the logistic function `sg` of the first argument; its softplus is `sp`; and the
  entropy factor is `ent` of the first argument.
-/
import proofs.«119324_j40802189312445_2_alg».proof.Proof.RefRead
import proofs.«119324_j40802189312445_2_alg».proof.Proof.Pt
import Idealize.ShloMosaic.PureOps.Ideal.Laws
import Idealize.ShloMosaic.Lib.IdealHost
import Idealize.ShloMosaic.Lib.ValueIdx

noncomputable section

namespace Cert.ReferenceIdeal.RPoint

open Idealize.ShloMosaic Idealize.ShloMosaic.ValueIdx Cert.ReferenceIdeal Cert.ReferenceIdeal.ReadP

/-! ## The scalar constants, broadcast: the same word's value at every index -/

/-- The `1` subtracted from. -/
theorem v289_at (k : S32x1x768x768.Idx) : val_main_v289 (F := Ideal) k = Ideal.ofBits .f32 0x3F800000#32 :=
  (val_main_v289_apply k).trans ((val_main_cst_106_apply _).trans (Ideal.ofBits_def _))

/-- The factor `0.9`. -/
theorem v310_at (k : S32x1x768x768.Idx) : val_main_v310 (F := Ideal) k = Ideal.ofBits .f32 0x3F666666#32 :=
  (val_main_v310_apply k).trans ((val_main_cst_112_apply _).trans (Ideal.ofBits_def _))

/-- The summand `0.1`. -/
theorem v312_at (k : S32x1x768x768.Idx) : val_main_v312 (F := Ideal) k = Ideal.ofBits .f32 0x3DCCCCCD#32 :=
  (val_main_v312_apply k).trans ((val_main_cst_113_apply _).trans (Ideal.ofBits_def _))

/-! ## From the sum and the count to the result before the mean -/

/-- The result before the division by the mean, at any index. The stages are read one after the other; the sum, the
    count and the entropy factor at the index stay three unknowns `A`, `C`, `E`: nothing below looks inside them. -/
theorem point_at (x0 x1 : (⟨S32x1x768x768, .f32⟩ : BufTy).Contents (Elt Ideal)) (k : S32x1x768x768.Idx) :
    val_main_v313 (F := Ideal) x0 x1 k =
      Ideal.ofBits .f32 0x3F666666#32 *
        max ((Ideal.ofBits .f32 0x3F800000#32 - Ideal.div (val_main_v282 (F := Ideal) x0 k) (val_main_v287 (F := Ideal) k)) *
          val_main_v307 (F := Ideal) x0 k) (x1 k) +
      Ideal.ofBits .f32 0x3DCCCCCD#32 := by
  rw [val_main_v313_apply, val_main_v311_apply, val_main_v309_apply, val_main_v308_apply, val_main_v290_apply,
    val_main_v288_apply]
  generalize val_main_v282 (F := Ideal) x0 k = A
  generalize val_main_v287 (F := Ideal) k = C
  generalize val_main_v307 (F := Ideal) x0 k = E
  rw [v289_at, v310_at, v312_at]
  all_goals rfl

/-- The same at pixel `(i, j)` of image `n`. -/
theorem point_apply (x0 x1 : (⟨S32x1x768x768, .f32⟩ : BufTy).Contents (Elt Ideal)) (n : Fin 32) (i j : Fin 768) :
    val_main_v313 (F := Ideal) x0 x1 (ix4 n (0 : Fin 1) i j) =
      Ideal.ofBits .f32 0x3F666666#32 *
        max ((Ideal.ofBits .f32 0x3F800000#32 -
            Ideal.div (val_main_v282 (F := Ideal) x0 (ix4 n (0 : Fin 1) i j)) (val_main_v287 (F := Ideal) (ix4 n (0 : Fin 1) i j))) *
          val_main_v307 (F := Ideal) x0 (ix4 n (0 : Fin 1) i j)) (x1 (ix4 n (0 : Fin 1) i j)) +
      Ideal.ofBits .f32 0x3DCCCCCD#32 :=
  point_at x0 x1 (ix4 n (0 : Fin 1) i j)

/-! ## The sigmoid image -/

/-- The numerator and the summand `1` of the first copy … -/
theorem v2_at (k : S32x1x768x768.Idx) : val_main_v2 (F := Ideal) k = 1 :=
  (val_main_v2_apply k).trans ((val_main_cst_apply _).trans ((Ideal.ofBits_def _).trans Ideal.ofBits_one_f32))
theorem v4_at (k : S32x1x768x768.Idx) : val_main_v4 (F := Ideal) k = 1 :=
  (val_main_v4_apply k).trans ((val_main_cst_0_apply _).trans ((Ideal.ofBits_def _).trans Ideal.ofBits_one_f32))
/-- … and of the second. -/
theorem v293_at (k : S32x1x768x768.Idx) : val_main_v293 (F := Ideal) k = 1 :=
  (val_main_v293_apply k).trans ((val_main_cst_107_apply _).trans ((Ideal.ofBits_def _).trans Ideal.ofBits_one_f32))
theorem v295_at (k : S32x1x768x768.Idx) : val_main_v295 (F := Ideal) k = 1 :=
  (val_main_v295_apply k).trans ((val_main_cst_108_apply _).trans ((Ideal.ofBits_def _).trans Ideal.ofBits_one_f32))

/-- The sigmoid image is the logistic function of the first argument, pixel by pixel: `1 / (1 + exp (-x))`. -/
theorem sigmoid_apply (x0 : (⟨S32x1x768x768, .f32⟩ : BufTy).Contents (Elt Ideal)) (k : S32x1x768x768.Idx) :
    val_main_v5 (F := Ideal) x0 k = Cert.Pt.sg (x0 k) :=
  congrArg₂ (fun a b : EReal => Ideal.div a (b + Ideal.exp (-(x0 k : EReal)))) (v4_at k) (v2_at k)

/-- The second copy of the sigmoid image is the same function. -/
theorem sigmoid2_apply (x0 : (⟨S32x1x768x768, .f32⟩ : BufTy).Contents (Elt Ideal)) (k : S32x1x768x768.Idx) :
    val_main_v296 (F := Ideal) x0 k = Cert.Pt.sg (x0 k) :=
  congrArg₂ (fun a b : EReal => Ideal.div a (b + Ideal.exp (-(x0 k : EReal)))) (v295_at k) (v293_at k)

/-! ## The softplus

  The reference's softplus of `y` is `max y 0 + log1p (exp (-|y - 0|))`, guarded by the test `y - 0 ≠ y - 0` (which picks
  `y + 0` for a not-a-number). On the extended reals nothing differs from itself, so the guard is never taken; and
  `y - 0 = y`. -/

/-- The three broadcasts of the constant `0`. -/
theorem c0_v0_at (k : S32x1x768x768.Idx) : val_main_call0_v0 (F := Ideal) k = 0 :=
  (val_main_call0_v0_apply k).trans ((val_main_call0_cst_apply _).trans ((Ideal.ofBits_def _).trans Ideal.ofBits_zero_f32))
theorem c0_v2_at (k : S32x1x768x768.Idx) : val_main_call0_v2 (F := Ideal) k = 0 :=
  (val_main_call0_v2_apply k).trans ((val_main_call0_cst_apply _).trans ((Ideal.ofBits_def _).trans Ideal.ofBits_zero_f32))

/-- No extended real differs from itself. -/
theorem une_self (x : EReal) : Ideal.cmp .une x x = 0#1 := by simp [Ideal.cmp]

/-- The guard is false at every pixel. -/
theorem guard_at (x0 : (⟨S32x1x768x768, .f32⟩ : BufTy).Contents (Elt Ideal)) (k : S32x1x768x768.Idx) : val_main_call0_v4 (F := Ideal) x0 k = 0#1 :=
  une_self (val_main_call0_v3 (F := Ideal) x0 k)

/-- The unguarded branch is the softplus of the argument. -/
theorem sp_at (x0 : (⟨S32x1x768x768, .f32⟩ : BufTy).Contents (Elt Ideal)) (k : S32x1x768x768.Idx) : val_main_call0_v11 (F := Ideal) x0 k = Cert.Pt.sp (x0 k) := by
  refine Eq.trans (congrArg₂ (fun z0 z2 : EReal =>
      max (x0 k : EReal) z0 + Ideal.log1p (Ideal.exp (-(max ((x0 k : EReal) - z2) (-((x0 k : EReal) - z2))))))
    (c0_v0_at k) (c0_v2_at k)) ?_
  show max (x0 k : EReal) 0 + Ideal.log1p (Ideal.exp (-(max ((x0 k : EReal) - 0) (-((x0 k : EReal) - 0))))) =
    max (x0 k : EReal) 0 + Ideal.log1p (Ideal.exp (-(max (x0 k : EReal) (-(x0 k : EReal)))))
  rw [sub_zero]

/-- The reference's softplus stage. -/
theorem softplus_apply (x0 : (⟨S32x1x768x768, .f32⟩ : BufTy).Contents (Elt Ideal)) (k : S32x1x768x768.Idx) : val_main_v297 (F := Ideal) x0 k = Cert.Pt.sp (x0 k) :=
  (congrArg (fun c : BitVec 1 => Scalar.select c (val_main_call0_v6 (F := Ideal) x0 k) (val_main_call0_v11 (F := Ideal) x0 k))
    (guard_at x0 k)).trans ((select_zero _ _).trans (sp_at x0 k))

/-! ## The entropy factor -/

/-- The two broadcasts of `1` and the one of the scale. -/
theorem v300_at (k : S32x1x768x768.Idx) : val_main_v300 (F := Ideal) k = Cert.Pt.one :=
  (val_main_v300_apply k).trans ((val_main_cst_109_apply _).trans (Ideal.ofBits_def _))
theorem v306_at (k : S32x1x768x768.Idx) : val_main_v306 (F := Ideal) k = Cert.Pt.one :=
  (val_main_v306_apply k).trans ((val_main_cst_111_apply _).trans (Ideal.ofBits_def _))
theorem v304_at (k : S32x1x768x768.Idx) : val_main_v304 (F := Ideal) k = Cert.Pt.c :=
  (val_main_v304_apply k).trans ((val_main_cst_110_apply _).trans (Ideal.ofBits_def _))

/-- The entropy expression depends on its five ingredients only through their values. -/
theorem ent_congr (y : EReal) {s s' p p' o o' o2 o2' c c' : EReal} (hs : s = s') (hp : p = p') (ho : o = o')
    (ho2 : o2 = o2') (hc : c = c') :
    o2 + (s * (y - p) - (o - s) * p) * c = o2' + (s' * (y - p') - (o' - s') * p') * c' := by
  subst hs hp ho ho2 hc; rfl

/-- The reference's entropy factor is `ent` of the first argument, pixel by pixel. -/
theorem entropy_apply (x0 : (⟨S32x1x768x768, .f32⟩ : BufTy).Contents (Elt Ideal)) (k : S32x1x768x768.Idx) :
    val_main_v307 (F := Ideal) x0 k = Cert.Pt.ent (x0 k) :=
  ent_congr (x0 k) (sigmoid2_apply x0 k) (softplus_apply x0 k) (v300_at k) (v306_at k) (v304_at k)

end Cert.ReferenceIdeal.RPoint

end
-- ==== Proof.Sums.lean ====
/-
  Sums over the indices of a rank-4 array.

  A rank-4 index set is the product of its four coordinate ranges, so a sum over it is the fourfold sum over the
  coordinates; and the part of such a sum that belongs to ONE member `n` of the leading axis, the second axis of extent
  one, is the double sum over that member's rows and columns. Sums are in any commutative monoid: for the extended
  reals no finiteness is involved.
-/
import Idealize.ShloMosaic.PureOps.Ideal
import Idealize.ShloMosaic.Lib.ValueIdx

namespace Cert.Sums

open Idealize.ShloMosaic Idealize.ShloMosaic.ValueIdx

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- So a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- The part of a sum over a `B × 1 × H × W` index set selected by "the leading coordinate is `n`" is the double sum
    over member `n`'s rows and columns. The selecting predicate is given by what it says of an index in coordinates. -/
theorem sum_filter_member {M : Type*} [AddCommMonoid M] {B H W : Nat} (x : (⟨4, ![B, 1, H, W]⟩ : Shape).Idx → M)
    (n : Fin B) (p : (⟨4, ![B, 1, H, W]⟩ : Shape).Idx → Prop) [DecidablePred p]
    (hp : ∀ (a : Fin B) (z : Fin 1) (r : Fin H) (c : Fin W), p (ix4 a z r c) ↔ a = n) :
    ∑ i ∈ Finset.univ.filter p, x i = ∑ r : Fin H, ∑ c : Fin W, x (ix4 n (0 : Fin 1) r c) := by
  rw [Finset.sum_filter, sum_idx4]
  rw [Finset.sum_eq_single n]
  · rw [Fin.sum_univ_one]
    refine Finset.sum_congr rfl fun r _ => Finset.sum_congr rfl fun c _ => ?_
    rw [if_pos ((hp n 0 r c).mpr rfl)]
  · intro a _ ha
    refine Finset.sum_eq_zero fun z _ => Finset.sum_eq_zero fun r _ => Finset.sum_eq_zero fun c _ => ?_
    rw [if_neg (fun h => ha ((hp a z r c).mp h))]
  · intro h
    exact absurd (Finset.mem_univ n) h

end Cert.Sums
-- ==== Proof.RValue.lean ====
/-
  The reference's result is the specified function of the two arguments.

  Pixel by pixel the reference's weight (before normalisation) is the specification's weight: the neighbour sum and
  count are the stencil's (column offset outermost), the image is the logistic of the logits, the entropy factor is
  `ent` of the logit. Its per-member sum over rows and columns is the sum of the weights: the reduction over the two
  image axes adds, from the initial value `0`, the elements whose leading coordinate is the member's. Dividing by the
  word of `589824` gives the member's mean, broadcast back over the image; and the last stage divides the weight by it.
-/
import proofs.«119324_j40802189312445_2_alg».proof.Proof.RefRead
import proofs.«119324_j40802189312445_2_alg».proof.Proof.RStencil
import proofs.«119324_j40802189312445_2_alg».proof.Proof.RPoint
import proofs.«119324_j40802189312445_2_alg».proof.Proof.Spec
import proofs.«119324_j40802189312445_2_alg».proof.Proof.Sums
import Idealize.ShloMosaic.Lib.IdealHost

noncomputable section

namespace Cert.ReferenceIdeal.RValue

open Idealize.ShloMosaic Idealize.ShloMosaic.ValueIdx Cert.ReferenceIdeal Cert.ReferenceIdeal.Gen Cert.ReferenceIdeal.ReadP

/-! ## The weight at a pixel -/

/-- The sigmoid image of member `n`, in row and column coordinates, is the specification's image. -/
theorem image_apply (x0 : (⟨S32x1x768x768, .f32⟩ : BufTy).Contents (Elt Ideal)) (n : Fin 32) (a b : Fin 768) :
    val_main_v5 (F := Ideal) x0 (ix4 n (0 : Fin 1) a b) = Cert.Spec.P x0 n a.val b.val :=
  (Cert.ReferenceIdeal.RPoint.sigmoid_apply x0 _).trans
    (Cert.Img.img4_eq (fun k => Cert.Pt.sg (x0 k)) n (0 : Fin 1) a b a.val b.val rfl rfl)

/-- The reference's weight before normalisation is the specification's. -/
theorem w_apply (x0 x1 : (⟨S32x1x768x768, .f32⟩ : BufTy).Contents (Elt Ideal)) (n : Fin 32) (i j : Fin 768) :
    val_main_v313 (F := Ideal) x0 x1 (ix4 n (0 : Fin 1) i j) = Cert.Spec.w x0 x1 n i j := by
  rw [Cert.ReferenceIdeal.RPoint.point_apply x0 x1 n i j,
    Cert.ReferenceIdeal.RStencil.acc_apply x0 n (Cert.Spec.P x0 n) (image_apply x0 n) i j,
    Cert.ReferenceIdeal.RStencil.div_apply n i j,
    Cert.ReferenceIdeal.RPoint.entropy_apply x0 (ix4 n (0 : Fin 1) i j)]
  rfl

/-! ## The member's sum -/

/-- An index of the image array reduces (over the two image axes) to member `n`'s index exactly when its leading
    coordinate is `n`: the reduction keeps the two leading coordinates, and the second can only be `0`. -/
theorem drop_iff (h : S32x1x768x768.ReducesTo [2, 3] S32x1) (n a : Fin 32) (z : Fin 1) (r c : Fin 768) :
    h.drop (ix4 a z r c) = ix2 n (0 : Fin 1) ↔ a = n := by
  have h0 : ((h.drop (ix4 a z r c)) 0 : Nat) = a.val := h.drop_apply_val_of_eq (ix4 a z r c) 0 0
  have h1 : ((h.drop (ix4 a z r c)) 1 : Nat) = z.val := h.drop_apply_val_of_eq (ix4 a z r c) 1 1
  constructor
  · intro e
    have e0 : ((h.drop (ix4 a z r c)) 0 : Nat) = n.val := congrArg Fin.val (congrFun e 0)
    exact Fin.ext (h0.symm.trans e0)
  · intro e
    subst e
    funext b
    match b with
    | ⟨0, _⟩ => exact Fin.ext h0
    | ⟨1, _⟩ => exact Fin.ext (h1.trans (by have hz : z.val < 1 := z.isLt; show z.val = 0; omega))

/-- The sum over the two image axes, read at member `n`: the initial value plus the double sum over the member's rows
    and columns. -/
theorem reduce_member (x : S32x1x768x768.Idx → EReal) (init : EReal) (n : Fin 32)
    (h : S32x1x768x768.ReducesTo [2, 3] S32x1) :
    Ideal.hostReduceAdd h x init (ix2 n (0 : Fin 1)) =
      init + ∑ r : Fin 768, ∑ c : Fin 768, x (ix4 n (0 : Fin 1) r c) := by
  unfold Ideal.hostReduceAdd
  exact congrArg (fun t : EReal => init + t)
    (Cert.Sums.sum_filter_member x n _ (fun a z r c => drop_iff h n a z r c))

/-- The reference's per-member sum is the sum of the specification's weights. -/
theorem v314_at (x0 x1 : (⟨S32x1x768x768, .f32⟩ : BufTy).Contents (Elt Ideal)) (n : Fin 32) :
    val_main_v314 (F := Ideal) x0 x1 (ix2 n (0 : Fin 1)) = ∑ r : Fin 768, ∑ c : Fin 768, Cert.Spec.w x0 x1 n r c := by
  unfold val_main_v314
  refine (hostReduceAdd_apply (val_main_v313 (F := Ideal) x0 x1) (val_main_cst_114 (F := Ideal))
    reducesTo_S32x1x768x768_S32x1_d2_3 h_S_ (ix2 n (0 : Fin 1))).trans ?_
  refine (reduce_member _ _ n _).trans ?_
  rw [show val_main_cst_114 (F := Ideal) (Shape.Idx.first h_S_) = 0 from
    (val_main_cst_114_apply _).trans ((Ideal.ofBits_def _).trans Ideal.ofBits_zero_f32), zero_add]
  exact Finset.sum_congr rfl fun r _ => Finset.sum_congr rfl fun c _ => w_apply x0 x1 n r c

/-! ## The member's mean, broadcast back -/

/-- The divisor, the word of `589824`, at every index. -/
theorem v316_at (k : S32x1x1x1.Idx) : val_main_v316 (F := Ideal) k = Cert.Spec.cN :=
  (val_main_v316_apply k).trans ((val_main_cst_115_apply _).trans (Ideal.ofBits_def _))

/-- The broadcast mean at any pixel of member `n` is the specification's mean of member `n`. -/
theorem mean_apply (x0 x1 : (⟨S32x1x768x768, .f32⟩ : BufTy).Contents (Elt Ideal)) (n : Fin 32) (i j : Fin 768) :
    val_main_v318 (F := Ideal) x0 x1 (ix4 n (0 : Fin 1) i j) = Cert.Spec.mean x0 x1 n := by
  have hk : idx_main_v315 (idx_main_v318 (ix4 n (0 : Fin 1) i j)) = ix2 n (0 : Fin 1) := by
    funext b
    match b with
    | ⟨0, _⟩ => rfl
    | ⟨1, _⟩ => rfl
  rw [val_main_v318_apply, val_main_v317_apply, val_main_v315_apply, hk, v314_at x0 x1 n, v316_at]
  unfold Cert.Spec.mean
  exact Ideal.hostDivf_def _ _

/-! ## The result -/

/-- The reference computes the specified function. -/
theorem ref_eq (x0 x1 : (⟨S32x1x768x768, .f32⟩ : BufTy).Contents (Elt Ideal)) : val_main_v319 (F := Ideal) x0 x1 = Cert.Spec.out x0 x1 := by
  refine Cert.Spec.ext4 _ _ (fun n z i j => ?_)
  obtain rfl : z = 0 := Subsingleton.elim _ _
  rw [val_main_v319_apply, Cert.Spec.out_apply, w_apply, mean_apply]
  exact Ideal.hostDivf_def _ _

end Cert.ReferenceIdeal.RValue

end
-- ==== Proof.lean ====
/-
  The certificate: the Pallas kernel of the per-image weight map and its jnp reference are one function of their inputs.

  Both programs compute, for each of the 32 images, the logistic `p` of the logits; a consistency `1 - acc / cnt`, `acc` the sum
  over the 24 neighbours within distance two of the squared difference of `p` at the pixel and at the neighbour, `cnt` the
  number of those neighbours inside the image; an entropy factor of the logit; the weight `c₀ · max (consistency · entropy,
  ground truth) + c₁`; and the weight divided by its mean over the image (`Cert.Spec.out`).
  The kernel takes one image per grid point, builds `cnt` on the host by 24 scatters of ones, pads each neighbour's squared
  differences back to the image with zero rows and columns and adds them with the row offset outermost, and sums the
  weight row by row and then down the column of row sums. The reference works on the whole batch, adds each neighbour's
  squared differences (and ones) into an accumulator by a scatter with the column offset outermost, and sums over both
  image axes at once. On the extended reals these are the same: a scatter of a window at one corner adds the window inside
  its rectangle and nothing outside (each element is met at most once), which is what padding with zeros and adding does;
  the two orders of the 24 terms, and of the pixels of a sum, differ by commutativity and associativity of addition, which
  hold for every extended real; the logistic primitive is its expansion `1 / (1 + e^(-y))`; the not-a-number guards of the
  softplus are false at every extended real on both sides. No step uses that an input is finite, so the precondition is
  never opened. The ideal pass rewrote nothing, so the kernel's idealization is its own text (`preserves` is `True`).
  The frames of the kernel and of its idealization are the generated ones; the reference's is its run with the result
  dropped.
-/
import proofs.«119324_j40802189312445_2_alg».proof.Defs
import proofs.«119324_j40802189312445_2_alg».proof.Proof.Gen.Kernel
import proofs.«119324_j40802189312445_2_alg».proof.Proof.Gen.Kernel.Skeleton
import proofs.«119324_j40802189312445_2_alg».proof.Proof.Gen.Kernel.Launch
import proofs.«119324_j40802189312445_2_alg».proof.Proof.Gen.Kernel.Points
import proofs.«119324_j40802189312445_2_alg».proof.Proof.Gen.Kernel.Frame
import proofs.«119324_j40802189312445_2_alg».proof.Proof.Gen.KernelIdeal
import proofs.«119324_j40802189312445_2_alg».proof.Proof.Gen.KernelIdeal.Skeleton
import proofs.«119324_j40802189312445_2_alg».proof.Proof.Gen.KernelIdeal.Launch
import proofs.«119324_j40802189312445_2_alg».proof.Proof.Gen.KernelIdeal.Points
import proofs.«119324_j40802189312445_2_alg».proof.Proof.Gen.KernelIdeal.Frame
import proofs.«119324_j40802189312445_2_alg».proof.Proof.Gen.ReferenceIdeal
import proofs.«119324_j40802189312445_2_alg».proof.Proof.Gen.Pre_finite_inputs
import proofs.«119324_j40802189312445_2_alg».proof.Proof.KValue
import proofs.«119324_j40802189312445_2_alg».proof.Proof.RRun
import proofs.«119324_j40802189312445_2_alg».proof.Proof.RValue
import Idealize.ShloMosaic.Adequacy
import Idealize.ShloMosaic.Init

noncomputable section

namespace Cert.Proof

open Idealize.ShloMosaic Idealize.SL.Sem

/-- The kernel's frame, generated. -/
theorem frame_k : Cert.frame_Kernel := fun m ρ _ => Cert.Kernel.Gen.frame m ρ
/-- The idealized kernel's frame, generated. -/
theorem frame_ki : Cert.frame_KernelIdeal := fun m ρ _ => Cert.KernelIdeal.Gen.frame m ρ
/-- The reference's frame: its run with the result dropped. -/
theorem frame_ri : Cert.frame_ReferenceIdeal := fun m ρ _ =>
  (θ_run Cert.ReferenceIdeal.defs _ _).mono (fun _ h c => (h c).2) (Cert.ReferenceIdeal.RRun.run (F := Ideal) m ρ)

set_option maxHeartbeats 2000000 in
/-- The two idealized programs, from memories agreeing on the arguments, end with the specification's array of the
    arguments: the kernel's run states it, and the reference's last stage is it. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨?_, (h c).2⟩)
    (Cert.ReferenceIdeal.RRun.run (F := Ideal) m' ρ')
  have e := (h c).1
  rw [Cert.ReferenceIdeal.RValue.ref_eq] at e
  exact e.trans (congrArg₂ Cert.Spec.out (hagree c).1 (hagree c).2)

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
